-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  IdealRules.named_const.Statement Cert.KernelIdeal.κ "inv_sqrt_in_f" .f32 0x3DB504F3#32 ((1048576 / 11863283 : ℝ) : EReal)
  ∧ IdealRules.named_const.Statement Cert.KernelIdeal.κ "inv_sqrt_in_f" .f32 0x3DB504F3#32 ((1048576 / 11863283 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v157)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v157) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v220) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1000000 : Shape := ⟨2, ![2, 1000000]⟩
abbrev S128x128 : Shape := ⟨2, ![128, 128]⟩
abbrev S128 : Shape := ⟨1, ![128]⟩
abbrev S64x128 : Shape := ⟨2, ![64, 128]⟩
abbrev S64 : Shape := ⟨1, ![64]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S64x128 : S_.BroadcastsInDim S64x128 (![] : Fin 0 → Fin S64x128.rank)
  reducesTo_S64x128_S_d0_1 : S64x128.ReducesTo [0, 1] S_
  bcast_S_S64 : S_.BroadcastsInDim S64 (![] : Fin 0 → Fin S64.rank)
  reducesTo_S64_S_d0 : S64.ReducesTo [0] S_

variable [Facts]

def fn_part2 {F : FTy → Type} [FloatOps F] (main_arg8 : FVec F S64x128 .f32) (main_arg9 : FVec F S64 .f32) (main_v33 : IVec S_ 1) : IVec S_ 1 :=
  let main_v34 : FVec F S64x128 .f32 := Host.absf main_arg8
  let main_cst_12 : FVec F S_ .f32 := constant S_ .f32 0x7F800000#32
  let main_v35 : FVec F S64x128 .f32 := broadcastInDim S64x128 ![] bcast_S_S64x128 main_cst_12
  let main_v36 : IVec S64x128 1 := cmpf .olt main_v34 main_v35
  let main_c_13 : IVec S_ 1 := constantI S_ 1 1#1
  let main_v37 : IVec S_ 1 := (fun x v => Host.reduce IntOp.andi x v reducesTo_S64x128_S_d0_1 h_S_) main_v36 main_c_13
  let main_v38 : IVec S_ 1 := andi main_v33 main_v37
  let main_v39 : FVec F S64 .f32 := Host.absf main_arg9
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  main_v43

def fn_part1 {F : FTy → Type} [FloatOps F] (main_arg5 : FVec F S128 .f32) (main_arg6 : FVec F S128x128 .f32) (main_arg7 : FVec F S128 .f32) (main_arg8 : FVec F S64x128 .f32) (main_arg9 : FVec F S64 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg6
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg8 main_arg9 main_v33

def fn {F : FTy → Type} [FloatOps F] (main_arg0 : FVec F S100000x128 .f32) (main_arg1 : IVec S2x1000000 32) (main_arg2 : FVec F S128x128 .f32) (main_arg3 : FVec F S128 .f32) (main_arg4 : FVec F S128x128 .f32) (main_arg5 : FVec F S128 .f32) (main_arg6 : FVec F S128x128 .f32) (main_arg7 : FVec F S128 .f32) (main_arg8 : FVec F S64x128 .f32) (main_arg9 : FVec F S64 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_arg7 main_arg8 main_arg9 main_v13 main_v16
-- ==== Kernel.lean ====
abbrev S100000x128 : Shape := ⟨2, ![100000, 128]⟩
abbrev S2x1000000 : Shape := ⟨2, ![2, 1000000]⟩
abbrev S128x128 : Shape := ⟨2, ![128, 128]⟩
abbrev S128 : Shape := ⟨1, ![128]⟩
abbrev S64x128 : Shape := ⟨2, ![64, 128]⟩
abbrev S64 : Shape := ⟨1, ![64]⟩
abbrev S1x128 : Shape := ⟨2, ![1, 128]⟩
abbrev S127 : Shape := ⟨1, ![127]⟩
abbrev S_ : Shape := ⟨0, ![]⟩
abbrev S1 : Shape := ⟨1, ![1]⟩
abbrev S10000x128 : Shape := ⟨2, ![10000, 128]⟩
abbrev S10000x127 : Shape := ⟨2, ![10000, 127]⟩
abbrev S10000x1 : Shape := ⟨2, ![10000, 1]⟩
abbrev S10000 : Shape := ⟨1, ![10000]⟩
abbrev S1x1000000 : Shape := ⟨2, ![1, 1000000]⟩
abbrev S1000000 : Shape := ⟨1, ![1000000]⟩
abbrev S1000000x1 : Shape := ⟨2, ![1000000, 1]⟩
abbrev S1000000x128 : Shape := ⟨2, ![1000000, 128]⟩
abbrev S100000x256 : Shape := ⟨2, ![100000, 256]⟩
abbrev S1000000x256 : Shape := ⟨2, ![1000000, 256]⟩
abbrev S1000000x2 : Shape := ⟨2, ![1000000, 2]⟩
abbrev S20000x128 : Shape := ⟨2, ![20000, 128]⟩
abbrev S20000x2 : Shape := ⟨2, ![20000, 2]⟩
abbrev S20000x64 : Shape := ⟨2, ![20000, 64]⟩
abbrev S20000x63 : Shape := ⟨2, ![20000, 63]⟩
abbrev S20000x1 : Shape := ⟨2, ![20000, 1]⟩
abbrev S20000 : Shape := ⟨1, ![20000]⟩
abbrev S2 : Shape := ⟨1, ![2]⟩
abbrev S1x2 : Shape := ⟨2, ![1, 2]⟩
abbrev S4x128 : Shape := ⟨2, ![4, 128]⟩
abbrev S128x64 : Shape := ⟨2, ![128, 64]⟩
abbrev S4x64 : Shape := ⟨2, ![4, 64]⟩
abbrev S1x64 : Shape := ⟨2, ![1, 64]⟩
abbrev S63 : Shape := ⟨1, ![63]⟩
abbrev S1x1 : Shape := ⟨2, ![1, 1]⟩
abbrev S100000x64 : Shape := ⟨2, ![100000, 64]⟩
abbrev S10000x64 : Shape := ⟨2, ![10000, 64]⟩

abbrev nBuf : Space → Nat
  | .hbm => 195
  | .vmem => 35
  | .smem => 0
  | _ => 0

abbrev hbmTy0_0 (i : Nat) : BufTy := match i % 128 with
  | 0 => ⟨S100000x128, .f32⟩
  | 1 => ⟨S2x1000000, .i32⟩
  | 2 => ⟨S128x128, .f32⟩
  | 3 => ⟨S128, .f32⟩
  | 4 => ⟨S128x128, .f32⟩
  | 5 => ⟨S128, .f32⟩
  | 6 => ⟨S128x128, .f32⟩
  | 7 => ⟨S128, .f32⟩
  | 8 => ⟨S64x128, .f32⟩
  | 9 => ⟨S64, .f32⟩
  | 10 => ⟨S1x128, .f32⟩
  | 11 => ⟨S128, .f32⟩
  | 12 => ⟨S1x128, .f32⟩
  | 13 => ⟨S128, .f32⟩
  | 14 => ⟨S1x128, .f32⟩
  | 15 => ⟨S128, .f32⟩
  | 16 => ⟨S1x128, .f32⟩
  | 17 => ⟨S128, .f32⟩
  | 18 => ⟨S127, .f32⟩
  | 19 => ⟨S127, .f32⟩
  | 20 => ⟨S127, .f32⟩
  | 21 => ⟨S_, .f32⟩
  | 22 => ⟨S_, .f32⟩
  | 23 => ⟨S1, .f32⟩
  | 24 => ⟨S_, .f32⟩
  | 25 => ⟨S1, .f32⟩
  | 26 => ⟨S_, .f32⟩
  | 27 => ⟨S_, .f32⟩
  | 28 => ⟨S_, .f32⟩
  | 29 => ⟨S127, .f32⟩
  | 30 => ⟨S127, .f32⟩
  | 31 => ⟨S127, .f32⟩
  | 32 => ⟨S_, .f32⟩
  | 33 => ⟨S_, .f32⟩
  | 34 => ⟨S1, .f32⟩
  | 35 => ⟨S_, .f32⟩
  | 36 => ⟨S1, .f32⟩
  | 37 => ⟨S_, .f32⟩
  | 38 => ⟨S_, .f32⟩
  | 39 => ⟨S_, .f32⟩
  | 40 => ⟨S_, .f32⟩
  | 41 => ⟨S127, .f32⟩
  | 42 => ⟨S127, .f32⟩
  | 43 => ⟨S127, .f32⟩
  | 44 => ⟨S_, .f32⟩
  | 45 => ⟨S_, .f32⟩
  | 46 => ⟨S1, .f32⟩
  | 47 => ⟨S_, .f32⟩
  | 48 => ⟨S1, .f32⟩
  | 49 => ⟨S_, .f32⟩
  | 50 => ⟨S_, .f32⟩
  | 51 => ⟨S_, .f32⟩
  | 52 => ⟨S127, .f32⟩
  | 53 => ⟨S127, .f32⟩
  | 54 => ⟨S127, .f32⟩
  | 55 => ⟨S_, .f32⟩
  | 56 => ⟨S_, .f32⟩
  | 57 => ⟨S1, .f32⟩
  | 58 => ⟨S_, .f32⟩
  | 59 => ⟨S1, .f32⟩
  | 60 => ⟨S_, .f32⟩
  | 61 => ⟨S_, .f32⟩
  | 62 => ⟨S_, .f32⟩
  | 63 => ⟨S_, .f32⟩
  | 64 => ⟨S_, .f32⟩
  | 65 => ⟨S_, .f32⟩
  | 66 => ⟨S_, .i1⟩
  | 67 => ⟨S_, .f32⟩
  | 68 => ⟨S_, .f32⟩
  | 69 => ⟨S_, .f32⟩
  | 70 => ⟨S_, .f32⟩
  | 71 => ⟨S128x128, .f32⟩
  | 72 => ⟨S128x128, .f32⟩
  | 73 => ⟨S128x128, .f32⟩
  | 74 => ⟨S100000x128, .f32⟩
  | 75 => ⟨S100000x128, .f32⟩
  | 76 => ⟨S100000x128, .f32⟩
  | 77 => ⟨S1x1000000, .i32⟩
  | 78 => ⟨S1000000, .i32⟩
  | 79 => ⟨S1x1000000, .i32⟩
  | 80 => ⟨S1000000, .i32⟩
  | 81 => ⟨S_, .i32⟩
  | 82 => ⟨S1000000, .i32⟩
  | 83 => ⟨S1000000, .i1⟩
  | 84 => ⟨S_, .i32⟩
  | 85 => ⟨S1000000, .i32⟩
  | 86 => ⟨S1000000, .i32⟩
  | 87 => ⟨S1000000, .i32⟩
  | 88 => ⟨S1000000x1, .i32⟩
  | 89 => ⟨S1000000x128, .f32⟩
  | 90 => ⟨S100000x256, .f32⟩
  | 91 => ⟨S_, .i32⟩
  | 92 => ⟨S1000000, .i32⟩
  | 93 => ⟨S1000000, .i1⟩
  | 94 => ⟨S_, .i32⟩
  | 95 => ⟨S1000000, .i32⟩
  | 96 => ⟨S1000000, .i32⟩
  | 97 => ⟨S1000000, .i32⟩
  | 98 => ⟨S1000000x1, .i32⟩
  | 99 => ⟨S1000000x256, .f32⟩
  | 100 => ⟨S1000000x2, .f32⟩
  | 101 => ⟨S_, .f32⟩
  | 102 => ⟨S2, .f32⟩
  | 103 => ⟨S1x2, .f32⟩
  | 104 => ⟨S1000000x2, .f32⟩
  | 105 => ⟨S1000000x2, .f32⟩
  | 106 => ⟨S1000000x2, .f32⟩
  | 107 => ⟨S_, .f32⟩
  | 108 => ⟨S2, .f32⟩
  | 109 => ⟨S1x2, .f32⟩
  | 110 => ⟨S1000000x128, .f32⟩
  | 111 => ⟨S_, .f32⟩
  | 112 => ⟨S100000x128, .f32⟩
  | 113 => ⟨S1000000x1, .i32⟩
  | 114 => ⟨S100000x128, .f32⟩
  | 115 => ⟨S4x128, .f32⟩
  | 116 => ⟨S128x64, .f32⟩
  | 117 => ⟨S4x64, .f32⟩
  | 118 => ⟨S1x64, .f32⟩
  | 119 => ⟨S4x64, .f32⟩
  | 120 => ⟨S4x64, .f32⟩
  | 121 => ⟨S1x64, .f32⟩
  | 122 => ⟨S64, .f32⟩
  | 123 => ⟨S1x64, .f32⟩
  | 124 => ⟨S64, .f32⟩
  | 125 => ⟨S1x64, .f32⟩
  | 126 => ⟨S64, .f32⟩
  | 127 => ⟨S1x64, .f32⟩
  | _ => ⟨S100000x128, .f32⟩

abbrev hbmTy0_1 (i : Nat) : BufTy := match i % 128 with
  | 0 => ⟨S64, .f32⟩
  | 1 => ⟨S63, .f32⟩
  | 2 => ⟨S63, .f32⟩
  | 3 => ⟨S63, .f32⟩
  | 4 => ⟨S_, .f32⟩
  | 5 => ⟨S_, .f32⟩
  | 6 => ⟨S1, .f32⟩
  | 7 => ⟨S_, .f32⟩
  | 8 => ⟨S1, .f32⟩
  | 9 => ⟨S_, .f32⟩
  | 10 => ⟨S_, .f32⟩
  | 11 => ⟨S_, .f32⟩
  | 12 => ⟨S63, .f32⟩
  | 13 => ⟨S63, .f32⟩
  | 14 => ⟨S63, .f32⟩
  | 15 => ⟨S_, .f32⟩
  | 16 => ⟨S_, .f32⟩
  | 17 => ⟨S1, .f32⟩
  | 18 => ⟨S_, .f32⟩
  | 19 => ⟨S1, .f32⟩
  | 20 => ⟨S_, .f32⟩
  | 21 => ⟨S_, .f32⟩
  | 22 => ⟨S_, .f32⟩
  | 23 => ⟨S_, .f32⟩
  | 24 => ⟨S63, .f32⟩
  | 25 => ⟨S63, .f32⟩
  | 26 => ⟨S63, .f32⟩
  | 27 => ⟨S_, .f32⟩
  | 28 => ⟨S_, .f32⟩
  | 29 => ⟨S1, .f32⟩
  | 30 => ⟨S_, .f32⟩
  | 31 => ⟨S1, .f32⟩
  | 32 => ⟨S_, .f32⟩
  | 33 => ⟨S_, .f32⟩
  | 34 => ⟨S_, .f32⟩
  | 35 => ⟨S63, .f32⟩
  | 36 => ⟨S63, .f32⟩
  | 37 => ⟨S63, .f32⟩
  | 38 => ⟨S_, .f32⟩
  | 39 => ⟨S_, .f32⟩
  | 40 => ⟨S1, .f32⟩
  | 41 => ⟨S_, .f32⟩
  | 42 => ⟨S1, .f32⟩
  | 43 => ⟨S_, .f32⟩
  | 44 => ⟨S_, .f32⟩
  | 45 => ⟨S_, .f32⟩
  | 46 => ⟨S_, .f32⟩
  | 47 => ⟨S_, .f32⟩
  | 48 => ⟨S_, .f32⟩
  | 49 => ⟨S_, .i1⟩
  | 50 => ⟨S_, .f32⟩
  | 51 => ⟨S_, .f32⟩
  | 52 => ⟨S_, .f32⟩
  | 53 => ⟨S_, .f32⟩
  | 54 => ⟨S_, .f32⟩
  | 55 => ⟨S_, .f32⟩
  | 56 => ⟨S_, .i1⟩
  | 57 => ⟨S_, .f32⟩
  | 58 => ⟨S_, .f32⟩
  | 59 => ⟨S_, .f32⟩
  | 60 => ⟨S_, .f32⟩
  | 61 => ⟨S_, .f32⟩
  | 62 => ⟨S_, .f32⟩
  | 63 => ⟨S_, .f32⟩
  | 64 => ⟨S128x64, .f32⟩
  | 65 => ⟨S1x1, .f32⟩
  | 66 => ⟨S100000x64, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | .local _ .vmem, ⟨0, _⟩ => ⟨S10000x128, .f32⟩
  | .local _ .vmem, ⟨1, _⟩ => ⟨S10000x128, .f32⟩
  | .local _ .vmem, ⟨2, _⟩ => ⟨S128x128, .f32⟩
  | .local _ .vmem, ⟨3, _⟩ => ⟨S128, .f32⟩
  | .local _ .vmem, ⟨4, _⟩ => ⟨S128x128, .f32⟩
  | .local _ .vmem, ⟨5, _⟩ => ⟨S128, .f32⟩
  | .local _ .vmem, ⟨6, _⟩ => ⟨S128x128, .f32⟩
  | .local _ .vmem, ⟨7, _⟩ => ⟨S128, .f32⟩
  | .local _ .vmem, ⟨8, _⟩ => ⟨S10000x128, .f32⟩
  | .local _ .vmem, ⟨9, _⟩ => ⟨S10000x128, .f32⟩
  | .local _ .vmem, ⟨10, _⟩ => ⟨S10000x128, .f32⟩
  | .local _ .vmem, ⟨11, _⟩ => ⟨S10000x128, .f32⟩
  | .local _ .vmem, ⟨12, _⟩ => ⟨S10000x128, .f32⟩
  | .local _ .vmem, ⟨13, _⟩ => ⟨S10000x128, .f32⟩
  | .local _ .vmem, ⟨14, _⟩ => ⟨S20000x128, .f32⟩
  | .local _ .vmem, ⟨15, _⟩ => ⟨S20000x128, .f32⟩
  | .local _ .vmem, ⟨16, _⟩ => ⟨S20000x128, .f32⟩
  | .local _ .vmem, ⟨17, _⟩ => ⟨S20000x128, .f32⟩
  | .local _ .vmem, ⟨18, _⟩ => ⟨S20000x2, .f32⟩
  | .local _ .vmem, ⟨19, _⟩ => ⟨S20000x2, .f32⟩
  | .local _ .vmem, ⟨20, _⟩ => ⟨S20000x2, .f32⟩
  | .local _ .vmem, ⟨21, _⟩ => ⟨S20000x2, .f32⟩
  | .local _ .vmem, ⟨22, _⟩ => ⟨S1x2, .f32⟩
  | .local _ .vmem, ⟨23, _⟩ => ⟨S1x2, .f32⟩
  | .local _ .vmem, ⟨24, _⟩ => ⟨S20000x128, .f32⟩
  | .local _ .vmem, ⟨25, _⟩ => ⟨S20000x128, .f32⟩
  | .local _ .vmem, ⟨26, _⟩ => ⟨S20000x128, .f32⟩
  | .local _ .vmem, ⟨27, _⟩ => ⟨S20000x128, .f32⟩
  | .local _ .vmem, ⟨28, _⟩ => ⟨S10000x128, .f32⟩
  | .local _ .vmem, ⟨29, _⟩ => ⟨S10000x128, .f32⟩
  | .local _ .vmem, ⟨30, _⟩ => ⟨S128x64, .f32⟩
  | .local _ .vmem, ⟨31, _⟩ => ⟨S64, .f32⟩
  | .local _ .vmem, ⟨32, _⟩ => ⟨S1x1, .f32⟩
  | .local _ .vmem, ⟨33, _⟩ => ⟨S10000x64, .f32⟩
  | .local _ .vmem, ⟨34, _⟩ => ⟨S10000x64, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | _, _ => false

abbrev semScoped : Fin 0 → Bool
  | ⟨_, h⟩ => absurd h (Nat.not_lt_zero _)

abbrev dmaSemScoped : Fin 35 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | _ => false

abbrev sig : RefSig :=
  ofTc nBuf bufTy 0 35 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst_0 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_cst_1 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_cst_2 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_cst_3 : Ref sig .tc := ⟨.hbm, 65, rfl⟩
abbrev main_v51 : Ref sig .tc := ⟨.hbm, 66, rfl⟩
abbrev main_cst_4 : Ref sig .tc := ⟨.hbm, 67, rfl⟩
abbrev main_call0_v0 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57_0 : Ref sig .tc := ⟨.hbm, 74, rfl⟩
abbrev main_v57_1 : Ref sig .tc := ⟨.hbm, 75, rfl⟩
abbrev main_v57_2 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_c : Ref sig .tc := ⟨.hbm, 81, rfl⟩
abbrev main_v62 : Ref sig .tc := ⟨.hbm, 82, rfl⟩
abbrev main_v63 : Ref sig .tc := ⟨.hbm, 83, rfl⟩
abbrev main_c_5 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_c_6 : Ref sig .tc := ⟨.hbm, 91, rfl⟩
abbrev main_v70 : Ref sig .tc := ⟨.hbm, 92, rfl⟩
abbrev main_v71 : Ref sig .tc := ⟨.hbm, 93, rfl⟩
abbrev main_c_7 : Ref sig .tc := ⟨.hbm, 94, rfl⟩
abbrev main_v72 : Ref sig .tc := ⟨.hbm, 95, rfl⟩
abbrev main_v73 : Ref sig .tc := ⟨.hbm, 96, rfl⟩
abbrev main_v74 : Ref sig .tc := ⟨.hbm, 97, rfl⟩
abbrev main_v75 : Ref sig .tc := ⟨.hbm, 98, rfl⟩
abbrev main_v76 : Ref sig .tc := ⟨.hbm, 99, rfl⟩
abbrev main_v77 : Ref sig .tc := ⟨.hbm, 100, rfl⟩
abbrev main_cst_8 : Ref sig .tc := ⟨.hbm, 101, rfl⟩
abbrev main_v78 : Ref sig .tc := ⟨.hbm, 102, rfl⟩
abbrev main_v79 : Ref sig .tc := ⟨.hbm, 103, rfl⟩
abbrev main_v80 : Ref sig .tc := ⟨.hbm, 104, rfl⟩
abbrev main_v81 : Ref sig .tc := ⟨.hbm, 105, rfl⟩
abbrev main_v82 : Ref sig .tc := ⟨.hbm, 106, rfl⟩
abbrev main_cst_9 : Ref sig .tc := ⟨.hbm, 107, rfl⟩
abbrev main_v83 : Ref sig .tc := ⟨.hbm, 108, rfl⟩
abbrev main_v84 : Ref sig .tc := ⟨.hbm, 109, rfl⟩
abbrev main_v85 : Ref sig .tc := ⟨.hbm, 110, rfl⟩
abbrev main_cst_10 : Ref sig .tc := ⟨.hbm, 111, rfl⟩
abbrev main_v86 : Ref sig .tc := ⟨.hbm, 112, rfl⟩
abbrev main_v87 : Ref sig .tc := ⟨.hbm, 113, rfl⟩
abbrev main_v88 : Ref sig .tc := ⟨.hbm, 114, rfl⟩
abbrev main_v89 : Ref sig .tc := ⟨.hbm, 115, rfl⟩
abbrev main_v90 : Ref sig .tc := ⟨.hbm, 116, rfl⟩
abbrev main_v91 : Ref sig .tc := ⟨.hbm, 117, rfl⟩
abbrev main_v92 : Ref sig .tc := ⟨.hbm, 118, rfl⟩
abbrev main_v93 : Ref sig .tc := ⟨.hbm, 119, rfl⟩
abbrev main_v94 : Ref sig .tc := ⟨.hbm, 120, rfl⟩
abbrev main_v95 : Ref sig .tc := ⟨.hbm, 121, rfl⟩
abbrev main_v96 : Ref sig .tc := ⟨.hbm, 122, rfl⟩
abbrev main_v97 : Ref sig .tc := ⟨.hbm, 123, rfl⟩
abbrev main_v98 : Ref sig .tc := ⟨.hbm, 124, rfl⟩
abbrev main_v99 : Ref sig .tc := ⟨.hbm, 125, rfl⟩
abbrev main_v100 : Ref sig .tc := ⟨.hbm, 126, rfl⟩
abbrev main_v101 : Ref sig .tc := ⟨.hbm, 127, rfl⟩
abbrev main_v102 : Ref sig .tc := ⟨.hbm, 128, rfl⟩
abbrev main_v103 : Ref sig .tc := ⟨.hbm, 129, rfl⟩
abbrev main_v104 : Ref sig .tc := ⟨.hbm, 130, rfl⟩
abbrev main_v105 : Ref sig .tc := ⟨.hbm, 131, rfl⟩
abbrev main_cst_11 : Ref sig .tc := ⟨.hbm, 132, rfl⟩
abbrev main_v106 : Ref sig .tc := ⟨.hbm, 133, rfl⟩
abbrev main_v107 : Ref sig .tc := ⟨.hbm, 134, rfl⟩
abbrev main_v108 : Ref sig .tc := ⟨.hbm, 135, rfl⟩
abbrev main_v109 : Ref sig .tc := ⟨.hbm, 136, rfl⟩
abbrev main_v110 : Ref sig .tc := ⟨.hbm, 137, rfl⟩
abbrev main_v111 : Ref sig .tc := ⟨.hbm, 138, rfl⟩
abbrev main_v112 : Ref sig .tc := ⟨.hbm, 139, rfl⟩
abbrev main_v113 : Ref sig .tc := ⟨.hbm, 140, rfl⟩
abbrev main_v114 : Ref sig .tc := ⟨.hbm, 141, rfl⟩
abbrev main_v115 : Ref sig .tc := ⟨.hbm, 142, rfl⟩
abbrev main_cst_12 : Ref sig .tc := ⟨.hbm, 143, rfl⟩
abbrev main_v116 : Ref sig .tc := ⟨.hbm, 144, rfl⟩
abbrev main_v117 : Ref sig .tc := ⟨.hbm, 145, rfl⟩
abbrev main_v118 : Ref sig .tc := ⟨.hbm, 146, rfl⟩
abbrev main_v119 : Ref sig .tc := ⟨.hbm, 147, rfl⟩
abbrev main_v120 : Ref sig .tc := ⟨.hbm, 148, rfl⟩
abbrev main_v121 : Ref sig .tc := ⟨.hbm, 149, rfl⟩
abbrev main_v122 : Ref sig .tc := ⟨.hbm, 150, rfl⟩
abbrev main_v123 : Ref sig .tc := ⟨.hbm, 151, rfl⟩
abbrev main_v124 : Ref sig .tc := ⟨.hbm, 152, rfl⟩
abbrev main_v125 : Ref sig .tc := ⟨.hbm, 153, rfl⟩
abbrev main_v126 : Ref sig .tc := ⟨.hbm, 154, rfl⟩
abbrev main_cst_13 : Ref sig .tc := ⟨.hbm, 155, rfl⟩
abbrev main_v127 : Ref sig .tc := ⟨.hbm, 156, rfl⟩
abbrev main_v128 : Ref sig .tc := ⟨.hbm, 157, rfl⟩
abbrev main_v129 : Ref sig .tc := ⟨.hbm, 158, rfl⟩
abbrev main_v130 : Ref sig .tc := ⟨.hbm, 159, rfl⟩
abbrev main_v131 : Ref sig .tc := ⟨.hbm, 160, rfl⟩
abbrev main_v132 : Ref sig .tc := ⟨.hbm, 161, rfl⟩
abbrev main_v133 : Ref sig .tc := ⟨.hbm, 162, rfl⟩
abbrev main_v134 : Ref sig .tc := ⟨.hbm, 163, rfl⟩
abbrev main_v135 : Ref sig .tc := ⟨.hbm, 164, rfl⟩
abbrev main_v136 : Ref sig .tc := ⟨.hbm, 165, rfl⟩
abbrev main_cst_14 : Ref sig .tc := ⟨.hbm, 166, rfl⟩
abbrev main_v137 : Ref sig .tc := ⟨.hbm, 167, rfl⟩
abbrev main_v138 : Ref sig .tc := ⟨.hbm, 168, rfl⟩
abbrev main_v139 : Ref sig .tc := ⟨.hbm, 169, rfl⟩
abbrev main_v140 : Ref sig .tc := ⟨.hbm, 170, rfl⟩
abbrev main_v141 : Ref sig .tc := ⟨.hbm, 171, rfl⟩
abbrev main_v142 : Ref sig .tc := ⟨.hbm, 172, rfl⟩
abbrev main_v143 : Ref sig .tc := ⟨.hbm, 173, rfl⟩
abbrev main_v144 : Ref sig .tc := ⟨.hbm, 174, rfl⟩
abbrev main_v145 : Ref sig .tc := ⟨.hbm, 175, rfl⟩
abbrev main_cst_15 : Ref sig .tc := ⟨.hbm, 176, rfl⟩
abbrev main_v146 : Ref sig .tc := ⟨.hbm, 177, rfl⟩
abbrev main_cst_16 : Ref sig .tc := ⟨.hbm, 178, rfl⟩
abbrev main_call1_v0 : Ref sig .tc := ⟨.hbm, 179, rfl⟩
abbrev main_v147 : Ref sig .tc := ⟨.hbm, 180, rfl⟩
abbrev main_v148 : Ref sig .tc := ⟨.hbm, 181, rfl⟩
abbrev main_v149 : Ref sig .tc := ⟨.hbm, 182, rfl⟩
abbrev main_cst_17 : Ref sig .tc := ⟨.hbm, 183, rfl⟩
abbrev main_v150 : Ref sig .tc := ⟨.hbm, 184, rfl⟩
abbrev main_cst_18 : Ref sig .tc := ⟨.hbm, 185, rfl⟩
abbrev main_call2_v0 : Ref sig .tc := ⟨.hbm, 186, rfl⟩
abbrev main_v151 : Ref sig .tc := ⟨.hbm, 187, rfl⟩
abbrev main_v152 : Ref sig .tc := ⟨.hbm, 188, rfl⟩
abbrev main_v153 : Ref sig .tc := ⟨.hbm, 189, rfl⟩
abbrev main_cst_19 : Ref sig .tc := ⟨.hbm, 190, rfl⟩
abbrev main_v154 : Ref sig .tc := ⟨.hbm, 191, rfl⟩
abbrev main_v155 : Ref sig .tc := ⟨.hbm, 192, rfl⟩
abbrev main_v156 : Ref sig .tc := ⟨.hbm, 193, rfl⟩
abbrev main_v157 : Ref sig .tc := ⟨.hbm, 194, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc1_stg0_0 : Ref sig .tc := ⟨.vmem, 14, rfl⟩
abbrev cc1_stg0_1 : Ref sig .tc := ⟨.vmem, 15, rfl⟩
abbrev cc1_stg1_0 : Ref sig .tc := ⟨.vmem, 16, rfl⟩
abbrev cc1_stg1_1 : Ref sig .tc := ⟨.vmem, 17, rfl⟩
abbrev cc1_stg2_0 : Ref sig .tc := ⟨.vmem, 18, rfl⟩
abbrev cc1_stg2_1 : Ref sig .tc := ⟨.vmem, 19, rfl⟩
abbrev cc2_stg0_0 : Ref sig .tc := ⟨.vmem, 20, rfl⟩
abbrev cc2_stg0_1 : Ref sig .tc := ⟨.vmem, 21, rfl⟩
abbrev cc2_stg1_0 : Ref sig .tc := ⟨.vmem, 22, rfl⟩
abbrev cc2_stg2_0 : Ref sig .tc := ⟨.vmem, 23, rfl⟩
abbrev cc2_stg3_0 : Ref sig .tc := ⟨.vmem, 24, rfl⟩
abbrev cc2_stg3_1 : Ref sig .tc := ⟨.vmem, 25, rfl⟩
abbrev cc2_stg4_0 : Ref sig .tc := ⟨.vmem, 26, rfl⟩
abbrev cc2_stg4_1 : Ref sig .tc := ⟨.vmem, 27, rfl⟩
abbrev cc3_stg0_0 : Ref sig .tc := ⟨.vmem, 28, rfl⟩
abbrev cc3_stg0_1 : Ref sig .tc := ⟨.vmem, 29, rfl⟩
abbrev cc3_stg1_0 : Ref sig .tc := ⟨.vmem, 30, rfl⟩
abbrev cc3_stg2_0 : Ref sig .tc := ⟨.vmem, 31, rfl⟩
abbrev cc3_stg3_0 : Ref sig .tc := ⟨.vmem, 32, rfl⟩
abbrev cc3_stg4_0 : Ref sig .tc := ⟨.vmem, 33, rfl⟩
abbrev cc3_stg4_1 : Ref sig .tc := ⟨.vmem, 34, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc0_sem8_0 : DmaSem sig := 10
abbrev cc0_sem8_1 : DmaSem sig := 11
abbrev cc0_sem9_0 : DmaSem sig := 12
abbrev cc0_sem9_1 : DmaSem sig := 13
abbrev cc1_sem0_0 : DmaSem sig := 14
abbrev cc1_sem0_1 : DmaSem sig := 15
abbrev cc1_sem1_0 : DmaSem sig := 16
abbrev cc1_sem1_1 : DmaSem sig := 17
abbrev cc1_sem2_0 : DmaSem sig := 18
abbrev cc1_sem2_1 : DmaSem sig := 19
abbrev cc2_sem0_0 : DmaSem sig := 20
abbrev cc2_sem0_1 : DmaSem sig := 21
abbrev cc2_sem1_0 : DmaSem sig := 22
abbrev cc2_sem2_0 : DmaSem sig := 23
abbrev cc2_sem3_0 : DmaSem sig := 24
abbrev cc2_sem3_1 : DmaSem sig := 25
abbrev cc2_sem4_0 : DmaSem sig := 26
abbrev cc2_sem4_1 : DmaSem sig := 27
abbrev cc3_sem0_0 : DmaSem sig := 28
abbrev cc3_sem0_1 : DmaSem sig := 29
abbrev cc3_sem1_0 : DmaSem sig := 30
abbrev cc3_sem2_0 : DmaSem sig := 31
abbrev cc3_sem3_0 : DmaSem sig := 32
abbrev cc3_sem4_0 : DmaSem sig := 33
abbrev cc3_sem4_1 : DmaSem sig := 34

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S10000x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S10000x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S10000x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S20000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S20000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S20000x2 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c1_i32 : BitVec 32 := 1#32
  let c0_i32 : BitVec 32 := 0#32
  ![arg0.toNat, c1_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S20000x2 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x2 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x2 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S20000x128 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 2 → Memref sig .tc .vmem S20000x128 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S128x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S64 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x1 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S10000x64 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

class Facts₀ : Prop where
  slices_S100000x128_S1x128_0_0 : S100000x128.Slices ![0, 0] S1x128
  shapeCasts_S1x128_S128 : S1x128.ShapeCasts S128
  slices_S100000x128_S1x128_1_0 : S100000x128.Slices ![1, 0] S1x128
  slices_S100000x128_S1x128_2_0 : S100000x128.Slices ![2, 0] S1x128
  slices_S100000x128_S1x128_3_0 : S100000x128.Slices ![3, 0] S1x128
  slices_S128_S127_0 : S128.Slices ![0] S127
  reducesTo_S127_S_d0 : S127.ReducesTo [0] S_
  h_S_ : 0 < S_.numel
  slices_S128_S1_127 : S128.Slices ![127] S1
  shapeCasts_S1_S_ : S1.ShapeCasts S_
  transposes_S128x128_S128x128_1_0 : S128x128.Transposes [1, 0] S128x128
  inb_S10000x128_S10000x128_0_0 : ∀ a, (![0, 0] : Fin 2 → Nat) a + S10000x128.size a ≤ S10000x128.size a
  h_S10000x128 : 0 < S10000x128.numel
  slices_S10000x128_o0_0_S10000x127 : S10000x128.Slices ![0, 0] S10000x127
  slices_S10000x128_o0_127_S10000x1 : S10000x128.Slices ![0, 127] S10000x1
  reduces_S10000x127_S10000 : S10000x127.Reduces [1] S10000
  shapeCasts_S10000_S10000x1 : S10000.ShapeCasts S10000x1
  broadcasts_S10000x1_S10000x127 : S10000x1.Broadcasts S10000x127
  concatenates_S10000x127_S10000x1_S10000x128_d1 : Shape.Concatenates [S10000x127, S10000x1] S10000x128 1
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S128_S128_0 : ∀ a, (![0] : Fin 1 → Nat) a + S128.size a ≤ S128.size a
  h_S128 : 0 < S128.numel
  shapeCasts_S128_S1x128 : S128.ShapeCasts S1x128
  broadcasts_S1x128_S10000x128 : S1x128.Broadcasts S10000x128
  slices_S2x1000000_S1x1000000_0_0 : S2x1000000.Slices ![0, 0] S1x1000000
  shapeCasts_S1x1000000_S1000000 : S1x1000000.ShapeCasts S1000000
  slices_S2x1000000_S1x1000000_1_0 : S2x1000000.Slices ![1, 0] S1x1000000
  bcast_S_S1000000 : S_.BroadcastsInDim S1000000 (![] : Fin 0 → Fin S1000000.rank)
  bcast_S1000000_S1000000x1_0 : S1000000.BroadcastsInDim S1000000x1 (![0] : Fin 1 → Fin S1000000x1.rank)
  concatenates_S100000x128_S100000x128_S100000x256_d1 : Shape.Concatenates [S100000x128, S100000x128] S100000x256 1
  inb_S20000x128_S20000x128_0_0 : ∀ a, (![0, 0] : Fin 2 → Nat) a + S20000x128.size a ≤ S20000x128.size a
  h_S20000x128 : 0 < S20000x128.numel
  shapeCasts_S20000x128_S20000x128 : S20000x128.ShapeCasts S20000x128
  slices_S20000x128_o0_0_S20000x64 : S20000x128.Slices ![0, 0] S20000x64
  slices_S20000x64_o0_0_S20000x63 : S20000x64.Slices ![0, 0] S20000x63
  slices_S20000x64_o0_63_S20000x1 : S20000x64.Slices ![0, 63] S20000x1
  reduces_S20000x63_S20000 : S20000x63.Reduces [1] S20000
  shapeCasts_S20000_S20000x1 : S20000.ShapeCasts S20000x1
  broadcasts_S20000x1_S20000x63 : S20000x1.Broadcasts S20000x63
  slices_S20000x128_o0_64_S20000x64 : S20000x128.Slices ![0, 64] S20000x64
  concatenates_S20000x1_S20000x1_S20000x2_d1 : Shape.Concatenates [S20000x1, S20000x1] S20000x2 1
  inb_S20000x2_S20000x2_0_0 : ∀ a, (![0, 0] : Fin 2 → Nat) a + S20000x2.size a ≤ S20000x2.size a
  h_S20000x2 : 0 < S20000x2.numel
  reducesTo_S1000000x2_S2_d0 : S1000000x2.ReducesTo [0] S2
  bcast_S2_S1x2_1 : S2.BroadcastsInDim S1x2 (![1] : Fin 1 → Fin S1x2.rank)
  bcast_S1x2_S1000000x2_0_1 : S1x2.BroadcastsInDim S1000000x2 (![0, 1] : Fin 2 → Fin S1000000x2.rank)
  shapeCasts_S20000x2_S20000x2 : S20000x2.ShapeCasts S20000x2
  inb_S1x2_S1x2_0_0 : ∀ a, (![0, 0] : Fin 2 → Nat) a + S1x2.size a ≤ S1x2.size a
  h_S1x2 : 0 < S1x2.numel
  shapeCasts_S1x2_S1x2 : S1x2.ShapeCasts S1x2
  broadcasts_S1x2_S20000x2 : S1x2.Broadcasts S20000x2
  slices_S20000x2_o0_0_S20000x1 : S20000x2.Slices ![0, 0] S20000x1
  shapeCasts_S20000x1_S20000x1 : S20000x1.ShapeCasts S20000x1
  broadcasts_S20000x1_S20000x64 : S20000x1.Broadcasts S20000x64
  slices_S20000x2_o0_1_S20000x1 : S20000x2.Slices ![0, 1] S20000x1
  concatenates_S20000x64_S20000x64_S20000x128_d1 : Shape.Concatenates [S20000x64, S20000x64] S20000x128 1
  bcast_S_S100000x128 : S_.BroadcastsInDim S100000x128 (![] : Fin 0 → Fin S100000x128.rank)
  slices_S100000x128_S4x128_0_0 : S100000x128.Slices ![0, 0] S4x128
  transposes_S64x128_S128x64_1_0 : S64x128.Transposes [1, 0] S128x64
  bcast_S64_S1x64_1 : S64.BroadcastsInDim S1x64 (![1] : Fin 1 → Fin S1x64.rank)
  bcast_S1x64_S4x64_0_1 : S1x64.BroadcastsInDim S4x64 (![0, 1] : Fin 2 → Fin S4x64.rank)
  slices_S4x64_S1x64_0_0 : S4x64.Slices ![0, 0] S1x64
  shapeCasts_S1x64_S64 : S1x64.ShapeCasts S64
  slices_S4x64_S1x64_1_0 : S4x64.Slices ![1, 0] S1x64
  slices_S4x64_S1x64_2_0 : S4x64.Slices ![2, 0] S1x64
  slices_S4x64_S1x64_3_0 : S4x64.Slices ![3, 0] S1x64
  slices_S64_S63_0 : S64.Slices ![0] S63
  reducesTo_S63_S_d0 : S63.ReducesTo [0] S_
  slices_S64_S1_63 : S64.Slices ![63] S1
  shapeCasts_S_S1x1 : S_.ShapeCasts S1x1
  shapeCasts_S10000x128_S10000x128 : S10000x128.ShapeCasts S10000x128
  inb_S128x64_S128x64_0_0 : ∀ a, (![0, 0] : Fin 2 → Nat) a + S128x64.size a ≤ S128x64.size a
  h_S128x64 : 0 < S128x64.numel
  shapeCasts_S128x64_S128x64 : S128x64.ShapeCasts S128x64
  inb_S64_S64_0 : ∀ a, (![0] : Fin 1 → Nat) a + S64.size a ≤ S64.size a
  h_S64 : 0 < S64.numel
  shapeCasts_S64_S1x64 : S64.ShapeCasts S1x64
  broadcasts_S1x64_S10000x64 : S1x64.Broadcasts S10000x64
  inb_S1x1_S1x1_0_0 : ∀ a, (![0, 0] : Fin 2 → Nat) a + S1x1.size a ≤ S1x1.size a
  h_S1x1 : 0 < S1x1.numel
  inpos_S1x1_p0_0 : ∀ a, (![0, 0] : Fin 2 → Nat) a < S1x1.size a
  inb_S10000x64_S10000x64_0_0 : ∀ a, (![0, 0] : Fin 2 → Nat) a + S10000x64.size a ≤ S10000x64.size a
  h_S10000x64 : 0 < S10000x64.numel
  dot_S10000x128_S128x128_S10000x128_1_0_0_1_n_n_wf : DotDims.WF S10000x128 S128x128 S10000x128 [1] [0] [0] [1] [] []
  gather_S100000x128_S1000000x1_S1000000x128_1_0_n_n_0_1_1128_wf : GatherDims.WF S100000x128 S1000000x1 S1000000x128 [1] [0] [] [0] [] 1 ![1, 128]
  gather_S100000x256_S1000000x1_S1000000x256_1_0_n_n_0_1_1256_wf : GatherDims.WF S100000x256 S1000000x1 S1000000x256 [1] [0] [] [0] [] 1 ![1, 256]
  scatter_S100000x128_S1000000x1_S1000000x128_1_0_0_1_wf : ScatterDims.WF S100000x128 S1000000x1 S1000000x128 [1] [0] [0] 1
  dot_S4x128_S128x64_S4x64_1_0_0_1_n_n_wf : DotDims.WF S4x128 S128x64 S4x64 [1] [0] [0] [1] [] []
  dot_S10000x128_S128x64_S10000x64_1_0_0_1_n_n_wf : DotDims.WF S10000x128 S128x64 S10000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S100000x128.size a
  hwx0_0 : ∀ i : grid0.Coords, EltTy.bits .f32 = 32 ∨ (Rect.block (s := S100000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128.size a ≤ S128.size a
  hwx0_2 : ∀ i : grid0.Coords, EltTy.bits .f32 = 32 ∨ (Rect.block (s := S128) S128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128.size a ≤ S128.size a
  hwx0_4 : ∀ i : grid0.Coords, EltTy.bits .f32 = 32 ∨ (Rect.block (s := S128) S128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x128.size a ≤ S128x128.size a
  hwx0_5 : ∀ i : grid0.Coords, EltTy.bits .f32 = 32 ∨ (Rect.block (s := S128x128) S128x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S128.size a ≤ S128.size a
  hwx0_6 : ∀ i : grid0.Coords, EltTy.bits .f32 = 32 ∨ (Rect.block (s := S128) S128.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S10000x128.size a ≤ S100000x128.size a
  hwx0_7 : ∀ i : grid0.Coords, EltTy.bits .f32 = 32 ∨ (Rect.block (s := S100000x128) S10000x128.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S10000x128.size a ≤ S100000x128.size a
  hwx0_8 : ∀ i : grid0.Coords, EltTy.bits .f32 = 32 ∨ (Rect.block (s := S100000x128) S10000x128.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S10000x128.size a ≤ S100000x128.size a
  hwx0_9 : ∀ i : grid0.Coords, EltTy.bits .f32 = 32 ∨ (Rect.block (s := S100000x128) S10000x128.size (cc0_transform_9 i) (hinb0_9 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S20000x128.size a ≤ S1000000x128.size a
  hwx1_0 : ∀ i : grid1.Coords, EltTy.bits .f32 = 32 ∨ (Rect.block (s := S1000000x128) S20000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S20000x128.size a ≤ S1000000x256.size a
  hwx1_1 : ∀ i : grid1.Coords, EltTy.bits .f32 = 32 ∨ (Rect.block (s := S1000000x256) S20000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S20000x2.size a ≤ S1000000x2.size a
  hwx1_2 : ∀ i : grid1.Coords, EltTy.bits .f32 = 32 ∨ (Rect.block (s := S1000000x2) S20000x2.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S20000x2.size a ≤ S1000000x2.size a
  hwx2_0 : ∀ i : grid2.Coords, EltTy.bits .f32 = 32 ∨ (Rect.block (s := S1000000x2) S20000x2.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x2.size a ≤ S1x2.size a
  hwx2_1 : ∀ i : grid2.Coords, EltTy.bits .f32 = 32 ∨ (Rect.block (s := S1x2) S1x2.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x2.size a ≤ S1x2.size a
  hwx2_2 : ∀ i : grid2.Coords, EltTy.bits .f32 = 32 ∨ (Rect.block (s := S1x2) S1x2.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S20000x128.size a ≤ S1000000x256.size a
  hwx2_3 : ∀ i : grid2.Coords, EltTy.bits .f32 = 32 ∨ (Rect.block (s := S1000000x256) S20000x128.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S20000x128.size a ≤ S1000000x128.size a
  hwx2_4 : ∀ i : grid2.Coords, EltTy.bits .f32 = 32 ∨ (Rect.block (s := S1000000x128) S20000x128.size (cc2_transform_4 i) (hinb2_4 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x128.size a ≤ S100000x128.size a
  hwx3_0 : ∀ i : grid3.Coords, EltTy.bits .f32 = 32 ∨ (Rect.block (s := S100000x128) S10000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S128x64.size a ≤ S128x64.size a
  hwx3_1 : ∀ i : grid3.Coords, EltTy.bits .f32 = 32 ∨ (Rect.block (s := S128x64) S128x64.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S64.size a ≤ S64.size a
  hwx3_2 : ∀ i : grid3.Coords, EltTy.bits .f32 = 32 ∨ (Rect.block (s := S64) S64.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x1.size a ≤ S1x1.size a
  hwx3_3 : ∀ i : grid3.Coords, EltTy.bits .f32 = 32 ∨ (Rect.block (s := S1x1) S1x1.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S10000x64.size a ≤ S100000x64.size a
  hwx3_4 : ∀ i : grid3.Coords, EltTy.bits .f32 = 32 ∨ (Rect.block (s := S100000x64) S10000x64.size (cc3_transform_4 i) (hinb3_4 i)).WholeWords (EltTy.packing .f32)

variable [Facts₀]

def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def gather_S100000x128_S1000000x1_S1000000x128_1_0_n_n_0_1_1128 : GatherDims S100000x128 S1000000x1 S1000000x128 where
  offsetDims := [1]
  collapsedSliceDims := [0]
  operandBatchingDims := []
  startIndicesBatchingDims := []
  startIndexMap := [0]
  indexVectorDim := 1
  sliceSizes := ![1, 128]
  wf := gather_S100000x128_S1000000x1_S1000000x128_1_0_n_n_0_1_1128_wf
def gather_S100000x256_S1000000x1_S1000000x256_1_0_n_n_0_1_1256 : GatherDims S100000x256 S1000000x1 S1000000x256 where
  offsetDims := [1]
  collapsedSliceDims := [0]
  operandBatchingDims := []
  startIndicesBatchingDims := []
  startIndexMap := [0]
  indexVectorDim := 1
  sliceSizes := ![1, 256]
  wf := gather_S100000x256_S1000000x1_S1000000x256_1_0_n_n_0_1_1256_wf
def scatter_S100000x128_S1000000x1_S1000000x128_1_0_0_1 : ScatterDims S100000x128 S1000000x1 S1000000x128 where
  updateWindowDims := [1]
  insertedWindowDims := [0]
  scatterDimsToOperandDims := [0]
  indexVectorDim := 1
  wf := scatter_S100000x128_S1000000x1_S1000000x128_1_0_0_1_wf
def dot_S4x128_S128x64_S4x64_1_0_0_1_n_n : DotDims S4x128 S128x64 S4x64 where
  lhsContracting := [1]
  rhsContracting := [0]
  lhsNonContracting := [0]
  rhsNonContracting := [1]
  lhsBatch := []
  rhsBatch := []
  wf := dot_S4x128_S128x64_S4x64_1_0_0_1_n_n_wf
def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf

abbrev win0_0 : Pipeline.Window sig grid0 :=
  Pipeline.Window.ofSpec (Memref.whole main_arg0) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v54) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v55) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg5) S128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v56) S128x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg7) S128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v57_0) S10000x128.size cc0_transform_7 reads0_7 true false 2 stage0_7 sem0_7
    hrank0 hreads0_7 hinb0_7 nbuf0_7 (Memref.isWhole_whole _) hwx0_7 hstage0_7

abbrev win0_8 : Pipeline.Window sig grid0 :=
  Pipeline.Window.ofSpec (Memref.whole main_v57_1) S10000x128.size cc0_transform_8 reads0_8 true false 2 stage0_8 sem0_8
    hrank0 hreads0_8 hinb0_8 nbuf0_8 (Memref.isWhole_whole _) hwx0_8 hstage0_8

abbrev win0_9 : Pipeline.Window sig grid0 :=
  Pipeline.Window.ofSpec (Memref.whole main_v57_2) S10000x128.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

abbrev win1_0 : Pipeline.Window sig grid1 :=
  Pipeline.Window.ofSpec (Memref.whole main_v68) S20000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v76) S20000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v77) S20000x2.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v77) S20000x2.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v79) S1x2.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v84) S1x2.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v76) S20000x128.size cc2_transform_3 reads2_3 false false 2 stage2_3 sem2_3
    hrank2 hreads2_3 hinb2_3 nbuf2_3 (Memref.isWhole_whole _) hwx2_3 hstage2_3

abbrev win2_4 : Pipeline.Window sig grid2 :=
  Pipeline.Window.ofSpec (Memref.whole main_v85) S20000x128.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

abbrev win3_0 : Pipeline.Window sig grid3 :=
  Pipeline.Window.ofSpec (Memref.whole main_v88) S10000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v155) S128x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_arg9) S64.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v156) S1x1.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v157) S10000x64.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

class Facts : Prop extends Facts₀ where

variable [Facts]
-- ==== ReferenceIdeal.lean ====
abbrev S100000x128 : Shape := ⟨2, ![100000, 128]⟩
abbrev S2x1000000 : Shape := ⟨2, ![2, 1000000]⟩
abbrev S128x128 : Shape := ⟨2, ![128, 128]⟩
abbrev S128 : Shape := ⟨1, ![128]⟩
abbrev S64x128 : Shape := ⟨2, ![64, 128]⟩
abbrev S64 : Shape := ⟨1, ![64]⟩
abbrev S1x128 : Shape := ⟨2, ![1, 128]⟩
abbrev S127 : Shape := ⟨1, ![127]⟩
abbrev S_ : Shape := ⟨0, ![]⟩
abbrev S1 : Shape := ⟨1, ![1]⟩
abbrev S100000x127 : Shape := ⟨2, ![100000, 127]⟩
abbrev S100000 : Shape := ⟨1, ![100000]⟩
abbrev S100000x1 : Shape := ⟨2, ![100000, 1]⟩
abbrev S100000x2x64 : Shape := ⟨3, ![100000, 2, 64]⟩
abbrev S1x1000000 : Shape := ⟨2, ![1, 1000000]⟩
abbrev S1000000 : Shape := ⟨1, ![1000000]⟩
abbrev S1000000x1 : Shape := ⟨2, ![1000000, 1]⟩
abbrev S1000000x2x64 : Shape := ⟨3, ![1000000, 2, 64]⟩
abbrev S1000000x2x63 : Shape := ⟨3, ![1000000, 2, 63]⟩
abbrev S1000000x2 : Shape := ⟨2, ![1000000, 2]⟩
abbrev S1000000x2x1 : Shape := ⟨3, ![1000000, 2, 1]⟩
abbrev S2 : Shape := ⟨1, ![2]⟩
abbrev S1x2 : Shape := ⟨2, ![1, 2]⟩
abbrev S128x64 : Shape := ⟨2, ![128, 64]⟩
abbrev S100000x64 : Shape := ⟨2, ![100000, 64]⟩
abbrev S1x64 : Shape := ⟨2, ![1, 64]⟩
abbrev S63 : Shape := ⟨1, ![63]⟩

abbrev nBuf : Space → Nat
  | .hbm => 276
  | .vmem => 0
  | .smem => 0
  | _ => 0

abbrev hbmTy0_0 (i : Nat) : BufTy := match i % 128 with
  | 0 => ⟨S100000x128, .f32⟩
  | 1 => ⟨S2x1000000, .i32⟩
  | 2 => ⟨S128x128, .f32⟩
  | 3 => ⟨S128, .f32⟩
  | 4 => ⟨S128x128, .f32⟩
  | 5 => ⟨S128, .f32⟩
  | 6 => ⟨S128x128, .f32⟩
  | 7 => ⟨S128, .f32⟩
  | 8 => ⟨S64x128, .f32⟩
  | 9 => ⟨S64, .f32⟩
  | 10 => ⟨S1x128, .f32⟩
  | 11 => ⟨S128, .f32⟩
  | 12 => ⟨S1x128, .f32⟩
  | 13 => ⟨S128, .f32⟩
  | 14 => ⟨S1x128, .f32⟩
  | 15 => ⟨S128, .f32⟩
  | 16 => ⟨S1x128, .f32⟩
  | 17 => ⟨S128, .f32⟩
  | 18 => ⟨S127, .f32⟩
  | 19 => ⟨S127, .f32⟩
  | 20 => ⟨S127, .f32⟩
  | 21 => ⟨S_, .f32⟩
  | 22 => ⟨S_, .f32⟩
  | 23 => ⟨S1, .f32⟩
  | 24 => ⟨S_, .f32⟩
  | 25 => ⟨S1, .f32⟩
  | 26 => ⟨S_, .f32⟩
  | 27 => ⟨S_, .f32⟩
  | 28 => ⟨S_, .f32⟩
  | 29 => ⟨S127, .f32⟩
  | 30 => ⟨S127, .f32⟩
  | 31 => ⟨S127, .f32⟩
  | 32 => ⟨S_, .f32⟩
  | 33 => ⟨S_, .f32⟩
  | 34 => ⟨S1, .f32⟩
  | 35 => ⟨S_, .f32⟩
  | 36 => ⟨S1, .f32⟩
  | 37 => ⟨S_, .f32⟩
  | 38 => ⟨S_, .f32⟩
  | 39 => ⟨S_, .f32⟩
  | 40 => ⟨S_, .f32⟩
  | 41 => ⟨S127, .f32⟩
  | 42 => ⟨S127, .f32⟩
  | 43 => ⟨S127, .f32⟩
  | 44 => ⟨S_, .f32⟩
  | 45 => ⟨S_, .f32⟩
  | 46 => ⟨S1, .f32⟩
  | 47 => ⟨S_, .f32⟩
  | 48 => ⟨S1, .f32⟩
  | 49 => ⟨S_, .f32⟩
  | 50 => ⟨S_, .f32⟩
  | 51 => ⟨S_, .f32⟩
  | 52 => ⟨S127, .f32⟩
  | 53 => ⟨S127, .f32⟩
  | 54 => ⟨S127, .f32⟩
  | 55 => ⟨S_, .f32⟩
  | 56 => ⟨S_, .f32⟩
  | 57 => ⟨S1, .f32⟩
  | 58 => ⟨S_, .f32⟩
  | 59 => ⟨S1, .f32⟩
  | 60 => ⟨S_, .f32⟩
  | 61 => ⟨S_, .f32⟩
  | 62 => ⟨S_, .f32⟩
  | 63 => ⟨S_, .f32⟩
  | 64 => ⟨S_, .f32⟩
  | 65 => ⟨S_, .f32⟩
  | 66 => ⟨S_, .i1⟩
  | 67 => ⟨S_, .f32⟩
  | 68 => ⟨S_, .f32⟩
  | 69 => ⟨S_, .f32⟩
  | 70 => ⟨S_, .f32⟩
  | 71 => ⟨S100000x127, .f32⟩
  | 72 => ⟨S100000x127, .f32⟩
  | 73 => ⟨S_, .f32⟩
  | 74 => ⟨S100000, .f32⟩
  | 75 => ⟨S100000x1, .f32⟩
  | 76 => ⟨S100000x1, .f32⟩
  | 77 => ⟨S100000x127, .f32⟩
  | 78 => ⟨S_, .f32⟩
  | 79 => ⟨S100000x1, .f32⟩
  | 80 => ⟨S100000x1, .f32⟩
  | 81 => ⟨S100000x127, .f32⟩
  | 82 => ⟨S100000x127, .f32⟩
  | 83 => ⟨S100000x1, .f32⟩
  | 84 => ⟨S100000x128, .f32⟩
  | 85 => ⟨S128x128, .f32⟩
  | 86 => ⟨S100000x128, .f32⟩
  | 87 => ⟨S1x128, .f32⟩
  | 88 => ⟨S100000x128, .f32⟩
  | 89 => ⟨S100000x128, .f32⟩
  | 90 => ⟨S100000x2x64, .f32⟩
  | 91 => ⟨S128x128, .f32⟩
  | 92 => ⟨S100000x128, .f32⟩
  | 93 => ⟨S1x128, .f32⟩
  | 94 => ⟨S100000x128, .f32⟩
  | 95 => ⟨S100000x128, .f32⟩
  | 96 => ⟨S100000x2x64, .f32⟩
  | 97 => ⟨S128x128, .f32⟩
  | 98 => ⟨S100000x128, .f32⟩
  | 99 => ⟨S1x128, .f32⟩
  | 100 => ⟨S100000x128, .f32⟩
  | 101 => ⟨S100000x128, .f32⟩
  | 102 => ⟨S100000x2x64, .f32⟩
  | 103 => ⟨S1x1000000, .i32⟩
  | 104 => ⟨S1000000, .i32⟩
  | 105 => ⟨S1x1000000, .i32⟩
  | 106 => ⟨S1000000, .i32⟩
  | 107 => ⟨S_, .i32⟩
  | 108 => ⟨S1000000, .i32⟩
  | 109 => ⟨S1000000, .i1⟩
  | 110 => ⟨S_, .i32⟩
  | 111 => ⟨S1000000, .i32⟩
  | 112 => ⟨S1000000, .i32⟩
  | 113 => ⟨S1000000, .i32⟩
  | 114 => ⟨S1000000x1, .i32⟩
  | 115 => ⟨S1000000x2x64, .f32⟩
  | 116 => ⟨S1000000x2x63, .f32⟩
  | 117 => ⟨S1000000x2x63, .f32⟩
  | 118 => ⟨S_, .f32⟩
  | 119 => ⟨S1000000x2, .f32⟩
  | 120 => ⟨S1000000x2x1, .f32⟩
  | 121 => ⟨S1000000x2x1, .f32⟩
  | 122 => ⟨S1000000x2x63, .f32⟩
  | 123 => ⟨S_, .f32⟩
  | 124 => ⟨S1000000x2x1, .f32⟩
  | 125 => ⟨S1000000x2x1, .f32⟩
  | 126 => ⟨S1000000x2x63, .f32⟩
  | 127 => ⟨S1000000x2x63, .f32⟩
  | _ => ⟨S100000x128, .f32⟩

abbrev hbmTy0_1 (i : Nat) : BufTy := match i % 128 with
  | 0 => ⟨S1000000x2x1, .f32⟩
  | 1 => ⟨S1000000x2x64, .f32⟩
  | 2 => ⟨S_, .i32⟩
  | 3 => ⟨S1000000, .i32⟩
  | 4 => ⟨S1000000, .i1⟩
  | 5 => ⟨S_, .i32⟩
  | 6 => ⟨S1000000, .i32⟩
  | 7 => ⟨S1000000, .i32⟩
  | 8 => ⟨S1000000, .i32⟩
  | 9 => ⟨S1000000x1, .i32⟩
  | 10 => ⟨S1000000x2x64, .f32⟩
  | 11 => ⟨S1000000x2x63, .f32⟩
  | 12 => ⟨S1000000x2x63, .f32⟩
  | 13 => ⟨S_, .f32⟩
  | 14 => ⟨S1000000x2, .f32⟩
  | 15 => ⟨S1000000x2x1, .f32⟩
  | 16 => ⟨S1000000x2x1, .f32⟩
  | 17 => ⟨S1000000x2x63, .f32⟩
  | 18 => ⟨S_, .f32⟩
  | 19 => ⟨S1000000x2x1, .f32⟩
  | 20 => ⟨S1000000x2x1, .f32⟩
  | 21 => ⟨S1000000x2x63, .f32⟩
  | 22 => ⟨S1000000x2x63, .f32⟩
  | 23 => ⟨S1000000x2x1, .f32⟩
  | 24 => ⟨S1000000x2x64, .f32⟩
  | 25 => ⟨S1000000x2x63, .f32⟩
  | 26 => ⟨S1000000x2x63, .f32⟩
  | 27 => ⟨S1000000x2x63, .f32⟩
  | 28 => ⟨S_, .f32⟩
  | 29 => ⟨S1000000x2, .f32⟩
  | 30 => ⟨S1000000x2x1, .f32⟩
  | 31 => ⟨S1000000x2, .f32⟩
  | 32 => ⟨S1000000x2x1, .f32⟩
  | 33 => ⟨S1000000x2, .f32⟩
  | 34 => ⟨S1000000x2, .f32⟩
  | 35 => ⟨S1000000x2, .f32⟩
  | 36 => ⟨S_, .f32⟩
  | 37 => ⟨S1000000x2, .f32⟩
  | 38 => ⟨S1000000x2, .f32⟩
  | 39 => ⟨S_, .f32⟩
  | 40 => ⟨S2, .f32⟩
  | 41 => ⟨S_, .f32⟩
  | 42 => ⟨S2, .f32⟩
  | 43 => ⟨S2, .f32⟩
  | 44 => ⟨S1x2, .f32⟩
  | 45 => ⟨S1000000x2, .f32⟩
  | 46 => ⟨S1000000x2, .f32⟩
  | 47 => ⟨S1000000x2, .f32⟩
  | 48 => ⟨S_, .f32⟩
  | 49 => ⟨S2, .f32⟩
  | 50 => ⟨S1x2, .f32⟩
  | 51 => ⟨S1000000x2, .f32⟩
  | 52 => ⟨S1000000x2, .f32⟩
  | 53 => ⟨S_, .i32⟩
  | 54 => ⟨S1000000, .i32⟩
  | 55 => ⟨S1000000, .i1⟩
  | 56 => ⟨S_, .i32⟩
  | 57 => ⟨S1000000, .i32⟩
  | 58 => ⟨S1000000, .i32⟩
  | 59 => ⟨S1000000, .i32⟩
  | 60 => ⟨S1000000x1, .i32⟩
  | 61 => ⟨S1000000x2x64, .f32⟩
  | 62 => ⟨S1000000x2x1, .f32⟩
  | 63 => ⟨S1000000x2x64, .f32⟩
  | 64 => ⟨S1000000x2x64, .f32⟩
  | 65 => ⟨S_, .f32⟩
  | 66 => ⟨S100000x2x64, .f32⟩
  | 67 => ⟨S1000000x1, .i32⟩
  | 68 => ⟨S100000x2x64, .f32⟩
  | 69 => ⟨S100000x128, .f32⟩
  | 70 => ⟨S128x64, .f32⟩
  | 71 => ⟨S100000x64, .f32⟩
  | 72 => ⟨S1x64, .f32⟩
  | 73 => ⟨S100000x64, .f32⟩
  | 74 => ⟨S100000x64, .f32⟩
  | 75 => ⟨S1x64, .f32⟩
  | 76 => ⟨S64, .f32⟩
  | 77 => ⟨S1x64, .f32⟩
  | 78 => ⟨S64, .f32⟩
  | 79 => ⟨S1x64, .f32⟩
  | 80 => ⟨S64, .f32⟩
  | 81 => ⟨S1x64, .f32⟩
  | 82 => ⟨S64, .f32⟩
  | 83 => ⟨S63, .f32⟩
  | 84 => ⟨S63, .f32⟩
  | 85 => ⟨S63, .f32⟩
  | 86 => ⟨S_, .f32⟩
  | 87 => ⟨S_, .f32⟩
  | 88 => ⟨S1, .f32⟩
  | 89 => ⟨S_, .f32⟩
  | 90 => ⟨S1, .f32⟩
  | 91 => ⟨S_, .f32⟩
  | 92 => ⟨S_, .f32⟩
  | 93 => ⟨S_, .f32⟩
  | 94 => ⟨S63, .f32⟩
  | 95 => ⟨S63, .f32⟩
  | 96 => ⟨S63, .f32⟩
  | 97 => ⟨S_, .f32⟩
  | 98 => ⟨S_, .f32⟩
  | 99 => ⟨S1, .f32⟩
  | 100 => ⟨S_, .f32⟩
  | 101 => ⟨S1, .f32⟩
  | 102 => ⟨S_, .f32⟩
  | 103 => ⟨S_, .f32⟩
  | 104 => ⟨S_, .f32⟩
  | 105 => ⟨S_, .f32⟩
  | 106 => ⟨S63, .f32⟩
  | 107 => ⟨S63, .f32⟩
  | 108 => ⟨S63, .f32⟩
  | 109 => ⟨S_, .f32⟩
  | 110 => ⟨S_, .f32⟩
  | 111 => ⟨S1, .f32⟩
  | 112 => ⟨S_, .f32⟩
  | 113 => ⟨S1, .f32⟩
  | 114 => ⟨S_, .f32⟩
  | 115 => ⟨S_, .f32⟩
  | 116 => ⟨S_, .f32⟩
  | 117 => ⟨S63, .f32⟩
  | 118 => ⟨S63, .f32⟩
  | 119 => ⟨S63, .f32⟩
  | 120 => ⟨S_, .f32⟩
  | 121 => ⟨S_, .f32⟩
  | 122 => ⟨S1, .f32⟩
  | 123 => ⟨S_, .f32⟩
  | 124 => ⟨S1, .f32⟩
  | 125 => ⟨S_, .f32⟩
  | 126 => ⟨S_, .f32⟩
  | 127 => ⟨S_, .f32⟩
  | _ => ⟨S100000x128, .f32⟩

abbrev hbmTy0_2 (i : Nat) : BufTy := match i % 128 with
  | 0 => ⟨S_, .f32⟩
  | 1 => ⟨S_, .f32⟩
  | 2 => ⟨S_, .f32⟩
  | 3 => ⟨S_, .i1⟩
  | 4 => ⟨S_, .f32⟩
  | 5 => ⟨S_, .f32⟩
  | 6 => ⟨S_, .f32⟩
  | 7 => ⟨S_, .f32⟩
  | 8 => ⟨S_, .f32⟩
  | 9 => ⟨S_, .f32⟩
  | 10 => ⟨S_, .i1⟩
  | 11 => ⟨S_, .f32⟩
  | 12 => ⟨S_, .f32⟩
  | 13 => ⟨S_, .f32⟩
  | 14 => ⟨S_, .f32⟩
  | 15 => ⟨S_, .f32⟩
  | 16 => ⟨S_, .f32⟩
  | 17 => ⟨S_, .f32⟩
  | 18 => ⟨S100000x64, .f32⟩
  | 19 => ⟨S100000x64, .f32⟩
  | _ => ⟨S100000x128, .f32⟩

abbrev hbmTy (i : Nat) : BufTy := match i / 128 with
  | 0 => hbmTy0_0 i
  | 1 => hbmTy0_1 i
  | 2 => hbmTy0_2 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst_0 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_cst_1 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_cst_2 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_cst_3 : Ref sig .tc := ⟨.hbm, 65, rfl⟩
abbrev main_v51 : Ref sig .tc := ⟨.hbm, 66, rfl⟩
abbrev main_cst_4 : Ref sig .tc := ⟨.hbm, 67, rfl⟩
abbrev main_call0_v0 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_call1_v0 : Ref sig .tc := ⟨.hbm, 72, rfl⟩
abbrev main_call1_cst : Ref sig .tc := ⟨.hbm, 73, rfl⟩
abbrev main_call1_v1 : Ref sig .tc := ⟨.hbm, 74, rfl⟩
abbrev main_call1_v2 : Ref sig .tc := ⟨.hbm, 75, rfl⟩
abbrev main_v55 : Ref sig .tc := ⟨.hbm, 76, rfl⟩
abbrev main_v56 : Ref sig .tc := ⟨.hbm, 77, rfl⟩
abbrev main_cst_5 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_v73 : Ref sig .tc := ⟨.hbm, 95, rfl⟩
abbrev main_v74 : Ref sig .tc := ⟨.hbm, 96, rfl⟩
abbrev main_v75 : Ref sig .tc := ⟨.hbm, 97, rfl⟩
abbrev main_v76 : Ref sig .tc := ⟨.hbm, 98, rfl⟩
abbrev main_v77 : Ref sig .tc := ⟨.hbm, 99, rfl⟩
abbrev main_v78 : Ref sig .tc := ⟨.hbm, 100, rfl⟩
abbrev main_v79 : Ref sig .tc := ⟨.hbm, 101, rfl⟩
abbrev main_v80 : Ref sig .tc := ⟨.hbm, 102, rfl⟩
abbrev main_v81 : Ref sig .tc := ⟨.hbm, 103, rfl⟩
abbrev main_v82 : Ref sig .tc := ⟨.hbm, 104, rfl⟩
abbrev main_v83 : Ref sig .tc := ⟨.hbm, 105, rfl⟩
abbrev main_v84 : Ref sig .tc := ⟨.hbm, 106, rfl⟩
abbrev main_c : Ref sig .tc := ⟨.hbm, 107, rfl⟩
abbrev main_v85 : Ref sig .tc := ⟨.hbm, 108, rfl⟩
abbrev main_v86 : Ref sig .tc := ⟨.hbm, 109, rfl⟩
abbrev main_c_6 : Ref sig .tc := ⟨.hbm, 110, rfl⟩
abbrev main_v87 : Ref sig .tc := ⟨.hbm, 111, rfl⟩
abbrev main_v88 : Ref sig .tc := ⟨.hbm, 112, rfl⟩
abbrev main_v89 : Ref sig .tc := ⟨.hbm, 113, rfl⟩
abbrev main_v90 : Ref sig .tc := ⟨.hbm, 114, rfl⟩
abbrev main_v91 : Ref sig .tc := ⟨.hbm, 115, rfl⟩
abbrev main_v92 : Ref sig .tc := ⟨.hbm, 116, rfl⟩
abbrev main_call2_v0 : Ref sig .tc := ⟨.hbm, 117, rfl⟩
abbrev main_call2_cst : Ref sig .tc := ⟨.hbm, 118, rfl⟩
abbrev main_call2_v1 : Ref sig .tc := ⟨.hbm, 119, rfl⟩
abbrev main_call2_v2 : Ref sig .tc := ⟨.hbm, 120, rfl⟩
abbrev main_v93 : Ref sig .tc := ⟨.hbm, 121, rfl⟩
abbrev main_v94 : Ref sig .tc := ⟨.hbm, 122, rfl⟩
abbrev main_cst_7 : Ref sig .tc := ⟨.hbm, 123, rfl⟩
abbrev main_v95 : Ref sig .tc := ⟨.hbm, 124, rfl⟩
abbrev main_v96 : Ref sig .tc := ⟨.hbm, 125, rfl⟩
abbrev main_v97 : Ref sig .tc := ⟨.hbm, 126, rfl⟩
abbrev main_v98 : Ref sig .tc := ⟨.hbm, 127, rfl⟩
abbrev main_v99 : Ref sig .tc := ⟨.hbm, 128, rfl⟩
abbrev main_v100 : Ref sig .tc := ⟨.hbm, 129, rfl⟩
abbrev main_c_8 : Ref sig .tc := ⟨.hbm, 130, rfl⟩
abbrev main_v101 : Ref sig .tc := ⟨.hbm, 131, rfl⟩
abbrev main_v102 : Ref sig .tc := ⟨.hbm, 132, rfl⟩
abbrev main_c_9 : Ref sig .tc := ⟨.hbm, 133, rfl⟩
abbrev main_v103 : Ref sig .tc := ⟨.hbm, 134, rfl⟩
abbrev main_v104 : Ref sig .tc := ⟨.hbm, 135, rfl⟩
abbrev main_v105 : Ref sig .tc := ⟨.hbm, 136, rfl⟩
abbrev main_v106 : Ref sig .tc := ⟨.hbm, 137, rfl⟩
abbrev main_v107 : Ref sig .tc := ⟨.hbm, 138, rfl⟩
abbrev main_v108 : Ref sig .tc := ⟨.hbm, 139, rfl⟩
abbrev main_call3_v0 : Ref sig .tc := ⟨.hbm, 140, rfl⟩
abbrev main_call3_cst : Ref sig .tc := ⟨.hbm, 141, rfl⟩
abbrev main_call3_v1 : Ref sig .tc := ⟨.hbm, 142, rfl⟩
abbrev main_call3_v2 : Ref sig .tc := ⟨.hbm, 143, rfl⟩
abbrev main_v109 : Ref sig .tc := ⟨.hbm, 144, rfl⟩
abbrev main_v110 : Ref sig .tc := ⟨.hbm, 145, rfl⟩
abbrev main_cst_10 : Ref sig .tc := ⟨.hbm, 146, rfl⟩
abbrev main_v111 : Ref sig .tc := ⟨.hbm, 147, rfl⟩
abbrev main_v112 : Ref sig .tc := ⟨.hbm, 148, rfl⟩
abbrev main_v113 : Ref sig .tc := ⟨.hbm, 149, rfl⟩
abbrev main_v114 : Ref sig .tc := ⟨.hbm, 150, rfl⟩
abbrev main_v115 : Ref sig .tc := ⟨.hbm, 151, rfl⟩
abbrev main_v116 : Ref sig .tc := ⟨.hbm, 152, rfl⟩
abbrev main_v117 : Ref sig .tc := ⟨.hbm, 153, rfl⟩
abbrev main_v118 : Ref sig .tc := ⟨.hbm, 154, rfl⟩
abbrev main_v119 : Ref sig .tc := ⟨.hbm, 155, rfl⟩
abbrev main_cst_11 : Ref sig .tc := ⟨.hbm, 156, rfl⟩
abbrev main_v120 : Ref sig .tc := ⟨.hbm, 157, rfl⟩
abbrev main_v121 : Ref sig .tc := ⟨.hbm, 158, rfl⟩
abbrev main_v122 : Ref sig .tc := ⟨.hbm, 159, rfl⟩
abbrev main_v123 : Ref sig .tc := ⟨.hbm, 160, rfl⟩
abbrev main_v124 : Ref sig .tc := ⟨.hbm, 161, rfl⟩
abbrev main_v125 : Ref sig .tc := ⟨.hbm, 162, rfl⟩
abbrev main_v126 : Ref sig .tc := ⟨.hbm, 163, rfl⟩
abbrev main_cst_12 : Ref sig .tc := ⟨.hbm, 164, rfl⟩
abbrev main_v127 : Ref sig .tc := ⟨.hbm, 165, rfl⟩
abbrev main_v128 : Ref sig .tc := ⟨.hbm, 166, rfl⟩
abbrev main_cst_13 : Ref sig .tc := ⟨.hbm, 167, rfl⟩
abbrev main_v129 : Ref sig .tc := ⟨.hbm, 168, rfl⟩
abbrev main_cst_14 : Ref sig .tc := ⟨.hbm, 169, rfl⟩
abbrev main_v130 : Ref sig .tc := ⟨.hbm, 170, rfl⟩
abbrev main_v131 : Ref sig .tc := ⟨.hbm, 171, rfl⟩
abbrev main_v132 : Ref sig .tc := ⟨.hbm, 172, rfl⟩
abbrev main_v133 : Ref sig .tc := ⟨.hbm, 173, rfl⟩
abbrev main_v134 : Ref sig .tc := ⟨.hbm, 174, rfl⟩
abbrev main_v135 : Ref sig .tc := ⟨.hbm, 175, rfl⟩
abbrev main_cst_15 : Ref sig .tc := ⟨.hbm, 176, rfl⟩
abbrev main_v136 : Ref sig .tc := ⟨.hbm, 177, rfl⟩
abbrev main_v137 : Ref sig .tc := ⟨.hbm, 178, rfl⟩
abbrev main_v138 : Ref sig .tc := ⟨.hbm, 179, rfl⟩
abbrev main_v139 : Ref sig .tc := ⟨.hbm, 180, rfl⟩
abbrev main_c_16 : Ref sig .tc := ⟨.hbm, 181, rfl⟩
abbrev main_v140 : Ref sig .tc := ⟨.hbm, 182, rfl⟩
abbrev main_v141 : Ref sig .tc := ⟨.hbm, 183, rfl⟩
abbrev main_c_17 : Ref sig .tc := ⟨.hbm, 184, rfl⟩
abbrev main_v142 : Ref sig .tc := ⟨.hbm, 185, rfl⟩
abbrev main_v143 : Ref sig .tc := ⟨.hbm, 186, rfl⟩
abbrev main_v144 : Ref sig .tc := ⟨.hbm, 187, rfl⟩
abbrev main_v145 : Ref sig .tc := ⟨.hbm, 188, rfl⟩
abbrev main_v146 : Ref sig .tc := ⟨.hbm, 189, rfl⟩
abbrev main_v147 : Ref sig .tc := ⟨.hbm, 190, rfl⟩
abbrev main_v148 : Ref sig .tc := ⟨.hbm, 191, rfl⟩
abbrev main_v149 : Ref sig .tc := ⟨.hbm, 192, rfl⟩
abbrev main_cst_18 : Ref sig .tc := ⟨.hbm, 193, rfl⟩
abbrev main_v150 : Ref sig .tc := ⟨.hbm, 194, rfl⟩
abbrev main_v151 : Ref sig .tc := ⟨.hbm, 195, rfl⟩
abbrev main_v152 : Ref sig .tc := ⟨.hbm, 196, rfl⟩
abbrev main_v153 : Ref sig .tc := ⟨.hbm, 197, rfl⟩
abbrev main_v154 : Ref sig .tc := ⟨.hbm, 198, rfl⟩
abbrev main_v155 : Ref sig .tc := ⟨.hbm, 199, rfl⟩
abbrev main_v156 : Ref sig .tc := ⟨.hbm, 200, rfl⟩
abbrev main_v157 : Ref sig .tc := ⟨.hbm, 201, rfl⟩
abbrev main_v158 : Ref sig .tc := ⟨.hbm, 202, rfl⟩
abbrev main_v159 : Ref sig .tc := ⟨.hbm, 203, rfl⟩
abbrev main_v160 : Ref sig .tc := ⟨.hbm, 204, rfl⟩
abbrev main_v161 : Ref sig .tc := ⟨.hbm, 205, rfl⟩
abbrev main_v162 : Ref sig .tc := ⟨.hbm, 206, rfl⟩
abbrev main_v163 : Ref sig .tc := ⟨.hbm, 207, rfl⟩
abbrev main_v164 : Ref sig .tc := ⟨.hbm, 208, rfl⟩
abbrev main_v165 : Ref sig .tc := ⟨.hbm, 209, rfl⟩
abbrev main_v166 : Ref sig .tc := ⟨.hbm, 210, rfl⟩
abbrev main_v167 : Ref sig .tc := ⟨.hbm, 211, rfl⟩
abbrev main_v168 : Ref sig .tc := ⟨.hbm, 212, rfl⟩
abbrev main_v169 : Ref sig .tc := ⟨.hbm, 213, rfl⟩
abbrev main_cst_19 : Ref sig .tc := ⟨.hbm, 214, rfl⟩
abbrev main_v170 : Ref sig .tc := ⟨.hbm, 215, rfl⟩
abbrev main_v171 : Ref sig .tc := ⟨.hbm, 216, rfl⟩
abbrev main_v172 : Ref sig .tc := ⟨.hbm, 217, rfl⟩
abbrev main_v173 : Ref sig .tc := ⟨.hbm, 218, rfl⟩
abbrev main_v174 : Ref sig .tc := ⟨.hbm, 219, rfl⟩
abbrev main_v175 : Ref sig .tc := ⟨.hbm, 220, rfl⟩
abbrev main_v176 : Ref sig .tc := ⟨.hbm, 221, rfl⟩
abbrev main_v177 : Ref sig .tc := ⟨.hbm, 222, rfl⟩
abbrev main_v178 : Ref sig .tc := ⟨.hbm, 223, rfl⟩
abbrev main_v179 : Ref sig .tc := ⟨.hbm, 224, rfl⟩
abbrev main_cst_20 : Ref sig .tc := ⟨.hbm, 225, rfl⟩
abbrev main_v180 : Ref sig .tc := ⟨.hbm, 226, rfl⟩
abbrev main_v181 : Ref sig .tc := ⟨.hbm, 227, rfl⟩
abbrev main_v182 : Ref sig .tc := ⟨.hbm, 228, rfl⟩
abbrev main_v183 : Ref sig .tc := ⟨.hbm, 229, rfl⟩
abbrev main_v184 : Ref sig .tc := ⟨.hbm, 230, rfl⟩
abbrev main_v185 : Ref sig .tc := ⟨.hbm, 231, rfl⟩
abbrev main_v186 : Ref sig .tc := ⟨.hbm, 232, rfl⟩
abbrev main_v187 : Ref sig .tc := ⟨.hbm, 233, rfl⟩
abbrev main_v188 : Ref sig .tc := ⟨.hbm, 234, rfl⟩
abbrev main_v189 : Ref sig .tc := ⟨.hbm, 235, rfl⟩
abbrev main_v190 : Ref sig .tc := ⟨.hbm, 236, rfl⟩
abbrev main_cst_21 : Ref sig .tc := ⟨.hbm, 237, rfl⟩
abbrev main_v191 : Ref sig .tc := ⟨.hbm, 238, rfl⟩
abbrev main_v192 : Ref sig .tc := ⟨.hbm, 239, rfl⟩
abbrev main_v193 : Ref sig .tc := ⟨.hbm, 240, rfl⟩
abbrev main_v194 : Ref sig .tc := ⟨.hbm, 241, rfl⟩
abbrev main_v195 : Ref sig .tc := ⟨.hbm, 242, rfl⟩
abbrev main_v196 : Ref sig .tc := ⟨.hbm, 243, rfl⟩
abbrev main_v197 : Ref sig .tc := ⟨.hbm, 244, rfl⟩
abbrev main_v198 : Ref sig .tc := ⟨.hbm, 245, rfl⟩
abbrev main_v199 : Ref sig .tc := ⟨.hbm, 246, rfl⟩
abbrev main_v200 : Ref sig .tc := ⟨.hbm, 247, rfl⟩
abbrev main_cst_22 : Ref sig .tc := ⟨.hbm, 248, rfl⟩
abbrev main_v201 : Ref sig .tc := ⟨.hbm, 249, rfl⟩
abbrev main_v202 : Ref sig .tc := ⟨.hbm, 250, rfl⟩
abbrev main_v203 : Ref sig .tc := ⟨.hbm, 251, rfl⟩
abbrev main_v204 : Ref sig .tc := ⟨.hbm, 252, rfl⟩
abbrev main_v205 : Ref sig .tc := ⟨.hbm, 253, rfl⟩
abbrev main_v206 : Ref sig .tc := ⟨.hbm, 254, rfl⟩
abbrev main_v207 : Ref sig .tc := ⟨.hbm, 255, rfl⟩
abbrev main_v208 : Ref sig .tc := ⟨.hbm, 256, rfl⟩
abbrev main_v209 : Ref sig .tc := ⟨.hbm, 257, rfl⟩
abbrev main_cst_23 : Ref sig .tc := ⟨.hbm, 258, rfl⟩
abbrev main_v210 : Ref sig .tc := ⟨.hbm, 259, rfl⟩
abbrev main_cst_24 : Ref sig .tc := ⟨.hbm, 260, rfl⟩
abbrev main_call4_v0 : Ref sig .tc := ⟨.hbm, 261, rfl⟩
abbrev main_v211 : Ref sig .tc := ⟨.hbm, 262, rfl⟩
abbrev main_v212 : Ref sig .tc := ⟨.hbm, 263, rfl⟩
abbrev main_v213 : Ref sig .tc := ⟨.hbm, 264, rfl⟩
abbrev main_cst_25 : Ref sig .tc := ⟨.hbm, 265, rfl⟩
abbrev main_v214 : Ref sig .tc := ⟨.hbm, 266, rfl⟩
abbrev main_cst_26 : Ref sig .tc := ⟨.hbm, 267, rfl⟩
abbrev main_call5_v0 : Ref sig .tc := ⟨.hbm, 268, rfl⟩
abbrev main_v215 : Ref sig .tc := ⟨.hbm, 269, rfl⟩
abbrev main_v216 : Ref sig .tc := ⟨.hbm, 270, rfl⟩
abbrev main_v217 : Ref sig .tc := ⟨.hbm, 271, rfl⟩
abbrev main_cst_27 : Ref sig .tc := ⟨.hbm, 272, rfl⟩
abbrev main_v218 : Ref sig .tc := ⟨.hbm, 273, rfl⟩
abbrev main_v219 : Ref sig .tc := ⟨.hbm, 274, rfl⟩
abbrev main_v220 : Ref sig .tc := ⟨.hbm, 275, rfl⟩

abbrev nD : Nat := 1
abbrev τ : Topo := Topo.v7x

variable {F : FTy → Type} [FloatOps F]

class Facts₀ : Prop where
  slices_S100000x128_S1x128_0_0 : S100000x128.Slices ![0, 0] S1x128
  shapeCasts_S1x128_S128 : S1x128.ShapeCasts S128
  slices_S100000x128_S1x128_1_0 : S100000x128.Slices ![1, 0] S1x128
  slices_S100000x128_S1x128_2_0 : S100000x128.Slices ![2, 0] S1x128
  slices_S100000x128_S1x128_3_0 : S100000x128.Slices ![3, 0] S1x128
  slices_S128_S127_0 : S128.Slices ![0] S127
  reducesTo_S127_S_d0 : S127.ReducesTo [0] S_
  h_S_ : 0 < S_.numel
  slices_S128_S1_127 : S128.Slices ![127] S1
  shapeCasts_S1_S_ : S1.ShapeCasts S_
  slices_S100000x128_S100000x127_0_0 : S100000x128.Slices ![0, 0] S100000x127
  reducesTo_S100000x127_S100000_d1 : S100000x127.ReducesTo [1] S100000
  bcast_S100000_S100000x1_0 : S100000.BroadcastsInDim S100000x1 (![0] : Fin 1 → Fin S100000x1.rank)
  bcast_S_S100000x1 : S_.BroadcastsInDim S100000x1 (![] : Fin 0 → Fin S100000x1.rank)
  bcast_S100000x1_S100000x127_0_1 : S100000x1.BroadcastsInDim S100000x127 (![0, 1] : Fin 2 → Fin S100000x127.rank)
  slices_S100000x128_S100000x1_0_127 : S100000x128.Slices ![0, 127] S100000x1
  concatenates_S100000x127_S100000x1_S100000x128_d1 : Shape.Concatenates [S100000x127, S100000x1] S100000x128 1
  transposes_S128x128_S128x128_1_0 : S128x128.Transposes [1, 0] S128x128
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  shapeCasts_S100000x128_S100000x2x64 : S100000x128.ShapeCasts S100000x2x64
  slices_S2x1000000_S1x1000000_0_0 : S2x1000000.Slices ![0, 0] S1x1000000
  shapeCasts_S1x1000000_S1000000 : S1x1000000.ShapeCasts S1000000
  slices_S2x1000000_S1x1000000_1_0 : S2x1000000.Slices ![1, 0] S1x1000000
  bcast_S_S1000000 : S_.BroadcastsInDim S1000000 (![] : Fin 0 → Fin S1000000.rank)
  bcast_S1000000_S1000000x1_0 : S1000000.BroadcastsInDim S1000000x1 (![0] : Fin 1 → Fin S1000000x1.rank)
  slices_S1000000x2x64_S1000000x2x63_0_0_0 : S1000000x2x64.Slices ![0, 0, 0] S1000000x2x63
  reducesTo_S1000000x2x63_S1000000x2_d2 : S1000000x2x63.ReducesTo [2] S1000000x2
  bcast_S1000000x2_S1000000x2x1_0_1 : S1000000x2.BroadcastsInDim S1000000x2x1 (![0, 1] : Fin 2 → Fin S1000000x2x1.rank)
  bcast_S_S1000000x2x1 : S_.BroadcastsInDim S1000000x2x1 (![] : Fin 0 → Fin S1000000x2x1.rank)
  bcast_S1000000x2x1_S1000000x2x63_0_1_2 : S1000000x2x1.BroadcastsInDim S1000000x2x63 (![0, 1, 2] : Fin 3 → Fin S1000000x2x63.rank)
  slices_S1000000x2x64_S1000000x2x1_0_0_63 : S1000000x2x64.Slices ![0, 0, 63] S1000000x2x1
  concatenates_S1000000x2x63_S1000000x2x1_S1000000x2x64_d2 : Shape.Concatenates [S1000000x2x63, S1000000x2x1] S1000000x2x64 2
  shapeCasts_S1000000x2x1_S1000000x2 : S1000000x2x1.ShapeCasts S1000000x2
  bcast_S_S1000000x2 : S_.BroadcastsInDim S1000000x2 (![] : Fin 0 → Fin S1000000x2.rank)
  reducesTo_S1000000x2_S2_d0 : S1000000x2.ReducesTo [0] S2
  bcast_S_S2 : S_.BroadcastsInDim S2 (![] : Fin 0 → Fin S2.rank)
  bcast_S2_S1x2_1 : S2.BroadcastsInDim S1x2 (![1] : Fin 1 → Fin S1x2.rank)
  bcast_S1x2_S1000000x2_0_1 : S1x2.BroadcastsInDim S1000000x2 (![0, 1] : Fin 2 → Fin S1000000x2.rank)
  bcast_S1000000x2x1_S1000000x2x64_0_1_2 : S1000000x2x1.BroadcastsInDim S1000000x2x64 (![0, 1, 2] : Fin 3 → Fin S1000000x2x64.rank)
  bcast_S_S100000x2x64 : S_.BroadcastsInDim S100000x2x64 (![] : Fin 0 → Fin S100000x2x64.rank)
  shapeCasts_S100000x2x64_S100000x128 : S100000x2x64.ShapeCasts S100000x128
  transposes_S64x128_S128x64_1_0 : S64x128.Transposes [1, 0] S128x64
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  slices_S100000x64_S1x64_0_0 : S100000x64.Slices ![0, 0] S1x64
  shapeCasts_S1x64_S64 : S1x64.ShapeCasts S64
  slices_S100000x64_S1x64_1_0 : S100000x64.Slices ![1, 0] S1x64
  slices_S100000x64_S1x64_2_0 : S100000x64.Slices ![2, 0] S1x64
  slices_S100000x64_S1x64_3_0 : S100000x64.Slices ![3, 0] S1x64
  slices_S64_S63_0 : S64.Slices ![0] S63
  reducesTo_S63_S_d0 : S63.ReducesTo [0] S_
  slices_S64_S1_63 : S64.Slices ![63] S1
  bcast_S_S100000x64 : S_.BroadcastsInDim S100000x64 (![] : Fin 0 → Fin S100000x64.rank)
  dot_S100000x128_S128x128_S100000x128_1_0_0_1_n_n_wf : DotDims.WF S100000x128 S128x128 S100000x128 [1] [0] [0] [1] [] []
  gather_S100000x2x64_S1000000x1_S1000000x2x64_12_0_n_n_0_1_1264_wf : GatherDims.WF S100000x2x64 S1000000x1 S1000000x2x64 [1, 2] [0] [] [0] [] 1 ![1, 2, 64]
  scatter_S100000x2x64_S1000000x1_S1000000x2x64_12_0_0_1_wf : ScatterDims.WF S100000x2x64 S1000000x1 S1000000x2x64 [1, 2] [0] [0] 1
  dot_S100000x128_S128x64_S100000x64_1_0_0_1_n_n_wf : DotDims.WF S100000x128 S128x64 S100000x64 [1] [0] [0] [1] [] []

variable [Facts₀]

def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x2x64_S1000000x1_S1000000x2x64_12_0_n_n_0_1_1264 : GatherDims S100000x2x64 S1000000x1 S1000000x2x64 where
  offsetDims := [1, 2]
  collapsedSliceDims := [0]
  operandBatchingDims := []
  startIndicesBatchingDims := []
  startIndexMap := [0]
  indexVectorDim := 1
  sliceSizes := ![1, 2, 64]
  wf := gather_S100000x2x64_S1000000x1_S1000000x2x64_12_0_n_n_0_1_1264_wf
def scatter_S100000x2x64_S1000000x1_S1000000x2x64_12_0_0_1 : ScatterDims S100000x2x64 S1000000x1 S1000000x2x64 where
  updateWindowDims := [1, 2]
  insertedWindowDims := [0]
  scatterDimsToOperandDims := [0]
  indexVectorDim := 1
  wf := scatter_S100000x2x64_S1000000x1_S1000000x2x64_12_0_0_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf

class Facts : Prop extends Facts₀ where

variable [Facts]
-- ==== Proof.RunFacts.lean ====
/-
  The reference's six lists of host operations (RunSegs.lean): every operation touches TensorCore references only,
  and none allocates a buffer. Stated per list; the run joins them.
-/
import proofs.«137203_j65584150610621_2_alg».proof.Proof.RunSegs

noncomputable section

namespace Cert.ReferenceIdeal.ValueP

open Cert.ReferenceIdeal Cert.ReferenceIdeal.Gen Idealize.ShloMosaic Idealize.ShloMosaic.TcCoe Idealize.SL.Sem Idealize.ShloMosaic.StableHlo

variable {F : FTy → Type} [FloatOps F]

set_option maxRecDepth 8192 in
/-- Every operation of list 1 touches TensorCore references only. -/
theorem ops1_sub : (ops1 : List (HloOp τ sig (Elt F))).Forall fun op => op.bufs ⊆ tcRefs τ sig :=
  ⟨unary_bufs_sub .., reshape_bufs_sub .., unary_bufs_sub .., reshape_bufs_sub .., unary_bufs_sub .., reshape_bufs_sub .., unary_bufs_sub .., reshape_bufs_sub .., unary_bufs_sub .., unary_bufs_sub .., binary_bufs_sub .., nullary_bufs_sub .., binary_bufs_sub .., unary_bufs_sub .., reshape_bufs_sub .., unary_bufs_sub .., reshape_bufs_sub .., binary_bufs_sub .., binary_bufs_sub .., unary_bufs_sub .., unary_bufs_sub .., binary_bufs_sub .., nullary_bufs_sub .., binary_bufs_sub .., unary_bufs_sub .., reshape_bufs_sub .., unary_bufs_sub .., reshape_bufs_sub .., binary_bufs_sub .., binary_bufs_sub .., binary_bufs_sub .., unary_bufs_sub .., unary_bufs_sub .., binary_bufs_sub .., nullary_bufs_sub .., binary_bufs_sub .., unary_bufs_sub .., reshape_bufs_sub .., unary_bufs_sub .., reshape_bufs_sub .., binary_bufs_sub .., binary_bufs_sub .., unary_bufs_sub .., unary_bufs_sub .., binary_bufs_sub .., nullary_bufs_sub .., binary_bufs_sub .., unary_bufs_sub .., reshape_bufs_sub .., unary_bufs_sub .., reshape_bufs_sub .., binary_bufs_sub .., binary_bufs_sub .., binary_bufs_sub .., unary_bufs_sub .., nullary_bufs_sub .., binary_bufs_sub .., nullary_bufs_sub .., unary_bufs_sub .., ternary_bufs_sub .., binary_bufs_sub ..⟩

set_option maxRecDepth 8192 in
/-- No operation of list 1 allocates a buffer. -/
theorem ops1_fresh : ∀ op ∈ (ops1 : List (HloOp τ sig (Elt F))), op.fresh = ∅ := by
  intro _ h; (repeat (cases h with | head => rfl | tail _ h => ?_)); exact nomatch h

set_option maxRecDepth 8192 in
/-- Every operation of list 2 touches TensorCore references only. -/
theorem ops2_sub : (ops2 : List (HloOp τ sig (Elt F))).Forall fun op => op.bufs ⊆ tcRefs τ sig :=
  ⟨unary_bufs_sub .., binary_bufs_sub .., nullary_bufs_sub .., binary_bufs_sub .., unary_bufs_sub .., unary_bufs_sub .., unary_bufs_sub .., nullary_bufs_sub .., unary_bufs_sub .., binary_bufs_sub .., unary_bufs_sub .., binary_bufs_sub .., unary_bufs_sub .., binary_bufs_sub .., unary_bufs_sub .., binary_bufs_sub .., unary_bufs_sub .., unary_bufs_sub .., binary_bufs_sub .., reshape_bufs_sub .., unary_bufs_sub .., binary_bufs_sub .., unary_bufs_sub .., unary_bufs_sub .., binary_bufs_sub .., reshape_bufs_sub .., unary_bufs_sub .., binary_bufs_sub .., unary_bufs_sub .., unary_bufs_sub .., binary_bufs_sub .., reshape_bufs_sub ..⟩

set_option maxRecDepth 8192 in
/-- No operation of list 2 allocates a buffer. -/
theorem ops2_fresh : ∀ op ∈ (ops2 : List (HloOp τ sig (Elt F))), op.fresh = ∅ := by
  intro _ h; (repeat (cases h with | head => rfl | tail _ h => ?_)); exact nomatch h

set_option maxRecDepth 8192 in
/-- Every operation of list 3 touches TensorCore references only. -/
theorem ops3_sub : (ops3 : List (HloOp τ sig (Elt F))).Forall fun op => op.bufs ⊆ tcRefs τ sig :=
  ⟨unary_bufs_sub .., reshape_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., binary_bufs_sub .., unary_bufs_sub .., unary_bufs_sub .., unary_bufs_sub .., nullary_bufs_sub .., unary_bufs_sub .., binary_bufs_sub .., unary_bufs_sub .., binary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., binary_bufs_sub .., unary_bufs_sub .., unary_bufs_sub .., unary_bufs_sub .., nullary_bufs_sub .., unary_bufs_sub .., binary_bufs_sub .., unary_bufs_sub .., binary_bufs_sub .., unary_bufs_sub .., binary_bufs_sub ..⟩

set_option maxRecDepth 8192 in
/-- No operation of list 3 allocates a buffer. -/
theorem ops3_fresh : ∀ op ∈ (ops3 : List (HloOp τ sig (Elt F))), op.fresh = ∅ := by
  intro _ h; (repeat (cases h with | head => rfl | tail _ h => ?_)); exact nomatch h

set_option maxRecDepth 8192 in
/-- Every operation of list 4 touches TensorCore references only. -/
theorem ops4_sub : (ops4 : List (HloOp τ sig (Elt F))).Forall fun op => op.bufs ⊆ tcRefs τ sig :=
  ⟨unary_bufs_sub .., unary_bufs_sub .., binary_bufs_sub .., nullary_bufs_sub .., binary_bufs_sub .., unary_bufs_sub .., reshape_bufs_sub .., unary_bufs_sub .., reshape_bufs_sub .., binary_bufs_sub .., binary_bufs_sub .., nullary_bufs_sub .., unary_bufs_sub .., binary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., binary_bufs_sub ..⟩

set_option maxRecDepth 8192 in
/-- No operation of list 4 allocates a buffer. -/
theorem ops4_fresh : ∀ op ∈ (ops4 : List (HloOp τ sig (Elt F))), op.fresh = ∅ := by
  intro _ h; (repeat (cases h with | head => rfl | tail _ h => ?_)); exact nomatch h

set_option maxRecDepth 8192 in
/-- Every operation of list 5 touches TensorCore references only. -/
theorem ops5_sub : (ops5 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., reshape_bufs_sub .., unary_bufs_sub .., binary_bufs_sub .., unary_bufs_sub .., unary_bufs_sub .., binary_bufs_sub ..⟩

set_option maxRecDepth 8192 in
/-- No operation of list 5 allocates a buffer. -/
theorem ops5_fresh : ∀ op ∈ (ops5 : List (HloOp τ sig (Elt F))), op.fresh = ∅ := by
  intro _ h; (repeat (cases h with | head => rfl | tail _ h => ?_)); exact nomatch h

set_option maxRecDepth 8192 in
/-- Every operation of list 6 touches TensorCore references only. -/
theorem ops6_sub : (ops6 : List (HloOp τ sig (Elt F))).Forall fun op => op.bufs ⊆ tcRefs τ sig :=
  ⟨unary_bufs_sub .., reshape_bufs_sub .., unary_bufs_sub .., reshape_bufs_sub .., unary_bufs_sub .., reshape_bufs_sub .., unary_bufs_sub .., reshape_bufs_sub .., unary_bufs_sub .., unary_bufs_sub .., binary_bufs_sub .., nullary_bufs_sub .., binary_bufs_sub .., unary_bufs_sub .., reshape_bufs_sub .., unary_bufs_sub .., reshape_bufs_sub .., binary_bufs_sub .., binary_bufs_sub .., unary_bufs_sub .., unary_bufs_sub .., binary_bufs_sub .., nullary_bufs_sub .., binary_bufs_sub .., unary_bufs_sub .., reshape_bufs_sub .., unary_bufs_sub .., reshape_bufs_sub .., binary_bufs_sub .., binary_bufs_sub .., binary_bufs_sub .., unary_bufs_sub .., unary_bufs_sub .., binary_bufs_sub .., nullary_bufs_sub .., binary_bufs_sub .., unary_bufs_sub .., reshape_bufs_sub .., unary_bufs_sub .., reshape_bufs_sub .., binary_bufs_sub .., binary_bufs_sub .., unary_bufs_sub .., unary_bufs_sub .., binary_bufs_sub .., nullary_bufs_sub .., binary_bufs_sub .., unary_bufs_sub .., reshape_bufs_sub .., unary_bufs_sub .., reshape_bufs_sub .., binary_bufs_sub .., binary_bufs_sub .., binary_bufs_sub .., unary_bufs_sub .., nullary_bufs_sub .., binary_bufs_sub .., nullary_bufs_sub .., unary_bufs_sub .., ternary_bufs_sub .., binary_bufs_sub .., unary_bufs_sub .., nullary_bufs_sub .., binary_bufs_sub .., nullary_bufs_sub .., unary_bufs_sub .., ternary_bufs_sub .., binary_bufs_sub .., unary_bufs_sub .., nullary_bufs_sub .., binary_bufs_sub .., unary_bufs_sub .., binary_bufs_sub ..⟩

set_option maxRecDepth 8192 in
/-- No operation of list 6 allocates a buffer. -/
theorem ops6_fresh : ∀ op ∈ (ops6 : List (HloOp τ sig (Elt F))), op.fresh = ∅ := by
  intro _ h; (repeat (cases h with | head => rfl | tail _ h => ?_)); exact nomatch h

end Cert.ReferenceIdeal.ValueP

end
-- ==== Proof.RefSeg.lean ====
/-
  The reference program's run, segment by segment: what each of the six consecutive segments of its operation line
  leaves in the buffers later segments read, as the stages of the reference applied to what the segment found.
-/
import proofs.«137203_j65584150610621_2_alg».proof.Proof.RunSegs
import proofs.«137203_j65584150610621_2_alg».proof.Proof.ReadP

noncomputable section

namespace Cert.ReferenceIdeal.RefRun

open Cert.ReferenceIdeal Cert.ReferenceIdeal.Gen Cert.ReferenceIdeal.ValueP Cert.ReferenceIdeal.ReadP
open Idealize.ShloMosaic Idealize.ShloMosaic.TcCoe Idealize.SL.Sem Idealize.ShloMosaic.StableHlo

/-- The contents after two lines of operations in a row are the second line's after the first's. -/
theorem after_append (l₁ l₂ : List (HloOp τ sig (Elt Ideal))) (V : Valuation τ sig (Elt Ideal)) :
    after (l₁ ++ l₂) V = after l₂ (after l₁ V) := by
  induction l₁ generalizing V with
  | nil => rfl
  | cons op l ih => simp only [List.cons_append, after_cons, ih]

/-- A line of operations that never writes a buffer leaves it as it was. -/
macro "line_keep" ops:ident : tactic => `(tactic|
  exact StableHlo.after_of_forall_not_mem _ _ (List.forall_iff_forall_mem.mp (by
    simp only [$ops:ident, List.flatten_cons, List.flatten_nil, List.append_nil, List.cons_append, List.nil_append, List.Forall,
      StableHlo.nullary_writes, StableHlo.unary_writes, StableHlo.binary_writes, StableHlo.ternary_writes, StableHlo.quaternary_writes,
      StableHlo.reshape_writes, StableHlo.binaryIndexed_writes, Finset.mem_singleton]
    repeat' apply And.intro
    all_goals exact StableHlo.devRef_ne_of_ne (by decide))))

variable (V : Valuation τ sig (Elt Ideal))
variable (x0 : (⟨S100000x128, .f32⟩ : BufTy).Contents (Elt Ideal)) (x1 : (⟨S2x1000000, .i32⟩ : BufTy).Contents (Elt Ideal))
  (x2 : (⟨S128x128, .f32⟩ : BufTy).Contents (Elt Ideal)) (x3 : (⟨S128, .f32⟩ : BufTy).Contents (Elt Ideal)) (x4 : (⟨S128x128, .f32⟩ : BufTy).Contents (Elt Ideal)) (x5 : (⟨S128, .f32⟩ : BufTy).Contents (Elt Ideal)) (x6 : (⟨S128x128, .f32⟩ : BufTy).Contents (Elt Ideal)) (x7 : (⟨S128, .f32⟩ : BufTy).Contents (Elt Ideal))
  (x8 : (⟨S64x128, .f32⟩ : BufTy).Contents (Elt Ideal)) (x9 : (⟨S64, .f32⟩ : BufTy).Contents (Elt Ideal))

/-! ## The segments -/

set_option maxHeartbeats 16000000 in
/-- Segment 1: the cross ratio of the input's first four rows. -/
theorem seg1_v53 (h0 : V (Proc.devRef .tc main_arg0) = x0) :
    after ops1 V (Proc.devRef .tc main_v53) = val_main_v53 (F := Ideal) x0 := by
  dsimp only [ops1]
  after_results_simp
  simp only [h0]
  rfl

/-- A line of operations is its first n followed by the rest. -/
theorem after_split (n : Nat) (l : List (HloOp τ sig (Elt Ideal))) (V : Valuation τ sig (Elt Ideal)) :
    after l V = after (l.drop n) (after (l.take n) V) := by
  rw [← after_append, List.take_append_drop]

/-! ### Segment 2, up to the normalized input's two pieces -/

set_option maxHeartbeats 16000000 in
theorem pre2_v60 (h0 : V (Proc.devRef .tc main_arg0) = x0) :
    after (ops2.take 13) V (Proc.devRef .tc main_v60) = val_main_v60 (F := Ideal) x0 := by
  dsimp only [ops2]
  simp only [List.take_succ_cons, List.take_zero]
  after_results_simp
  simp only [h0]
  rfl

set_option maxHeartbeats 16000000 in
theorem pre2_v61 (h0 : V (Proc.devRef .tc main_arg0) = x0) :
    after (ops2.take 13) V (Proc.devRef .tc main_v61) = val_main_v61 (F := Ideal) x0 := by
  dsimp only [ops2]
  simp only [List.take_succ_cons, List.take_zero]
  after_results_simp
  simp only [h0]
  rfl

set_option maxHeartbeats 16000000 in
theorem pre2_keep (b : Ref sig .tc) (hb : b = main_arg2 ∨ b = main_arg3 ∨ b = main_arg4 ∨ b = main_arg5 ∨ b = main_arg6 ∨ b = main_arg7) :
    after (ops2.take 13) V (Proc.devRef .tc b) = V (Proc.devRef .tc b) := by
  dsimp only [ops2]
  simp only [List.take_succ_cons, List.take_zero]
  rcases hb with rfl | rfl | rfl | rfl | rfl | rfl <;> after_results_simp

/-! ### Segment 2 from the concatenation on, at a valuation holding the two pieces -/

set_option maxHeartbeats 16000000 in
theorem suf2_v68 (h60 : V (Proc.devRef .tc main_v60) = val_main_v60 (F := Ideal) x0)
    (h61 : V (Proc.devRef .tc main_v61) = val_main_v61 (F := Ideal) x0)
    (h2 : V (Proc.devRef .tc main_arg2) = x2) (h3 : V (Proc.devRef .tc main_arg3) = x3) :
    after (ops2.drop 13) V (Proc.devRef .tc main_v68) = val_main_v68 (F := Ideal) x0 x2 x3 := by
  dsimp only [ops2]
  simp only [List.drop_succ_cons, List.drop_zero]
  after_results_simp
  rw [h60, h61, h2, h3]
  rfl

set_option maxHeartbeats 16000000 in
theorem suf2_v74 (h60 : V (Proc.devRef .tc main_v60) = val_main_v60 (F := Ideal) x0)
    (h61 : V (Proc.devRef .tc main_v61) = val_main_v61 (F := Ideal) x0)
    (h4 : V (Proc.devRef .tc main_arg4) = x4) (h5 : V (Proc.devRef .tc main_arg5) = x5) :
    after (ops2.drop 13) V (Proc.devRef .tc main_v74) = val_main_v74 (F := Ideal) x0 x4 x5 := by
  dsimp only [ops2]
  simp only [List.drop_succ_cons, List.drop_zero]
  after_results_simp
  rw [h60, h61, h4, h5]
  rfl

set_option maxHeartbeats 16000000 in
theorem suf2_v80 (h60 : V (Proc.devRef .tc main_v60) = val_main_v60 (F := Ideal) x0)
    (h61 : V (Proc.devRef .tc main_v61) = val_main_v61 (F := Ideal) x0)
    (h6 : V (Proc.devRef .tc main_arg6) = x6) (h7 : V (Proc.devRef .tc main_arg7) = x7) :
    after (ops2.drop 13) V (Proc.devRef .tc main_v80) = val_main_v80 (F := Ideal) x0 x6 x7 := by
  dsimp only [ops2]
  simp only [List.drop_succ_cons, List.drop_zero]
  after_results_simp
  rw [h60, h61, h6, h7]
  rfl

/-! ### Segment 2: the three projections of the normalized input, re-laid as [100000,2,64] -/

set_option maxHeartbeats 16000000 in
theorem seg2_v68 (h0 : V (Proc.devRef .tc main_arg0) = x0) (h2 : V (Proc.devRef .tc main_arg2) = x2) (h3 : V (Proc.devRef .tc main_arg3) = x3) :
    after ops2 V (Proc.devRef .tc main_v68) = val_main_v68 (F := Ideal) x0 x2 x3 := by
  rw [after_split 13 ops2 V]
  exact suf2_v68 _ x0 x2 x3 (pre2_v60 V x0 h0) (pre2_v61 V x0 h0)
    ((pre2_keep V main_arg2 (Or.inl rfl)).trans h2) ((pre2_keep V main_arg3 (Or.inr (Or.inl rfl))).trans h3)

set_option maxHeartbeats 16000000 in
theorem seg2_v74 (h0 : V (Proc.devRef .tc main_arg0) = x0) (h4 : V (Proc.devRef .tc main_arg4) = x4) (h5 : V (Proc.devRef .tc main_arg5) = x5) :
    after ops2 V (Proc.devRef .tc main_v74) = val_main_v74 (F := Ideal) x0 x4 x5 := by
  rw [after_split 13 ops2 V]
  exact suf2_v74 _ x0 x4 x5 (pre2_v60 V x0 h0) (pre2_v61 V x0 h0)
    ((pre2_keep V main_arg4 (Or.inr (Or.inr (Or.inl rfl)))).trans h4) ((pre2_keep V main_arg5 (Or.inr (Or.inr (Or.inr (Or.inl rfl))))).trans h5)

set_option maxHeartbeats 16000000 in
theorem seg2_v80 (h0 : V (Proc.devRef .tc main_arg0) = x0) (h6 : V (Proc.devRef .tc main_arg6) = x6) (h7 : V (Proc.devRef .tc main_arg7) = x7) :
    after ops2 V (Proc.devRef .tc main_v80) = val_main_v80 (F := Ideal) x0 x6 x7 := by
  rw [after_split 13 ops2 V]
  exact suf2_v80 _ x0 x6 x7 (pre2_v60 V x0 h0) (pre2_v61 V x0 h0)
    ((pre2_keep V main_arg6 (Or.inr (Or.inr (Or.inr (Or.inr (Or.inl rfl)))))).trans h6) ((pre2_keep V main_arg7 (Or.inr (Or.inr (Or.inr (Or.inr (Or.inr rfl)))))).trans h7)

/-! ### Segment 3: the edge list's two rows -/

set_option maxHeartbeats 16000000 in
/-- Segment 3: the edge list's two rows, the gathered and normalized rows of q and of k. -/
theorem seg3_v82 (h1 : V (Proc.devRef .tc main_arg1) = x1) : after ops3 V (Proc.devRef .tc main_v82) = val_main_v82 (F := Ideal) x1 := by
  dsimp only [ops3]
  after_results_simp
  simp only [h1]
  rfl
set_option maxHeartbeats 16000000 in
theorem seg3_v84 (h1 : V (Proc.devRef .tc main_arg1) = x1) : after ops3 V (Proc.devRef .tc main_v84) = val_main_v84 (F := Ideal) x1 := by
  dsimp only [ops3]
  after_results_simp
  simp only [h1]
  rfl

/-! ### Segments 4 and 5 -/

set_option maxHeartbeats 16000000 in
/-- Segment 4: the scores and their softmax over all edges. -/
theorem seg4_v139 (h100 : V (Proc.devRef .tc main_v100) = val_main_v100 (F := Ideal) x0 x1 x2 x3)
    (h116 : V (Proc.devRef .tc main_v116) = val_main_v116 (F := Ideal) x0 x1 x4 x5) :
    after ops4 V (Proc.devRef .tc main_v139) = val_main_v139 (F := Ideal) x0 x1 x2 x3 x4 x5 := by
  dsimp only [ops4]
  after_results_simp
  simp only [h100, h116]
  rfl

set_option maxHeartbeats 16000000 in
/-- Segment 5: the weighted messages, their sums per node, the output projection. -/
theorem seg5_v158 (h139 : V (Proc.devRef .tc main_v139) = val_main_v139 (F := Ideal) x0 x1 x2 x3 x4 x5)
    (h80 : V (Proc.devRef .tc main_v80) = val_main_v80 (F := Ideal) x0 x6 x7)
    (h82 : V (Proc.devRef .tc main_v82) = val_main_v82 (F := Ideal) x1) (h84 : V (Proc.devRef .tc main_v84) = val_main_v84 (F := Ideal) x1)
    (h8 : V (Proc.devRef .tc main_arg8) = x8) (h9 : V (Proc.devRef .tc main_arg9) = x9) :
    after ops5 V (Proc.devRef .tc main_v158) = val_main_v158 (F := Ideal) x0 x1 x2 x3 x4 x5 x6 x7 x8 x9 := by
  dsimp only [ops5]
  after_results_simp
  simp only [h139, h80, h82, h84, h8, h9]
  rfl

end Cert.ReferenceIdeal.RefRun

end
-- ==== Proof.RefSeg3a.lean ====
/-
  The third segment of the reference's line, the query side: the gathered rows of q with their first 63
  coordinates divided by max(norm, ε) and the last coordinate kept — a joining of two vectors along the last
  axis. The line is cut just before the joining: the two pieces are read after the prefix as the reference's
  stages, one operation group at a time, and the joining, over any contents holding those two pieces, is the
  reference's joined stage.
-/
import proofs.«137203_j65584150610621_2_alg».proof.Proof.RunSegs
import proofs.«137203_j65584150610621_2_alg».proof.Proof.ReadP
import Idealize.ShloMosaic.Lib.StableHlo.Run

noncomputable section

namespace Cert.ReferenceIdeal.RefRun

open Cert.ReferenceIdeal Cert.ReferenceIdeal.Gen Cert.ReferenceIdeal.ValueP Cert.ReferenceIdeal.ReadP
open Idealize.ShloMosaic Idealize.ShloMosaic.TcCoe Idealize.SL.Sem Idealize.ShloMosaic.StableHlo

/-- The contents after two lines of operations in a row are the second line's after the first's. -/
theorem s3_after_append (l₁ l₂ : List (HloOp τ sig (Elt Ideal))) (V : Valuation τ sig (Elt Ideal)) :
    after (l₁ ++ l₂) V = after l₂ (after l₁ V) := by
  induction l₁ generalizing V with
  | nil => rfl
  | cons op l ih => simp only [List.cons_append, after_cons, ih]

/-- A line of operations is its first n followed by the rest. -/
theorem s3_after_split (n : Nat) (l : List (HloOp τ sig (Elt Ideal))) (V : Valuation τ sig (Elt Ideal)) :
    after l V = after (l.drop n) (after (l.take n) V) := by
  rw [← s3_after_append, List.take_append_drop]

variable (V : Valuation τ sig (Elt Ideal))
variable (x0 : (⟨S100000x128, .f32⟩ : BufTy).Contents (Elt Ideal)) (x1 : (⟨S2x1000000, .i32⟩ : BufTy).Contents (Elt Ideal))
  (x2 : (⟨S128x128, .f32⟩ : BufTy).Contents (Elt Ideal)) (x3 : (⟨S128, .f32⟩ : BufTy).Contents (Elt Ideal)) (x4 : (⟨S128x128, .f32⟩ : BufTy).Contents (Elt Ideal)) (x5 : (⟨S128, .f32⟩ : BufTy).Contents (Elt Ideal)) (x6 : (⟨S128x128, .f32⟩ : BufTy).Contents (Elt Ideal)) (x7 : (⟨S128, .f32⟩ : BufTy).Contents (Elt Ideal))
  (x8 : (⟨S64x128, .f32⟩ : BufTy).Contents (Elt Ideal)) (x9 : (⟨S64, .f32⟩ : BufTy).Contents (Elt Ideal))

/-- The first 26 operations of the segment (through the last coordinate of the gathered query rows), read. -/
macro "s3_read_pre26" : tactic => `(tactic|
  (dsimp only [ops3]; simp only [List.take_succ_cons, List.take_zero]; after_results_simp))

set_option maxHeartbeats 16000000 in
/-- The gather's row indices: the edge list's row, negative entries wrapped. -/
theorem s3q_idx (h1 : V (Proc.devRef .tc main_arg1) = x1) : after (ops3.take 26) V (Proc.devRef .tc main_v90) = val_main_v90 (F := Ideal) x1 := by
  unfold val_main_v90 val_main_v89 val_main_v88 val_main_v87 val_main_c_6 val_main_v86 val_main_v85 val_main_c val_main_v82 val_main_v81
  rw [← h1]
  s3_read_pre26
  try rfl

set_option maxHeartbeats 16000000 in
/-- The table the rows are gathered from is not written by the prefix. -/
theorem s3q_table (h68 : V (Proc.devRef .tc main_v68) = val_main_v68 (F := Ideal) x0 x2 x3) : after (ops3.take 26) V (Proc.devRef .tc main_v68) = val_main_v68 (F := Ideal) x0 x2 x3 := by
  refine Eq.trans ?_ h68
  s3_read_pre26
  try rfl

set_option maxHeartbeats 16000000 in
/-- The gathered rows. -/
theorem s3q_rows (h1 : V (Proc.devRef .tc main_arg1) = x1) (h68 : V (Proc.devRef .tc main_v68) = val_main_v68 (F := Ideal) x0 x2 x3) : after (ops3.take 26) V (Proc.devRef .tc main_v91) = val_main_v91 (F := Ideal) x0 x1 x2 x3 := by
  unfold val_main_v91
  rw [← s3q_table V x0 x2 x3 h68, ← s3q_idx V x1 h1]
  s3_read_pre26
  try rfl

set_option maxHeartbeats 16000000 in
/-- Their first 63 coordinates. -/
theorem s3q_sp (h1 : V (Proc.devRef .tc main_arg1) = x1) (h68 : V (Proc.devRef .tc main_v68) = val_main_v68 (F := Ideal) x0 x2 x3) : after (ops3.take 26) V (Proc.devRef .tc main_v92) = val_main_v92 (F := Ideal) x0 x1 x2 x3 := by
  unfold val_main_v92
  rw [← s3q_rows V x0 x1 x2 x3 h1 h68]
  s3_read_pre26
  try rfl

set_option maxHeartbeats 16000000 in
/-- The squares. -/
theorem s3q_sq (h1 : V (Proc.devRef .tc main_arg1) = x1) (h68 : V (Proc.devRef .tc main_v68) = val_main_v68 (F := Ideal) x0 x2 x3) : after (ops3.take 26) V (Proc.devRef .tc main_call2_v0) = val_main_call2_v0 (F := Ideal) x0 x1 x2 x3 := by
  unfold val_main_call2_v0
  rw [← s3q_sp V x0 x1 x2 x3 h1 h68]
  s3_read_pre26
  try rfl

set_option maxHeartbeats 16000000 in
/-- The sums of squares. -/
theorem s3q_ss (h1 : V (Proc.devRef .tc main_arg1) = x1) (h68 : V (Proc.devRef .tc main_v68) = val_main_v68 (F := Ideal) x0 x2 x3) : after (ops3.take 26) V (Proc.devRef .tc main_call2_v1) = val_main_call2_v1 (F := Ideal) x0 x1 x2 x3 := by
  unfold val_main_call2_v1 val_main_call2_cst
  rw [← s3q_sq V x0 x1 x2 x3 h1 h68]
  s3_read_pre26
  try rfl

set_option maxHeartbeats 16000000 in
/-- The sums of squares with a trailing unit axis. -/
theorem s3q_ss1 (h1 : V (Proc.devRef .tc main_arg1) = x1) (h68 : V (Proc.devRef .tc main_v68) = val_main_v68 (F := Ideal) x0 x2 x3) : after (ops3.take 26) V (Proc.devRef .tc main_call2_v2) = val_main_call2_v2 (F := Ideal) x0 x1 x2 x3 := by
  unfold val_main_call2_v2
  rw [← s3q_ss V x0 x1 x2 x3 h1 h68]
  s3_read_pre26
  try rfl

set_option maxHeartbeats 16000000 in
/-- The norms. -/
theorem s3q_norm (h1 : V (Proc.devRef .tc main_arg1) = x1) (h68 : V (Proc.devRef .tc main_v68) = val_main_v68 (F := Ideal) x0 x2 x3) : after (ops3.take 26) V (Proc.devRef .tc main_v93) = val_main_v93 (F := Ideal) x0 x1 x2 x3 := by
  unfold val_main_v93
  rw [← s3q_ss1 V x0 x1 x2 x3 h1 h68]
  s3_read_pre26
  try rfl

set_option maxHeartbeats 16000000 in
/-- The norms, at least ε. -/
theorem s3q_den (h1 : V (Proc.devRef .tc main_arg1) = x1) (h68 : V (Proc.devRef .tc main_v68) = val_main_v68 (F := Ideal) x0 x2 x3) : after (ops3.take 26) V (Proc.devRef .tc main_v96) = val_main_v96 (F := Ideal) x0 x1 x2 x3 := by
  unfold val_main_v96 val_main_v95 val_main_cst_7
  rw [← s3q_norm V x0 x1 x2 x3 h1 h68]
  s3_read_pre26
  try rfl

set_option maxHeartbeats 16000000 in
/-- The first 63 coordinates divided by the guarded norm. -/
theorem s3q_unit (h1 : V (Proc.devRef .tc main_arg1) = x1) (h68 : V (Proc.devRef .tc main_v68) = val_main_v68 (F := Ideal) x0 x2 x3) : after (ops3.take 26) V (Proc.devRef .tc main_v98) = val_main_v98 (F := Ideal) x0 x1 x2 x3 := by
  unfold val_main_v98 val_main_v97 val_main_v94
  rw [← s3q_den V x0 x1 x2 x3 h1 h68, ← s3q_rows V x0 x1 x2 x3 h1 h68]
  s3_read_pre26
  try rfl

set_option maxHeartbeats 16000000 in
/-- The last coordinate. -/
theorem s3q_last (h1 : V (Proc.devRef .tc main_arg1) = x1) (h68 : V (Proc.devRef .tc main_v68) = val_main_v68 (F := Ideal) x0 x2 x3) : after (ops3.take 26) V (Proc.devRef .tc main_v99) = val_main_v99 (F := Ideal) x0 x1 x2 x3 := by
  unfold val_main_v99
  rw [← s3q_rows V x0 x1 x2 x3 h1 h68]
  s3_read_pre26
  try rfl

set_option maxHeartbeats 16000000 in
/-- The joining, over any contents holding the two pieces. -/
theorem s3q_join (h98 : V (Proc.devRef .tc main_v98) = val_main_v98 (F := Ideal) x0 x1 x2 x3)
    (h99 : V (Proc.devRef .tc main_v99) = val_main_v99 (F := Ideal) x0 x1 x2 x3) :
    after (ops3.drop 26) V (Proc.devRef .tc main_v100) = val_main_v100 (F := Ideal) x0 x1 x2 x3 := by
  dsimp only [ops3]
  simp only [List.drop_succ_cons, List.drop_zero]
  after_results_simp
  rw [h98, h99]
  rfl

/-- Segment 3: the normalized gathered rows of q. -/
theorem seg3_v100 (h1 : V (Proc.devRef .tc main_arg1) = x1) (h68 : V (Proc.devRef .tc main_v68) = val_main_v68 (F := Ideal) x0 x2 x3) :
    after ops3 V (Proc.devRef .tc main_v100) = val_main_v100 (F := Ideal) x0 x1 x2 x3 := by
  rw [s3_after_split 26 ops3 V]
  exact s3q_join _ x0 x1 x2 x3 (s3q_unit V x0 x1 x2 x3 h1 h68) (s3q_last V x0 x1 x2 x3 h1 h68)

end Cert.ReferenceIdeal.RefRun

end
-- ==== Proof.RefSeg3.lean ====
/-
  The third segment of the reference's line, the key side: the gathered rows of k with their first 63
  coordinates divided by max(norm, ε) and the last coordinate kept, read as on the query side: the line is cut
  just before the joining, which is its last operation.
-/
import proofs.«137203_j65584150610621_2_alg».proof.Proof.RunSegs
import proofs.«137203_j65584150610621_2_alg».proof.Proof.ReadP
import proofs.«137203_j65584150610621_2_alg».proof.Proof.RefSeg3a
import Idealize.ShloMosaic.Lib.StableHlo.Run

noncomputable section

namespace Cert.ReferenceIdeal.RefRun

open Cert.ReferenceIdeal Cert.ReferenceIdeal.Gen Cert.ReferenceIdeal.ValueP Cert.ReferenceIdeal.ReadP
open Idealize.ShloMosaic Idealize.ShloMosaic.TcCoe Idealize.SL.Sem Idealize.ShloMosaic.StableHlo

variable (V : Valuation τ sig (Elt Ideal))
variable (x0 : (⟨S100000x128, .f32⟩ : BufTy).Contents (Elt Ideal)) (x1 : (⟨S2x1000000, .i32⟩ : BufTy).Contents (Elt Ideal))
  (x2 : (⟨S128x128, .f32⟩ : BufTy).Contents (Elt Ideal)) (x3 : (⟨S128, .f32⟩ : BufTy).Contents (Elt Ideal)) (x4 : (⟨S128x128, .f32⟩ : BufTy).Contents (Elt Ideal)) (x5 : (⟨S128, .f32⟩ : BufTy).Contents (Elt Ideal)) (x6 : (⟨S128x128, .f32⟩ : BufTy).Contents (Elt Ideal)) (x7 : (⟨S128, .f32⟩ : BufTy).Contents (Elt Ideal))
  (x8 : (⟨S64x128, .f32⟩ : BufTy).Contents (Elt Ideal)) (x9 : (⟨S64, .f32⟩ : BufTy).Contents (Elt Ideal))

/-- The first 49 operations of the segment (through the last coordinate of the gathered key rows), read. -/
macro "s3_read_pre49" : tactic => `(tactic|
  (dsimp only [ops3]; simp only [List.take_succ_cons, List.take_zero]; after_results_simp))

set_option maxHeartbeats 16000000 in
/-- The gather's row indices: the edge list's row, negative entries wrapped. -/
theorem s3k_idx (h1 : V (Proc.devRef .tc main_arg1) = x1) : after (ops3.take 49) V (Proc.devRef .tc main_v106) = val_main_v106 (F := Ideal) x1 := by
  unfold val_main_v106 val_main_v105 val_main_v104 val_main_v103 val_main_c_9 val_main_v102 val_main_v101 val_main_c_8 val_main_v84 val_main_v83
  rw [← h1]
  s3_read_pre49
  try rfl

set_option maxHeartbeats 16000000 in
/-- The table the rows are gathered from is not written by the prefix. -/
theorem s3k_table (h74 : V (Proc.devRef .tc main_v74) = val_main_v74 (F := Ideal) x0 x4 x5) : after (ops3.take 49) V (Proc.devRef .tc main_v74) = val_main_v74 (F := Ideal) x0 x4 x5 := by
  refine Eq.trans ?_ h74
  s3_read_pre49
  try rfl

set_option maxHeartbeats 16000000 in
/-- The gathered rows. -/
theorem s3k_rows (h1 : V (Proc.devRef .tc main_arg1) = x1) (h74 : V (Proc.devRef .tc main_v74) = val_main_v74 (F := Ideal) x0 x4 x5) : after (ops3.take 49) V (Proc.devRef .tc main_v107) = val_main_v107 (F := Ideal) x0 x1 x4 x5 := by
  unfold val_main_v107
  rw [← s3k_table V x0 x4 x5 h74, ← s3k_idx V x1 h1]
  s3_read_pre49
  try rfl

set_option maxHeartbeats 16000000 in
/-- Their first 63 coordinates. -/
theorem s3k_sp (h1 : V (Proc.devRef .tc main_arg1) = x1) (h74 : V (Proc.devRef .tc main_v74) = val_main_v74 (F := Ideal) x0 x4 x5) : after (ops3.take 49) V (Proc.devRef .tc main_v108) = val_main_v108 (F := Ideal) x0 x1 x4 x5 := by
  unfold val_main_v108
  rw [← s3k_rows V x0 x1 x4 x5 h1 h74]
  s3_read_pre49
  try rfl

set_option maxHeartbeats 16000000 in
/-- The squares. -/
theorem s3k_sq (h1 : V (Proc.devRef .tc main_arg1) = x1) (h74 : V (Proc.devRef .tc main_v74) = val_main_v74 (F := Ideal) x0 x4 x5) : after (ops3.take 49) V (Proc.devRef .tc main_call3_v0) = val_main_call3_v0 (F := Ideal) x0 x1 x4 x5 := by
  unfold val_main_call3_v0
  rw [← s3k_sp V x0 x1 x4 x5 h1 h74]
  s3_read_pre49
  try rfl

set_option maxHeartbeats 16000000 in
/-- The sums of squares. -/
theorem s3k_ss (h1 : V (Proc.devRef .tc main_arg1) = x1) (h74 : V (Proc.devRef .tc main_v74) = val_main_v74 (F := Ideal) x0 x4 x5) : after (ops3.take 49) V (Proc.devRef .tc main_call3_v1) = val_main_call3_v1 (F := Ideal) x0 x1 x4 x5 := by
  unfold val_main_call3_v1 val_main_call3_cst
  rw [← s3k_sq V x0 x1 x4 x5 h1 h74]
  s3_read_pre49
  try rfl

set_option maxHeartbeats 16000000 in
/-- The sums of squares with a trailing unit axis. -/
theorem s3k_ss1 (h1 : V (Proc.devRef .tc main_arg1) = x1) (h74 : V (Proc.devRef .tc main_v74) = val_main_v74 (F := Ideal) x0 x4 x5) : after (ops3.take 49) V (Proc.devRef .tc main_call3_v2) = val_main_call3_v2 (F := Ideal) x0 x1 x4 x5 := by
  unfold val_main_call3_v2
  rw [← s3k_ss V x0 x1 x4 x5 h1 h74]
  s3_read_pre49
  try rfl

set_option maxHeartbeats 16000000 in
/-- The norms. -/
theorem s3k_norm (h1 : V (Proc.devRef .tc main_arg1) = x1) (h74 : V (Proc.devRef .tc main_v74) = val_main_v74 (F := Ideal) x0 x4 x5) : after (ops3.take 49) V (Proc.devRef .tc main_v109) = val_main_v109 (F := Ideal) x0 x1 x4 x5 := by
  unfold val_main_v109
  rw [← s3k_ss1 V x0 x1 x4 x5 h1 h74]
  s3_read_pre49
  try rfl

set_option maxHeartbeats 16000000 in
/-- The norms, at least ε. -/
theorem s3k_den (h1 : V (Proc.devRef .tc main_arg1) = x1) (h74 : V (Proc.devRef .tc main_v74) = val_main_v74 (F := Ideal) x0 x4 x5) : after (ops3.take 49) V (Proc.devRef .tc main_v112) = val_main_v112 (F := Ideal) x0 x1 x4 x5 := by
  unfold val_main_v112 val_main_v111 val_main_cst_10
  rw [← s3k_norm V x0 x1 x4 x5 h1 h74]
  s3_read_pre49
  try rfl

set_option maxHeartbeats 16000000 in
/-- The first 63 coordinates divided by the guarded norm. -/
theorem s3k_unit (h1 : V (Proc.devRef .tc main_arg1) = x1) (h74 : V (Proc.devRef .tc main_v74) = val_main_v74 (F := Ideal) x0 x4 x5) : after (ops3.take 49) V (Proc.devRef .tc main_v114) = val_main_v114 (F := Ideal) x0 x1 x4 x5 := by
  unfold val_main_v114 val_main_v113 val_main_v110
  rw [← s3k_den V x0 x1 x4 x5 h1 h74, ← s3k_rows V x0 x1 x4 x5 h1 h74]
  s3_read_pre49
  try rfl

set_option maxHeartbeats 16000000 in
/-- The last coordinate. -/
theorem s3k_last (h1 : V (Proc.devRef .tc main_arg1) = x1) (h74 : V (Proc.devRef .tc main_v74) = val_main_v74 (F := Ideal) x0 x4 x5) : after (ops3.take 49) V (Proc.devRef .tc main_v115) = val_main_v115 (F := Ideal) x0 x1 x4 x5 := by
  unfold val_main_v115
  rw [← s3k_rows V x0 x1 x4 x5 h1 h74]
  s3_read_pre49
  try rfl

set_option maxHeartbeats 16000000 in
/-- The joining, over any contents holding the two pieces. -/
theorem s3k_join (h114 : V (Proc.devRef .tc main_v114) = val_main_v114 (F := Ideal) x0 x1 x4 x5)
    (h115 : V (Proc.devRef .tc main_v115) = val_main_v115 (F := Ideal) x0 x1 x4 x5) :
    after (ops3.drop 49) V (Proc.devRef .tc main_v116) = val_main_v116 (F := Ideal) x0 x1 x4 x5 := by
  dsimp only [ops3]
  simp only [List.drop_succ_cons, List.drop_zero]
  after_results_simp
  rw [h114, h115]
  rfl

/-- Segment 3: the normalized gathered rows of k. -/
theorem seg3_v116 (h1 : V (Proc.devRef .tc main_arg1) = x1) (h74 : V (Proc.devRef .tc main_v74) = val_main_v74 (F := Ideal) x0 x4 x5) :
    after ops3 V (Proc.devRef .tc main_v116) = val_main_v116 (F := Ideal) x0 x1 x4 x5 := by
  rw [s3_after_split 49 ops3 V]
  exact s3k_join _ x0 x1 x4 x5 (s3k_unit V x0 x1 x4 x5 h1 h74) (s3k_last V x0 x1 x4 x5 h1 h74)

end Cert.ReferenceIdeal.RefRun

end
-- ==== Proof.RefSeg6a.lean ====
/-
  The last segment of the reference's line, first part: the first four rows of the projected output as vectors
  of 64 entries, the two products of hyperbolic inner products ⟨p1,p3⟩·⟨p2,p4⟩ and ⟨p1,p4⟩·⟨p2,p3⟩ of those rows,
  and the test |denominator| < ε, each read back as the reference's stage of the argument arrays.
  The inner product of two vectors is ⟨a, b⟩ = Σ_{d<63} a(d)·b(d) − a(63)·b(63).
-/
import proofs.«137203_j65584150610621_2_alg».proof.Proof.RunSegs
import proofs.«137203_j65584150610621_2_alg».proof.Proof.ReadP
import Idealize.ShloMosaic.Lib.StableHlo.Run

noncomputable section

namespace Cert.ReferenceIdeal.RefRun

open Cert.ReferenceIdeal Cert.ReferenceIdeal.Gen Cert.ReferenceIdeal.ValueP Cert.ReferenceIdeal.ReadP
open Idealize.ShloMosaic Idealize.ShloMosaic.TcCoe Idealize.SL.Sem Idealize.ShloMosaic.StableHlo

variable (V : Valuation τ sig (Elt Ideal))
variable (x0 : (⟨S100000x128, .f32⟩ : BufTy).Contents (Elt Ideal)) (x1 : (⟨S2x1000000, .i32⟩ : BufTy).Contents (Elt Ideal))
  (x2 : (⟨S128x128, .f32⟩ : BufTy).Contents (Elt Ideal)) (x3 : (⟨S128, .f32⟩ : BufTy).Contents (Elt Ideal)) (x4 : (⟨S128x128, .f32⟩ : BufTy).Contents (Elt Ideal)) (x5 : (⟨S128, .f32⟩ : BufTy).Contents (Elt Ideal)) (x6 : (⟨S128x128, .f32⟩ : BufTy).Contents (Elt Ideal)) (x7 : (⟨S128, .f32⟩ : BufTy).Contents (Elt Ideal))
  (x8 : (⟨S64x128, .f32⟩ : BufTy).Contents (Elt Ideal)) (x9 : (⟨S64, .f32⟩ : BufTy).Contents (Elt Ideal))

set_option maxHeartbeats 8000000 in
/-- Row 0 of the projected output as a vector. -/
theorem s6_row0 (h158 : V (Proc.devRef .tc main_v158) = val_main_v158 (F := Ideal) x0 x1 x2 x3 x4 x5 x6 x7 x8 x9) :
    after ops6 V (Proc.devRef .tc main_v160) = val_main_v160 (F := Ideal) x0 x1 x2 x3 x4 x5 x6 x7 x8 x9 := by
  have e : after ops6 V (Proc.devRef .tc main_v160) = shapeCast S64 (extractStridedSlice S1x64 ![0, 0] (V (Proc.devRef .tc main_v158)) slices_S100000x64_S1x64_0_0) shapeCasts_S1x64_S64 := by
    after_results_simp
    rfl
  rw [e, h158]
  rfl

set_option maxHeartbeats 8000000 in
/-- Row 1 of the projected output as a vector. -/
theorem s6_row1 (h158 : V (Proc.devRef .tc main_v158) = val_main_v158 (F := Ideal) x0 x1 x2 x3 x4 x5 x6 x7 x8 x9) :
    after ops6 V (Proc.devRef .tc main_v162) = val_main_v162 (F := Ideal) x0 x1 x2 x3 x4 x5 x6 x7 x8 x9 := by
  have e : after ops6 V (Proc.devRef .tc main_v162) = shapeCast S64 (extractStridedSlice S1x64 ![1, 0] (V (Proc.devRef .tc main_v158)) slices_S100000x64_S1x64_1_0) shapeCasts_S1x64_S64 := by
    after_results_simp
    rfl
  rw [e, h158]
  rfl

set_option maxHeartbeats 8000000 in
/-- Row 2 of the projected output as a vector. -/
theorem s6_row2 (h158 : V (Proc.devRef .tc main_v158) = val_main_v158 (F := Ideal) x0 x1 x2 x3 x4 x5 x6 x7 x8 x9) :
    after ops6 V (Proc.devRef .tc main_v164) = val_main_v164 (F := Ideal) x0 x1 x2 x3 x4 x5 x6 x7 x8 x9 := by
  have e : after ops6 V (Proc.devRef .tc main_v164) = shapeCast S64 (extractStridedSlice S1x64 ![2, 0] (V (Proc.devRef .tc main_v158)) slices_S100000x64_S1x64_2_0) shapeCasts_S1x64_S64 := by
    after_results_simp
    rfl
  rw [e, h158]
  rfl

set_option maxHeartbeats 8000000 in
/-- Row 3 of the projected output as a vector. -/
theorem s6_row3 (h158 : V (Proc.devRef .tc main_v158) = val_main_v158 (F := Ideal) x0 x1 x2 x3 x4 x5 x6 x7 x8 x9) :
    after ops6 V (Proc.devRef .tc main_v166) = val_main_v166 (F := Ideal) x0 x1 x2 x3 x4 x5 x6 x7 x8 x9 := by
  have e : after ops6 V (Proc.devRef .tc main_v166) = shapeCast S64 (extractStridedSlice S1x64 ![3, 0] (V (Proc.devRef .tc main_v158)) slices_S100000x64_S1x64_3_0) shapeCasts_S1x64_S64 := by
    after_results_simp
    rfl
  rw [e, h158]
  rfl

/-- The hyperbolic inner product of two vectors of 64 entries, as the line spells it. -/
def s6_inner (a b : FVec Ideal S64 .f32) : FVec Ideal S_ .f32 :=
  subf
    (Host.reduceAdd (F := Ideal) (mulf (extractStridedSlice S63 ![0] a slices_S64_S63_0) (extractStridedSlice S63 ![0] b slices_S64_S63_0))
      (constant (F := Ideal) S_ .f32 0x00000000#32) reducesTo_S63_S_d0 h_S_)
    (mulf (shapeCast S_ (extractStridedSlice S1 ![63] a slices_S64_S1_63) shapeCasts_S1_S_)
      (shapeCast S_ (extractStridedSlice S1 ![63] b slices_S64_S1_63) shapeCasts_S1_S_))

set_option maxHeartbeats 16000000 in
/-- The numerator ⟨p1,p3⟩·⟨p2,p4⟩. -/
theorem s6_num (h158 : V (Proc.devRef .tc main_v158) = val_main_v158 (F := Ideal) x0 x1 x2 x3 x4 x5 x6 x7 x8 x9) :
    after ops6 V (Proc.devRef .tc main_v187) = val_main_v187 (F := Ideal) x0 x1 x2 x3 x4 x5 x6 x7 x8 x9 := by
  have e : after ops6 V (Proc.devRef .tc main_v187) =
      mulf (s6_inner (after ops6 V (Proc.devRef .tc main_v160)) (after ops6 V (Proc.devRef .tc main_v164)))
        (s6_inner (after ops6 V (Proc.devRef .tc main_v162)) (after ops6 V (Proc.devRef .tc main_v166))) := by
    unfold s6_inner
    after_results_simp
    rfl
  rw [e, s6_row0 V x0 x1 x2 x3 x4 x5 x6 x7 x8 x9 h158, s6_row1 V x0 x1 x2 x3 x4 x5 x6 x7 x8 x9 h158, s6_row2 V x0 x1 x2 x3 x4 x5 x6 x7 x8 x9 h158, s6_row3 V x0 x1 x2 x3 x4 x5 x6 x7 x8 x9 h158]
  rfl

set_option maxHeartbeats 16000000 in
/-- The denominator ⟨p1,p4⟩·⟨p2,p3⟩. -/
theorem s6_den (h158 : V (Proc.devRef .tc main_v158) = val_main_v158 (F := Ideal) x0 x1 x2 x3 x4 x5 x6 x7 x8 x9) :
    after ops6 V (Proc.devRef .tc main_v208) = val_main_v208 (F := Ideal) x0 x1 x2 x3 x4 x5 x6 x7 x8 x9 := by
  have e : after ops6 V (Proc.devRef .tc main_v208) =
      mulf (s6_inner (after ops6 V (Proc.devRef .tc main_v160)) (after ops6 V (Proc.devRef .tc main_v166)))
        (s6_inner (after ops6 V (Proc.devRef .tc main_v162)) (after ops6 V (Proc.devRef .tc main_v164))) := by
    unfold s6_inner
    after_results_simp
    rfl
  rw [e, s6_row0 V x0 x1 x2 x3 x4 x5 x6 x7 x8 x9 h158, s6_row1 V x0 x1 x2 x3 x4 x5 x6 x7 x8 x9 h158, s6_row2 V x0 x1 x2 x3 x4 x5 x6 x7 x8 x9 h158, s6_row3 V x0 x1 x2 x3 x4 x5 x6 x7 x8 x9 h158]
  rfl

set_option maxHeartbeats 16000000 in
/-- The test |denominator| < ε. -/
theorem s6_cmp (h158 : V (Proc.devRef .tc main_v158) = val_main_v158 (F := Ideal) x0 x1 x2 x3 x4 x5 x6 x7 x8 x9) :
    after ops6 V (Proc.devRef .tc main_v210) = val_main_v210 (F := Ideal) x0 x1 x2 x3 x4 x5 x6 x7 x8 x9 := by
  have e : after ops6 V (Proc.devRef .tc main_v210) =
      cmpf .olt (Host.absf (F := Ideal) (after ops6 V (Proc.devRef .tc main_v208))) (constant (F := Ideal) S_ .f32 0x3089705F#32) := by
    after_results_simp
    try rfl
  rw [e, s6_den V x0 x1 x2 x3 x4 x5 x6 x7 x8 x9 h158]
  rfl

end Cert.ReferenceIdeal.RefRun

end
-- ==== Proof.RefSeg6.lean ====
/-
  The last segment of the reference's line: from the first four rows of the projected output, the guarded cross
  ratio (numerator / guard(denominator), guard(x) = ε where |x| < ε and x otherwise), the scale
  |cr_in / guard(cr_out)|^(1/4), and the result: the projected output times the scale. Each buffer is read back
  as the reference's stage of the argument arrays, one operation group at a time.
-/
import proofs.«137203_j65584150610621_2_alg».proof.Proof.RunSegs
import proofs.«137203_j65584150610621_2_alg».proof.Proof.ReadP
import proofs.«137203_j65584150610621_2_alg».proof.Proof.RefSeg6a
import Idealize.ShloMosaic.Lib.StableHlo.Run

noncomputable section

namespace Cert.ReferenceIdeal.RefRun

open Cert.ReferenceIdeal Cert.ReferenceIdeal.Gen Cert.ReferenceIdeal.ValueP Cert.ReferenceIdeal.ReadP
open Idealize.ShloMosaic Idealize.ShloMosaic.TcCoe Idealize.SL.Sem Idealize.ShloMosaic.StableHlo

variable (V : Valuation τ sig (Elt Ideal))
variable (x0 : (⟨S100000x128, .f32⟩ : BufTy).Contents (Elt Ideal)) (x1 : (⟨S2x1000000, .i32⟩ : BufTy).Contents (Elt Ideal))
  (x2 : (⟨S128x128, .f32⟩ : BufTy).Contents (Elt Ideal)) (x3 : (⟨S128, .f32⟩ : BufTy).Contents (Elt Ideal)) (x4 : (⟨S128x128, .f32⟩ : BufTy).Contents (Elt Ideal)) (x5 : (⟨S128, .f32⟩ : BufTy).Contents (Elt Ideal)) (x6 : (⟨S128x128, .f32⟩ : BufTy).Contents (Elt Ideal)) (x7 : (⟨S128, .f32⟩ : BufTy).Contents (Elt Ideal))
  (x8 : (⟨S64x128, .f32⟩ : BufTy).Contents (Elt Ideal)) (x9 : (⟨S64, .f32⟩ : BufTy).Contents (Elt Ideal))

set_option maxHeartbeats 16000000 in
/-- The first guard: ε where the test holds, the denominator otherwise. -/
theorem s6_g1 (h158 : V (Proc.devRef .tc main_v158) = val_main_v158 (F := Ideal) x0 x1 x2 x3 x4 x5 x6 x7 x8 x9) :
    after ops6 V (Proc.devRef .tc main_v211) = val_main_v211 (F := Ideal) x0 x1 x2 x3 x4 x5 x6 x7 x8 x9 := by
  have e : after ops6 V (Proc.devRef .tc main_v211) = select (after ops6 V (Proc.devRef .tc main_v210)) (constant (F := Ideal) S_ .f32 0x3089705F#32) (after ops6 V (Proc.devRef .tc main_v208)) := by
    after_results_simp
    try rfl
  rw [e, s6_cmp V x0 x1 x2 x3 x4 x5 x6 x7 x8 x9 h158, s6_den V x0 x1 x2 x3 x4 x5 x6 x7 x8 x9 h158]
  unfold val_main_v211 val_main_call4_v0 val_main_cst_24
  rfl

set_option maxHeartbeats 16000000 in
/-- The output's cross ratio. -/
theorem s6_cr (h158 : V (Proc.devRef .tc main_v158) = val_main_v158 (F := Ideal) x0 x1 x2 x3 x4 x5 x6 x7 x8 x9) :
    after ops6 V (Proc.devRef .tc main_v212) = val_main_v212 (F := Ideal) x0 x1 x2 x3 x4 x5 x6 x7 x8 x9 := by
  have e : after ops6 V (Proc.devRef .tc main_v212) = Host.divf (F := Ideal) (s := S_) (φ := .f32) (after ops6 V (Proc.devRef .tc main_v187)) (after ops6 V (Proc.devRef .tc main_v211)) := by
    after_results_simp
    try rfl
  rw [e, s6_num V x0 x1 x2 x3 x4 x5 x6 x7 x8 x9 h158, s6_g1 V x0 x1 x2 x3 x4 x5 x6 x7 x8 x9 h158]
  unfold val_main_v212
  rfl

set_option maxHeartbeats 16000000 in
/-- The test |cross ratio| < ε. -/
theorem s6_t2 (h158 : V (Proc.devRef .tc main_v158) = val_main_v158 (F := Ideal) x0 x1 x2 x3 x4 x5 x6 x7 x8 x9) :
    after ops6 V (Proc.devRef .tc main_v214) = val_main_v214 (F := Ideal) x0 x1 x2 x3 x4 x5 x6 x7 x8 x9 := by
  have e : after ops6 V (Proc.devRef .tc main_v214) = cmpf .olt (Host.absf (F := Ideal) (s := S_) (φ := .f32) (after ops6 V (Proc.devRef .tc main_v212))) (constant (F := Ideal) S_ .f32 0x3089705F#32) := by
    after_results_simp
    try rfl
  rw [e, s6_cr V x0 x1 x2 x3 x4 x5 x6 x7 x8 x9 h158]
  unfold val_main_v214 val_main_v213 val_main_cst_25
  rfl

set_option maxHeartbeats 16000000 in
/-- The second guard. -/
theorem s6_g2 (h158 : V (Proc.devRef .tc main_v158) = val_main_v158 (F := Ideal) x0 x1 x2 x3 x4 x5 x6 x7 x8 x9) :
    after ops6 V (Proc.devRef .tc main_v215) = val_main_v215 (F := Ideal) x0 x1 x2 x3 x4 x5 x6 x7 x8 x9 := by
  have e : after ops6 V (Proc.devRef .tc main_v215) = select (after ops6 V (Proc.devRef .tc main_v214)) (constant (F := Ideal) S_ .f32 0x3089705F#32) (after ops6 V (Proc.devRef .tc main_v212)) := by
    after_results_simp
    try rfl
  rw [e, s6_t2 V x0 x1 x2 x3 x4 x5 x6 x7 x8 x9 h158, s6_cr V x0 x1 x2 x3 x4 x5 x6 x7 x8 x9 h158]
  unfold val_main_v215 val_main_call5_v0 val_main_cst_26
  rfl

set_option maxHeartbeats 16000000 in
/-- Segment 6: the output's cross ratio, the scale, the result. -/
theorem seg6_v220 (h158 : V (Proc.devRef .tc main_v158) = val_main_v158 (F := Ideal) x0 x1 x2 x3 x4 x5 x6 x7 x8 x9)
    (h53 : V (Proc.devRef .tc main_v53) = val_main_v53 (F := Ideal) x0) :
    after ops6 V (Proc.devRef .tc main_v220) = val_main_v220 (F := Ideal) x0 x1 x2 x3 x4 x5 x6 x7 x8 x9 := by
  have e : after ops6 V (Proc.devRef .tc main_v220) = mulf (V (Proc.devRef .tc main_v158))
      (broadcastInDim S100000x64 ![] bcast_S_S100000x64
        (Host.powf (F := Ideal) (s := S_) (φ := .f32) (Host.absf (F := Ideal) (Host.divf (F := Ideal) (V (Proc.devRef .tc main_v53)) (after ops6 V (Proc.devRef .tc main_v215))))
          (constant (F := Ideal) S_ .f32 0x3E800000#32))) := by
    after_results_simp
    try rfl
  rw [e, h158, h53, s6_g2 V x0 x1 x2 x3 x4 x5 x6 x7 x8 x9 h158]
  unfold val_main_v220 val_main_v219 val_main_v218 val_main_v217 val_main_v216 val_main_cst_27
  rfl

end Cert.ReferenceIdeal.RefRun

end
-- ==== Proof.RefKeep.lean ====
/-
  The reference's host operations never write an argument array: each of the six lists of RunSegs.lean leaves each
  of the ten argument arrays as it found it.
-/
import proofs.«137203_j65584150610621_2_alg».proof.Proof.RunSegs
import Idealize.ShloMosaic.PureOps.Ideal

noncomputable section

namespace Cert.ReferenceIdeal.RefRun

open Cert.ReferenceIdeal Cert.ReferenceIdeal.Gen Cert.ReferenceIdeal.ValueP
open Idealize.ShloMosaic Idealize.ShloMosaic.TcCoe Idealize.SL.Sem Idealize.ShloMosaic.StableHlo

/-- A list of operations none of which writes a buffer leaves it as it was. -/
local macro "arg_keep " ops:ident : tactic => `(tactic|
  exact StableHlo.after_of_forall_not_mem _ _ (List.forall_iff_forall_mem.mp (by
    simp only [$ops:ident, List.Forall,
      StableHlo.nullary_writes, StableHlo.unary_writes, StableHlo.binary_writes, StableHlo.ternary_writes, StableHlo.quaternary_writes,
      StableHlo.reshape_writes, StableHlo.binaryIndexed_writes, Finset.mem_singleton]
    repeat' apply And.intro
    all_goals exact StableHlo.devRef_ne_of_ne (by decide))))

variable (V : Valuation τ sig (Elt Ideal))

/-! ## List 1 -/

theorem keep1_arg0 : after ops1 V (Proc.devRef .tc main_arg0) = V (Proc.devRef .tc main_arg0) := by arg_keep ops1
theorem keep1_arg1 : after ops1 V (Proc.devRef .tc main_arg1) = V (Proc.devRef .tc main_arg1) := by arg_keep ops1
theorem keep1_arg2 : after ops1 V (Proc.devRef .tc main_arg2) = V (Proc.devRef .tc main_arg2) := by arg_keep ops1
theorem keep1_arg3 : after ops1 V (Proc.devRef .tc main_arg3) = V (Proc.devRef .tc main_arg3) := by arg_keep ops1
theorem keep1_arg4 : after ops1 V (Proc.devRef .tc main_arg4) = V (Proc.devRef .tc main_arg4) := by arg_keep ops1
theorem keep1_arg5 : after ops1 V (Proc.devRef .tc main_arg5) = V (Proc.devRef .tc main_arg5) := by arg_keep ops1
theorem keep1_arg6 : after ops1 V (Proc.devRef .tc main_arg6) = V (Proc.devRef .tc main_arg6) := by arg_keep ops1
theorem keep1_arg7 : after ops1 V (Proc.devRef .tc main_arg7) = V (Proc.devRef .tc main_arg7) := by arg_keep ops1
theorem keep1_arg8 : after ops1 V (Proc.devRef .tc main_arg8) = V (Proc.devRef .tc main_arg8) := by arg_keep ops1
theorem keep1_arg9 : after ops1 V (Proc.devRef .tc main_arg9) = V (Proc.devRef .tc main_arg9) := by arg_keep ops1

/-! ## List 2 -/

theorem keep2_arg0 : after ops2 V (Proc.devRef .tc main_arg0) = V (Proc.devRef .tc main_arg0) := by arg_keep ops2
theorem keep2_arg1 : after ops2 V (Proc.devRef .tc main_arg1) = V (Proc.devRef .tc main_arg1) := by arg_keep ops2
theorem keep2_arg2 : after ops2 V (Proc.devRef .tc main_arg2) = V (Proc.devRef .tc main_arg2) := by arg_keep ops2
theorem keep2_arg3 : after ops2 V (Proc.devRef .tc main_arg3) = V (Proc.devRef .tc main_arg3) := by arg_keep ops2
theorem keep2_arg4 : after ops2 V (Proc.devRef .tc main_arg4) = V (Proc.devRef .tc main_arg4) := by arg_keep ops2
theorem keep2_arg5 : after ops2 V (Proc.devRef .tc main_arg5) = V (Proc.devRef .tc main_arg5) := by arg_keep ops2
theorem keep2_arg6 : after ops2 V (Proc.devRef .tc main_arg6) = V (Proc.devRef .tc main_arg6) := by arg_keep ops2
theorem keep2_arg7 : after ops2 V (Proc.devRef .tc main_arg7) = V (Proc.devRef .tc main_arg7) := by arg_keep ops2
theorem keep2_arg8 : after ops2 V (Proc.devRef .tc main_arg8) = V (Proc.devRef .tc main_arg8) := by arg_keep ops2
theorem keep2_arg9 : after ops2 V (Proc.devRef .tc main_arg9) = V (Proc.devRef .tc main_arg9) := by arg_keep ops2

/-! ## List 3 -/

theorem keep3_arg0 : after ops3 V (Proc.devRef .tc main_arg0) = V (Proc.devRef .tc main_arg0) := by arg_keep ops3
theorem keep3_arg1 : after ops3 V (Proc.devRef .tc main_arg1) = V (Proc.devRef .tc main_arg1) := by arg_keep ops3
theorem keep3_arg2 : after ops3 V (Proc.devRef .tc main_arg2) = V (Proc.devRef .tc main_arg2) := by arg_keep ops3
theorem keep3_arg3 : after ops3 V (Proc.devRef .tc main_arg3) = V (Proc.devRef .tc main_arg3) := by arg_keep ops3
theorem keep3_arg4 : after ops3 V (Proc.devRef .tc main_arg4) = V (Proc.devRef .tc main_arg4) := by arg_keep ops3
theorem keep3_arg5 : after ops3 V (Proc.devRef .tc main_arg5) = V (Proc.devRef .tc main_arg5) := by arg_keep ops3
theorem keep3_arg6 : after ops3 V (Proc.devRef .tc main_arg6) = V (Proc.devRef .tc main_arg6) := by arg_keep ops3
theorem keep3_arg7 : after ops3 V (Proc.devRef .tc main_arg7) = V (Proc.devRef .tc main_arg7) := by arg_keep ops3
theorem keep3_arg8 : after ops3 V (Proc.devRef .tc main_arg8) = V (Proc.devRef .tc main_arg8) := by arg_keep ops3
theorem keep3_arg9 : after ops3 V (Proc.devRef .tc main_arg9) = V (Proc.devRef .tc main_arg9) := by arg_keep ops3

/-! ## List 4 -/

theorem keep4_arg0 : after ops4 V (Proc.devRef .tc main_arg0) = V (Proc.devRef .tc main_arg0) := by arg_keep ops4
theorem keep4_arg1 : after ops4 V (Proc.devRef .tc main_arg1) = V (Proc.devRef .tc main_arg1) := by arg_keep ops4
theorem keep4_arg2 : after ops4 V (Proc.devRef .tc main_arg2) = V (Proc.devRef .tc main_arg2) := by arg_keep ops4
theorem keep4_arg3 : after ops4 V (Proc.devRef .tc main_arg3) = V (Proc.devRef .tc main_arg3) := by arg_keep ops4
theorem keep4_arg4 : after ops4 V (Proc.devRef .tc main_arg4) = V (Proc.devRef .tc main_arg4) := by arg_keep ops4
theorem keep4_arg5 : after ops4 V (Proc.devRef .tc main_arg5) = V (Proc.devRef .tc main_arg5) := by arg_keep ops4
theorem keep4_arg6 : after ops4 V (Proc.devRef .tc main_arg6) = V (Proc.devRef .tc main_arg6) := by arg_keep ops4
theorem keep4_arg7 : after ops4 V (Proc.devRef .tc main_arg7) = V (Proc.devRef .tc main_arg7) := by arg_keep ops4
theorem keep4_arg8 : after ops4 V (Proc.devRef .tc main_arg8) = V (Proc.devRef .tc main_arg8) := by arg_keep ops4
theorem keep4_arg9 : after ops4 V (Proc.devRef .tc main_arg9) = V (Proc.devRef .tc main_arg9) := by arg_keep ops4

/-! ## List 5 -/

theorem keep5_arg0 : after ops5 V (Proc.devRef .tc main_arg0) = V (Proc.devRef .tc main_arg0) := by arg_keep ops5
theorem keep5_arg1 : after ops5 V (Proc.devRef .tc main_arg1) = V (Proc.devRef .tc main_arg1) := by arg_keep ops5
theorem keep5_arg2 : after ops5 V (Proc.devRef .tc main_arg2) = V (Proc.devRef .tc main_arg2) := by arg_keep ops5
theorem keep5_arg3 : after ops5 V (Proc.devRef .tc main_arg3) = V (Proc.devRef .tc main_arg3) := by arg_keep ops5
theorem keep5_arg4 : after ops5 V (Proc.devRef .tc main_arg4) = V (Proc.devRef .tc main_arg4) := by arg_keep ops5
theorem keep5_arg5 : after ops5 V (Proc.devRef .tc main_arg5) = V (Proc.devRef .tc main_arg5) := by arg_keep ops5
theorem keep5_arg6 : after ops5 V (Proc.devRef .tc main_arg6) = V (Proc.devRef .tc main_arg6) := by arg_keep ops5
theorem keep5_arg7 : after ops5 V (Proc.devRef .tc main_arg7) = V (Proc.devRef .tc main_arg7) := by arg_keep ops5
theorem keep5_arg8 : after ops5 V (Proc.devRef .tc main_arg8) = V (Proc.devRef .tc main_arg8) := by arg_keep ops5
theorem keep5_arg9 : after ops5 V (Proc.devRef .tc main_arg9) = V (Proc.devRef .tc main_arg9) := by arg_keep ops5

/-! ## List 6 -/

theorem keep6_arg0 : after ops6 V (Proc.devRef .tc main_arg0) = V (Proc.devRef .tc main_arg0) := by arg_keep ops6
theorem keep6_arg1 : after ops6 V (Proc.devRef .tc main_arg1) = V (Proc.devRef .tc main_arg1) := by arg_keep ops6
theorem keep6_arg2 : after ops6 V (Proc.devRef .tc main_arg2) = V (Proc.devRef .tc main_arg2) := by arg_keep ops6
theorem keep6_arg3 : after ops6 V (Proc.devRef .tc main_arg3) = V (Proc.devRef .tc main_arg3) := by arg_keep ops6
theorem keep6_arg4 : after ops6 V (Proc.devRef .tc main_arg4) = V (Proc.devRef .tc main_arg4) := by arg_keep ops6
theorem keep6_arg5 : after ops6 V (Proc.devRef .tc main_arg5) = V (Proc.devRef .tc main_arg5) := by arg_keep ops6
theorem keep6_arg6 : after ops6 V (Proc.devRef .tc main_arg6) = V (Proc.devRef .tc main_arg6) := by arg_keep ops6
theorem keep6_arg7 : after ops6 V (Proc.devRef .tc main_arg7) = V (Proc.devRef .tc main_arg7) := by arg_keep ops6
theorem keep6_arg8 : after ops6 V (Proc.devRef .tc main_arg8) = V (Proc.devRef .tc main_arg8) := by arg_keep ops6
theorem keep6_arg9 : after ops6 V (Proc.devRef .tc main_arg9) = V (Proc.devRef .tc main_arg9) := by arg_keep ops6

end Cert.ReferenceIdeal.RefRun

end
-- ==== Proof.RefRun.lean ====
/-
  The reference program's run, read back list by list.

  The reference is a straight line of 266 host operations. Its result is a function of the ten argument arrays
  in which many intermediate arrays are used several times (the normalized input by three products, each
  gathered array by three slices, the scores by the maximum and by the shift, the projected output by four rows
  and by the final product). The line is cut into six consecutive lists at places where few arrays are still
  needed later; each list's results are read back as the stages of the reference applied to what the list found
  (RefSeg.lean, RefSeg3.lean, RefSeg6.lean), no list writes an argument array (RefKeep.lean), and here the six are chained, so that every
  shared array is named once.
-/
import proofs.«137203_j65584150610621_2_alg».proof.Proof.RunP
import proofs.«137203_j65584150610621_2_alg».proof.Proof.RefSeg
import proofs.«137203_j65584150610621_2_alg».proof.Proof.RefSeg3
import proofs.«137203_j65584150610621_2_alg».proof.Proof.RefSeg6
import proofs.«137203_j65584150610621_2_alg».proof.Proof.RefKeep

noncomputable section

namespace Cert.ReferenceIdeal.RefRun

open Cert.ReferenceIdeal Cert.ReferenceIdeal.Gen Cert.ReferenceIdeal.ValueP Cert.ReferenceIdeal.ReadP
open Idealize.ShloMosaic Idealize.ShloMosaic.TcCoe Idealize.SL.Sem Idealize.ShloMosaic.StableHlo

variable (V : Valuation τ sig (Elt Ideal))
variable (x0 : (⟨S100000x128, .f32⟩ : BufTy).Contents (Elt Ideal)) (x1 : (⟨S2x1000000, .i32⟩ : BufTy).Contents (Elt Ideal))
  (x2 : (⟨S128x128, .f32⟩ : BufTy).Contents (Elt Ideal)) (x3 : (⟨S128, .f32⟩ : BufTy).Contents (Elt Ideal)) (x4 : (⟨S128x128, .f32⟩ : BufTy).Contents (Elt Ideal)) (x5 : (⟨S128, .f32⟩ : BufTy).Contents (Elt Ideal)) (x6 : (⟨S128x128, .f32⟩ : BufTy).Contents (Elt Ideal)) (x7 : (⟨S128, .f32⟩ : BufTy).Contents (Elt Ideal))
  (x8 : (⟨S64x128, .f32⟩ : BufTy).Contents (Elt Ideal)) (x9 : (⟨S64, .f32⟩ : BufTy).Contents (Elt Ideal))

/-- A buffer that none of the six lists writes is as it was after the whole line. -/
theorem keep_all (b : DevRef τ sig)
    (k1 : ∀ W : Valuation τ sig (Elt Ideal), after ops1 W b = W b) (k2 : ∀ W : Valuation τ sig (Elt Ideal), after ops2 W b = W b)
    (k3 : ∀ W : Valuation τ sig (Elt Ideal), after ops3 W b = W b) (k4 : ∀ W : Valuation τ sig (Elt Ideal), after ops4 W b = W b)
    (k5 : ∀ W : Valuation τ sig (Elt Ideal), after ops5 W b = W b) (k6 : ∀ W : Valuation τ sig (Elt Ideal), after ops6 W b = W b) :
    after opsAll V b = V b := by
  show after (ops1 ++ ops2 ++ ops3 ++ ops4 ++ ops5 ++ ops6) V b = V b
  rw [after_append, after_append, after_append, after_append, after_append, k6, k5, k4, k3, k2, k1]

/-! ## The six in a row -/

set_option maxHeartbeats 64000000 in
/-- The result buffer after the whole line is the reference's result stage of the argument arrays as the line finds them. -/
theorem result (h0 : V (Proc.devRef .tc main_arg0) = x0) (h1 : V (Proc.devRef .tc main_arg1) = x1) (h2 : V (Proc.devRef .tc main_arg2) = x2)
    (h3 : V (Proc.devRef .tc main_arg3) = x3) (h4 : V (Proc.devRef .tc main_arg4) = x4) (h5 : V (Proc.devRef .tc main_arg5) = x5)
    (h6 : V (Proc.devRef .tc main_arg6) = x6) (h7 : V (Proc.devRef .tc main_arg7) = x7) (h8 : V (Proc.devRef .tc main_arg8) = x8)
    (h9 : V (Proc.devRef .tc main_arg9) = x9) :
    after opsAll V (Proc.devRef .tc main_v220) = val_main_v220 (F := Ideal) x0 x1 x2 x3 x4 x5 x6 x7 x8 x9 := by
  show after (ops1 ++ ops2 ++ ops3 ++ ops4 ++ ops5 ++ ops6) V (Proc.devRef .tc main_v220) = _
  rw [after_append, after_append, after_append, after_append, after_append]
  generalize e1 : after ops1 V = V1
  generalize e2 : after ops2 V1 = V2
  generalize e3 : after ops3 V2 = V3
  generalize e4 : after ops4 V3 = V4
  generalize e5 : after ops5 V4 = V5
  -- after list 1
  have a0 : V1 (Proc.devRef .tc main_arg0) = x0 := by rw [← e1]; exact (keep1_arg0 V).trans h0
  have a1 : V1 (Proc.devRef .tc main_arg1) = x1 := by rw [← e1]; exact (keep1_arg1 V).trans h1
  have a2 : V1 (Proc.devRef .tc main_arg2) = x2 := by rw [← e1]; exact (keep1_arg2 V).trans h2
  have a3 : V1 (Proc.devRef .tc main_arg3) = x3 := by rw [← e1]; exact (keep1_arg3 V).trans h3
  have a4 : V1 (Proc.devRef .tc main_arg4) = x4 := by rw [← e1]; exact (keep1_arg4 V).trans h4
  have a5 : V1 (Proc.devRef .tc main_arg5) = x5 := by rw [← e1]; exact (keep1_arg5 V).trans h5
  have a6 : V1 (Proc.devRef .tc main_arg6) = x6 := by rw [← e1]; exact (keep1_arg6 V).trans h6
  have a7 : V1 (Proc.devRef .tc main_arg7) = x7 := by rw [← e1]; exact (keep1_arg7 V).trans h7
  have a8 : V1 (Proc.devRef .tc main_arg8) = x8 := by rw [← e1]; exact (keep1_arg8 V).trans h8
  have a9 : V1 (Proc.devRef .tc main_arg9) = x9 := by rw [← e1]; exact (keep1_arg9 V).trans h9
  have c53 : V1 (Proc.devRef .tc main_v53) = val_main_v53 (F := Ideal) x0 := by rw [← e1]; exact seg1_v53 V x0 h0
  -- after list 2
  have b1 : V2 (Proc.devRef .tc main_arg1) = x1 := by rw [← e2]; exact (keep2_arg1 V1).trans a1
  have b8 : V2 (Proc.devRef .tc main_arg8) = x8 := by rw [← e2]; exact (keep2_arg8 V1).trans a8
  have b9 : V2 (Proc.devRef .tc main_arg9) = x9 := by rw [← e2]; exact (keep2_arg9 V1).trans a9
  have d53 : V2 (Proc.devRef .tc main_v53) = val_main_v53 (F := Ideal) x0 := by rw [← e2]; exact (by line_keep ops2 : after ops2 V1 (Proc.devRef .tc main_v53) = V1 (Proc.devRef .tc main_v53)).trans c53
  have d68 : V2 (Proc.devRef .tc main_v68) = val_main_v68 (F := Ideal) x0 x2 x3 := by rw [← e2]; exact seg2_v68 V1 x0 x2 x3 a0 a2 a3
  have d74 : V2 (Proc.devRef .tc main_v74) = val_main_v74 (F := Ideal) x0 x4 x5 := by rw [← e2]; exact seg2_v74 V1 x0 x4 x5 a0 a4 a5
  have d80 : V2 (Proc.devRef .tc main_v80) = val_main_v80 (F := Ideal) x0 x6 x7 := by rw [← e2]; exact seg2_v80 V1 x0 x6 x7 a0 a6 a7
  -- after list 3
  have f8 : V3 (Proc.devRef .tc main_arg8) = x8 := by rw [← e3]; exact (keep3_arg8 V2).trans b8
  have f9 : V3 (Proc.devRef .tc main_arg9) = x9 := by rw [← e3]; exact (keep3_arg9 V2).trans b9
  have f53 : V3 (Proc.devRef .tc main_v53) = val_main_v53 (F := Ideal) x0 := by rw [← e3]; exact (by line_keep ops3 : after ops3 V2 (Proc.devRef .tc main_v53) = V2 (Proc.devRef .tc main_v53)).trans d53
  have f80 : V3 (Proc.devRef .tc main_v80) = val_main_v80 (F := Ideal) x0 x6 x7 := by rw [← e3]; exact (by line_keep ops3 : after ops3 V2 (Proc.devRef .tc main_v80) = V2 (Proc.devRef .tc main_v80)).trans d80
  have f82 : V3 (Proc.devRef .tc main_v82) = val_main_v82 (F := Ideal) x1 := by rw [← e3]; exact seg3_v82 V2 x1 b1
  have f84 : V3 (Proc.devRef .tc main_v84) = val_main_v84 (F := Ideal) x1 := by rw [← e3]; exact seg3_v84 V2 x1 b1
  have f100 : V3 (Proc.devRef .tc main_v100) = val_main_v100 (F := Ideal) x0 x1 x2 x3 := by rw [← e3]; exact seg3_v100 V2 x0 x1 x2 x3 b1 d68
  have f116 : V3 (Proc.devRef .tc main_v116) = val_main_v116 (F := Ideal) x0 x1 x4 x5 := by rw [← e3]; exact seg3_v116 V2 x0 x1 x4 x5 b1 d74
  -- after list 4
  have g8 : V4 (Proc.devRef .tc main_arg8) = x8 := by rw [← e4]; exact (keep4_arg8 V3).trans f8
  have g9 : V4 (Proc.devRef .tc main_arg9) = x9 := by rw [← e4]; exact (keep4_arg9 V3).trans f9
  have g53 : V4 (Proc.devRef .tc main_v53) = val_main_v53 (F := Ideal) x0 := by rw [← e4]; exact (by line_keep ops4 : after ops4 V3 (Proc.devRef .tc main_v53) = V3 (Proc.devRef .tc main_v53)).trans f53
  have g80 : V4 (Proc.devRef .tc main_v80) = val_main_v80 (F := Ideal) x0 x6 x7 := by rw [← e4]; exact (by line_keep ops4 : after ops4 V3 (Proc.devRef .tc main_v80) = V3 (Proc.devRef .tc main_v80)).trans f80
  have g82 : V4 (Proc.devRef .tc main_v82) = val_main_v82 (F := Ideal) x1 := by rw [← e4]; exact (by line_keep ops4 : after ops4 V3 (Proc.devRef .tc main_v82) = V3 (Proc.devRef .tc main_v82)).trans f82
  have g84 : V4 (Proc.devRef .tc main_v84) = val_main_v84 (F := Ideal) x1 := by rw [← e4]; exact (by line_keep ops4 : after ops4 V3 (Proc.devRef .tc main_v84) = V3 (Proc.devRef .tc main_v84)).trans f84
  have g139 : V4 (Proc.devRef .tc main_v139) = val_main_v139 (F := Ideal) x0 x1 x2 x3 x4 x5 := by rw [← e4]; exact seg4_v139 V3 x0 x1 x2 x3 x4 x5 f100 f116
  -- after list 5
  have k53 : V5 (Proc.devRef .tc main_v53) = val_main_v53 (F := Ideal) x0 := by rw [← e5]; exact (by line_keep ops5 : after ops5 V4 (Proc.devRef .tc main_v53) = V4 (Proc.devRef .tc main_v53)).trans g53
  have k158 : V5 (Proc.devRef .tc main_v158) = val_main_v158 (F := Ideal) x0 x1 x2 x3 x4 x5 x6 x7 x8 x9 := by
    rw [← e5]; exact seg5_v158 V4 x0 x1 x2 x3 x4 x5 x6 x7 x8 x9 g139 g80 g82 g84 g8 g9
  exact seg6_v220 V5 x0 x1 x2 x3 x4 x5 x6 x7 x8 x9 k158 k53

/-! ## The run -/

set_option maxHeartbeats 64000000 in
/-- Every weakly fair execution of the reference from a memory with zero counters terminates with the result
    buffer at the reference's result stage of the launch's argument arrays, and the arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v220) = val_main_v220 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) :=
  (θ_run defs _ _).mono (fun _ h c => ⟨(h c main_v220).trans (result _ _ _ _ _ _ _ _ _ _ _ rfl rfl rfl rfl rfl rfl rfl rfl rfl rfl),
      (h c main_arg0).trans (keep_all (launchContents m c) _ (fun W => keep1_arg0 W) (fun W => keep2_arg0 W) (fun W => keep3_arg0 W) (fun W => keep4_arg0 W) (fun W => keep5_arg0 W) (fun W => keep6_arg0 W)),
      (h c main_arg1).trans (keep_all (launchContents m c) _ (fun W => keep1_arg1 W) (fun W => keep2_arg1 W) (fun W => keep3_arg1 W) (fun W => keep4_arg1 W) (fun W => keep5_arg1 W) (fun W => keep6_arg1 W)),
      (h c main_arg2).trans (keep_all (launchContents m c) _ (fun W => keep1_arg2 W) (fun W => keep2_arg2 W) (fun W => keep3_arg2 W) (fun W => keep4_arg2 W) (fun W => keep5_arg2 W) (fun W => keep6_arg2 W)),
      (h c main_arg3).trans (keep_all (launchContents m c) _ (fun W => keep1_arg3 W) (fun W => keep2_arg3 W) (fun W => keep3_arg3 W) (fun W => keep4_arg3 W) (fun W => keep5_arg3 W) (fun W => keep6_arg3 W)),
      (h c main_arg4).trans (keep_all (launchContents m c) _ (fun W => keep1_arg4 W) (fun W => keep2_arg4 W) (fun W => keep3_arg4 W) (fun W => keep4_arg4 W) (fun W => keep5_arg4 W) (fun W => keep6_arg4 W)),
      (h c main_arg5).trans (keep_all (launchContents m c) _ (fun W => keep1_arg5 W) (fun W => keep2_arg5 W) (fun W => keep3_arg5 W) (fun W => keep4_arg5 W) (fun W => keep5_arg5 W) (fun W => keep6_arg5 W)),
      (h c main_arg6).trans (keep_all (launchContents m c) _ (fun W => keep1_arg6 W) (fun W => keep2_arg6 W) (fun W => keep3_arg6 W) (fun W => keep4_arg6 W) (fun W => keep5_arg6 W) (fun W => keep6_arg6 W)),
      (h c main_arg7).trans (keep_all (launchContents m c) _ (fun W => keep1_arg7 W) (fun W => keep2_arg7 W) (fun W => keep3_arg7 W) (fun W => keep4_arg7 W) (fun W => keep5_arg7 W) (fun W => keep6_arg7 W)),
      (h c main_arg8).trans (keep_all (launchContents m c) _ (fun W => keep1_arg8 W) (fun W => keep2_arg8 W) (fun W => keep3_arg8 W) (fun W => keep4_arg8 W) (fun W => keep5_arg8 W) (fun W => keep6_arg8 W)),
      (h c main_arg9).trans (keep_all (launchContents m c) _ (fun W => keep1_arg9 W) (fun W => keep2_arg9 W) (fun W => keep3_arg9 W) (fun W => keep4_arg9 W) (fun W => keep5_arg9 W) (fun W => keep6_arg9 W))⟩)
    (run_seq scopedRefs_eq scopedSems_eq defs main (fun _ => opsAll) main_eq (fun _ => opsAll_sub) m ρ (fun _ => opsAll_fresh))

end Cert.ReferenceIdeal.RefRun

end
-- ==== Proof.Base.lean ====
/-
  Shared vocabulary of the bridge between the idealized kernel program and the idealized reference.

  The reference is a straight-line host program; each of its intermediate arrays is a pure function
  of the ten argument arrays (the generated stages `Cert.ReferenceIdeal.ReadP.val_main_vN`). The bridge
  uses those stages as the specification: each array the kernel program produces (by a pipelined
  kernel region or by host operations between regions) is shown to be one of the reference's stages
  of the same argument arrays, up to the layout [E,128] against [E,2,64] with column 64·h + d
  against (h, d).
-/
import proofs.«137203_j65584150610621_2_alg».proof.Proof.Gen.KernelIdeal.Frame
import proofs.«137203_j65584150610621_2_alg».proof.Proof.ReadP

noncomputable section

namespace Cert.KernelIdeal.Bridge

open Cert.KernelIdeal Cert.KernelIdeal.Gen Idealize.ShloMosaic Idealize.ShloMosaic.TcCoe Idealize.SL.Sem

variable (m : (ℓ : Loc nD τ sig) → Buf (Elt Ideal) ℓ) (c : Dev nD)

/-- The ten argument arrays as the kernel program's launch memory holds them on core `c`:
    x, edge_index, Wq, bq, Wk, bk, Wv, bv, Wo, bo. -/
abbrev a0 : (⟨S100000x128, .f32⟩ : BufTy).Contents (Elt Ideal) := m ((c.tc : Thread nD τ).loc main_arg0)
abbrev a1 : (⟨S2x1000000, .i32⟩ : BufTy).Contents (Elt Ideal) := m ((c.tc : Thread nD τ).loc main_arg1)
abbrev a2 : (⟨S128x128, .f32⟩ : BufTy).Contents (Elt Ideal) := m ((c.tc : Thread nD τ).loc main_arg2)
abbrev a3 : (⟨S128, .f32⟩ : BufTy).Contents (Elt Ideal) := m ((c.tc : Thread nD τ).loc main_arg3)
abbrev a4 : (⟨S128x128, .f32⟩ : BufTy).Contents (Elt Ideal) := m ((c.tc : Thread nD τ).loc main_arg4)
abbrev a5 : (⟨S128, .f32⟩ : BufTy).Contents (Elt Ideal) := m ((c.tc : Thread nD τ).loc main_arg5)
abbrev a6 : (⟨S128x128, .f32⟩ : BufTy).Contents (Elt Ideal) := m ((c.tc : Thread nD τ).loc main_arg6)
abbrev a7 : (⟨S128, .f32⟩ : BufTy).Contents (Elt Ideal) := m ((c.tc : Thread nD τ).loc main_arg7)
abbrev a8 : (⟨S64x128, .f32⟩ : BufTy).Contents (Elt Ideal) := m ((c.tc : Thread nD τ).loc main_arg8)
abbrev a9 : (⟨S64, .f32⟩ : BufTy).Contents (Elt Ideal) := m ((c.tc : Thread nD τ).loc main_arg9)

/-- The reference's projections q, k, v [100000,128]: normalize(x)·Wᵀ + b. -/
abbrev refQ := Cert.ReferenceIdeal.ReadP.val_main_v67 (F := Ideal) (a0 m c) (a2 m c) (a3 m c)
abbrev refK := Cert.ReferenceIdeal.ReadP.val_main_v73 (F := Ideal) (a0 m c) (a4 m c) (a5 m c)
abbrev refV := Cert.ReferenceIdeal.ReadP.val_main_v79 (F := Ideal) (a0 m c) (a6 m c) (a7 m c)
/-- The reference's gathered rows q[row], k[col], v[col] [1000000,2,64]. -/
abbrev refQe := Cert.ReferenceIdeal.ReadP.val_main_v91 (F := Ideal) (a0 m c) (a1 m c) (a2 m c) (a3 m c)
abbrev refKe := Cert.ReferenceIdeal.ReadP.val_main_v107 (F := Ideal) (a0 m c) (a1 m c) (a4 m c) (a5 m c)
abbrev refVe := Cert.ReferenceIdeal.ReadP.val_main_v146 (F := Ideal) (a0 m c) (a1 m c) (a6 m c) (a7 m c)
/-- The reference's attention scores [1000000,2]. -/
abbrev refScores := Cert.ReferenceIdeal.ReadP.val_main_v128 (F := Ideal) (a0 m c) (a1 m c) (a2 m c) (a3 m c) (a4 m c) (a5 m c)
/-- The reference's column maxima as a row [1,2] and the sums of the shifted exponentials as a row [1,2]. -/
abbrev refMax := Cert.ReferenceIdeal.ReadP.val_main_v132 (F := Ideal) (a0 m c) (a1 m c) (a2 m c) (a3 m c) (a4 m c) (a5 m c)
abbrev refSum := Cert.ReferenceIdeal.ReadP.val_main_v137 (F := Ideal) (a0 m c) (a1 m c) (a2 m c) (a3 m c) (a4 m c) (a5 m c)
/-- The reference's weighted messages [1000000,2,64]. -/
abbrev refMsgs := Cert.ReferenceIdeal.ReadP.val_main_v149 (F := Ideal) (a0 m c) (a1 m c) (a2 m c) (a3 m c) (a4 m c) (a5 m c) (a6 m c) (a7 m c)
/-- The reference's per-node sums of messages, re-laid as [100000,128]. -/
abbrev refOut := Cert.ReferenceIdeal.ReadP.val_main_v153 (F := Ideal) (a0 m c) (a1 m c) (a2 m c) (a3 m c) (a4 m c) (a5 m c) (a6 m c) (a7 m c)
/-- The reference's output projection out·Woᵀ + bo [100000,64] and its cross-ratio scale (a scalar). -/
abbrev refProj := Cert.ReferenceIdeal.ReadP.val_main_v158 (F := Ideal) (a0 m c) (a1 m c) (a2 m c) (a3 m c) (a4 m c) (a5 m c) (a6 m c) (a7 m c) (a8 m c) (a9 m c)
abbrev refScale := Cert.ReferenceIdeal.ReadP.val_main_v218 (F := Ideal) (a0 m c) (a1 m c) (a2 m c) (a3 m c) (a4 m c) (a5 m c) (a6 m c) (a7 m c) (a8 m c) (a9 m c)
/-- The reference's result [100000,64]. -/
abbrev refFinal := Cert.ReferenceIdeal.ReadP.val_main_v220 (F := Ideal) (a0 m c) (a1 m c) (a2 m c) (a3 m c) (a4 m c) (a5 m c) (a6 m c) (a7 m c) (a8 m c) (a9 m c)

end Cert.KernelIdeal.Bridge

end
-- ==== Proof.KRun.lean ====
/-
  The idealized kernel program's run with its result named.

  The program is four pipelined kernel regions among stretches of host operations. Every weakly fair
  execution from a memory with zero counters terminates without a fault, and in the final state the
  result buffer holds what the fold of the segments leaves in it — the contents at the last segment
  boundary — while the ten argument arrays are as launched.
-/
import proofs.«137203_j65584150610621_2_alg».proof.Proof.Gen.KernelIdeal.Frame

set_option maxRecDepth 16384

noncomputable section

namespace Cert.KernelIdeal.Bridge

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run: the segments' launch, the last thread state read against the final state, the result buffer at the
    last boundary's contents and each argument walked back to the launch memory. -/
theorem run_main : θ_run defs (onTc (τ := τ) (main (F := F))) ⟨m, fun _ => 0, ρ⟩ (fun r => ∀ c : Dev nD,
      r.2.mem ((c.tc : Thread nD τ).loc main_v157) = W14 m ρ c (Proc.devRef .tc main_v157)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W14 m ρ c b)
    (hfin := fun c s' => by
      iintro ⟨⟨Hh, -⟩, HSI⟩
      unfold StableHlo.held
      imodintro
      iapply (pointsTo_read_all (Pipeline.ucRefs τ sig) (fun b => (((c : Thread nD τ)).1, b)) (W14 m ρ c) s')
      isplitl [Hh] <;> iassumption)
    (hQ := fun s h c =>
      ⟨h c _ (mem_uc main_v157 (by decide)),
       (h c _ (mem_uc main_arg0 (by decide))).trans (W14_main_arg0 m ρ c),
       (h c _ (mem_uc main_arg1 (by decide))).trans (W14_main_arg1 m ρ c),
       (h c _ (mem_uc main_arg2 (by decide))).trans (W14_main_arg2 m ρ c),
       (h c _ (mem_uc main_arg3 (by decide))).trans (W14_main_arg3 m ρ c),
       (h c _ (mem_uc main_arg4 (by decide))).trans (W14_main_arg4 m ρ c),
       (h c _ (mem_uc main_arg5 (by decide))).trans (W14_main_arg5 m ρ c),
       (h c _ (mem_uc main_arg6 (by decide))).trans (W14_main_arg6 m ρ c),
       (h c _ (mem_uc main_arg7 (by decide))).trans (W14_main_arg7 m ρ c),
       (h c _ (mem_uc main_arg8 (by decide))).trans (W14_main_arg8 m ρ c),
       (h c _ (mem_uc main_arg9 (by decide))).trans (W14_main_arg9 m ρ c)⟩)

end Cert.KernelIdeal.Bridge

end
-- ==== Proof.Region0a.lean ====
/-
  Region 0 (the projections q, k, v), part a.

  One row of a projection as a function of the input row, the transposed weight and the bias:
  the row's first 127 entries are divided by max(sqrt(sum of their squares), eps), the last entry is
  kept, and the normalized row is multiplied into the weight and the bias added. The kernel body's
  payloads, read at an index (r, a) of a block, are that function of row r of the block.
-/
import proofs.«137203_j65584150610621_2_alg».proof.Proof.Gen.KernelIdeal.Skeleton
import Idealize.ShloMosaic.Lib.ValueIdx
import Idealize.ShloMosaic.Lib.ValueLayout
import Idealize.ShloMosaic.PureOps.Ideal.Laws

noncomputable section

namespace Cert.KernelIdeal.Bridge

open Cert.KernelIdeal Cert.KernelIdeal.Gen Idealize.ShloMosaic Idealize.ShloMosaic.ValueIdx

/-! ## The row function -/

/-- Column k of the first 127 as a column of the 128. -/
abbrev r0_up (k : Fin 127) : Fin 128 := ⟨k.val, Nat.lt_of_lt_of_le k.isLt (by decide)⟩

/-- The divisor of a row: max(sqrt(sum of the squares of its first 127 entries), eps). -/
def r0_den (xr : Fin 128 → EReal) : EReal :=
  max (Ideal.sqrt (∑ k : Fin 127, xr (r0_up k) * xr (r0_up k))) (Ideal.ofBits .f32 0x3089705F#32)

/-- The normalized row: the first 127 entries over the divisor, the last entry kept. -/
def r0_nrm (xr : Fin 128 → EReal) (j : Fin 128) : EReal :=
  if j.val < 127 then Ideal.div (xr j) (r0_den xr) else xr j

/-- One row of a projection: the normalized row times the (transposed) weight, plus the bias. -/
def r0_proj (xr : Fin 128 → EReal) (Wt : S128x128.Idx → EReal) (b : S128.Idx → EReal) (a : Fin 128) : EReal :=
  (∑ j : Fin 128, r0_nrm xr j * Wt (ix2 j a)) + b (ix1 a)

/-! ## The normalization payload at an index -/

section Pay1
variable (x : Vec Ideal S10000x128 .f32) (r : Fin 10000)

/-- The row sum of squares the body takes: a lane sum over the 127 leading columns. -/
theorem r0_sumsq (hacc : (0x00000000#32 : BitVec 32) = 0x00000000#32) :
    multiReduction (F := Ideal) .add [1] S10000 (mulf (extractStridedSlice S10000x127 ![0, 0] x slices_S10000x128_o0_0_S10000x127) (extractStridedSlice S10000x127 ![0, 0] x slices_S10000x128_o0_0_S10000x127)) 0x00000000#32 reduces_S10000x127_S10000 (.inl rfl) hacc (ix1 r)
      = ∑ k : Fin 127, x (ix2 r (r0_up k)) * x (ix2 r (r0_up k)) := by
  refine (Ideal.multiReduction_add_single _ 0x00000000#32 reduces_S10000x127_S10000 (.inl rfl) hacc (ix1 r)).trans ?_
  refine Finset.sum_congr rfl fun k _ => ?_
  have e : extractStridedSlice S10000x127 ![0, 0] x slices_S10000x128_o0_0_S10000x127 (reduces_S10000x127_S10000.lift (ix1 r) k) = x (ix2 r (r0_up k)) :=
    extractStridedSlice_apply _ _ _ _ _ (fun ax => by
      match ax with
      | ⟨0, _⟩ => exact (Nat.zero_add _).symm
      | ⟨1, _⟩ => exact (Nat.zero_add _).symm)
  show extractStridedSlice S10000x127 ![0, 0] x slices_S10000x128_o0_0_S10000x127 (reduces_S10000x127_S10000.lift (ix1 r) k) * extractStridedSlice S10000x127 ![0, 0] x slices_S10000x128_o0_0_S10000x127 (reduces_S10000x127_S10000.lift (ix1 r) k) = _
  rw [e]

end Pay1

/-! ## Two layout readings in coordinates -/

/-- A vector [n] cast to a column [n, 1] reads, at (r, u), the vector at r. -/
theorem r0_col_apply {n : ℕ} {α : Type} (v : (⟨1, ![n]⟩ : Shape).Idx → α) (h : (⟨1, ![n]⟩ : Shape).ShapeCasts ⟨2, ![n, 1]⟩)
    (r : Fin n) (u : Fin 1) : shapeCast ⟨2, ![n, 1]⟩ v h (ix2 r u) = v (ix1 r) :=
  shapeCast_apply v h _ _ (by
    have hu : u.val = 0 := by omega
    rw [Shape.rowMajor_val_two, Shape.rowMajor_val_one]
    show r.val = r.val * 1 + u.val
    omega)

/-- A column [a, 1] broadcast to [a, b] reads, at (p, c), the column at p. -/
theorem r0_bcol_apply {a b : ℕ} {α : Type} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## The normalized block at an index -/

/-- The body's normalized block at (r, j) is the normalized row r of the block at j. -/
theorem r0_pay1_apply (x : Vec Ideal S10000x128 .f32) (r : Fin 10000) (j : Fin 128) :
    k0_pay1 x (ix2 r j) = r0_nrm (fun j' => x (ix2 r j')) j := by
  unfold k0_pay1 r0_nrm
  by_cases h : j.val < 127
  · rw [if_pos h]
    refine (concatenate_pair_apply_left (t := S10000x128) (s₁ := S10000x127) (s₂ := S10000x1) (1 : Fin 2) _ _ concatenates_S10000x127_S10000x1_S10000x128_d1 (ix2 r j) rfl
      (ix2 r (⟨j.val, h⟩ : Fin 127)) (fun b => by match b with | ⟨0, _⟩ => rfl | ⟨1, _⟩ => rfl)).trans ?_
    show Ideal.div (extractStridedSlice _ _ x _ _) (broadcastTo _ _ _ _) = _
    refine congrArg₂ Ideal.div ?_ ?_
    · exact slice2_axis1_apply 0 x _ r _ j (Nat.zero_add _).symm
    · refine (r0_bcol_apply _ _ r _).trans ?_
      show max (Ideal.sqrt (shapeCast _ _ _ _)) (Ideal.ofBits .f32 0x3089705F#32) = _
      unfold r0_den
      refine congrArg (fun z => max (Ideal.sqrt z) (Ideal.ofBits .f32 0x3089705F#32)) ?_
      exact (r0_col_apply _ _ r _).trans (r0_sumsq x r rfl)
  · rw [if_neg h]
    have hj : j.val = 127 := by have := j.isLt; omega
    refine (concatenate_pair_apply_right (t := S10000x128) (s₁ := S10000x127) (s₂ := S10000x1) (1 : Fin 2) _ _ concatenates_S10000x127_S10000x1_S10000x128_d1 (ix2 r j) rfl rfl
      (ix2 r (0 : Fin 1)) (fun b hb => by
        match b, hb with
        | ⟨0, _⟩, _ => rfl
        | ⟨1, _⟩, hb => exact absurd rfl hb) (by show 0 + 127 = j.val; omega)).trans ?_
    exact slice2_axis1_apply 127 x _ r _ j (by show j.val = 127 + 0; omega)

/-! ## The projection payload at an index -/

theorem r0_lhs0 (i : S10000x128.Idx) (q : dot_S10000x128_S128x128_S10000x128_1_0_0_1_n_n.contr.Idx) :
    (dot_S10000x128_S128x128_S10000x128_1_0_0_1_n_n.lhsIdx i q 0).val = (i 0).val := by
  unfold DotDims.lhsIdx
  rw [dif_neg (show ¬(0 : Fin S10000x128.rank) ∈ dot_S10000x128_S128x128_S10000x128_1_0_0_1_n_n.lhsBatch by decide), dif_pos (show (0 : Fin S10000x128.rank) ∈ dot_S10000x128_S128x128_S10000x128_1_0_0_1_n_n.lhsNonContracting by decide)]
  rfl

theorem r0_rhs1 (i : S10000x128.Idx) (q : dot_S10000x128_S128x128_S10000x128_1_0_0_1_n_n.contr.Idx) :
    (dot_S10000x128_S128x128_S10000x128_1_0_0_1_n_n.rhsIdx i q 1).val = (i 1).val := by
  unfold DotDims.rhsIdx
  rw [dif_neg (show ¬(1 : Fin S128x128.rank) ∈ dot_S10000x128_S128x128_S10000x128_1_0_0_1_n_n.rhsBatch by decide), dif_pos (show (1 : Fin S128x128.rank) ∈ dot_S10000x128_S128x128_S10000x128_1_0_0_1_n_n.rhsNonContracting by decide)]
  rfl

/-- The left operand's index of the product at (r, a), contraction position k: (r, k). -/
theorem r0_lhsIdx (r : Fin 10000) (a k : Fin 128) :
    dot_S10000x128_S128x128_S10000x128_1_0_0_1_n_n.lhsIdx (ix2 r a) ((contrEquiv1 dot_S10000x128_S128x128_S10000x128_1_0_0_1_n_n 128 rfl rfl).symm k) = ix2 r k :=
  funext fun ax => Fin.ext (by
    match ax with
    | ⟨0, _⟩ => exact r0_lhs0 _ _
    | ⟨1, _⟩ => exact (dot_S10000x128_S128x128_S10000x128_1_0_0_1_n_n.lhsIdx_val_of_single rfl _ _).trans (contrEquiv1_symm_val dot_S10000x128_S128x128_S10000x128_1_0_0_1_n_n 128 rfl rfl k))

/-- The right operand's index of the product at (r, a), contraction position k: (k, a). -/
theorem r0_rhsIdx (r : Fin 10000) (a k : Fin 128) :
    dot_S10000x128_S128x128_S10000x128_1_0_0_1_n_n.rhsIdx (ix2 r a) ((contrEquiv1 dot_S10000x128_S128x128_S10000x128_1_0_0_1_n_n 128 rfl rfl).symm k) = ix2 k a :=
  funext fun ax => Fin.ext (by
    match ax with
    | ⟨0, _⟩ => exact (dot_S10000x128_S128x128_S10000x128_1_0_0_1_n_n.rhsIdx_val_of_single rfl _ _).trans (contrEquiv1_symm_val dot_S10000x128_S128x128_S10000x128_1_0_0_1_n_n 128 rfl rfl k)
    | ⟨1, _⟩ => exact r0_rhs1 _ _)

/-- The body's first projection block at (r, a) is the projection of row r of the input block at a. -/
theorem r0_pay2_apply (x : Vec Ideal S10000x128 .f32) (W : Vec Ideal S128x128 .f32) (b : Vec Ideal S128 .f32)
    (r : Fin 10000) (a : Fin 128) :
    k0_pay2 x W b (ix2 r a) = r0_proj (fun j => x (ix2 r j)) W b a := by
  unfold k0_pay2 r0_proj
  show FloatOps.matmul dot_S10000x128_S128x128_S10000x128_1_0_0_1_n_n none (k0_pay1 x) (shapeCast S128x128 W _) (constant S10000x128 .f32 0x00000000#32) (ix2 r a)
    + broadcastTo S10000x128 (shapeCast S1x128 b _) _ (ix2 r a) = _
  refine congrArg₂ (· + ·) ?_ ?_
  · refine (Ideal.matmul_constant_zero_apply _ none _ _ (ix2 r a)).trans ?_
    rw [← Equiv.sum_comp (contrEquiv1 dot_S10000x128_S128x128_S10000x128_1_0_0_1_n_n 128 rfl rfl).symm]
    refine Finset.sum_congr rfl fun k _ => ?_
    rw [r0_lhsIdx r a k, r0_rhsIdx r a k, r0_pay1_apply, shapeCast_self]
  · exact (broadcastTo_1b_ab_apply _ _ r a).trans (shapeCast_a_1a_apply b _ 0 a)

/-- The second and third projection payloads are the same term of their operands. -/
theorem r0_pay3_eq : @k0_pay3 Ideal _ = @k0_pay2 Ideal _ := rfl
theorem r0_pay4_eq : @k0_pay4 Ideal _ = @k0_pay2 Ideal _ := rfl

end Cert.KernelIdeal.Bridge

end
-- ==== Proof.Region0b.lean ====
/-
  Region 0 (the projections q, k, v), part b: the reference's projections read at an index.

  The reference normalizes x (the first 127 entries of a row over max(sqrt(sum of their squares), eps),
  the last entry kept), contracts with the transposed weight and adds the bias. At (R, a) that is the
  row function of part a applied to row R of x.
-/
import proofs.«137203_j65584150610621_2_alg».proof.Proof.ReadP
import proofs.«137203_j65584150610621_2_alg».proof.Proof.Region0a

noncomputable section

namespace Cert.KernelIdeal.Bridge

open Cert.KernelIdeal Idealize.ShloMosaic Idealize.ShloMosaic.ValueIdx Cert.ReferenceIdeal.ReadP

/-! ## The reference's normalized input at an index -/

/-- The reference's normalized x at (R, j) is the normalized row R of x at j. -/
theorem r0_ref_nrm_apply (x0 : (⟨S100000x128, .f32⟩ : BufTy).Contents (Elt Ideal)) (R : Fin 100000) (j : Fin 128) :
    val_main_v62 (F := Ideal) x0 (ix2 R j) = r0_nrm (fun j' => x0 (ix2 R j')) j := by
  unfold val_main_v62 r0_nrm
  by_cases h : j.val < 127
  · rw [if_pos h]
    refine (concatenate_pair_apply_left (t := ⟨2, ![100000, 128]⟩) (s₁ := ⟨2, ![100000, 127]⟩) (s₂ := ⟨2, ![100000, 1]⟩) (1 : Fin 2) _ _ _ (ix2 R j) rfl
      (ix2 R (⟨j.val, h⟩ : Fin 127)) (fun b => by match b with | ⟨0, _⟩ => rfl | ⟨1, _⟩ => rfl)).trans ?_
    rw [val_main_v60_apply, val_main_v56_apply, val_main_v59_apply, val_main_v58_apply, val_main_v55_apply,
      val_main_call1_v2_apply, val_main_call1_v1_apply, val_main_v57_apply, val_main_cst_5_apply, val_main_call1_cst_apply]
    simp only [Ideal.hostDivf_def, Ideal.maximumf_def, Ideal.hostUnary_sqrt_def, Ideal.ofBits_def, Ideal.ofBits_zero_f32, zero_add]
    unfold r0_den
    refine congrArg₂ Ideal.div (congrArg x0 ?_) (congrArg (fun z => max (Ideal.sqrt z) (Ideal.ofBits .f32 0x3089705F#32)) (Finset.sum_congr rfl fun k _ => ?_))
    · exact funext fun ax => Fin.ext (by match ax with | ⟨0, _⟩ => rfl | ⟨1, _⟩ => rfl)
    · rw [val_main_call1_v0_apply, val_main_v54_apply]
      show x0 _ * x0 _ = _
      refine congrArg₂ (· * ·) (congrArg x0 ?_) (congrArg x0 ?_) <;>
        exact funext fun ax => Fin.ext (by match ax with | ⟨0, _⟩ => rfl | ⟨1, _⟩ => rfl)
  · rw [if_neg h]
    have hj : j.val = 127 := by have := j.isLt; omega
    refine (concatenate_pair_apply_right (t := ⟨2, ![100000, 128]⟩) (s₁ := ⟨2, ![100000, 127]⟩) (s₂ := ⟨2, ![100000, 1]⟩) (1 : Fin 2) _ _ _ (ix2 R j) rfl rfl
      (ix2 R (0 : Fin 1)) (fun b hb => by
        match b, hb with
        | ⟨0, _⟩, _ => rfl
        | ⟨1, _⟩, hb => exact absurd rfl hb) (by show 0 + 127 = j.val; omega)).trans ?_
    rw [val_main_v61_apply]
    exact congrArg x0 (funext fun ax => Fin.ext (by
      match ax with
      | ⟨0, _⟩ => rfl
      | ⟨1, _⟩ => show 127 + 0 = j.val; omega))

/-! ## A projection of the reference at an index -/

/-- The reference's contraction of the normalized x with a [128,128] matrix plus a bias row broadcast to every
    row, at (R, a): the row function of row R of x. -/
theorem r0_ref_proj_apply (x0 : (⟨S100000x128, .f32⟩ : BufTy).Contents (Elt Ideal))
    (Wt : (⟨S128x128, .f32⟩ : BufTy).Contents (Elt Ideal)) (b : (⟨S128, .f32⟩ : BufTy).Contents (Elt Ideal))
    (hb1 : (⟨1, ![128]⟩ : Shape).BroadcastsInDim ⟨2, ![1, 128]⟩ ![1])
    (hb2 : (⟨2, ![1, 128]⟩ : Shape).BroadcastsInDim ⟨2, ![100000, 128]⟩ ![0, 1])
    (R : Fin 100000) (a : Fin 128) :
    addf (F := Ideal) (Host.dotGeneral (F := Ideal) (φ₁ := .f32) (φ₂ := .f32) Cert.ReferenceIdeal.dot_S100000x128_S128x128_S100000x128_1_0_0_1_n_n none (val_main_v62 (F := Ideal) x0) Wt)
        (broadcastInDim ⟨2, ![100000, 128]⟩ ![0, 1] hb2 (broadcastInDim ⟨2, ![1, 128]⟩ ![1] hb1 b)) (ix2 R a)
      = r0_proj (fun j => x0 (ix2 R j)) Wt b a := by
  unfold r0_proj
  refine (addf_apply _ _ _).trans (congrArg₂ (· + ·) ?_ ?_)
  · simp only [Host.dotGeneral]
    rw [Ideal.dotGeneral_apply, ← Equiv.sum_comp (contrEquiv1 Cert.ReferenceIdeal.dot_S100000x128_S128x128_S100000x128_1_0_0_1_n_n 128 rfl rfl).symm]
    refine Finset.sum_congr rfl fun k _ => ?_
    have hk := contrEquiv1_symm_val Cert.ReferenceIdeal.dot_S100000x128_S128x128_S100000x128_1_0_0_1_n_n 128 rfl rfl k
    have el : Cert.ReferenceIdeal.dot_S100000x128_S128x128_S100000x128_1_0_0_1_n_n.lhsIdx (ix2 R a) ((contrEquiv1 Cert.ReferenceIdeal.dot_S100000x128_S128x128_S100000x128_1_0_0_1_n_n 128 rfl rfl).symm k) = ix2 R k := funext fun ax => Fin.ext (by
      match ax with
      | ⟨0, _⟩ => exact lhs_main_v64_0 _ _
      | ⟨1, _⟩ => exact (lhs_main_v64_1 _ _).trans hk)
    have er : Cert.ReferenceIdeal.dot_S100000x128_S128x128_S100000x128_1_0_0_1_n_n.rhsIdx (ix2 R a) ((contrEquiv1 Cert.ReferenceIdeal.dot_S100000x128_S128x128_S100000x128_1_0_0_1_n_n 128 rfl rfl).symm k) = ix2 k a := funext fun ax => Fin.ext (by
      match ax with
      | ⟨0, _⟩ => exact (rhs_main_v64_0 _ _).trans hk
      | ⟨1, _⟩ => exact rhs_main_v64_1 _ _)
    rw [el, er, r0_ref_nrm_apply]
  · refine (broadcastInDim_apply _ hb2 _ (ix2 R a) (ix2 (0 : Fin 1) a) (fun ax => by
      match ax with
      | ⟨0, _⟩ => show 0 = if (1 : Nat) = 1 then 0 else R.val; rw [if_pos rfl]
      | ⟨1, _⟩ => show a.val = if (128 : Nat) = 1 then 0 else a.val; rw [if_neg (by decide)])).trans ?_
    exact broadcastInDim_apply _ hb1 b (ix2 (0 : Fin 1) a) (ix1 a) (fun ax => by
      match ax with
      | ⟨0, _⟩ => show a.val = if (128 : Nat) = 1 then 0 else a.val; rw [if_neg (by decide)])

/-- The reference's q at (R, a). -/
theorem r0_refQ_apply (x0 : (⟨S100000x128, .f32⟩ : BufTy).Contents (Elt Ideal))
    (x2 : (⟨S128x128, .f32⟩ : BufTy).Contents (Elt Ideal)) (x3 : (⟨S128, .f32⟩ : BufTy).Contents (Elt Ideal))
    (R : Fin 100000) (a : Fin 128) :
    val_main_v67 (F := Ideal) x0 x2 x3 (ix2 R a) = r0_proj (fun j => x0 (ix2 R j)) (val_main_v63 (F := Ideal) x2) x3 a := by
  unfold val_main_v67 val_main_v64 val_main_v66 val_main_v65
  exact r0_ref_proj_apply x0 _ x3 _ _ R a

/-- The reference's k at (R, a). -/
theorem r0_refK_apply (x0 : (⟨S100000x128, .f32⟩ : BufTy).Contents (Elt Ideal))
    (x4 : (⟨S128x128, .f32⟩ : BufTy).Contents (Elt Ideal)) (x5 : (⟨S128, .f32⟩ : BufTy).Contents (Elt Ideal))
    (R : Fin 100000) (a : Fin 128) :
    val_main_v73 (F := Ideal) x0 x4 x5 (ix2 R a) = r0_proj (fun j => x0 (ix2 R j)) (val_main_v69 (F := Ideal) x4) x5 a := by
  unfold val_main_v73 val_main_v70 val_main_v72 val_main_v71
  exact r0_ref_proj_apply x0 _ x5 _ _ R a

/-- The reference's v at (R, a). -/
theorem r0_refV_apply (x0 : (⟨S100000x128, .f32⟩ : BufTy).Contents (Elt Ideal))
    (x6 : (⟨S128x128, .f32⟩ : BufTy).Contents (Elt Ideal)) (x7 : (⟨S128, .f32⟩ : BufTy).Contents (Elt Ideal))
    (R : Fin 100000) (a : Fin 128) :
    val_main_v79 (F := Ideal) x0 x6 x7 (ix2 R a) = r0_proj (fun j => x0 (ix2 R j)) (val_main_v75 (F := Ideal) x6) x7 a := by
  unfold val_main_v79 val_main_v76 val_main_v78 val_main_v77
  exact r0_ref_proj_apply x0 _ x7 _ _ R a

end Cert.KernelIdeal.Bridge

end
-- ==== Proof.Region0c.lean ====
/-
  Region 0 (the projections q, k, v), part c: what region 0 finds in the arrays of its input windows.

  The input x and the three biases are argument arrays no host operation writes before the region, so
  they hold their launch contents; the three weights arrive transposed, each written by one host
  transpose of the corresponding argument in the last host stretch before the region.
-/
import proofs.«137203_j65584150610621_2_alg».proof.Proof.Gen.KernelIdeal.Frame

noncomputable section

namespace Cert.KernelIdeal.Bridge

open Cert.KernelIdeal Cert.KernelIdeal.Gen Idealize.ShloMosaic Idealize.ShloMosaic.TcCoe Idealize.SL.Sem

/-- A buffer that no operation of a host stretch writes keeps its contents over the stretch. -/
local macro "r0_skip " ops:ident b:ident : tactic =>
  `(tactic| exact StableHlo.after_of_forall_not_mem (b := Proc.devRef .tc $b) _ _ (List.forall_iff_forall_mem.mp (by
      simp only [$ops:ident, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))))

variable (m : (ℓ : Loc nD τ sig) → Buf (Elt Ideal) ℓ) (ρ : Dev nD → PrngReg) (c : Dev nD)

/-! ## The arguments before the last host stretch, and at the region's entry -/

theorem r0_W2_arg2 : W2 m ρ c (Proc.devRef .tc main_arg2) = m ((c : Thread nD τ).loc main_arg2) :=
  calc W2 m ρ c (Proc.devRef .tc main_arg2)
    _ = W1 m ρ c (Proc.devRef .tc main_arg2) := by r0_skip hostOps0_1 main_arg2
    _ = W0 m ρ c (Proc.devRef .tc main_arg2) := by r0_skip hostOps0 main_arg2
    _ = m ((c : Thread nD τ).loc main_arg2) := rfl

theorem r0_W2_arg4 : W2 m ρ c (Proc.devRef .tc main_arg4) = m ((c : Thread nD τ).loc main_arg4) :=
  calc W2 m ρ c (Proc.devRef .tc main_arg4)
    _ = W1 m ρ c (Proc.devRef .tc main_arg4) := by r0_skip hostOps0_1 main_arg4
    _ = W0 m ρ c (Proc.devRef .tc main_arg4) := by r0_skip hostOps0 main_arg4
    _ = m ((c : Thread nD τ).loc main_arg4) := rfl

theorem r0_W2_arg6 : W2 m ρ c (Proc.devRef .tc main_arg6) = m ((c : Thread nD τ).loc main_arg6) :=
  calc W2 m ρ c (Proc.devRef .tc main_arg6)
    _ = W1 m ρ c (Proc.devRef .tc main_arg6) := by r0_skip hostOps0_1 main_arg6
    _ = W0 m ρ c (Proc.devRef .tc main_arg6) := by r0_skip hostOps0 main_arg6
    _ = m ((c : Thread nD τ).loc main_arg6) := rfl

theorem r0_W3_arg0 : W3 m ρ c (Proc.devRef .tc main_arg0) = m ((c : Thread nD τ).loc main_arg0) :=
  calc W3 m ρ c (Proc.devRef .tc main_arg0)
    _ = W2 m ρ c (Proc.devRef .tc main_arg0) := by r0_skip hostOps0_2 main_arg0
    _ = W1 m ρ c (Proc.devRef .tc main_arg0) := by r0_skip hostOps0_1 main_arg0
    _ = W0 m ρ c (Proc.devRef .tc main_arg0) := by r0_skip hostOps0 main_arg0
    _ = m ((c : Thread nD τ).loc main_arg0) := rfl

theorem r0_W3_arg3 : W3 m ρ c (Proc.devRef .tc main_arg3) = m ((c : Thread nD τ).loc main_arg3) :=
  calc W3 m ρ c (Proc.devRef .tc main_arg3)
    _ = W2 m ρ c (Proc.devRef .tc main_arg3) := by r0_skip hostOps0_2 main_arg3
    _ = W1 m ρ c (Proc.devRef .tc main_arg3) := by r0_skip hostOps0_1 main_arg3
    _ = W0 m ρ c (Proc.devRef .tc main_arg3) := by r0_skip hostOps0 main_arg3
    _ = m ((c : Thread nD τ).loc main_arg3) := rfl

theorem r0_W3_arg5 : W3 m ρ c (Proc.devRef .tc main_arg5) = m ((c : Thread nD τ).loc main_arg5) :=
  calc W3 m ρ c (Proc.devRef .tc main_arg5)
    _ = W2 m ρ c (Proc.devRef .tc main_arg5) := by r0_skip hostOps0_2 main_arg5
    _ = W1 m ρ c (Proc.devRef .tc main_arg5) := by r0_skip hostOps0_1 main_arg5
    _ = W0 m ρ c (Proc.devRef .tc main_arg5) := by r0_skip hostOps0 main_arg5
    _ = m ((c : Thread nD τ).loc main_arg5) := rfl

theorem r0_W3_arg7 : W3 m ρ c (Proc.devRef .tc main_arg7) = m ((c : Thread nD τ).loc main_arg7) :=
  calc W3 m ρ c (Proc.devRef .tc main_arg7)
    _ = W2 m ρ c (Proc.devRef .tc main_arg7) := by r0_skip hostOps0_2 main_arg7
    _ = W1 m ρ c (Proc.devRef .tc main_arg7) := by r0_skip hostOps0_1 main_arg7
    _ = W0 m ρ c (Proc.devRef .tc main_arg7) := by r0_skip hostOps0 main_arg7
    _ = m ((c : Thread nD τ).loc main_arg7) := rfl

/-! ## The last host stretch's three transposes -/

theorem r0_after_v54 (V : Valuation τ sig (Elt Ideal)) :
    StableHlo.after hostOps0_2 V (Proc.devRef .tc main_v54)
      = transpose S128x128 [1, 0] (V (Proc.devRef .tc main_arg2)) transposes_S128x128_S128x128_1_0 := by
  dsimp only [hostOps0_2]
  after_results

/-- At the region's entry the array holds the transpose of the launch contents of the weight argument. -/
theorem r0_W3_v54 : W3 m ρ c (Proc.devRef .tc main_v54)
      = transpose S128x128 [1, 0] (m ((c : Thread nD τ).loc main_arg2)) transposes_S128x128_S128x128_1_0 :=
  (r0_after_v54 (W2 m ρ c)).trans (congrArg (fun z => transpose S128x128 [1, 0] z transposes_S128x128_S128x128_1_0) (r0_W2_arg2 m ρ c))

theorem r0_after_v55 (V : Valuation τ sig (Elt Ideal)) :
    StableHlo.after hostOps0_2 V (Proc.devRef .tc main_v55)
      = transpose S128x128 [1, 0] (V (Proc.devRef .tc main_arg4)) transposes_S128x128_S128x128_1_0 := by
  dsimp only [hostOps0_2]
  after_results

/-- At the region's entry the array holds the transpose of the launch contents of the weight argument. -/
theorem r0_W3_v55 : W3 m ρ c (Proc.devRef .tc main_v55)
      = transpose S128x128 [1, 0] (m ((c : Thread nD τ).loc main_arg4)) transposes_S128x128_S128x128_1_0 :=
  (r0_after_v55 (W2 m ρ c)).trans (congrArg (fun z => transpose S128x128 [1, 0] z transposes_S128x128_S128x128_1_0) (r0_W2_arg4 m ρ c))

theorem r0_after_v56 (V : Valuation τ sig (Elt Ideal)) :
    StableHlo.after hostOps0_2 V (Proc.devRef .tc main_v56)
      = transpose S128x128 [1, 0] (V (Proc.devRef .tc main_arg6)) transposes_S128x128_S128x128_1_0 := by
  dsimp only [hostOps0_2]
  after_results

/-- At the region's entry the array holds the transpose of the launch contents of the weight argument. -/
theorem r0_W3_v56 : W3 m ρ c (Proc.devRef .tc main_v56)
      = transpose S128x128 [1, 0] (m ((c : Thread nD τ).loc main_arg6)) transposes_S128x128_S128x128_1_0 :=
  (r0_after_v56 (W2 m ρ c)).trans (congrArg (fun z => transpose S128x128 [1, 0] z transposes_S128x128_S128x128_1_0) (r0_W2_arg6 m ρ c))

end Cert.KernelIdeal.Bridge

end
-- ==== Proof.Region0d.lean ====
/-
  Region 0 (the projections q, k, v), part d: from the blocks the grid points write back to the whole arrays.

  Point t of the grid of 10 reads rows 10000·t … 10000·t + 9999 of the input and the whole weight and bias
  arrays, and writes back rows 10000·t … 10000·t + 9999 of each output. Row r of the block it writes is the
  row function of part a applied to row r of its input block, so the blocks are the blocks of one array
  whose row R is the row function of row R of the input array; the ten blocks cover the array.
-/
import proofs.«137203_j65584150610621_2_alg».proof.Proof.Gen.KernelIdeal.Frame
import proofs.«137203_j65584150610621_2_alg».proof.Proof.Region0a
import Idealize.ShloMosaic.Lib.Pipeline.Value

set_option maxRecDepth 16384

noncomputable section

namespace Cert.KernelIdeal.Bridge

open Cert.KernelIdeal Cert.KernelIdeal.Gen Idealize.ShloMosaic Idealize.ShloMosaic.TcCoe Idealize.SL.Sem Idealize.ShloMosaic.ValueIdx
open Idealize.ShloMosaic.Pipeline (Dat)

theorem r0_hz2 : (![0, 0] : Fin 2 → Nat) = fun _ => 0 := funext fun a => by fin_cases a <;> rfl
theorem r0_hz1 : (![0] : Fin 1 → Nat) = fun _ => 0 := funext fun a => by fin_cases a <;> rfl

/-- The row function depends on its three operands only through their values. -/
theorem r0_proj_congr {xr xr' : Fin 128 → EReal} {Wt Wt' : S128x128.Idx → EReal} {b b' : S128.Idx → EReal}
    (h1 : ∀ j, xr j = xr' j) (h2 : Wt = Wt') (h3 : b = b') (a : Fin 128) : r0_proj xr Wt b a = r0_proj xr' Wt' b' a := by
  have e : xr = xr' := funext h1
  rw [e, h2, h3]

/-! ## The printed index maps over the grid -/

theorem r0_idx_in : ∀ t : Fin cfg0.N, win0_0.index t (0 : Fin 2) = t.val ∧ win0_0.index t (1 : Fin 2) = 0 :=
  (by decide +kernel : ∀ t : Fin grid0.N, _)
theorem r0_idx_w1 : ∀ t : Fin cfg0.N, win0_1.index t (0 : Fin 2) = 0 ∧ win0_1.index t (1 : Fin 2) = 0 :=
  (by decide +kernel : ∀ t : Fin grid0.N, _)
theorem r0_idx_w3 : ∀ t : Fin cfg0.N, win0_3.index t (0 : Fin 2) = 0 ∧ win0_3.index t (1 : Fin 2) = 0 :=
  (by decide +kernel : ∀ t : Fin grid0.N, _)
theorem r0_idx_w5 : ∀ t : Fin cfg0.N, win0_5.index t (0 : Fin 2) = 0 ∧ win0_5.index t (1 : Fin 2) = 0 :=
  (by decide +kernel : ∀ t : Fin grid0.N, _)
theorem r0_idx_w2 : ∀ t : Fin cfg0.N, win0_2.index t (0 : Fin 1) = 0 := (by decide +kernel : ∀ t : Fin grid0.N, _)
theorem r0_idx_w4 : ∀ t : Fin cfg0.N, win0_4.index t (0 : Fin 1) = 0 := (by decide +kernel : ∀ t : Fin grid0.N, _)
theorem r0_idx_w6 : ∀ t : Fin cfg0.N, win0_6.index t (0 : Fin 1) = 0 := (by decide +kernel : ∀ t : Fin grid0.N, _)
theorem r0_idx_out7 : ∀ t : Fin cfg0.N, win0_7.index t (0 : Fin 2) = t.val ∧ win0_7.index t (1 : Fin 2) = 0 :=
  (by decide +kernel : ∀ t : Fin grid0.N, _)
theorem r0_idx_out8 : ∀ t : Fin cfg0.N, win0_8.index t (0 : Fin 2) = t.val ∧ win0_8.index t (1 : Fin 2) = 0 :=
  (by decide +kernel : ∀ t : Fin grid0.N, _)
theorem r0_idx_out9 : ∀ t : Fin cfg0.N, win0_9.index t (0 : Fin 2) = t.val ∧ win0_9.index t (1 : Fin 2) = 0 :=
  (by decide +kernel : ∀ t : Fin grid0.N, _)

variable (V : (c : Dev nD) → (b : Ref sig .tc) → Buf (Elt Ideal) ((c : Thread nD τ).loc b)) (c : Dev nD)

/-! ## The input blocks as parts of their arrays -/

/-- Row r of the input block at point t is row 10000·t + r of the input array. -/
theorem r0_iblk_x (t : Fin cfg0.N) (r : Fin 10000) (j : Fin 128) (R : Fin 100000) (hR : R.val = t.val * 10000 + r.val) :
    (iblk0 V c 0 t : Vec Ideal S10000x128 .f32) (ix2 r j) = (V c main_arg0 : S100000x128.Idx → EReal) (ix2 R j) := by
  unfold iblk0
  rw [View.read_apply]
  refine congrArg (V c main_arg0 : S100000x128.Idx → EReal) (funext fun ax => Fin.ext ?_)
  match ax with
  | ⟨0, _⟩ => show win0_0.index t 0 * 10000 + 1 * r.val = R.val; rw [(r0_idx_in t).1, hR]; omega
  | ⟨1, _⟩ => show win0_0.index t 1 * 128 + 1 * j.val = j.val; rw [(r0_idx_in t).2]; omega

theorem r0_iblk_w1 (t : Fin cfg0.N) : (iblk0 V c 1 t : Vec Ideal S128x128 .f32) = (V c main_v54 : S128x128.Idx → EReal) := by
  funext y
  unfold iblk0
  rw [View.read_apply]
  refine congrArg (V c main_v54 : S128x128.Idx → EReal) (funext fun ax => Fin.ext ?_)
  match ax with
  | ⟨0, _⟩ => show win0_1.index t 0 * 128 + 1 * (y 0).val = (y 0).val; rw [(r0_idx_w1 t).1]; omega
  | ⟨1, _⟩ => show win0_1.index t 1 * 128 + 1 * (y 1).val = (y 1).val; rw [(r0_idx_w1 t).2]; omega

theorem r0_iblk_w3 (t : Fin cfg0.N) : (iblk0 V c 3 t : Vec Ideal S128x128 .f32) = (V c main_v55 : S128x128.Idx → EReal) := by
  funext y
  unfold iblk0
  rw [View.read_apply]
  refine congrArg (V c main_v55 : S128x128.Idx → EReal) (funext fun ax => Fin.ext ?_)
  match ax with
  | ⟨0, _⟩ => show win0_3.index t 0 * 128 + 1 * (y 0).val = (y 0).val; rw [(r0_idx_w3 t).1]; omega
  | ⟨1, _⟩ => show win0_3.index t 1 * 128 + 1 * (y 1).val = (y 1).val; rw [(r0_idx_w3 t).2]; omega

theorem r0_iblk_w5 (t : Fin cfg0.N) : (iblk0 V c 5 t : Vec Ideal S128x128 .f32) = (V c main_v56 : S128x128.Idx → EReal) := by
  funext y
  unfold iblk0
  rw [View.read_apply]
  refine congrArg (V c main_v56 : S128x128.Idx → EReal) (funext fun ax => Fin.ext ?_)
  match ax with
  | ⟨0, _⟩ => show win0_5.index t 0 * 128 + 1 * (y 0).val = (y 0).val; rw [(r0_idx_w5 t).1]; omega
  | ⟨1, _⟩ => show win0_5.index t 1 * 128 + 1 * (y 1).val = (y 1).val; rw [(r0_idx_w5 t).2]; omega

theorem r0_iblk_w2 (t : Fin cfg0.N) : (iblk0 V c 2 t : Vec Ideal S128 .f32) = (V c main_arg3 : S128.Idx → EReal) := by
  funext y
  unfold iblk0
  rw [View.read_apply]
  refine congrArg (V c main_arg3 : S128.Idx → EReal) (funext fun ax => Fin.ext ?_)
  match ax with
  | ⟨0, _⟩ => show win0_2.index t 0 * 128 + 1 * (y 0).val = (y 0).val; rw [r0_idx_w2 t]; omega

theorem r0_iblk_w4 (t : Fin cfg0.N) : (iblk0 V c 4 t : Vec Ideal S128 .f32) = (V c main_arg5 : S128.Idx → EReal) := by
  funext y
  unfold iblk0
  rw [View.read_apply]
  refine congrArg (V c main_arg5 : S128.Idx → EReal) (funext fun ax => Fin.ext ?_)
  match ax with
  | ⟨0, _⟩ => show win0_4.index t 0 * 128 + 1 * (y 0).val = (y 0).val; rw [r0_idx_w4 t]; omega

theorem r0_iblk_w6 (t : Fin cfg0.N) : (iblk0 V c 6 t : Vec Ideal S128 .f32) = (V c main_arg7 : S128.Idx → EReal) := by
  funext y
  unfold iblk0
  rw [View.read_apply]
  refine congrArg (V c main_arg7 : S128.Idx → EReal) (funext fun ax => Fin.ext ?_)
  match ax with
  | ⟨0, _⟩ => show win0_6.index t 0 * 128 + 1 * (y 0).val = (y 0).val; rw [r0_idx_w6 t]; omega

/-! ## Output window 7 -/

/-- What point t writes back through output window 7 is its block of any array G whose rows are the row function of
    the rows of the input array, the weight array and the bias array as the region finds them. -/
theorem r0_flushed7 (G : S100000x128.Idx → EReal)
    (hG : ∀ (R : Fin 100000) (a : Fin 128), G (ix2 R a)
      = r0_proj (fun j => (V c main_arg0 : S100000x128.Idx → EReal) (ix2 R j)) (V c main_v54) (V c main_arg3) a)
    (t : Fin cfg0.N) :
    (dat0 V c).flushed 7 t = ((cfg0.win 7).blk t).view.read (Elt Ideal) G := by
  show (cfg0.win 7).cut (grid0.coords t) ((dat0 V c).after 7 t) = _
  rw [after0_7]
  unfold out0_7
  rw [View.canon_unit_zero r0_hz2]
  simp only [View.ld_unit_zero (S := S10000x128) r0_hz2, View.ld_unit_zero (S := S128x128) r0_hz2, View.ld_unit_zero (S := S128) r0_hz1]
  funext y
  obtain ⟨r, a, rfl⟩ : ∃ (r : Fin 10000) (a : Fin 128), y = ix2 r a := ⟨y 0, y 1, eq_ix2 y⟩
  have hN : cfg0.N = 10 := N_0
  have hlt : t.val * 10000 + r.val < 100000 := by have := t.isLt; omega
  have hemb : ((cfg0.win 7).blk t).view.emb (ix2 r a) = ix2 (⟨t.val * 10000 + r.val, hlt⟩ : Fin 100000) a :=
    funext fun ax => Fin.ext (by
      match ax with
      | ⟨0, _⟩ => show win0_7.index t 0 * 10000 + 1 * r.val = t.val * 10000 + r.val; rw [(r0_idx_out7 t).1]; omega
      | ⟨1, _⟩ => show win0_7.index t 1 * 128 + 1 * a.val = a.val; rw [(r0_idx_out7 t).2]; omega)
  show k0_pay2 (iblk0 V c 0 t) (iblk0 V c 1 t) (iblk0 V c 2 t) (ix2 r a) = G (((cfg0.win 7).blk t).view.emb (ix2 r a))
  rw [hemb, hG]
  refine (r0_pay2_apply _ _ _ r a).trans ?_
  refine r0_proj_congr (fun j => r0_iblk_x V c t r j (⟨t.val * 10000 + r.val, hlt⟩ : Fin 100000) rfl) (r0_iblk_w1 V c t) (r0_iblk_w2 V c t) a

/-- An index of the array is in point t's block of window 7 iff each coordinate is in the block's range. -/
theorem r0_mem_blk7 (t : Fin cfg0.N) (i : S100000x128.Idx) :
    i ∈ ((cfg0.win 7).blk t).view.set ↔ ∀ a : Fin 2, win0_7.index t a * S10000x128.size a ≤ (i a).val ∧ (i a).val < win0_7.index t a * S10000x128.size a + S10000x128.size a := by
  show i ∈ ((View.whole main_v57_0).slice (win0_7.rect t)).set ↔ _
  rw [View.set_slice_whole, Rect.mem_set_unit]
  exact Iff.rfl

/-- Row R of the array is in the block of point R / 10000. -/
theorem r0_cover7 (i : S100000x128.Idx) :
    ∃ t : Fin cfg0.N, (cfg0.win 7).flush t = true ∧ i ∈ ((cfg0.win 7).blk t).view.set := by
  have hN : cfg0.N = 10 := N_0
  have hi0 : (i 0).val < 100000 := (i 0).isLt
  have hi1 : (i 1).val < 128 := (i 1).isLt
  obtain ⟨t, ht⟩ : ∃ t : Fin cfg0.N, t.val = (i 0).val / 10000 := ⟨⟨(i 0).val / 10000, by rw [hN]; omega⟩, rfl⟩
  refine ⟨t, flush0_7 t, ?_⟩
  rw [r0_mem_blk7]
  intro ax
  match ax with
  | ⟨0, _⟩ =>
    show win0_7.index t 0 * 10000 ≤ (i 0).val ∧ (i 0).val < win0_7.index t 0 * 10000 + 10000
    rw [(r0_idx_out7 t).1, ht]; omega
  | ⟨1, _⟩ =>
    show win0_7.index t 1 * 128 ≤ (i 1).val ∧ (i 1).val < win0_7.index t 1 * 128 + 128
    rw [(r0_idx_out7 t).2]; omega

/-- So the array of output window 7 ends holding G. -/
theorem r0_arr7 (G : S100000x128.Idx → EReal)
    (hG : ∀ (R : Fin 100000) (a : Fin 128), G (ix2 R a)
      = r0_proj (fun j => (V c main_arg0 : S100000x128.Idx → EReal) (ix2 R j)) (V c main_v54) (V c main_arg3) a) :
    (dat0 V c).arrAt 7 cfg0.N = G :=
  (dat0 V c).arrAt_eq_of_cover 7 G (fun t _ => r0_flushed7 V c G hG t) r0_cover7

/-! ## Output window 8 -/

/-- What point t writes back through output window 8 is its block of any array G whose rows are the row function of
    the rows of the input array, the weight array and the bias array as the region finds them. -/
theorem r0_flushed8 (G : S100000x128.Idx → EReal)
    (hG : ∀ (R : Fin 100000) (a : Fin 128), G (ix2 R a)
      = r0_proj (fun j => (V c main_arg0 : S100000x128.Idx → EReal) (ix2 R j)) (V c main_v55) (V c main_arg5) a)
    (t : Fin cfg0.N) :
    (dat0 V c).flushed 8 t = ((cfg0.win 8).blk t).view.read (Elt Ideal) G := by
  show (cfg0.win 8).cut (grid0.coords t) ((dat0 V c).after 8 t) = _
  rw [after0_8]
  unfold out0_8
  rw [View.canon_unit_zero r0_hz2]
  simp only [View.ld_unit_zero (S := S10000x128) r0_hz2, View.ld_unit_zero (S := S128x128) r0_hz2, View.ld_unit_zero (S := S128) r0_hz1]
  funext y
  obtain ⟨r, a, rfl⟩ : ∃ (r : Fin 10000) (a : Fin 128), y = ix2 r a := ⟨y 0, y 1, eq_ix2 y⟩
  have hN : cfg0.N = 10 := N_0
  have hlt : t.val * 10000 + r.val < 100000 := by have := t.isLt; omega
  have hemb : ((cfg0.win 8).blk t).view.emb (ix2 r a) = ix2 (⟨t.val * 10000 + r.val, hlt⟩ : Fin 100000) a :=
    funext fun ax => Fin.ext (by
      match ax with
      | ⟨0, _⟩ => show win0_8.index t 0 * 10000 + 1 * r.val = t.val * 10000 + r.val; rw [(r0_idx_out8 t).1]; omega
      | ⟨1, _⟩ => show win0_8.index t 1 * 128 + 1 * a.val = a.val; rw [(r0_idx_out8 t).2]; omega)
  show k0_pay3 (iblk0 V c 0 t) (iblk0 V c 3 t) (iblk0 V c 4 t) (ix2 r a) = G (((cfg0.win 8).blk t).view.emb (ix2 r a))
  rw [hemb, hG]
  rw [r0_pay3_eq]
  refine (r0_pay2_apply _ _ _ r a).trans ?_
  refine r0_proj_congr (fun j => r0_iblk_x V c t r j (⟨t.val * 10000 + r.val, hlt⟩ : Fin 100000) rfl) (r0_iblk_w3 V c t) (r0_iblk_w4 V c t) a

/-- An index of the array is in point t's block of window 8 iff each coordinate is in the block's range. -/
theorem r0_mem_blk8 (t : Fin cfg0.N) (i : S100000x128.Idx) :
    i ∈ ((cfg0.win 8).blk t).view.set ↔ ∀ a : Fin 2, win0_8.index t a * S10000x128.size a ≤ (i a).val ∧ (i a).val < win0_8.index t a * S10000x128.size a + S10000x128.size a := by
  show i ∈ ((View.whole main_v57_1).slice (win0_8.rect t)).set ↔ _
  rw [View.set_slice_whole, Rect.mem_set_unit]
  exact Iff.rfl

/-- Row R of the array is in the block of point R / 10000. -/
theorem r0_cover8 (i : S100000x128.Idx) :
    ∃ t : Fin cfg0.N, (cfg0.win 8).flush t = true ∧ i ∈ ((cfg0.win 8).blk t).view.set := by
  have hN : cfg0.N = 10 := N_0
  have hi0 : (i 0).val < 100000 := (i 0).isLt
  have hi1 : (i 1).val < 128 := (i 1).isLt
  obtain ⟨t, ht⟩ : ∃ t : Fin cfg0.N, t.val = (i 0).val / 10000 := ⟨⟨(i 0).val / 10000, by rw [hN]; omega⟩, rfl⟩
  refine ⟨t, flush0_8 t, ?_⟩
  rw [r0_mem_blk8]
  intro ax
  match ax with
  | ⟨0, _⟩ =>
    show win0_8.index t 0 * 10000 ≤ (i 0).val ∧ (i 0).val < win0_8.index t 0 * 10000 + 10000
    rw [(r0_idx_out8 t).1, ht]; omega
  | ⟨1, _⟩ =>
    show win0_8.index t 1 * 128 ≤ (i 1).val ∧ (i 1).val < win0_8.index t 1 * 128 + 128
    rw [(r0_idx_out8 t).2]; omega

/-- So the array of output window 8 ends holding G. -/
theorem r0_arr8 (G : S100000x128.Idx → EReal)
    (hG : ∀ (R : Fin 100000) (a : Fin 128), G (ix2 R a)
      = r0_proj (fun j => (V c main_arg0 : S100000x128.Idx → EReal) (ix2 R j)) (V c main_v55) (V c main_arg5) a) :
    (dat0 V c).arrAt 8 cfg0.N = G :=
  (dat0 V c).arrAt_eq_of_cover 8 G (fun t _ => r0_flushed8 V c G hG t) r0_cover8

/-! ## Output window 9 -/

/-- What point t writes back through output window 9 is its block of any array G whose rows are the row function of
    the rows of the input array, the weight array and the bias array as the region finds them. -/
theorem r0_flushed9 (G : S100000x128.Idx → EReal)
    (hG : ∀ (R : Fin 100000) (a : Fin 128), G (ix2 R a)
      = r0_proj (fun j => (V c main_arg0 : S100000x128.Idx → EReal) (ix2 R j)) (V c main_v56) (V c main_arg7) a)
    (t : Fin cfg0.N) :
    (dat0 V c).flushed 9 t = ((cfg0.win 9).blk t).view.read (Elt Ideal) G := by
  show (cfg0.win 9).cut (grid0.coords t) ((dat0 V c).after 9 t) = _
  rw [after0_9]
  unfold out0_9
  rw [View.canon_unit_zero r0_hz2]
  simp only [View.ld_unit_zero (S := S10000x128) r0_hz2, View.ld_unit_zero (S := S128x128) r0_hz2, View.ld_unit_zero (S := S128) r0_hz1]
  funext y
  obtain ⟨r, a, rfl⟩ : ∃ (r : Fin 10000) (a : Fin 128), y = ix2 r a := ⟨y 0, y 1, eq_ix2 y⟩
  have hN : cfg0.N = 10 := N_0
  have hlt : t.val * 10000 + r.val < 100000 := by have := t.isLt; omega
  have hemb : ((cfg0.win 9).blk t).view.emb (ix2 r a) = ix2 (⟨t.val * 10000 + r.val, hlt⟩ : Fin 100000) a :=
    funext fun ax => Fin.ext (by
      match ax with
      | ⟨0, _⟩ => show win0_9.index t 0 * 10000 + 1 * r.val = t.val * 10000 + r.val; rw [(r0_idx_out9 t).1]; omega
      | ⟨1, _⟩ => show win0_9.index t 1 * 128 + 1 * a.val = a.val; rw [(r0_idx_out9 t).2]; omega)
  show k0_pay4 (iblk0 V c 0 t) (iblk0 V c 5 t) (iblk0 V c 6 t) (ix2 r a) = G (((cfg0.win 9).blk t).view.emb (ix2 r a))
  rw [hemb, hG]
  rw [r0_pay4_eq]
  refine (r0_pay2_apply _ _ _ r a).trans ?_
  refine r0_proj_congr (fun j => r0_iblk_x V c t r j (⟨t.val * 10000 + r.val, hlt⟩ : Fin 100000) rfl) (r0_iblk_w5 V c t) (r0_iblk_w6 V c t) a

/-- An index of the array is in point t's block of window 9 iff each coordinate is in the block's range. -/
theorem r0_mem_blk9 (t : Fin cfg0.N) (i : S100000x128.Idx) :
    i ∈ ((cfg0.win 9).blk t).view.set ↔ ∀ a : Fin 2, win0_9.index t a * S10000x128.size a ≤ (i a).val ∧ (i a).val < win0_9.index t a * S10000x128.size a + S10000x128.size a := by
  show i ∈ ((View.whole main_v57_2).slice (win0_9.rect t)).set ↔ _
  rw [View.set_slice_whole, Rect.mem_set_unit]
  exact Iff.rfl

/-- Row R of the array is in the block of point R / 10000. -/
theorem r0_cover9 (i : S100000x128.Idx) :
    ∃ t : Fin cfg0.N, (cfg0.win 9).flush t = true ∧ i ∈ ((cfg0.win 9).blk t).view.set := by
  have hN : cfg0.N = 10 := N_0
  have hi0 : (i 0).val < 100000 := (i 0).isLt
  have hi1 : (i 1).val < 128 := (i 1).isLt
  obtain ⟨t, ht⟩ : ∃ t : Fin cfg0.N, t.val = (i 0).val / 10000 := ⟨⟨(i 0).val / 10000, by rw [hN]; omega⟩, rfl⟩
  refine ⟨t, flush0_9 t, ?_⟩
  rw [r0_mem_blk9]
  intro ax
  match ax with
  | ⟨0, _⟩ =>
    show win0_9.index t 0 * 10000 ≤ (i 0).val ∧ (i 0).val < win0_9.index t 0 * 10000 + 10000
    rw [(r0_idx_out9 t).1, ht]; omega
  | ⟨1, _⟩ =>
    show win0_9.index t 1 * 128 ≤ (i 1).val ∧ (i 1).val < win0_9.index t 1 * 128 + 128
    rw [(r0_idx_out9 t).2]; omega

/-- So the array of output window 9 ends holding G. -/
theorem r0_arr9 (G : S100000x128.Idx → EReal)
    (hG : ∀ (R : Fin 100000) (a : Fin 128), G (ix2 R a)
      = r0_proj (fun j => (V c main_arg0 : S100000x128.Idx → EReal) (ix2 R j)) (V c main_v56) (V c main_arg7) a) :
    (dat0 V c).arrAt 9 cfg0.N = G :=
  (dat0 V c).arrAt_eq_of_cover 9 G (fun t _ => r0_flushed9 V c G hG t) r0_cover9

end Cert.KernelIdeal.Bridge

end
-- ==== Proof.Region0.lean ====
/-
  Region 0 (the projections q, k, v): at the region's exit the three output arrays hold the reference's
  projections q, k, v of the argument arrays.

  Each output array is what its ten blocks leave (part d); row R of it is the row function of row R of the
  input array, the transposed weight the host wrote before the region and the bias (parts a, c); the
  reference's projection at (R, a) is the same row function of the same operands (part b).
-/
import proofs.«137203_j65584150610621_2_alg».proof.Proof.Base
import proofs.«137203_j65584150610621_2_alg».proof.Proof.Region0b
import proofs.«137203_j65584150610621_2_alg».proof.Proof.Region0c
import proofs.«137203_j65584150610621_2_alg».proof.Proof.Region0d

noncomputable section

namespace Cert.KernelIdeal.Bridge

open Cert.KernelIdeal Cert.KernelIdeal.Gen Idealize.ShloMosaic Idealize.ShloMosaic.TcCoe Idealize.SL.Sem Idealize.ShloMosaic.ValueIdx

variable (m : (ℓ : Loc nD τ sig) → Buf (Elt Ideal) ℓ) (ρ : Dev nD → PrngReg) (c : Dev nD)

/-- The kernel's q at region 0's exit is the reference's q. -/
theorem region0_q : Gen.W4 m ρ c (Proc.devRef .tc main_v57_0) = refQ m c := by
  refine (W4_arr m ρ c 7).trans (r0_arr7 (V3 m ρ) c (refQ m c) fun R a => ?_)
  show _ = r0_proj (fun j => (W3 m ρ c (Proc.devRef .tc main_arg0) : S100000x128.Idx → EReal) (ix2 R j))
    (W3 m ρ c (Proc.devRef .tc main_v54)) (W3 m ρ c (Proc.devRef .tc main_arg3)) a
  rw [r0_W3_arg0 m ρ c, r0_W3_v54 m ρ c, r0_W3_arg3 m ρ c]
  exact r0_refQ_apply (a0 m c) (a2 m c) (a3 m c) R a

/-- The kernel's k at region 0's exit is the reference's k. -/
theorem region0_k : Gen.W4 m ρ c (Proc.devRef .tc main_v57_1) = refK m c := by
  refine (W4_arr m ρ c 8).trans (r0_arr8 (V3 m ρ) c (refK m c) fun R a => ?_)
  show _ = r0_proj (fun j => (W3 m ρ c (Proc.devRef .tc main_arg0) : S100000x128.Idx → EReal) (ix2 R j))
    (W3 m ρ c (Proc.devRef .tc main_v55)) (W3 m ρ c (Proc.devRef .tc main_arg5)) a
  rw [r0_W3_arg0 m ρ c, r0_W3_v55 m ρ c, r0_W3_arg5 m ρ c]
  exact r0_refK_apply (a0 m c) (a4 m c) (a5 m c) R a

/-- The kernel's v at region 0's exit is the reference's v. -/
theorem region0_v : Gen.W4 m ρ c (Proc.devRef .tc main_v57_2) = refV m c := by
  refine (W4_arr m ρ c 9).trans (r0_arr9 (V3 m ρ) c (refV m c) fun R a => ?_)
  show _ = r0_proj (fun j => (W3 m ρ c (Proc.devRef .tc main_arg0) : S100000x128.Idx → EReal) (ix2 R j))
    (W3 m ρ c (Proc.devRef .tc main_v56)) (W3 m ρ c (Proc.devRef .tc main_arg7)) a
  rw [r0_W3_arg0 m ρ c, r0_W3_v56 m ρ c, r0_W3_arg7 m ρ c]
  exact r0_refV_apply (a0 m c) (a6 m c) (a7 m c) R a

end Cert.KernelIdeal.Bridge

end
-- ==== Proof.Region1a.lean ====
/-
  Row gathers read at an index.

  A gather along axis 0 with one start index per result row (offset axes the trailing ones, axis 0 collapsed,
  index vector axis 1 of extent one) reads, at result row e, the operand's row at the start index of e read as a
  signed integer and clamped into [0, N - 1]; the trailing coordinates pass through. Stated once for a rank-2
  operand and once for a rank-3 operand.
-/
import Idealize.ShloMosaic.Lib.ValueIdx

noncomputable section

namespace Cert.KernelIdeal.Bridge

open Idealize.ShloMosaic Idealize.ShloMosaic.ValueIdx

section RowGather
variable {α : Type}

/-- Dimension numbers of the row gather of a rank-2 operand [N, C] at start indices [M, 1]. -/
abbrev rowDims2 (N M C : Nat)
    (wf : GatherDims.WF ⟨2, ![N, C]⟩ ⟨2, ![M, 1]⟩ ⟨2, ![M, C]⟩ [1] [0] [] [0] [] 1 ![1, C]) :
    GatherDims ⟨2, ![N, C]⟩ ⟨2, ![M, 1]⟩ ⟨2, ![M, C]⟩ where
  offsetDims := [1]
  collapsedSliceDims := [0]
  operandBatchingDims := []
  startIndicesBatchingDims := []
  startIndexMap := [0]
  indexVectorDim := 1
  sliceSizes := ![1, C]
  wf := wf

/-- The clamped row a start index names. -/
abbrev clampRow {w : Nat} (N : Nat) (hN : 0 < N) (b : BitVec w) : Fin N := ⟨min b.toInt.toNat (N - 1), by omega⟩

theorem gather_row2_apply {N M C w : Nat} (hN : 0 < N)
    (wf : GatherDims.WF ⟨2, ![N, C]⟩ ⟨2, ![M, 1]⟩ ⟨2, ![M, C]⟩ [1] [0] [] [0] [] 1 ![1, C])
    (x : (⟨2, ![N, C]⟩ : Shape).Idx → α) (idx : IVec ⟨2, ![M, 1]⟩ w) (e : Fin M) (j : Fin C) :
    Host.gather (rowDims2 N M C wf) x idx (ix2 e j)
      = x (ix2 (clampRow N hN (idx (ix2 e (⟨0, Nat.one_pos⟩ : Fin 1)))) j) := by
  unfold Host.gather
  congr 1
  funext a
  refine Fin.ext ?_
  match a with
  | ⟨0, _⟩ =>
    show (rowDims2 N M C wf).start (ix2 e j) idx 0 + (rowDims2 N M C wf).batchCoord (ix2 e j) 0
        + (rowDims2 N M C wf).offCoord (ix2 e j) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowDims2 N M C wf).startIndexMap from List.mem_singleton.mpr rfl)]
    have hsi : (rowDims2 N M C wf).siIdx (ix2 e j) ⟨List.idxOf (0 : Fin 2) (rowDims2 N M C wf).startIndexMap,
        List.idxOf_lt_length_iff.2 (List.mem_singleton.mpr rfl)⟩ = ix2 e (⟨0, Nat.one_pos⟩ : Fin 1) := by
      funext b; refine Fin.ext ?_
      match b with
      | ⟨0, _⟩ => rfl
      | ⟨1, _⟩ => rfl
    rw [hsi]
    rfl
  | ⟨1, _⟩ =>
    show (rowDims2 N M C wf).start (ix2 e j) idx 1 + (rowDims2 N M C wf).batchCoord (ix2 e j) 1
        + (rowDims2 N M C wf).offCoord (ix2 e j) 1 = _
    rw [GatherDims.batchCoord_eq_zero _ _ _ List.not_mem_nil]
    unfold GatherDims.start
    rw [dif_neg (show ¬ (1 : Fin 2) ∈ (rowDims2 N M C wf).startIndexMap from
      fun h => Nat.one_ne_zero (congrArg Fin.val (List.mem_singleton.mp h)))]
    unfold GatherDims.offCoord
    rw [dif_pos (show (1 : Fin 2) ∈ (rowDims2 N M C wf).sKept from
      (GatherDims.mem_sKept _ _).mpr ⟨fun h => Nat.one_ne_zero (congrArg Fin.val (List.mem_singleton.mp h)), List.not_mem_nil⟩)]
    simp only [Nat.zero_add]
    rfl

/-- Dimension numbers of the row gather of a rank-3 operand [N, A, B] at start indices [M, 1]. -/
abbrev rowDims3 (N M A B : Nat)
    (wf : GatherDims.WF ⟨3, ![N, A, B]⟩ ⟨2, ![M, 1]⟩ ⟨3, ![M, A, B]⟩ [1, 2] [0] [] [0] [] 1 ![1, A, B]) :
    GatherDims ⟨3, ![N, A, B]⟩ ⟨2, ![M, 1]⟩ ⟨3, ![M, A, B]⟩ where
  offsetDims := [1, 2]
  collapsedSliceDims := [0]
  operandBatchingDims := []
  startIndicesBatchingDims := []
  startIndexMap := [0]
  indexVectorDim := 1
  sliceSizes := ![1, A, B]
  wf := wf

theorem gather_row3_apply {N M A B w : Nat} (hN : 0 < N)
    (wf : GatherDims.WF ⟨3, ![N, A, B]⟩ ⟨2, ![M, 1]⟩ ⟨3, ![M, A, B]⟩ [1, 2] [0] [] [0] [] 1 ![1, A, B])
    (x : (⟨3, ![N, A, B]⟩ : Shape).Idx → α) (idx : IVec ⟨2, ![M, 1]⟩ w) (e : Fin M) (h : Fin A) (d : Fin B) :
    Host.gather (rowDims3 N M A B wf) x idx (ix3 e h d)
      = x (ix3 (clampRow N hN (idx (ix2 e (⟨0, Nat.one_pos⟩ : Fin 1)))) h d) := by
  unfold Host.gather
  congr 1
  funext a
  refine Fin.ext ?_
  match a with
  | ⟨0, _⟩ =>
    show (rowDims3 N M A B wf).start (ix3 e h d) idx 0 + (rowDims3 N M A B wf).batchCoord (ix3 e h d) 0
        + (rowDims3 N M A B wf).offCoord (ix3 e h d) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 3) ∈ (rowDims3 N M A B wf).startIndexMap from List.mem_singleton.mpr rfl)]
    have hsi : (rowDims3 N M A B wf).siIdx (ix3 e h d) ⟨List.idxOf (0 : Fin 3) (rowDims3 N M A B wf).startIndexMap,
        List.idxOf_lt_length_iff.2 (List.mem_singleton.mpr rfl)⟩ = ix2 e (⟨0, Nat.one_pos⟩ : Fin 1) := by
      funext b; refine Fin.ext ?_
      match b with
      | ⟨0, _⟩ => rfl
      | ⟨1, _⟩ => rfl
    rw [hsi]
    rfl
  | ⟨1, _⟩ =>
    show (rowDims3 N M A B wf).start (ix3 e h d) idx 1 + (rowDims3 N M A B wf).batchCoord (ix3 e h d) 1
        + (rowDims3 N M A B wf).offCoord (ix3 e h d) 1 = _
    rw [GatherDims.batchCoord_eq_zero _ _ _ List.not_mem_nil]
    unfold GatherDims.start
    rw [dif_neg (show ¬ (1 : Fin 3) ∈ (rowDims3 N M A B wf).startIndexMap from
      fun h => Nat.one_ne_zero (congrArg Fin.val (List.mem_singleton.mp h)))]
    unfold GatherDims.offCoord
    rw [dif_pos (show (1 : Fin 3) ∈ (rowDims3 N M A B wf).sKept from
      (GatherDims.mem_sKept _ _).mpr ⟨fun h => Nat.one_ne_zero (congrArg Fin.val (List.mem_singleton.mp h)), List.not_mem_nil⟩)]
    simp only [Nat.zero_add]
    rfl
  | ⟨2, _⟩ =>
    show (rowDims3 N M A B wf).start (ix3 e h d) idx 2 + (rowDims3 N M A B wf).batchCoord (ix3 e h d) 2
        + (rowDims3 N M A B wf).offCoord (ix3 e h d) 2 = _
    rw [GatherDims.batchCoord_eq_zero _ _ _ List.not_mem_nil]
    unfold GatherDims.start
    rw [dif_neg (show ¬ (2 : Fin 3) ∈ (rowDims3 N M A B wf).startIndexMap from
      fun h => (by decide : ¬ (2 : Nat) = 0) (congrArg Fin.val (List.mem_singleton.mp h)))]
    unfold GatherDims.offCoord
    rw [dif_pos (show (2 : Fin 3) ∈ (rowDims3 N M A B wf).sKept from
      (GatherDims.mem_sKept _ _).mpr ⟨fun h => (by decide : ¬ (2 : Nat) = 0) (congrArg Fin.val (List.mem_singleton.mp h)), List.not_mem_nil⟩)]
    simp only [Nat.zero_add]
    rfl

end RowGather

end Cert.KernelIdeal.Bridge

end
-- ==== Proof.Region1b.lean ====
import proofs.«137203_j65584150610621_2_alg».proof.Proof.Gen.KernelIdeal.Frame
import proofs.«137203_j65584150610621_2_alg».proof.Proof.Region1a

noncomputable section

namespace Cert.KernelIdeal.Bridge

open Cert.KernelIdeal Cert.KernelIdeal.Gen Idealize.ShloMosaic Idealize.ShloMosaic.TcCoe Idealize.SL.Sem
open Idealize.ShloMosaic.ValueIdx Idealize.ShloMosaic.StableHlo

/-- Row 0 of the edge-index array: the source node of each edge. -/
def edgeRow (x1 : (⟨S2x1000000, .i32⟩ : BufTy).Contents (Elt Ideal)) : (⟨S1000000, .i32⟩ : BufTy).Contents (Elt Ideal) :=
  shapeCast S1000000 (extractStridedSlice S1x1000000 ![0, 0] x1 slices_S2x1000000_S1x1000000_0_0) shapeCasts_S1x1000000_S1000000

/-- Row 1 of the edge-index array: the target node of each edge. -/
def edgeCol (x1 : (⟨S2x1000000, .i32⟩ : BufTy).Contents (Elt Ideal)) : (⟨S1000000, .i32⟩ : BufTy).Contents (Elt Ideal) :=
  shapeCast S1000000 (extractStridedSlice S1x1000000 ![1, 0] x1 slices_S2x1000000_S1x1000000_1_0) shapeCasts_S1x1000000_S1000000

/-- The start indices of a row gather: a negative node index is shifted up by the node count, and the vector is
    laid out as a column. -/
def startIdx (r : (⟨S1000000, .i32⟩ : BufTy).Contents (Elt Ideal)) : (⟨S1000000x1, .i32⟩ : BufTy).Contents (Elt Ideal) :=
  broadcastInDim S1000000x1 ![0] bcast_S1000000_S1000000x1_0
    (select (cmpi .slt r (broadcastInDim S1000000 ![] bcast_S_S1000000 (constantI S_ 32 0#32)))
      (addi r (broadcastInDim S1000000 ![] bcast_S_S1000000 (constantI S_ 32 100000#32))) r)

variable (m : (ℓ : Loc nD τ sig) → Buf (Elt Ideal) ℓ) (ρ : Dev nD → PrngReg) (c : Dev nD)

/-- The edge-index argument is untouched up to the exit of region 0. -/
theorem W4_main_arg1 : Gen.W4 m ρ c (Proc.devRef .tc main_arg1) = m ((c : Thread nD τ).loc main_arg1) :=
  calc Gen.W4 m ρ c (Proc.devRef .tc main_arg1)
    _ = Gen.W3 m ρ c (Proc.devRef .tc main_arg1) := Gen.W4_of_ne m ρ c main_arg1 (by decide)
    _ = Gen.W2 m ρ c (Proc.devRef .tc main_arg1) := StableHlo.after_of_forall_not_mem (b := Proc.devRef .tc main_arg1) _ _ (List.forall_iff_forall_mem.mp (by
          simp only [hostOps0_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = Gen.W1 m ρ c (Proc.devRef .tc main_arg1) := StableHlo.after_of_forall_not_mem (b := Proc.devRef .tc main_arg1) _ _ (List.forall_iff_forall_mem.mp (by
          simp only [hostOps0_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = Gen.W0 m ρ c (Proc.devRef .tc main_arg1) := StableHlo.after_of_forall_not_mem (b := Proc.devRef .tc main_arg1) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg1) := rfl

set_option maxHeartbeats 2000000 in
/-- The gathered query rows as the host stretch computes them from region 0's output and the edge index. -/
theorem W5_main_v68_eq : Gen.W5 m ρ c (Proc.devRef .tc main_v68)
    = Host.gather gather_S100000x128_S1000000x1_S1000000x128_1_0_n_n_0_1_1128
        (Gen.W4 m ρ c (Proc.devRef .tc main_v57_0)) (startIdx (edgeRow (Gen.W4 m ρ c (Proc.devRef .tc main_arg1)))) := by
  dsimp only [Gen.W5, Gen.hostOps1]
  after_results_simp
  rfl

set_option maxHeartbeats 2000000 in
/-- The gathered key and value rows, side by side, as the host stretch computes them. -/
theorem W5_main_v76_eq : Gen.W5 m ρ c (Proc.devRef .tc main_v76)
    = Host.gather gather_S100000x256_S1000000x1_S1000000x256_1_0_n_n_0_1_1256
        (concatenate S100000x256 1 [⟨S100000x128, Gen.W4 m ρ c (Proc.devRef .tc main_v57_1)⟩,
          ⟨S100000x128, Gen.W4 m ρ c (Proc.devRef .tc main_v57_2)⟩] concatenates_S100000x128_S100000x128_S100000x256_d1)
        (startIdx (edgeCol (Gen.W4 m ρ c (Proc.devRef .tc main_arg1)))) := by
  dsimp only [Gen.W5, Gen.hostOps1]
  after_results_simp
  rfl

end Cert.KernelIdeal.Bridge

end
-- ==== Proof.Region1c.lean ====
/-
  The host stretch between regions 0 and 1: the gathered query, key and value rows are the reference's gathered
  rows, up to the layout [E,128] against [E,2,64] (column 64·h + d against (h, d)).

  Both programs gather with the same start indices (the edge-index rows, a negative index shifted up by the node
  count), clamped alike; the kernel program gathers rows of the [N,128] projections (keys and values side by side
  in one [N,256] table), the reference rows of their [N,2,64] re-layouts.
-/
import proofs.«137203_j65584150610621_2_alg».proof.Proof.Base
import proofs.«137203_j65584150610621_2_alg».proof.Proof.Region1b

noncomputable section

namespace Cert.KernelIdeal.Bridge

open Cert.KernelIdeal Cert.KernelIdeal.Gen Idealize.ShloMosaic Idealize.ShloMosaic.TcCoe Idealize.SL.Sem
open Idealize.ShloMosaic.ValueIdx

/-! ## The start indices are the reference's -/

theorem startIdx_row (x1 : (⟨S2x1000000, .i32⟩ : BufTy).Contents (Elt Ideal)) :
    startIdx (edgeRow x1) = Cert.ReferenceIdeal.ReadP.val_main_v90 (F := Ideal) x1 := rfl

theorem startIdx_col_k (x1 : (⟨S2x1000000, .i32⟩ : BufTy).Contents (Elt Ideal)) :
    startIdx (edgeCol x1) = Cert.ReferenceIdeal.ReadP.val_main_v106 (F := Ideal) x1 := rfl

theorem startIdx_col_v (x1 : (⟨S2x1000000, .i32⟩ : BufTy).Contents (Elt Ideal)) :
    startIdx (edgeCol x1) = Cert.ReferenceIdeal.ReadP.val_main_v145 (F := Ideal) x1 := rfl

/-! ## Row gathers of the two layouts agree -/

section Pure
variable {α : Type}
variable (sc : (⟨2, ![100000, 128]⟩ : Shape).ShapeCasts ⟨3, ![100000, 2, 64]⟩)
  (wf2 : GatherDims.WF ⟨2, ![100000, 128]⟩ ⟨2, ![1000000, 1]⟩ ⟨2, ![1000000, 128]⟩ [1] [0] [] [0] [] 1 ![1, 128])
  (wf2' : GatherDims.WF ⟨2, ![100000, 256]⟩ ⟨2, ![1000000, 1]⟩ ⟨2, ![1000000, 256]⟩ [1] [0] [] [0] [] 1 ![1, 256])
  (wf3 : GatherDims.WF ⟨3, ![100000, 2, 64]⟩ ⟨2, ![1000000, 1]⟩ ⟨3, ![1000000, 2, 64]⟩ [1, 2] [0] [] [0] [] 1 ![1, 2, 64])
  (conc : Shape.Concatenates [(⟨2, ![100000, 128]⟩ : Shape), ⟨2, ![100000, 128]⟩] ⟨2, ![100000, 256]⟩ 1)

/-- The re-layout [N,128] → [N,2,64] reads (r, h, d) at (r, 64·h + d). -/
theorem relayout_apply (X : (⟨2, ![100000, 128]⟩ : Shape).Idx → α) (r : Fin 100000) (h : Fin 2) (d : Fin 64)
    (hb : 64 * h.val + d.val < 128) :
    shapeCast ⟨3, ![100000, 2, 64]⟩ X sc (ix3 r h d) = X (ix2 r ⟨64 * h.val + d.val, hb⟩) :=
  shapeCast_apply X sc (ix3 r h d) (ix2 r ⟨64 * h.val + d.val, hb⟩) (by
    rewrite [Shape.rowMajor_val_two, Shape.rowMajor_val_three]
    have := h.isLt; have := d.isLt
    show r.val * 128 + (64 * h.val + d.val) = (r.val * 2 + h.val) * 64 + d.val
    omega)

/-- A row gather of the flat layout at column 64·h + d is the row gather of the re-layout at (h, d). -/
theorem gatherQ_eq (X : (⟨2, ![100000, 128]⟩ : Shape).Idx → α) (I : IVec ⟨2, ![1000000, 1]⟩ 32)
    (e : Fin 1000000) (h : Fin 2) (d : Fin 64) (hb : 64 * h.val + d.val < 128) :
    Host.gather (rowDims2 100000 1000000 128 wf2) X I (ix2 e ⟨64 * h.val + d.val, hb⟩)
      = Host.gather (rowDims3 100000 1000000 2 64 wf3) (shapeCast ⟨3, ![100000, 2, 64]⟩ X sc) I (ix3 e h d) := by
  rw [gather_row2_apply (by decide) wf2, gather_row3_apply (by decide) wf3, relayout_apply sc _ _ _ _ hb]

/-- The left half of a row of the side-by-side table is the first table's row. -/
theorem gatherK_eq (K V : (⟨2, ![100000, 128]⟩ : Shape).Idx → α) (I : IVec ⟨2, ![1000000, 1]⟩ 32)
    (e : Fin 1000000) (h : Fin 2) (d : Fin 64) (hb : 64 * h.val + d.val < 256) :
    Host.gather (rowDims2 100000 1000000 256 wf2')
        (concatenate ⟨2, ![100000, 256]⟩ 1 [⟨⟨2, ![100000, 128]⟩, K⟩, ⟨⟨2, ![100000, 128]⟩, V⟩] conc) I
        (ix2 e ⟨64 * h.val + d.val, hb⟩)
      = Host.gather (rowDims3 100000 1000000 2 64 wf3) (shapeCast ⟨3, ![100000, 2, 64]⟩ K sc) I (ix3 e h d) := by
  have hb' : 64 * h.val + d.val < 128 := by have := h.isLt; have := d.isLt; omega
  rw [gather_row2_apply (by decide) wf2', gather_row3_apply (by decide) wf3, relayout_apply sc _ _ _ _ hb']
  exact concatenate_pair_apply_left (t := ⟨2, ![100000, 256]⟩) (1 : Fin 2) K V conc _ rfl _
    (fun b => match b with | ⟨0, _⟩ => rfl | ⟨1, _⟩ => rfl)

/-- The right half of a row of the side-by-side table is the second table's row. -/
theorem gatherV_eq (K V : (⟨2, ![100000, 128]⟩ : Shape).Idx → α) (I : IVec ⟨2, ![1000000, 1]⟩ 32)
    (e : Fin 1000000) (h : Fin 2) (d : Fin 64) (hb : 128 + (64 * h.val + d.val) < 256) :
    Host.gather (rowDims2 100000 1000000 256 wf2')
        (concatenate ⟨2, ![100000, 256]⟩ 1 [⟨⟨2, ![100000, 128]⟩, K⟩, ⟨⟨2, ![100000, 128]⟩, V⟩] conc) I
        (ix2 e ⟨128 + (64 * h.val + d.val), hb⟩)
      = Host.gather (rowDims3 100000 1000000 2 64 wf3) (shapeCast ⟨3, ![100000, 2, 64]⟩ V sc) I (ix3 e h d) := by
  have hb' : 64 * h.val + d.val < 128 := by have := h.isLt; have := d.isLt; omega
  rw [gather_row2_apply (by decide) wf2', gather_row3_apply (by decide) wf3, relayout_apply sc _ _ _ _ hb']
  exact concatenate_pair_apply_right (t := ⟨2, ![100000, 256]⟩) (1 : Fin 2) K V conc _ rfl rfl _
    (fun b => match b with | ⟨0, _⟩ => fun _ => rfl | ⟨1, _⟩ => fun hne => absurd rfl hne)
    (by show 64 * h.val + d.val + 128 = 128 + (64 * h.val + d.val); omega)

end Pure

/-! ## The host stretch -/

variable (m : (ℓ : Loc nD τ sig) → Buf (Elt Ideal) ℓ) (ρ : Dev nD → PrngReg) (c : Dev nD)

/-- The gathered query rows are the reference's. -/
theorem host1_qe (hq : Gen.W4 m ρ c (Proc.devRef .tc main_v57_0) = refQ m c)
    (e : Fin 1000000) (h : Fin 2) (d : Fin 64) :
    Gen.W5 m ρ c (Proc.devRef .tc main_v68)
        (ix2 e (⟨64 * h.val + d.val, by have := h.isLt; have := d.isLt; omega⟩ : Fin 128))
      = refQe m c (ix3 e h d) := by
  refine (congrFun (W5_main_v68_eq m ρ c) _).trans ?_
  rw [hq, W4_main_arg1, startIdx_row]
  exact gatherQ_eq _ _ _ (refQ m c) _ e h d _

/-- The gathered key rows (the left half of the gathered key-and-value rows) are the reference's. -/
theorem host1_ke (hk : Gen.W4 m ρ c (Proc.devRef .tc main_v57_1) = refK m c)
    (hv : Gen.W4 m ρ c (Proc.devRef .tc main_v57_2) = refV m c)
    (e : Fin 1000000) (h : Fin 2) (d : Fin 64) :
    Gen.W5 m ρ c (Proc.devRef .tc main_v76)
        (ix2 e (⟨64 * h.val + d.val, by have := h.isLt; have := d.isLt; omega⟩ : Fin 256))
      = refKe m c (ix3 e h d) := by
  refine (congrFun (W5_main_v76_eq m ρ c) _).trans ?_
  rw [hk, hv, W4_main_arg1, startIdx_col_k]
  exact gatherK_eq _ _ _ _ (refK m c) (refV m c) _ e h d _

/-- The gathered value rows (the right half of the gathered key-and-value rows) are the reference's. -/
theorem host1_ve (hk : Gen.W4 m ρ c (Proc.devRef .tc main_v57_1) = refK m c)
    (hv : Gen.W4 m ρ c (Proc.devRef .tc main_v57_2) = refV m c)
    (e : Fin 1000000) (h : Fin 2) (d : Fin 64) :
    Gen.W5 m ρ c (Proc.devRef .tc main_v76)
        (ix2 e (⟨128 + (64 * h.val + d.val), by have := h.isLt; have := d.isLt; omega⟩ : Fin 256))
      = refVe m c (ix3 e h d) := by
  refine (congrFun (W5_main_v76_eq m ρ c) _).trans ?_
  rw [hk, hv, W4_main_arg1, startIdx_col_v]
  exact gatherV_eq _ _ _ _ (refK m c) (refV m c) _ e h d _

end Cert.KernelIdeal.Bridge

end
-- ==== Proof.Region1d.lean ====
/-
  Vector operations of the score kernel read at one row, and the score of one edge and head as a scalar function.

  The score of an edge and head: with q, k the 63 spatial coordinates of the two 64-vectors and q₆₃, k₆₃ their last
  coordinates, ‖·‖ the Euclidean norm clamped below by ε,
      ( Σ_j (q_j / ‖q‖) · (k_j / ‖k‖) − q₆₃ · k₆₃ ) · (1048576 / 11863283).
-/
import Idealize.ShloMosaic.Lib.Pipeline.Value
import Idealize.ShloMosaic.Lib.ValueIdx
import Idealize.ShloMosaic.PureOps.Ideal.Laws

noncomputable section

open scoped BigOperators

namespace Cert.KernelIdeal.Bridge

open Idealize.ShloMosaic Idealize.ShloMosaic.ValueIdx

/-! ## Reads at a row -/

section Reads
variable {α : Type}

/-- A slice of the columns [c0, c0 + W) stays inside the array. -/
theorem sliceCols_lt {R C W c0 : Nat} (hs : (⟨2, ![R, C]⟩ : Shape).Slices ![0, c0] ⟨2, ![R, W]⟩) (j : Fin W) :
    c0 + j.val < C := by
  obtain ⟨h, hh⟩ := hs
  have h1 : c0 + W ≤ C := hh (1 : Fin 2)
  have := j.isLt
  omega

/-- A slice of the columns [c0, c0 + W) of a rank-2 array, read at (r, j). -/
theorem sliceCols_apply {R C W : Nat} (c0 : Nat) (x : (⟨2, ![R, C]⟩ : Shape).Idx → α)
    (hs : (⟨2, ![R, C]⟩ : Shape).Slices ![0, c0] ⟨2, ![R, W]⟩) (r : Fin R) (j : Fin W) :
    extractStridedSlice ⟨2, ![R, W]⟩ ![0, c0] x hs (ix2 r j) = x (ix2 r ⟨c0 + j.val, sliceCols_lt hs j⟩) :=
  extractStridedSlice_apply ![0, c0] x hs (ix2 r j) (ix2 r ⟨c0 + j.val, sliceCols_lt hs j⟩) (fun a => match a with
    | ⟨0, _⟩ => by show r.val = 0 + r.val; omega
    | ⟨1, _⟩ => rfl)

/-- A vector [R] laid out as a column [R, 1], read at (r, 0). -/
theorem colCast_apply {R : Nat} (v : (⟨1, ![R]⟩ : Shape).Idx → α)
    (sc : (⟨1, ![R]⟩ : Shape).ShapeCasts ⟨2, ![R, 1]⟩) (r : Fin R) (z : Fin 1) :
    shapeCast ⟨2, ![R, 1]⟩ v sc (ix2 r z) = v (ix1 r) :=
  shapeCast_apply v sc (ix2 r z) (ix1 r) (by
    rewrite [Shape.rowMajor_val_one, Shape.rowMajor_val_two]
    have := z.isLt
    show r.val = r.val * 1 + z.val
    omega)

/-- A column [R, 1] broadcast along the rows to [R, W], read at (r, j). -/
theorem bcastCol_apply {R W : Nat} (v : (⟨2, ![R, 1]⟩ : Shape).Idx → α)
    (hb : (⟨2, ![R, 1]⟩ : Shape).Broadcasts ⟨2, ![R, W]⟩) (r : Fin R) (j : Fin W) :
    broadcastTo ⟨2, ![R, W]⟩ v hb (ix2 r j) = v (ix2 r (0 : Fin 1)) :=
  broadcastTo_apply v hb (ix2 r j) (ix2 r (0 : Fin 1)) (fun a => match a with
    | ⟨0, _⟩ => by
        show r.val = if R = 1 then 0 else r.val
        split
        · have := r.isLt; omega
        · rfl
    | ⟨1, _⟩ => by show (0 : Nat) = if (1 : Nat) = 1 then 0 else j.val; rw [if_pos rfl])

/-- Two columns side by side, read at column 0. -/
theorem headCat_apply0 {R : Nat} (a b : (⟨2, ![R, 1]⟩ : Shape).Idx → α)
    (hc : Shape.Concatenates [(⟨2, ![R, 1]⟩ : Shape), ⟨2, ![R, 1]⟩] ⟨2, ![R, 2]⟩ 1) (r : Fin R) :
    concatenate ⟨2, ![R, 2]⟩ 1 [⟨⟨2, ![R, 1]⟩, a⟩, ⟨⟨2, ![R, 1]⟩, b⟩] hc (ix2 r (0 : Fin 2)) = a (ix2 r (0 : Fin 1)) :=
  concatenate_pair_apply_left (t := ⟨2, ![R, 2]⟩) (1 : Fin 2) a b hc _ rfl _ (fun c => match c with | ⟨0, _⟩ => rfl | ⟨1, _⟩ => rfl)

/-- Two columns side by side, read at column 1. -/
theorem headCat_apply1 {R : Nat} (a b : (⟨2, ![R, 1]⟩ : Shape).Idx → α)
    (hc : Shape.Concatenates [(⟨2, ![R, 1]⟩ : Shape), ⟨2, ![R, 1]⟩] ⟨2, ![R, 2]⟩ 1) (r : Fin R) :
    concatenate ⟨2, ![R, 2]⟩ 1 [⟨⟨2, ![R, 1]⟩, a⟩, ⟨⟨2, ![R, 1]⟩, b⟩] hc (ix2 r (1 : Fin 2)) = b (ix2 r (0 : Fin 1)) :=
  concatenate_pair_apply_right (t := ⟨2, ![R, 2]⟩) (1 : Fin 2) a b hc _ rfl rfl _
    (fun c => match c with | ⟨0, _⟩ => fun _ => rfl | ⟨1, _⟩ => fun hne => absurd rfl hne)
    rfl

end Reads

/-- The sum along the rows of a rank-2 vector, read at row r: the sum of the row. -/
theorem rowSum_apply {R W : Nat} {φ : FTy} (v : FVec Ideal ⟨2, ![R, W]⟩ φ) (acc : BitVec φ.bits)
    (h : (⟨2, ![R, W]⟩ : Shape).Reduces [1] ⟨1, ![R]⟩) (hφ : FKind.Formats φ) (hacc : acc = FKind.add.neutral φ hφ)
    (r : Fin R) :
    multiReduction .add [1] ⟨1, ![R]⟩ v acc h hφ hacc (ix1 r) = ∑ j : Fin W, v (ix2 r j) := by
  refine (Ideal.multiReduction_add_single v acc h hφ hacc (ix1 r)).trans ?_
  refine Finset.sum_congr rfl fun j _ => congrArg v ?_
  funext c; apply Fin.ext
  match c with
  | ⟨0, _⟩ => rfl
  | ⟨1, _⟩ => rfl

/-! ## The score as a scalar function -/

/-- The floor of the norm clamp. -/
def epsI : EReal := Ideal.ofBits .f32 0x3089705F#32

/-- The Euclidean norm of 63 coordinates, clamped below by ε. -/
def normI (f : Fin 63 → EReal) : EReal := max (Ideal.sqrt (∑ j, f j * f j)) epsI

/-- The score of one edge and head from the spatial coordinates and the last coordinates of its two vectors. -/
def scoreI (q k : Fin 63 → EReal) (q63 k63 : EReal) : EReal :=
  ((∑ j, Ideal.div (q j) (normI q) * Ideal.div (k j) (normI k)) - q63 * k63) * ((1048576 / 11863283 : ℝ) : EReal)

/-- The reference's divisor 11.3137083… denotes the real 11863283 / 1048576. -/
theorem ofBits_sqrt_in_f : Ideal.ofBits .f32 0x413504F3#32 = ((11863283 / 1048576 : ℝ) : EReal) := by
  simp [Ideal.ofBits, Ideal.ieee, -EReal.coe_mul]; norm_num

/-- Division by that divisor is the product with its reciprocal. -/
theorem div_sqrt_in_f (x : EReal) :
    Ideal.div x (Ideal.ofBits .f32 0x413504F3#32) = x * ((1048576 / 11863283 : ℝ) : EReal) := by
  rw [ofBits_sqrt_in_f, Ideal.div_coe (by norm_num : (11863283 / 1048576 : ℝ) ≠ 0)]
  congr 2
  norm_num

end Cert.KernelIdeal.Bridge

end
-- ==== Proof.Region1e.lean ====
/-
  The score kernel's payload read at one row of its block.

  From the two loaded blocks x0 (query rows) and x1 (key rows), [20000,128] each, the body stores a [20000,2]
  vector whose column h at row r is the score of the two 64-vectors x0[r, 64h : 64h+64], x1[r, 64h : 64h+64].
-/
import proofs.«137203_j65584150610621_2_alg».proof.Proof.Gen.KernelIdeal.Skeleton
import proofs.«137203_j65584150610621_2_alg».proof.Proof.Region1d
import Idealize.ShloMosaic.PureOps.IdealRules

noncomputable section

open scoped BigOperators

namespace Cert.KernelIdeal.Bridge

open Cert.KernelIdeal Cert.KernelIdeal.Gen Idealize.ShloMosaic Idealize.ShloMosaic.ValueIdx

/-- Spatial column j of head 0 and of head 1, and the heads' last columns. -/
abbrev colA (j : Fin 63) : Fin 128 := ⟨j.val, by have := j.isLt; omega⟩
abbrev colB (j : Fin 63) : Fin 128 := ⟨64 + j.val, by have := j.isLt; omega⟩
abbrev lastA : Fin 128 := ⟨63, by decide⟩
abbrev lastB : Fin 128 := ⟨127, by decide⟩

/-- The named scale denotes the rational 1048576 / 11863283. -/
theorem kappa_eq : Named.named (F := Ideal) Cert.KernelIdeal.κ "inv_sqrt_in_f" (φ := .f32) 0x3DB504F3#32
    = ((1048576 / 11863283 : ℝ) : EReal) :=
  IdealRules.named_const.ideal_named_scalar _ _ _ _ rfl

theorem sqrt_apply {s : Shape} {φ : FTy} (v : FVec Ideal s φ) (i : s.Idx) : sqrt v i = Ideal.sqrt (v i) := rfl

section Row
variable (x0 x1 : Vec Ideal S20000x128 .f32) (r : Fin 20000)

theorem pay2_eq : k1_pay2 x0 = x0 := by unfold k1_pay2; exact shapeCast_self _ _
theorem pay3_eq : k1_pay3 x1 = x1 := by unfold k1_pay3; exact shapeCast_self _ _

/-! ### Head 1: the slices of columns 64 … 127 -/

theorem pay5_apply (j : Fin 64) :
    k1_pay5 x0 (ix2 r j) = x0 (ix2 r (⟨64 + j.val, by have := j.isLt; omega⟩ : Fin 128)) := by
  unfold k1_pay5
  rw [pay2_eq]
  exact sliceCols_apply 64 x0 _ r j

theorem pay6_apply (j : Fin 64) :
    k1_pay6 x1 (ix2 r j) = x1 (ix2 r (⟨64 + j.val, by have := j.isLt; omega⟩ : Fin 128)) := by
  unfold k1_pay6
  rw [pay3_eq]
  exact sliceCols_apply 64 x1 _ r j

theorem pay7_apply (j : Fin 63) : k1_pay7 x0 (ix2 r j) = x0 (ix2 r (colB j)) := by
  unfold k1_pay7
  refine (sliceCols_apply 0 (k1_pay5 x0) _ r j).trans ?_
  refine (pay5_apply x0 r _).trans ?_
  exact congrArg (fun c => x0 (ix2 r c)) (Fin.ext (by show 64 + (0 + j.val) = 64 + j.val; omega))

theorem pay9_apply (j : Fin 63) : k1_pay9 x1 (ix2 r j) = x1 (ix2 r (colB j)) := by
  unfold k1_pay9
  refine (sliceCols_apply 0 (k1_pay6 x1) _ r j).trans ?_
  refine (pay6_apply x1 r _).trans ?_
  exact congrArg (fun c => x1 (ix2 r c)) (Fin.ext (by show 64 + (0 + j.val) = 64 + j.val; omega))

theorem pay8_apply (z : Fin 1) : k1_pay8 x0 (ix2 r z) = x0 (ix2 r lastB) := by
  unfold k1_pay8
  refine (sliceCols_apply 63 (k1_pay5 x0) _ r z).trans ?_
  refine (pay5_apply x0 r _).trans ?_
  exact congrArg (fun c => x0 (ix2 r c)) (Fin.ext (by have := z.isLt; show 64 + (63 + z.val) = 127; omega))

theorem pay10_apply (z : Fin 1) : k1_pay10 x1 (ix2 r z) = x1 (ix2 r lastB) := by
  unfold k1_pay10
  refine (sliceCols_apply 63 (k1_pay6 x1) _ r z).trans ?_
  refine (pay6_apply x1 r _).trans ?_
  exact congrArg (fun c => x1 (ix2 r c)) (Fin.ext (by have := z.isLt; show 64 + (63 + z.val) = 127; omega))

theorem pay12_apply (j : Fin 63) : k1_pay12 x1 (ix2 r j) = x1 (ix2 r (colB j)) * x1 (ix2 r (colB j)) := by
  unfold k1_pay12
  show k1_pay9 x1 (ix2 r j) * k1_pay9 x1 (ix2 r j) = _
  rw [pay9_apply]

set_option maxRecDepth 65536 in
/-- The clamped norm of the query's head-1 spatial coordinates. -/
theorem pay11_apply (z : Fin 1) : k1_pay11 x0 (ix2 r z) = normI (fun j => x0 (ix2 r (colB j))) := by
  simp only [k1_pay11, maximumf_apply, sqrt_apply, broadcast_apply, colCast_apply]
  rw (config := { transparency := .default }) [rowSum_apply]
  simp only [mulf_apply, pay7_apply]
  rfl

set_option maxRecDepth 65536 in
/-- Column 1 of the stored vector, from the values the body keeps across its first part. -/
theorem pay1_col1 (v32 : FVec Ideal S20000x1 .f32) (v35 : FVec Ideal S20000x63 .f32) (v36 : FVec Ideal S20000x1 .f32)
    (v37 : FVec Ideal S20000x63 .f32) (v38 : FVec Ideal S20000x1 .f32) (v44 : FVec Ideal S20000x1 .f32)
    (v45 : FVec Ideal S20000x63 .f32) :
    k1_pay1 v32 v35 v36 v37 v38 v44 v45 (ix2 r (1 : Fin 2))
      = ((∑ j : Fin 63, Ideal.div (v35 (ix2 r j)) (v44 (ix2 r (0 : Fin 1)))
            * Ideal.div (v37 (ix2 r j)) (max (Ideal.sqrt (∑ j : Fin 63, v45 (ix2 r j))) epsI))
          - v36 (ix2 r (0 : Fin 1)) * v38 (ix2 r (0 : Fin 1))) * ((1048576 / 11863283 : ℝ) : EReal) := by
  simp only [k1_pay1, headCat_apply1, mulf_apply, subf_apply, broadcast_apply, colCast_apply, kappa_eq]
  rw (config := { transparency := .default }) [rowSum_apply]
  simp only [mulf_apply, divf_apply, bcastCol_apply, maximumf_apply, sqrt_apply, broadcast_apply, colCast_apply]
  rw (config := { transparency := .default }) [rowSum_apply]
  rfl

set_option maxRecDepth 65536 in
/-- Column 0 of the stored vector is its first operand's. -/
theorem pay1_col0 (v32 : FVec Ideal S20000x1 .f32) (v35 : FVec Ideal S20000x63 .f32) (v36 : FVec Ideal S20000x1 .f32)
    (v37 : FVec Ideal S20000x63 .f32) (v38 : FVec Ideal S20000x1 .f32) (v44 : FVec Ideal S20000x1 .f32)
    (v45 : FVec Ideal S20000x63 .f32) :
    k1_pay1 v32 v35 v36 v37 v38 v44 v45 (ix2 r (0 : Fin 2)) = v32 (ix2 r (0 : Fin 1)) := by
  simp only [k1_pay1, headCat_apply0]

/-! ### Head 0: the slices of columns 0 … 63, computed in one payload -/

set_option maxRecDepth 65536 in
theorem pay4_apply (z : Fin 1) :
    k1_pay4 x0 x1 (ix2 r z)
      = scoreI (fun j => x0 (ix2 r (colA j))) (fun j => x1 (ix2 r (colA j))) (x0 (ix2 r lastA)) (x1 (ix2 r lastA)) := by
  simp only [k1_pay4, pay2_eq, pay3_eq, mulf_apply, subf_apply, broadcast_apply, colCast_apply, sliceCols_apply, kappa_eq]
  rw (config := { transparency := .default }) [rowSum_apply]
  simp only [mulf_apply, divf_apply, bcastCol_apply, maximumf_apply, sqrt_apply, broadcast_apply, colCast_apply,
    sliceCols_apply]
  rw (config := { transparency := .default }) [rowSum_apply, rowSum_apply]
  simp only [mulf_apply, sliceCols_apply]
  unfold scoreI normI epsI
  have hz : z.val = 0 := by have := z.isLt; omega
  simp only [Nat.zero_add, hz, Nat.add_zero]
  rfl

/-! ### The stored vector -/

/-- The payload the body stores, from the two loaded blocks. -/
abbrev scorePay (x0 x1 : Vec Ideal S20000x128 .f32) : FVec Ideal S20000x2 .f32 :=
  k1_pay1 (k1_pay4 x0 x1) (k1_pay7 x0) (k1_pay8 x0) (k1_pay9 x1) (k1_pay10 x1) (k1_pay11 x0) (k1_pay12 x1)

theorem scorePay_head0 :
    scorePay x0 x1 (ix2 r (0 : Fin 2))
      = scoreI (fun j => x0 (ix2 r (colA j))) (fun j => x1 (ix2 r (colA j))) (x0 (ix2 r lastA)) (x1 (ix2 r lastA)) := by
  exact (pay1_col0 r _ _ _ _ _ _ _).trans (pay4_apply x0 x1 r _)

theorem scorePay_head1 :
    scorePay x0 x1 (ix2 r (1 : Fin 2))
      = scoreI (fun j => x0 (ix2 r (colB j))) (fun j => x1 (ix2 r (colB j))) (x0 (ix2 r lastB)) (x1 (ix2 r lastB)) := by
  refine (pay1_col1 r _ _ _ _ _ _ _).trans ?_
  simp only [pay7_apply, pay8_apply, pay9_apply, pay10_apply, pay11_apply, pay12_apply]
  rfl

end Row

end Cert.KernelIdeal.Bridge

end
-- ==== Proof.Region1f.lean ====
/-
  The reference's score of one edge and head is the scalar score function of its gathered query and key rows.

  The reference normalises the 63 spatial coordinates of each gathered 64-vector by their clamped norm, joins them
  to the last coordinate again, and takes (Σ_j q̂_j · k̂_j − q₆₃ · k₆₃) / 11.3137083…; read at one index every stage
  is a scalar operation of the gathered rows, and the division is the product with 1048576 / 11863283.
-/
import proofs.«137203_j65584150610621_2_alg».proof.Proof.ReadP
import proofs.«137203_j65584150610621_2_alg».proof.Proof.Region1d

set_option maxRecDepth 65536

noncomputable section

open scoped BigOperators

namespace Cert.KernelIdeal.Bridge

open Idealize.ShloMosaic Idealize.ShloMosaic.ValueIdx
open Cert.ReferenceIdeal Cert.ReferenceIdeal.Gen Cert.ReferenceIdeal.ReadP

/-- Spatial coordinate j of a 64-vector, and its last coordinate. -/
abbrev sp (j : Fin 63) : Fin 64 := ⟨j.val, by have := j.isLt; omega⟩
abbrev last64 : Fin 64 := ⟨63, by decide⟩

section RefScore

variable (x0 : (⟨S100000x128, .f32⟩ : BufTy).Contents (Elt Ideal)) (x1 : (⟨S2x1000000, .i32⟩ : BufTy).Contents (Elt Ideal))
  (x2 : (⟨S128x128, .f32⟩ : BufTy).Contents (Elt Ideal)) (x3 : (⟨S128, .f32⟩ : BufTy).Contents (Elt Ideal))
  (x4 : (⟨S128x128, .f32⟩ : BufTy).Contents (Elt Ideal)) (x5 : (⟨S128, .f32⟩ : BufTy).Contents (Elt Ideal))
  (e : Fin 1000000) (hh : Fin 2)

local macro "idx3" : tactic =>
  `(tactic| (funext a; match a with | ⟨0, _⟩ => rfl | ⟨1, _⟩ => rfl | ⟨2, _⟩ => rfl))
local macro "idx2" : tactic =>
  `(tactic| (funext a; match a with | ⟨0, _⟩ => rfl | ⟨1, _⟩ => rfl))
local macro "idx3last" z:ident : tactic =>
  `(tactic| (funext a; match a with
    | ⟨0, _⟩ => rfl
    | ⟨1, _⟩ => rfl
    | ⟨2, _⟩ => exact Fin.ext (by show 63 + ($z : Fin 1).val = 63; have := ($z : Fin 1).isLt; omega)))

/-! ## The index maps at an edge and head -/

theorem L92 (j : Fin 63) : idx_main_v92 (ix3 e hh j) = ix3 e hh (sp j) := by idx3
theorem L94 (j : Fin 63) : idx_main_v94 (ix3 e hh j) = ix3 e hh (sp j) := by idx3
theorem L108 (j : Fin 63) : idx_main_v108 (ix3 e hh j) = ix3 e hh (sp j) := by idx3
theorem L110 (j : Fin 63) : idx_main_v110 (ix3 e hh j) = ix3 e hh (sp j) := by idx3
theorem L117 (j : Fin 63) : idx_main_v117 (ix3 e hh j) = ix3 e hh (sp j) := by idx3
theorem L118 (j : Fin 63) : idx_main_v118 (ix3 e hh j) = ix3 e hh (sp j) := by idx3
theorem L99 (z : Fin 1) : idx_main_v99 (ix3 e hh z) = ix3 e hh last64 := by idx3last z
theorem L115 (z : Fin 1) : idx_main_v115 (ix3 e hh z) = ix3 e hh last64 := by idx3last z
theorem L121 (z : Fin 1) : idx_main_v121 (ix3 e hh z) = ix3 e hh last64 := by idx3last z
theorem L123 (z : Fin 1) : idx_main_v123 (ix3 e hh z) = ix3 e hh last64 := by idx3last z
theorem Lc2v1 (k : Fin 63) : idx_main_call2_v1 (ix2 e hh) k = ix3 e hh k := by idx3
theorem Lc3v1 (k : Fin 63) : idx_main_call3_v1 (ix2 e hh) k = ix3 e hh k := by idx3
theorem L120 (k : Fin 63) : idx_main_v120 (ix2 e hh) k = ix3 e hh k := by idx3
theorem Lc2v2 (z : Fin 1) : idx_main_call2_v2 (ix3 e hh z) = ix2 e hh := by idx2
theorem Lc3v2 (z : Fin 1) : idx_main_call3_v2 (ix3 e hh z) = ix2 e hh := by idx2
theorem L97 (j : Fin 63) : idx_main_v97 (ix3 e hh j) = ix3 e hh (0 : Fin 1) := by idx3
theorem L113 (j : Fin 63) : idx_main_v113 (ix3 e hh j) = ix3 e hh (0 : Fin 1) := by idx3
theorem L122 : idx_main_v122 (ix2 e hh) = ix3 e hh (0 : Fin 1) := by
  funext a
  match a with
  | ⟨0, _⟩ => exact Fin.ext (by show (e.val * 2 + hh.val) / 2 = e.val; have := hh.isLt; omega)
  | ⟨1, _⟩ => exact Fin.ext (by show (e.val * 2 + hh.val) / 1 % 2 = hh.val; have := hh.isLt; omega)
  | ⟨2, _⟩ => rfl
theorem L124 : idx_main_v124 (ix2 e hh) = ix3 e hh (0 : Fin 1) := by
  funext a
  match a with
  | ⟨0, _⟩ => exact Fin.ext (by show (e.val * 2 + hh.val) / 2 = e.val; have := hh.isLt; omega)
  | ⟨1, _⟩ => exact Fin.ext (by show (e.val * 2 + hh.val) / 1 % 2 = hh.val; have := hh.isLt; omega)
  | ⟨2, _⟩ => rfl

/-! ## The joined vectors read at a spatial and at the last coordinate -/

theorem v100_sp (j : Fin 63) :
    val_main_v100 (F := Ideal) x0 x1 x2 x3 (ix3 e hh (sp j)) = val_main_v98 (F := Ideal) x0 x1 x2 x3 (ix3 e hh j) := by
  unfold val_main_v100
  exact concatenate_pair_apply_left (t := S1000000x2x64) (2 : Fin 3) (val_main_v98 (F := Ideal) x0 x1 x2 x3)
    (val_main_v99 (F := Ideal) x0 x1 x2 x3) concatenates_S1000000x2x63_S1000000x2x1_S1000000x2x64_d2
    (ix3 e hh (sp j)) rfl (ix3 e hh j)
    (fun b => match b with | ⟨0, _⟩ => rfl | ⟨1, _⟩ => rfl | ⟨2, _⟩ => rfl)

theorem v100_last :
    val_main_v100 (F := Ideal) x0 x1 x2 x3 (ix3 e hh last64) = val_main_v99 (F := Ideal) x0 x1 x2 x3 (ix3 e hh (0 : Fin 1)) := by
  unfold val_main_v100
  exact concatenate_pair_apply_right (t := S1000000x2x64) (2 : Fin 3) (val_main_v98 (F := Ideal) x0 x1 x2 x3)
    (val_main_v99 (F := Ideal) x0 x1 x2 x3) concatenates_S1000000x2x63_S1000000x2x1_S1000000x2x64_d2
    (ix3 e hh last64) rfl rfl (ix3 e hh (0 : Fin 1))
    (fun b => match b with | ⟨0, _⟩ => fun _ => rfl | ⟨1, _⟩ => fun _ => rfl | ⟨2, _⟩ => fun hne => absurd rfl hne)
    rfl

theorem v116_sp (j : Fin 63) :
    val_main_v116 (F := Ideal) x0 x1 x4 x5 (ix3 e hh (sp j)) = val_main_v114 (F := Ideal) x0 x1 x4 x5 (ix3 e hh j) := by
  unfold val_main_v116
  exact concatenate_pair_apply_left (t := S1000000x2x64) (2 : Fin 3) (val_main_v114 (F := Ideal) x0 x1 x4 x5)
    (val_main_v115 (F := Ideal) x0 x1 x4 x5) concatenates_S1000000x2x63_S1000000x2x1_S1000000x2x64_d2
    (ix3 e hh (sp j)) rfl (ix3 e hh j)
    (fun b => match b with | ⟨0, _⟩ => rfl | ⟨1, _⟩ => rfl | ⟨2, _⟩ => rfl)

theorem v116_last :
    val_main_v116 (F := Ideal) x0 x1 x4 x5 (ix3 e hh last64) = val_main_v115 (F := Ideal) x0 x1 x4 x5 (ix3 e hh (0 : Fin 1)) := by
  unfold val_main_v116
  exact concatenate_pair_apply_right (t := S1000000x2x64) (2 : Fin 3) (val_main_v114 (F := Ideal) x0 x1 x4 x5)
    (val_main_v115 (F := Ideal) x0 x1 x4 x5) concatenates_S1000000x2x63_S1000000x2x1_S1000000x2x64_d2
    (ix3 e hh last64) rfl rfl (ix3 e hh (0 : Fin 1))
    (fun b => match b with | ⟨0, _⟩ => fun _ => rfl | ⟨1, _⟩ => fun _ => rfl | ⟨2, _⟩ => fun hne => absurd rfl hne)
    rfl

/-! ## The clamped norms, the normalised coordinates, the last coordinates -/

theorem qnorm_apply (z : Fin 1) :
    val_main_v96 (F := Ideal) x0 x1 x2 x3 (ix3 e hh z)
      = normI (fun j => val_main_v91 (F := Ideal) x0 x1 x2 x3 (ix3 e hh (sp j))) := by
  rw [val_main_v96_apply, val_main_v93_apply, val_main_call2_v2_apply, Lc2v2, val_main_call2_v1_apply,
    val_main_v95_apply, val_main_cst_7_apply, val_main_call2_cst_apply]
  simp only [val_main_call2_v0_apply, Lc2v1, val_main_v92_apply, L92]
  unfold normI epsI
  simp only [Ideal.maximumf_def, Ideal.hostUnary_sqrt_def, Ideal.ofBits_def, Ideal.ofBits_zero_f32, zero_add,
    Ideal.mulf_def]

theorem knorm_apply (z : Fin 1) :
    val_main_v112 (F := Ideal) x0 x1 x4 x5 (ix3 e hh z)
      = normI (fun j => val_main_v107 (F := Ideal) x0 x1 x4 x5 (ix3 e hh (sp j))) := by
  rw [val_main_v112_apply, val_main_v109_apply, val_main_call3_v2_apply, Lc3v2, val_main_call3_v1_apply,
    val_main_v111_apply, val_main_cst_10_apply, val_main_call3_cst_apply]
  simp only [val_main_call3_v0_apply, Lc3v1, val_main_v108_apply, L108]
  unfold normI epsI
  simp only [Ideal.maximumf_def, Ideal.hostUnary_sqrt_def, Ideal.ofBits_def, Ideal.ofBits_zero_f32, zero_add,
    Ideal.mulf_def]

theorem qhat_apply (j : Fin 63) :
    val_main_v98 (F := Ideal) x0 x1 x2 x3 (ix3 e hh j)
      = Ideal.div (val_main_v91 (F := Ideal) x0 x1 x2 x3 (ix3 e hh (sp j)))
          (normI (fun j => val_main_v91 (F := Ideal) x0 x1 x2 x3 (ix3 e hh (sp j)))) := by
  rw [val_main_v98_apply, val_main_v94_apply, L94, val_main_v97_apply, L97, qnorm_apply]
  rfl

theorem khat_apply (j : Fin 63) :
    val_main_v114 (F := Ideal) x0 x1 x4 x5 (ix3 e hh j)
      = Ideal.div (val_main_v107 (F := Ideal) x0 x1 x4 x5 (ix3 e hh (sp j)))
          (normI (fun j => val_main_v107 (F := Ideal) x0 x1 x4 x5 (ix3 e hh (sp j)))) := by
  rw [val_main_v114_apply, val_main_v110_apply, L110, val_main_v113_apply, L113, knorm_apply]
  rfl

theorem qlast_apply :
    val_main_v99 (F := Ideal) x0 x1 x2 x3 (ix3 e hh (0 : Fin 1)) = val_main_v91 (F := Ideal) x0 x1 x2 x3 (ix3 e hh last64) := by
  rw [val_main_v99_apply, L99]

theorem klast_apply :
    val_main_v115 (F := Ideal) x0 x1 x4 x5 (ix3 e hh (0 : Fin 1)) = val_main_v107 (F := Ideal) x0 x1 x4 x5 (ix3 e hh last64) := by
  rw [val_main_v115_apply, L115]

/-! ## The score -/

/-- The reference's score at edge e and head hh, from its gathered query and key rows. -/
theorem refScore_apply :
    val_main_v128 (F := Ideal) x0 x1 x2 x3 x4 x5 (ix2 e hh)
      = scoreI (fun j => val_main_v91 (F := Ideal) x0 x1 x2 x3 (ix3 e hh (sp j)))
          (fun j => val_main_v107 (F := Ideal) x0 x1 x4 x5 (ix3 e hh (sp j)))
          (val_main_v91 (F := Ideal) x0 x1 x2 x3 (ix3 e hh last64))
          (val_main_v107 (F := Ideal) x0 x1 x4 x5 (ix3 e hh last64)) := by
  rw [val_main_v128_apply, val_main_v126_apply, val_main_v120_apply, val_main_v125_apply, val_main_v122_apply, L122,
    val_main_v121_apply, L121, v100_last, qlast_apply, val_main_v124_apply, L124, val_main_v123_apply, L123, v116_last,
    klast_apply, val_main_v127_apply, val_main_cst_12_apply, val_main_cst_11_apply]
  simp only [val_main_v119_apply, L120, val_main_v117_apply, L117, v100_sp, qhat_apply, val_main_v118_apply, L118,
    v116_sp, khat_apply]
  unfold scoreI
  simp only [Ideal.hostDivf_def, Ideal.subf_def, Ideal.mulf_def, Ideal.ofBits_def, Ideal.ofBits_zero_f32, zero_add]
  exact div_sqrt_in_f _

end RefScore

end Cert.KernelIdeal.Bridge

end
-- ==== Proof.Region1g.lean ====
/-
  Region 1 (the score kernel over 50 row blocks of 20000 edges): the scores array it leaves is the reference's.

  Point t stores, at row r and head h of its block, the score of the gathered query and key rows of edge
  e = 20000·t + r; those rows are the reference's (the host stretch before the region), and the reference's score
  of edge e and head h is the same scalar function of them. The 50 blocks tile the [1000000, 2] array.
-/
import proofs.«137203_j65584150610621_2_alg».proof.Proof.Base
import proofs.«137203_j65584150610621_2_alg».proof.Proof.Region1c
import proofs.«137203_j65584150610621_2_alg».proof.Proof.Region1e
import proofs.«137203_j65584150610621_2_alg».proof.Proof.Region1f

set_option maxRecDepth 16384

noncomputable section

open scoped BigOperators

namespace Cert.KernelIdeal.Bridge

open Cert.KernelIdeal Cert.KernelIdeal.Gen Idealize.ShloMosaic Idealize.ShloMosaic.TcCoe Idealize.SL.Sem
open Idealize.ShloMosaic.ValueIdx
open Idealize.ShloMosaic.Pipeline (Dat)

theorem hz2 : (![0, 0] : Fin 2 → Nat) = fun _ => 0 := funext fun a => by fin_cases a <;> rfl

/-- The score is a function of the values of its arguments. -/
theorem scoreI_congr {q q' k k' : Fin 63 → EReal} {a a' b b' : EReal} (hq : ∀ j, q j = q' j) (hk : ∀ j, k j = k' j)
    (ha : a = a') (hb : b = b') : scoreI q k a b = scoreI q' k' a' b' := by
  rw [funext hq, funext hk, ha, hb]

/-- The printed index maps of region 1, decided over its 50 points: every window is at row block t, column block 0. -/
theorem idx_facts1 : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0 :=
  (by decide +kernel : ∀ t : Fin grid1.N, _)

variable (m : (ℓ : Loc nD τ sig) → Buf (Elt Ideal) ℓ) (ρ : Dev nD → PrngReg) (c : Dev nD)

/-! ## The input blocks at a point -/

/-- Row r of the query window's block at point t is row 20000·t + r of the gathered query rows. -/
theorem iblk1_0_apply (t : Fin cfg1.N) (r : Fin 20000) (j : Fin 128) (e : Fin 1000000)
    (he : e.val = t.val * 20000 + r.val) :
    (iblk1 (V5 m ρ) c 0 t : Vec Ideal S20000x128 .f32) (ix2 r j)
      = Gen.W5 m ρ c (Proc.devRef .tc main_v68) (ix2 e j) := by
  obtain ⟨e0, e1, -, -, -, -⟩ := idx_facts1 t
  unfold iblk1
  rw [View.read_apply]
  show Gen.W5 m ρ c (Proc.devRef .tc main_v68) _ = _
  congr 1
  funext a; apply Fin.ext
  match a with
  | ⟨0, _⟩ => show win1_0.index t (0 : Fin 2) * 20000 + 1 * r.val = e.val; rw [e0, he]; omega
  | ⟨1, _⟩ => show win1_0.index t (1 : Fin 2) * 128 + 1 * j.val = j.val; rw [e1]; omega

/-- Row r of the key window's block at point t is row 20000·t + r, left half, of the gathered key-and-value rows. -/
theorem iblk1_1_apply (t : Fin cfg1.N) (r : Fin 20000) (j : Fin 128) (e : Fin 1000000)
    (he : e.val = t.val * 20000 + r.val) :
    (iblk1 (V5 m ρ) c 1 t : Vec Ideal S20000x128 .f32) (ix2 r j)
      = Gen.W5 m ρ c (Proc.devRef .tc main_v76) (ix2 e (⟨j.val, by have := j.isLt; omega⟩ : Fin 256)) := by
  obtain ⟨-, -, e2, e3, -, -⟩ := idx_facts1 t
  unfold iblk1
  rw [View.read_apply]
  show Gen.W5 m ρ c (Proc.devRef .tc main_v76) _ = _
  congr 1
  funext a; apply Fin.ext
  match a with
  | ⟨0, _⟩ => show win1_1.index t (0 : Fin 2) * 20000 + 1 * r.val = e.val; rw [e2, he]; omega
  | ⟨1, _⟩ => show win1_1.index t (1 : Fin 2) * 128 + 1 * j.val = j.val; rw [e3]; omega

/-! ## What a point stores -/

section Point
variable (hq : Gen.W4 m ρ c (Proc.devRef .tc main_v57_0) = refQ m c)
  (hk : Gen.W4 m ρ c (Proc.devRef .tc main_v57_1) = refK m c)
  (hv : Gen.W4 m ρ c (Proc.devRef .tc main_v57_2) = refV m c)

include hq hk hv

/-- The payload of point t at (r, h) is the reference's score of edge 20000·t + r and head h. -/
theorem score_point (t : Fin cfg1.N) (r : Fin 20000) (hh : Fin 2) (e : Fin 1000000)
    (he : e.val = t.val * 20000 + r.val) :
    scorePay (iblk1 (V5 m ρ) c 0 t) (iblk1 (V5 m ρ) c 1 t) (ix2 r hh) = refScores m c (ix2 e hh) := by
  have hX0 : ∀ (h : Fin 2) (d : Fin 64) (col : Fin 128), col.val = 64 * h.val + d.val →
      (iblk1 (V5 m ρ) c 0 t : Vec Ideal S20000x128 .f32) (ix2 r col) = refQe m c (ix3 e h d) := by
    intro h d col hcol
    have hb : 64 * h.val + d.val < 128 := by have := col.isLt; omega
    have hc : col = ⟨64 * h.val + d.val, hb⟩ := Fin.ext hcol
    rw [hc]
    exact (iblk1_0_apply m ρ c t r _ e he).trans (host1_qe m ρ c hq e h d)
  have hX1 : ∀ (h : Fin 2) (d : Fin 64) (col : Fin 128), col.val = 64 * h.val + d.val →
      (iblk1 (V5 m ρ) c 1 t : Vec Ideal S20000x128 .f32) (ix2 r col) = refKe m c (ix3 e h d) := by
    intro h d col hcol
    have hb : 64 * h.val + d.val < 128 := by have := col.isLt; omega
    have hc : col = ⟨64 * h.val + d.val, hb⟩ := Fin.ext hcol
    rw [hc]
    exact (iblk1_1_apply m ρ c t r _ e he).trans (host1_ke m ρ c hk hv e h d)
  refine Eq.trans ?_ (refScore_apply (a0 m c) (a1 m c) (a2 m c) (a3 m c) (a4 m c) (a5 m c) e hh).symm
  match hh with
  | ⟨0, _⟩ =>
    refine (scorePay_head0 _ _ r).trans (scoreI_congr ?_ ?_ ?_ ?_)
    · intro j; exact hX0 0 (sp j) (colA j) (by show j.val = 64 * 0 + j.val; omega)
    · intro j; exact hX1 0 (sp j) (colA j) (by show j.val = 64 * 0 + j.val; omega)
    · exact hX0 0 last64 lastA (by show 63 = 64 * 0 + 63; rfl)
    · exact hX1 0 last64 lastA (by show 63 = 64 * 0 + 63; rfl)
  | ⟨1, _⟩ =>
    refine (scorePay_head1 _ _ r).trans (scoreI_congr ?_ ?_ ?_ ?_)
    · intro j; exact hX0 1 (sp j) (colB j) (by show 64 + j.val = 64 * 1 + j.val; omega)
    · intro j; exact hX1 1 (sp j) (colB j) (by show 64 + j.val = 64 * 1 + j.val; omega)
    · exact hX0 1 last64 lastB (by show 127 = 64 * 1 + 63; rfl)
    · exact hX1 1 last64 lastB (by show 127 = 64 * 1 + 63; rfl)

/-- The payload of point t at a block index is the reference's score at the array index it is written to. -/
theorem flushed_point (t : Fin cfg1.N) (j : S20000x2.Idx) :
    scorePay (iblk1 (V5 m ρ) c 0 t) (iblk1 (V5 m ρ) c 1 t) j
      = refScores m c (((cfg1.win 2).blk t).view.emb j) := by
  obtain ⟨-, -, -, -, e4, e5⟩ := idx_facts1 t
  have hN : cfg1.N = 50 := N_1
  have ht : t.val < 50 := lt_of_lt_of_eq t.isLt hN
  obtain ⟨r, hh, rfl⟩ : ∃ (r : Fin 20000) (hh : Fin 2), j = ix2 r hh := ⟨j 0, j 1, eq_ix2 j⟩
  have hr := r.isLt
  have hemb : ((cfg1.win 2).blk t).view.emb (ix2 r hh)
      = ix2 (⟨t.val * 20000 + r.val, by omega⟩ : Fin 1000000) hh := by
    funext a; apply Fin.ext
    match a with
    | ⟨0, _⟩ => show win1_2.index t (0 : Fin 2) * 20000 + 1 * r.val = t.val * 20000 + r.val; rw [e4]; omega
    | ⟨1, _⟩ => show win1_2.index t (1 : Fin 2) * 2 + 1 * hh.val = hh.val; rw [e5]; omega
  rw [hemb]
  exact score_point m ρ c hq hk hv t r hh _ rfl

/-- What point t writes back is block t of the reference's scores. -/
theorem flushed1_2_eq (t : Fin cfg1.N) :
    (dat1 (V5 m ρ) c).flushed 2 t = ((cfg1.win 2).blk t).view.read (Elt Ideal) (refScores m c) := by
  show (cfg1.win 2).cut (grid1.coords t) ((dat1 (V5 m ρ) c).after 2 t) = _
  rw [after1_2]
  unfold out1_2
  rw [View.canon_unit_zero hz2]
  simp only [View.ld_unit_zero (S := S20000x128) hz2]
  funext j
  exact flushed_point m ρ c hq hk hv t j

end Point

/-! ## The blocks tile the array -/

/-- An index of the scores array is in point t's block iff its row is in rows 20000·t … 20000·t + 19999. -/
theorem mem_blk1_2 (t : Fin cfg1.N) (i : S1000000x2.Idx) :
    i ∈ ((cfg1.win 2).blk t).view.set ↔ ∀ a : Fin 2, win1_2.index t a * S20000x2.size a ≤ (i a).val
      ∧ (i a).val < win1_2.index t a * S20000x2.size a + S20000x2.size a := by
  show i ∈ ((View.whole main_v77).slice (win1_2.rect t)).set ↔ _
  rw [View.set_slice_whole, Rect.mem_set_unit]
  exact Iff.rfl

theorem cover1_2_all (i : S1000000x2.Idx) :
    ∃ t : Fin cfg1.N, (cfg1.win 2).flush t = true ∧ i ∈ ((cfg1.win 2).blk t).view.set := by
  have h0 : (i 0).val < 1000000 := idx2_lt0 i
  have h1 : (i 1).val < 2 := idx2_lt1 i
  have hN : cfg1.N = 50 := N_1
  have hlt : (i 0).val / 20000 < cfg1.N := by rw [hN]; omega
  refine ⟨⟨(i 0).val / 20000, hlt⟩, flush1_2 _, ?_⟩
  rw [mem_blk1_2]
  obtain ⟨-, -, -, -, e4, e5⟩ := idx_facts1 ⟨(i 0).val / 20000, hlt⟩
  have e4' : win1_2.index ⟨(i 0).val / 20000, hlt⟩ (0 : Fin 2) = (i 0).val / 20000 := e4
  intro a
  match a with
  | ⟨0, _⟩ =>
    show win1_2.index ⟨(i 0).val / 20000, hlt⟩ (0 : Fin 2) * 20000 ≤ (i 0).val
      ∧ (i 0).val < win1_2.index ⟨(i 0).val / 20000, hlt⟩ (0 : Fin 2) * 20000 + 20000
    rw [e4']; omega
  | ⟨1, _⟩ =>
    show win1_2.index ⟨(i 0).val / 20000, hlt⟩ (1 : Fin 2) * 2 ≤ (i 1).val
      ∧ (i 1).val < win1_2.index ⟨(i 0).val / 20000, hlt⟩ (1 : Fin 2) * 2 + 2
    rw [e5]; omega

/-! ## The scores array -/

/-- Region 1 leaves the reference's scores. -/
theorem region1_scores (hq : Gen.W4 m ρ c (Proc.devRef .tc main_v57_0) = refQ m c)
    (hk : Gen.W4 m ρ c (Proc.devRef .tc main_v57_1) = refK m c)
    (hv : Gen.W4 m ρ c (Proc.devRef .tc main_v57_2) = refV m c) :
    Gen.W6 m ρ c (Proc.devRef .tc main_v77) = refScores m c := by
  refine (Gen.W6_arr m ρ c 2).trans ?_
  exact (dat1 (V5 m ρ) c).arrAt_eq_of_cover 2 (refScores m c)
    (fun t _ => flushed1_2_eq m ρ c hq hk hv t) (cover1_2_all)

end Cert.KernelIdeal.Bridge

end
-- ==== Proof.Region2a.lean ====
/-
  The body of the message kernel, read at one entry.

  For a block of 20000 edges the kernel holds the scores s [20000,2], the column maxima mx [1,2], the sums
  of shifted exponentials l [1,2] and the value rows ve [20000,128], and stores
  ve(r, 64·h + d) · (exp(s(r,h) − mx(0,h)) / l(0,h)) at row r and column 64·h + d: the weight of head h is
  spread over that head's 64 columns by two slices, two broadcasts and a concatenation along the columns.
-/
import proofs.«137203_j65584150610621_2_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Bridge

open Cert.KernelIdeal Cert.KernelIdeal.Gen Idealize.ShloMosaic Idealize.ShloMosaic.ValueIdx

/-- The softmax weight of one edge and head from its score, the head's maximum and the head's sum. -/
def r2_weight (s mx l : EReal) : EReal := Ideal.div (Ideal.exp (s - mx)) l

/-- The weights block exp(s − mx) / l at row r and head h. -/
theorem r2_alpha_apply (x0 : Vec Ideal S20000x2 .f32) (x1 : Vec Ideal S1x2 .f32) (x2 : Vec Ideal S1x2 .f32)
    (r : Fin 20000) (h : Fin 2) :
    divf (F := Ideal) (φ := .f32) (exp (subf (shapeCast S20000x2 x0 shapeCasts_S20000x2_S20000x2)
        (broadcastTo S20000x2 (shapeCast S1x2 x1 shapeCasts_S1x2_S1x2) broadcasts_S1x2_S20000x2)))
      (broadcastTo S20000x2 (shapeCast S1x2 x2 shapeCasts_S1x2_S1x2) broadcasts_S1x2_S20000x2) (ix2 r h)
      = r2_weight (x0 (ix2 r h)) (x1 (ix2 (0 : Fin 1) h)) (x2 (ix2 (0 : Fin 1) h)) := by
  rw [shapeCast_self, shapeCast_self, shapeCast_self]
  show Ideal.div (Ideal.exp (x0 (ix2 r h) - broadcastTo S20000x2 x1 broadcasts_S1x2_S20000x2 (ix2 r h)))
      (broadcastTo S20000x2 x2 broadcasts_S1x2_S20000x2 (ix2 r h)) = _
  rw [broadcastTo_1b_ab_apply x1 broadcasts_S1x2_S20000x2 r h, broadcastTo_1b_ab_apply x2 broadcasts_S1x2_S20000x2 r h]
  rfl

/-- A column [20000,1] spread over 64 columns, read at row r and any column d, is the column at row r. -/
theorem r2_bcast64_apply (v : FVec Ideal S20000x1 .f32) (r : Fin 20000) (d : Fin 64) :
    broadcastTo S20000x64 v broadcasts_S20000x1_S20000x64 (ix2 r d) = v (ix2 r (0 : Fin 1)) :=
  broadcastTo_apply v _ (ix2 r d) (ix2 r (0 : Fin 1)) (fun ax => match ax with
    | ⟨0, _⟩ => rfl
    | ⟨1, _⟩ => rfl)

/-- The two heads' weight columns, each spread over its 64 columns and laid side by side: column 64·h + d of row r
    holds the weight of row r and head h. -/
theorem r2_spread_apply (a : FVec Ideal S20000x2 .f32) (r : Fin 20000) (h : Fin 2) (d : Fin 64) :
    concatenate S20000x128 1
        [⟨S20000x64, broadcastTo S20000x64 (shapeCast S20000x1 (extractStridedSlice S20000x1 ![0, 0] a slices_S20000x2_o0_0_S20000x1) shapeCasts_S20000x1_S20000x1) broadcasts_S20000x1_S20000x64⟩,
         ⟨S20000x64, broadcastTo S20000x64 (shapeCast S20000x1 (extractStridedSlice S20000x1 ![0, 1] a slices_S20000x2_o0_1_S20000x1) shapeCasts_S20000x1_S20000x1) broadcasts_S20000x1_S20000x64⟩]
        concatenates_S20000x64_S20000x64_S20000x128_d1 (ix2 r (⟨64 * h.val + d.val, by omega⟩ : Fin 128)) = a (ix2 r h) := by
  rw [shapeCast_self, shapeCast_self]
  match h with
  | ⟨0, _⟩ =>
    refine (concatenate_pair_apply_left (1 : Fin 2) _ _ concatenates_S20000x64_S20000x64_S20000x128_d1
      (ix2 r (⟨64 * 0 + d.val, by omega⟩ : Fin 128)) rfl (ix2 r d) (fun b => match b with
        | ⟨0, _⟩ => rfl
        | ⟨1, _⟩ => by show d.val = 64 * 0 + d.val; omega)).trans ?_
    rw [r2_bcast64_apply]
    exact extractStridedSlice_apply ![0, 0] a slices_S20000x2_o0_0_S20000x1 (ix2 r (0 : Fin 1)) (ix2 r (0 : Fin 2)) (fun ax => match ax with
      | ⟨0, _⟩ => by show r.val = 0 + r.val; omega
      | ⟨1, _⟩ => rfl)
  | ⟨1, _⟩ =>
    refine (concatenate_pair_apply_right (1 : Fin 2) _ _ concatenates_S20000x64_S20000x64_S20000x128_d1
      (ix2 r (⟨64 * 1 + d.val, by omega⟩ : Fin 128)) rfl rfl (ix2 r d) (fun b => match b with
        | ⟨0, _⟩ => fun _ => rfl
        | ⟨1, _⟩ => fun hne => absurd rfl hne) (by show d.val + 64 = 64 * 1 + d.val; omega)).trans ?_
    rw [r2_bcast64_apply]
    exact extractStridedSlice_apply ![0, 1] a slices_S20000x2_o0_1_S20000x1 (ix2 r (0 : Fin 1)) (ix2 r (1 : Fin 2)) (fun ax => match ax with
      | ⟨0, _⟩ => by show r.val = 0 + r.val; omega
      | ⟨1, _⟩ => rfl)

/-- The stored block of the message kernel at row r and column 64·h + d. -/
theorem r2_pay_apply (x0 : Vec Ideal S20000x2 .f32) (x1 : Vec Ideal S1x2 .f32) (x2 : Vec Ideal S1x2 .f32)
    (x3 : Vec Ideal S20000x128 .f32) (r : Fin 20000) (h : Fin 2) (d : Fin 64) :
    Gen.k2_pay1 (F := Ideal) x0 x1 x2 x3 (ix2 r (⟨64 * h.val + d.val, by omega⟩ : Fin 128))
      = x3 (ix2 r (⟨64 * h.val + d.val, by omega⟩ : Fin 128))
        * r2_weight (x0 (ix2 r h)) (x1 (ix2 (0 : Fin 1) h)) (x2 (ix2 (0 : Fin 1) h)) := by
  unfold Gen.k2_pay1
  rw [shapeCast_self x3]
  refine congrArg (x3 (ix2 r (⟨64 * h.val + d.val, by omega⟩ : Fin 128)) * ·) ?_
  exact (r2_spread_apply _ r h d).trans (r2_alpha_apply x0 x1 x2 r h)

end Cert.KernelIdeal.Bridge

end
-- ==== Proof.Region2b.lean ====
/-
  The message kernel over the whole edge array.

  Grid point t of 50 handles edges 20000·t … 20000·t + 19999: it reads that block of rows of the scores, the
  two rows of column maxima and sums whole, that block of rows of the value half (columns 128 … 255) of the
  gathered table, and writes that block of rows of the messages. Every edge lies in the block of point e / 20000,
  so after the region the messages array is one function of the four arrays the region finds, entry by entry:
  msgs(e, j) = table(e, 128 + j) · (exp(s(e, j / 64) − mx(0, j / 64)) / l(0, j / 64)).
-/
import proofs.«137203_j65584150610621_2_alg».proof.Proof.Gen.KernelIdeal.Frame
import proofs.«137203_j65584150610621_2_alg».proof.Proof.Region2a
import Idealize.ShloMosaic.Lib.Pipeline.Value

noncomputable section

namespace Cert.KernelIdeal.Bridge

open Cert.KernelIdeal Cert.KernelIdeal.Gen Idealize.ShloMosaic Idealize.ShloMosaic.TcCoe Idealize.SL.Sem Idealize.ShloMosaic.ValueIdx
open Idealize.ShloMosaic.Pipeline (Dat)

theorem r2_hz : (![0, 0] : Fin 2 → Nat) = fun _ => 0 := funext fun a => by fin_cases a <;> rfl

/-- The messages array as one function of the gathered table, the scores, the maxima row and the sums row. -/
def r2_G (ve : S1000000x256.Idx → EReal) (s : S1000000x2.Idx → EReal) (mx l : S1x2.Idx → EReal) :
    S1000000x128.Idx → EReal := fun i =>
  ve (ix2 (⟨(i 0).val, (i 0).isLt⟩ : Fin 1000000)
        (⟨128 + (i 1).val, by have h : (i 1).val < 128 := (i 1).isLt; omega⟩ : Fin 256))
    * r2_weight (s (ix2 (⟨(i 0).val, (i 0).isLt⟩ : Fin 1000000)
          (⟨(i 1).val / 64, by have h : (i 1).val < 128 := (i 1).isLt; omega⟩ : Fin 2)))
        (mx (ix2 (0 : Fin 1) (⟨(i 1).val / 64, by have h : (i 1).val < 128 := (i 1).isLt; omega⟩ : Fin 2)))
        (l (ix2 (0 : Fin 1) (⟨(i 1).val / 64, by have h : (i 1).val < 128 := (i 1).isLt; omega⟩ : Fin 2)))

/-- The stored block at any index of the block: the head of column j is j / 64. -/
theorem r2_pay_idx (x0 : Vec Ideal S20000x2 .f32) (x1 : Vec Ideal S1x2 .f32) (x2 : Vec Ideal S1x2 .f32)
    (x3 : Vec Ideal S20000x128 .f32) (j : S20000x128.Idx) :
    Gen.k2_pay1 (F := Ideal) x0 x1 x2 x3 j
      = x3 j * r2_weight
          (x0 (ix2 (⟨(j 0).val, (j 0).isLt⟩ : Fin 20000) (⟨(j 1).val / 64, by have h : (j 1).val < 128 := (j 1).isLt; omega⟩ : Fin 2)))
          (x1 (ix2 (0 : Fin 1) (⟨(j 1).val / 64, by have h : (j 1).val < 128 := (j 1).isLt; omega⟩ : Fin 2)))
          (x2 (ix2 (0 : Fin 1) (⟨(j 1).val / 64, by have h : (j 1).val < 128 := (j 1).isLt; omega⟩ : Fin 2))) := by
  obtain ⟨r, q, rfl⟩ : ∃ (r : Fin 20000) (q : Fin 128), j = ix2 r q := ⟨j 0, j 1, eq_ix2 j⟩
  have hq : q = (⟨64 * (q.val / 64) + q.val % 64, by omega⟩ : Fin 128) := Fin.ext (Nat.div_add_mod q.val 64).symm
  have key := r2_pay_apply x0 x1 x2 x3 r (⟨q.val / 64, by omega⟩ : Fin 2) (⟨q.val % 64, Nat.mod_lt _ (by decide)⟩ : Fin 64)
  rw [← hq] at key
  exact key

/-- The whole-array function at row e and column 64·h + d. -/
theorem r2_G_apply (ve : S1000000x256.Idx → EReal) (s : S1000000x2.Idx → EReal) (mx l : S1x2.Idx → EReal)
    (e : Fin 1000000) (h : Fin 2) (d : Fin 64) :
    r2_G ve s mx l (ix2 e (⟨64 * h.val + d.val, by omega⟩ : Fin 128))
      = ve (ix2 e (⟨128 + (64 * h.val + d.val), by omega⟩ : Fin 256))
        * r2_weight (s (ix2 e h)) (mx (ix2 (0 : Fin 1) h)) (l (ix2 (0 : Fin 1) h)) := by
  have hh : ∀ p, (⟨(64 * h.val + d.val) / 64, p⟩ : Fin 2) = h := fun p =>
    Fin.ext (by show (64 * h.val + d.val) / 64 = h.val; omega)
  unfold r2_G
  show ve (ix2 e (⟨128 + (64 * h.val + d.val), _⟩ : Fin 256))
      * r2_weight (s (ix2 e (⟨(64 * h.val + d.val) / 64, _⟩ : Fin 2)))
          (mx (ix2 (0 : Fin 1) (⟨(64 * h.val + d.val) / 64, _⟩ : Fin 2)))
          (l (ix2 (0 : Fin 1) (⟨(64 * h.val + d.val) / 64, _⟩ : Fin 2))) = _
  rw [hh]

/-- The printed index maps over the 50 grid points. -/
theorem r2_idx_facts : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 1
    ∧ win2_4.index t (0 : Fin 2) = t.val ∧ win2_4.index t (1 : Fin 2) = 0 :=
  (by decide +kernel : ∀ t : Fin grid2.N, _)

theorem r2_weight_congr {s s' mx mx' l l' : EReal} (h1 : s = s') (h2 : mx = mx') (h3 : l = l') :
    r2_weight s mx l = r2_weight s' mx' l' := by subst h1 h2 h3; rfl

variable (V : (c : Dev nD) → (b : Ref sig .tc) → Buf (Elt Ideal) ((c : Thread nD τ).loc b)) (c : Dev nD)

/-- What point t writes back is block t of the whole-array function of the arrays the region finds. -/
theorem r2_flushed_eq (t : Fin cfg2.N) :
    (dat2 V c).flushed 4 t = ((cfg2.win 4).blk t).view.read (Elt Ideal)
      (r2_G (V c main_v76) (V c main_v77) (V c main_v79) (V c main_v84)) := by
  show (cfg2.win 4).cut (grid2.coords t) ((dat2 V c).after 4 t) = _
  rw [after2_4]
  unfold out2_4
  rw [View.canon_unit_zero r2_hz]
  simp only [View.ld_unit_zero (S := S20000x2) r2_hz, View.ld_unit_zero (S := S1x2) r2_hz, View.ld_unit_zero (S := S20000x128) r2_hz]
  obtain ⟨e00, e01, e10, e11, e20, e21, e30, e31, e40, e41⟩ := r2_idx_facts t
  funext j
  show Gen.k2_pay1 (F := Ideal) (iblk2 V c 0 t) (iblk2 V c 1 t) (iblk2 V c 2 t) (iblk2 V c 3 t) j
     = r2_G (V c main_v76) (V c main_v77) (V c main_v79) (V c main_v84) (((cfg2.win 4).blk t).view.emb j)
  refine (r2_pay_idx (iblk2 V c 0 t) (iblk2 V c 1 t) (iblk2 V c 2 t) (iblk2 V c 3 t) j).trans ?_
  unfold r2_G
  have hj1 : (j 1).val < 128 := (j 1).isLt
  refine congrArg₂ (· * ·) ?_ (r2_weight_congr ?_ ?_ ?_)
  · show V c main_v76 (((cfg2.win 3).blk t).view.emb j) = _
    refine congrArg (V c main_v76) (funext fun a => Fin.ext ?_)
    match a with
    | ⟨0, _⟩ =>
      show win2_3.index t (0 : Fin 2) * 20000 + 1 * (j 0).val = win2_4.index t (0 : Fin 2) * 20000 + 1 * (j 0).val
      rw [e30, e40]
    | ⟨1, _⟩ =>
      show win2_3.index t (1 : Fin 2) * 128 + 1 * (j 1).val = 128 + (win2_4.index t (1 : Fin 2) * 128 + 1 * (j 1).val)
      rw [e31, e41]; omega
  · show V c main_v77 (((cfg2.win 0).blk t).view.emb _) = _
    refine congrArg (V c main_v77) (funext fun a => Fin.ext ?_)
    match a with
    | ⟨0, _⟩ =>
      show win2_0.index t (0 : Fin 2) * 20000 + 1 * (j 0).val = win2_4.index t (0 : Fin 2) * 20000 + 1 * (j 0).val
      rw [e00, e40]
    | ⟨1, _⟩ =>
      show win2_0.index t (1 : Fin 2) * 2 + 1 * ((j 1).val / 64) = (win2_4.index t (1 : Fin 2) * 128 + 1 * (j 1).val) / 64
      rw [e01, e41]; omega
  · show V c main_v79 (((cfg2.win 1).blk t).view.emb _) = _
    refine congrArg (V c main_v79) (funext fun a => Fin.ext ?_)
    match a with
    | ⟨0, _⟩ =>
      show win2_1.index t (0 : Fin 2) * 1 + 1 * 0 = 0
      rw [e10]
    | ⟨1, _⟩ =>
      show win2_1.index t (1 : Fin 2) * 2 + 1 * ((j 1).val / 64) = (win2_4.index t (1 : Fin 2) * 128 + 1 * (j 1).val) / 64
      rw [e11, e41]; omega
  · show V c main_v84 (((cfg2.win 2).blk t).view.emb _) = _
    refine congrArg (V c main_v84) (funext fun a => Fin.ext ?_)
    match a with
    | ⟨0, _⟩ =>
      show win2_2.index t (0 : Fin 2) * 1 + 1 * 0 = 0
      rw [e20]
    | ⟨1, _⟩ =>
      show win2_2.index t (1 : Fin 2) * 2 + 1 * ((j 1).val / 64) = (win2_4.index t (1 : Fin 2) * 128 + 1 * (j 1).val) / 64
      rw [e21, e41]; omega

/-- An index of the messages array is in point t's block iff each coordinate is in the block's range. -/
theorem r2_mem_blk (t : Fin cfg2.N) (i : S1000000x128.Idx) :
    i ∈ ((cfg2.win 4).blk t).view.set ↔ ∀ a : Fin 2, win2_4.index t a * S20000x128.size a ≤ (i a).val
      ∧ (i a).val < win2_4.index t a * S20000x128.size a + S20000x128.size a := by
  show i ∈ ((View.whole main_v85).slice (win2_4.rect t)).set ↔ _
  rw [View.set_slice_whole, Rect.mem_set_unit]
  exact Iff.rfl

/-- Every edge row lies in the block of point e / 20000. -/
theorem r2_cover (i : S1000000x128.Idx) :
    ∃ t : Fin cfg2.N, (cfg2.win 4).flush t = true ∧ i ∈ ((cfg2.win 4).blk t).view.set := by
  have hi0 : (i 0).val < 1000000 := (i 0).isLt
  have hi1 : (i 1).val < 128 := (i 1).isLt
  have hN : cfg2.N = 50 := Gen.N_2
  obtain ⟨t, ht⟩ : ∃ t : Fin cfg2.N, t.val = (i 0).val / 20000 := ⟨⟨(i 0).val / 20000, by omega⟩, rfl⟩
  obtain ⟨-, -, -, -, -, -, -, -, e40, e41⟩ := r2_idx_facts t
  refine ⟨t, flush2_4 t, ?_⟩
  rw [r2_mem_blk]
  intro a
  match a with
  | ⟨0, _⟩ =>
    show win2_4.index t (0 : Fin 2) * 20000 ≤ (i 0).val ∧ (i 0).val < win2_4.index t (0 : Fin 2) * 20000 + 20000
    rw [e40, ht]; omega
  | ⟨1, _⟩ =>
    show win2_4.index t (1 : Fin 2) * 128 ≤ (i 1).val ∧ (i 1).val < win2_4.index t (1 : Fin 2) * 128 + 128
    rw [e41]; omega

/-- After the region the messages array is the whole-array function of the arrays the region finds. -/
theorem r2_final : (dat2 V c).arrAt 4 cfg2.N = r2_G (V c main_v76) (V c main_v77) (V c main_v79) (V c main_v84) :=
  (dat2 V c).arrAt_eq_of_cover 4 (r2_G (V c main_v76) (V c main_v77) (V c main_v79) (V c main_v84))
    (fun t _ => r2_flushed_eq V c t) r2_cover

end Cert.KernelIdeal.Bridge

end
-- ==== Proof.Region2h.lean ====
/-
  The host operations between the score kernel and the message kernel, as functions of the scores array:
  the column maxima as a row [1,2], and the column sums of exp(score − column maximum) as a row [1,2].
  The kernel program's two rows are these functions of its scores array; the functions are never opened.
-/
import proofs.«137203_j65584150610621_2_alg».proof.Proof.Gen.KernelIdeal.Frame

noncomputable section

namespace Cert.KernelIdeal.Bridge

open Cert.KernelIdeal Cert.KernelIdeal.Gen Idealize.ShloMosaic Idealize.ShloMosaic.TcCoe Idealize.SL.Sem Idealize.ShloMosaic.StableHlo

/-- The column maxima of a scores array, from −∞. -/
def r2_colMax (s : (⟨S1000000x2, .f32⟩ : BufTy).Contents (Elt Ideal)) : (⟨S2, .f32⟩ : BufTy).Contents (Elt Ideal) :=
  Host.reduce (FloatOps.maximumf (F := Ideal) (φ := .f32)) s (constant (F := Ideal) S_ .f32 0xFF800000#32) reducesTo_S1000000x2_S2_d0 h_S_

/-- The column maxima as a row [1,2]. -/
def r2_maxRow (s : (⟨S1000000x2, .f32⟩ : BufTy).Contents (Elt Ideal)) : (⟨S1x2, .f32⟩ : BufTy).Contents (Elt Ideal) :=
  broadcastInDim S1x2 ![1] bcast_S2_S1x2_1 (r2_colMax s)

/-- The column sums of exp(score − column maximum) as a row [1,2]. -/
def r2_sumRow (s : (⟨S1000000x2, .f32⟩ : BufTy).Contents (Elt Ideal)) : (⟨S1x2, .f32⟩ : BufTy).Contents (Elt Ideal) :=
  broadcastInDim S1x2 ![1] bcast_S2_S1x2_1
    (Host.reduceAdd (F := Ideal)
      (Host.exp (F := Ideal) (subf s (broadcastInDim S1000000x2 ![0, 1] bcast_S1x2_S1000000x2_0_1 (r2_maxRow s))))
      (constant (F := Ideal) S_ .f32 0x00000000#32) reducesTo_S1000000x2_S2_d0 h_S_)

variable (m : (ℓ : Loc nD τ sig) → Buf (Elt Ideal) ℓ) (ρ : Dev nD → PrngReg) (c : Dev nD)

/-- The kernel program's maxima row is that function of its scores array. -/
theorem r2_max_kernel : Gen.W7 m ρ c (Proc.devRef .tc main_v79) = r2_maxRow (Gen.W6 m ρ c (Proc.devRef .tc main_v77)) := by
  show StableHlo.after hostOps2 (Gen.W6 m ρ c) (Proc.devRef .tc main_v79) = _
  generalize Gen.W6 m ρ c = X
  after_results
  rfl

/-- The kernel program's sums row is that function of its scores array. -/
theorem r2_sum_kernel : Gen.W7 m ρ c (Proc.devRef .tc main_v84) = r2_sumRow (Gen.W6 m ρ c (Proc.devRef .tc main_v77)) := by
  show StableHlo.after hostOps2 (Gen.W6 m ρ c) (Proc.devRef .tc main_v84) = _
  generalize Gen.W6 m ρ c = X
  after_results
  rfl

end Cert.KernelIdeal.Bridge

end
-- ==== Proof.Region2i.lean ====
/-
  The two rows between the score kernel and the message kernel against the reference.

  The reference applies to its scores the operations the kernel program applies to its own, and additionally
  takes the maximum of the column maxima with −∞, which changes nothing on the extended reals. So once the
  two scores arrays are equal, the maxima rows are equal and the sums rows are equal.
-/
import proofs.«137203_j65584150610621_2_alg».proof.Proof.Base
import proofs.«137203_j65584150610621_2_alg».proof.Proof.Region2h

noncomputable section

namespace Cert.KernelIdeal.Bridge

open Cert.KernelIdeal Cert.KernelIdeal.Gen Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

/-- The maximum with −∞ is the identity on the extended reals. -/
theorem r2_max_neg_inf (x : EReal) : max (Ideal.ofBits .f32 0xFF800000#32) x = x := by
  have h : Ideal.ofBits .f32 0xFF800000#32 = (⊥ : EReal) := by simp [Ideal.ofBits, Ideal.ieee]
  rw [h]; exact max_bot_left x

/-- The reference's column maxima, after its extra maximum with −∞, are the same function of the reference's scores. -/
theorem r2_colMax_ref : Cert.ReferenceIdeal.ReadP.val_main_v131 (F := Ideal) (a0 m c) (a1 m c) (a2 m c) (a3 m c) (a4 m c) (a5 m c)
    = r2_colMax (refScores m c) := by
  funext i
  rw [Cert.ReferenceIdeal.ReadP.val_main_v131_apply, Cert.ReferenceIdeal.ReadP.val_main_v130_apply,
    Cert.ReferenceIdeal.ReadP.val_main_cst_14_apply]
  refine (r2_max_neg_inf _).trans ?_
  unfold Cert.ReferenceIdeal.ReadP.val_main_v129 Cert.ReferenceIdeal.ReadP.val_main_cst_13 r2_colMax
  rfl

/-- The reference's maxima row is the same function of the reference's scores. -/
theorem r2_max_ref : refMax m c = r2_maxRow (refScores m c) := by
  show Cert.ReferenceIdeal.ReadP.val_main_v132 (F := Ideal) (a0 m c) (a1 m c) (a2 m c) (a3 m c) (a4 m c) (a5 m c) = _
  unfold Cert.ReferenceIdeal.ReadP.val_main_v132 r2_maxRow
  rw [show Cert.ReferenceIdeal.ReadP.val_main_v131 (F := Ideal) (a0 m c) (a1 m c) (a2 m c) (a3 m c) (a4 m c) (a5 m c)
      = r2_colMax (refScores m c) from r2_colMax_ref m c]

/-- The reference's sums row is the same function of the reference's scores. -/
theorem r2_sum_ref : refSum m c = r2_sumRow (refScores m c) := by
  show Cert.ReferenceIdeal.ReadP.val_main_v137 (F := Ideal) (a0 m c) (a1 m c) (a2 m c) (a3 m c) (a4 m c) (a5 m c) = _
  unfold Cert.ReferenceIdeal.ReadP.val_main_v137 Cert.ReferenceIdeal.ReadP.val_main_v136 Cert.ReferenceIdeal.ReadP.val_main_v135
    Cert.ReferenceIdeal.ReadP.val_main_v134 Cert.ReferenceIdeal.ReadP.val_main_v133 Cert.ReferenceIdeal.ReadP.val_main_cst_15 r2_sumRow
  rw [show Cert.ReferenceIdeal.ReadP.val_main_v132 (F := Ideal) (a0 m c) (a1 m c) (a2 m c) (a3 m c) (a4 m c) (a5 m c)
      = r2_maxRow (refScores m c) from r2_max_ref m c]

/-- Column maxima: the kernel program's row is the reference's. -/
theorem host2_max (hs : Gen.W6 m ρ c (Proc.devRef .tc main_v77) = refScores m c) :
    Gen.W7 m ρ c (Proc.devRef .tc main_v79) = refMax m c := by
  rw [r2_max_kernel, hs, r2_max_ref]

/-- Sums of shifted exponentials: the kernel program's row is the reference's. -/
theorem host2_sum (hs : Gen.W6 m ρ c (Proc.devRef .tc main_v77) = refScores m c) :
    Gen.W7 m ρ c (Proc.devRef .tc main_v84) = refSum m c := by
  rw [r2_sum_kernel, hs, r2_sum_ref]

end Cert.KernelIdeal.Bridge

end
-- ==== Proof.Region2c.lean ====
/-
  The weighted messages: the kernel program's messages array [1000000,128] against the reference's
  [1000000,2,64], entry by entry, column 64·h + d against (h, d).

  After the message kernel the array holds table(e, 128 + 64·h + d) · (exp(s(e,h) − mx(0,h)) / l(0,h)) of the
  gathered table, the scores and the two rows as the region finds them. The score kernel and the host
  operations between the two kernels leave the gathered table alone, the host operations leave the scores
  alone, and the rows are the reference's rows. The reference multiplies its gathered value rows by the same
  quotient, broadcast over the 64 columns of a head.
-/
import proofs.«137203_j65584150610621_2_alg».proof.Proof.Base
import proofs.«137203_j65584150610621_2_alg».proof.Proof.Region2b
import proofs.«137203_j65584150610621_2_alg».proof.Proof.Region2i

noncomputable section

namespace Cert.KernelIdeal.Bridge

open Cert.KernelIdeal Cert.KernelIdeal.Gen Idealize.ShloMosaic Idealize.ShloMosaic.TcCoe Idealize.SL.Sem Idealize.ShloMosaic.StableHlo Idealize.ShloMosaic.ValueIdx

variable (m : (ℓ : Loc nD τ sig) → Buf (Elt Ideal) ℓ) (ρ : Dev nD → PrngReg) (c : Dev nD)

/-- The reference's messages at (e, h, d): its gathered value times the softmax weight of (e, h). -/
theorem r2_ref_msgs (e : Fin 1000000) (h : Fin 2) (d : Fin 64) :
    refMsgs m c (ix3 e h d) = refVe m c (ix3 e h d)
      * r2_weight (refScores m c (ix2 e h)) (refMax m c (ix2 (0 : Fin 1) h)) (refSum m c (ix2 (0 : Fin 1) h)) := by
  have i1 : Cert.ReferenceIdeal.ReadP.idx_main_v147 (Cert.ReferenceIdeal.ReadP.idx_main_v148 (ix3 e h d)) = ix2 e h :=
    funext fun a => Fin.ext (by match a with | ⟨0, _⟩ => rfl | ⟨1, _⟩ => rfl)
  have i2 : Cert.ReferenceIdeal.ReadP.idx_main_v133 (ix2 e h) = ix2 (0 : Fin 1) h :=
    funext fun a => Fin.ext (by match a with | ⟨0, _⟩ => rfl | ⟨1, _⟩ => rfl)
  have i3 : Cert.ReferenceIdeal.ReadP.idx_main_v138 (ix2 e h) = ix2 (0 : Fin 1) h :=
    funext fun a => Fin.ext (by match a with | ⟨0, _⟩ => rfl | ⟨1, _⟩ => rfl)
  show Cert.ReferenceIdeal.ReadP.val_main_v149 (F := Ideal) (a0 m c) (a1 m c) (a2 m c) (a3 m c) (a4 m c) (a5 m c) (a6 m c) (a7 m c) (ix3 e h d) = _
  rw [Cert.ReferenceIdeal.ReadP.val_main_v149_apply, Cert.ReferenceIdeal.ReadP.val_main_v148_apply,
    Cert.ReferenceIdeal.ReadP.val_main_v147_apply, i1, Cert.ReferenceIdeal.ReadP.val_main_v139_apply,
    Cert.ReferenceIdeal.ReadP.val_main_v135_apply, Cert.ReferenceIdeal.ReadP.val_main_v134_apply,
    Cert.ReferenceIdeal.ReadP.val_main_v133_apply, Cert.ReferenceIdeal.ReadP.val_main_v138_apply, i2, i3]
  rfl

/-- The score kernel only reads the gathered table (its second input), and the host operations after it do not
    write it: the table is as the score kernel found it. -/
theorem r2_table_kept : Gen.W7 m ρ c (Proc.devRef .tc main_v76) = Gen.W5 m ρ c (Proc.devRef .tc main_v76) :=
  calc Gen.W7 m ρ c (Proc.devRef .tc main_v76)
      = Gen.W6 m ρ c (Proc.devRef .tc main_v76) := StableHlo.after_of_forall_not_mem (b := Proc.devRef .tc main_v76) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = Gen.W5 m ρ c (Proc.devRef .tc main_v76) :=
      (Gen.W6_arr m ρ c 1).trans (((Gen.dat1 (Gen.V5 m ρ) c).arrAt_in 1 rfl _).trans (Gen.A_eq1 (Gen.V5 m ρ) c 1))

/-- The host operations after the score kernel leave the scores array alone. -/
theorem r2_scores_kept : Gen.W7 m ρ c (Proc.devRef .tc main_v77) = Gen.W6 m ρ c (Proc.devRef .tc main_v77) :=
  StableHlo.after_of_forall_not_mem (b := Proc.devRef .tc main_v77) _ _ (List.forall_iff_forall_mem.mp (by
    simp only [hostOps2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- After the message kernel the messages array is the whole-array function of the table, the scores and the rows
    at the kernel's entry. -/
theorem r2_msgs_array : Gen.W8 m ρ c (Proc.devRef .tc main_v85)
    = r2_G (Gen.W7 m ρ c (Proc.devRef .tc main_v76)) (Gen.W7 m ρ c (Proc.devRef .tc main_v77))
        (Gen.W7 m ρ c (Proc.devRef .tc main_v79)) (Gen.W7 m ρ c (Proc.devRef .tc main_v84)) :=
  (Gen.W8_arr m ρ c 4).trans (r2_final (Gen.V7 m ρ) c)

/-- The messages, entry by entry: column 64·h + d of edge e is the reference's entry (e, h, d). -/
theorem region2_msgs (hs : Gen.W6 m ρ c (Proc.devRef .tc main_v77) = refScores m c)
    (hve : ∀ (e : Fin 1000000) (h : Fin 2) (d : Fin 64),
      Gen.W5 m ρ c (Proc.devRef .tc main_v76) (ix2 e (⟨128 + (64 * h.val + d.val), by omega⟩ : Fin 256)) = refVe m c (ix3 e h d))
    (e : Fin 1000000) (h : Fin 2) (d : Fin 64) :
    Gen.W8 m ρ c (Proc.devRef .tc main_v85) (ix2 e (⟨64 * h.val + d.val, by omega⟩ : Fin 128)) = refMsgs m c (ix3 e h d) := by
  rw [r2_msgs_array, r2_G_apply, r2_ref_msgs, r2_table_kept, r2_scores_kept, hs, host2_max m ρ c hs, host2_sum m ρ c hs, hve e h d]

end Cert.KernelIdeal.Bridge

end
-- ==== Proof.Region3a.lean ====
/-
  Region 3 (output projection times the scale): the kernel body's arithmetic read at one element.

  At the element (r, o) of its [10000,64] block the body computes
      (∑ k, x(r, k) · w(k, o) + b(o)) · s
  where x is the [10000,128] block of node sums, w the transposed output weights [128,64], b the bias [64]
  and s the one element of the [1,1] scale block.
-/
import proofs.«137203_j65584150610621_2_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Bridge

open Cert.KernelIdeal Cert.KernelIdeal.Gen Idealize.ShloMosaic Idealize.ShloMosaic.TcCoe Idealize.SL.Sem
open Idealize.ShloMosaic.ValueIdx

/-- The left operand's index of the product: row of the output index, contraction coordinate. -/
theorem r3_lhs_0 (i : S10000x64.Idx) (q : dot_S10000x128_S128x64_S10000x64_1_0_0_1_n_n.contr.Idx) :
    (dot_S10000x128_S128x64_S10000x64_1_0_0_1_n_n.lhsIdx i q 0).val = (i 0).val := by
  unfold DotDims.lhsIdx
  rw [dif_neg (show ¬(0 : Fin S10000x128.rank) ∈ dot_S10000x128_S128x64_S10000x64_1_0_0_1_n_n.lhsBatch by decide),
    dif_pos (show (0 : Fin S10000x128.rank) ∈ dot_S10000x128_S128x64_S10000x64_1_0_0_1_n_n.lhsNonContracting by decide)]
  rfl
theorem r3_lhs_1 (i : S10000x64.Idx) (q : dot_S10000x128_S128x64_S10000x64_1_0_0_1_n_n.contr.Idx) :
    (dot_S10000x128_S128x64_S10000x64_1_0_0_1_n_n.lhsIdx i q 1).val = (q ⟨0, by decide⟩).val :=
  dot_S10000x128_S128x64_S10000x64_1_0_0_1_n_n.lhsIdx_val_of_single rfl i q
/-- The right operand's index of the product: contraction coordinate, column of the output index. -/
theorem r3_rhs_0 (i : S10000x64.Idx) (q : dot_S10000x128_S128x64_S10000x64_1_0_0_1_n_n.contr.Idx) :
    (dot_S10000x128_S128x64_S10000x64_1_0_0_1_n_n.rhsIdx i q 0).val = (q ⟨0, by decide⟩).val :=
  dot_S10000x128_S128x64_S10000x64_1_0_0_1_n_n.rhsIdx_val_of_single rfl i q
theorem r3_rhs_1 (i : S10000x64.Idx) (q : dot_S10000x128_S128x64_S10000x64_1_0_0_1_n_n.contr.Idx) :
    (dot_S10000x128_S128x64_S10000x64_1_0_0_1_n_n.rhsIdx i q 1).val = (i 1).val := by
  unfold DotDims.rhsIdx
  rw [dif_neg (show ¬(1 : Fin S128x64.rank) ∈ dot_S10000x128_S128x64_S10000x64_1_0_0_1_n_n.rhsBatch by decide),
    dif_pos (show (1 : Fin S128x64.rank) ∈ dot_S10000x128_S128x64_S10000x64_1_0_0_1_n_n.rhsNonContracting by decide)]
  rfl

/-- The matrix product into the zero accumulator, at (r, o): the sum over the 128 contracted columns. -/
theorem r3_matmul_apply (x : FVec Ideal S10000x128 .f32) (w : FVec Ideal S128x64 .f32) (r : Fin 10000) (o : Fin 64) :
    matmul dot_S10000x128_S128x64_S10000x64_1_0_0_1_n_n none x w (constant (F := Ideal) S10000x64 .f32 0x00000000#32) (ix2 r o)
      = ∑ k : Fin 128, x (ix2 r k) * w (ix2 k o) := by
  simp only [matmul]
  rw [Ideal.matmul_constant_zero_apply,
    ← Equiv.sum_comp (contrEquiv1 dot_S10000x128_S128x64_S10000x64_1_0_0_1_n_n 128 rfl rfl).symm]
  refine Finset.sum_congr rfl fun k _ => ?_
  have hk := contrEquiv1_symm_val dot_S10000x128_S128x64_S10000x64_1_0_0_1_n_n 128 rfl rfl k
  have el : dot_S10000x128_S128x64_S10000x64_1_0_0_1_n_n.lhsIdx (ix2 r o)
      ((contrEquiv1 dot_S10000x128_S128x64_S10000x64_1_0_0_1_n_n 128 rfl rfl).symm k) = ix2 r k :=
    funext fun a => Fin.ext (by
      match a with
      | ⟨0, _⟩ => exact r3_lhs_0 _ _
      | ⟨1, _⟩ => exact (r3_lhs_1 _ _).trans hk)
  have er : dot_S10000x128_S128x64_S10000x64_1_0_0_1_n_n.rhsIdx (ix2 r o)
      ((contrEquiv1 dot_S10000x128_S128x64_S10000x64_1_0_0_1_n_n 128 rfl rfl).symm k) = ix2 k o :=
    funext fun a => Fin.ext (by
      match a with
      | ⟨0, _⟩ => exact (r3_rhs_0 _ _).trans hk
      | ⟨1, _⟩ => exact r3_rhs_1 _ _)
  rw [el, er]

/-- The bias row [64] re-laid as [1,64] and repeated down the 10000 rows, at (r, o): the bias at o. -/
theorem r3_bias_apply (b : FVec Ideal S64 .f32) (r : Fin 10000) (o : Fin 64) :
    broadcastTo S10000x64 (shapeCast S1x64 b shapeCasts_S64_S1x64) broadcasts_S1x64_S10000x64 (ix2 r o) = b (ix1 o) := by
  refine (broadcastTo_apply _ broadcasts_S1x64_S10000x64 (ix2 r o) (ix2 (0 : Fin 1) o) (fun a => ?_)).trans ?_
  · match a with
    | ⟨0, _⟩ => show (0 : Nat) = if (1 : Nat) = 1 then 0 else r.val; rw [if_pos rfl]
    | ⟨1, _⟩ => show o.val = if (64 : Nat) = 1 then 0 else o.val; rw [if_neg (by decide)]
  · exact shapeCast_apply b shapeCasts_S64_S1x64 (ix2 (0 : Fin 1) o) (ix1 o)
      (by rewrite [Shape.rowMajor_val_one, Shape.rowMajor_val_two]; show o.val = 0 * 64 + o.val; omega)

/-- THE BODY AT AN ELEMENT. -/
theorem r3_pay_apply (x : Vec Ideal S10000x128 .f32) (w : Vec Ideal S128x64 .f32) (b : Vec Ideal S64 .f32)
    (s : Vec Ideal S1x1 .f32) (r : Fin 10000) (o : Fin 64) :
    Gen.k3_pay1 x w b s (ix2 r o)
      = ((∑ k : Fin 128, x (ix2 r k) * w (ix2 k o)) + b (ix1 o)) * s (ix2 (0 : Fin 1) (0 : Fin 1)) := by
  unfold Gen.k3_pay1
  simp only [shapeCast_self]
  rw [mulf_apply, addf_apply, broadcast_apply, r3_matmul_apply, r3_bias_apply]
  congr 1
  unfold extractAt
  congr 1
  funext a
  match a with
  | ⟨0, _⟩ => rfl
  | ⟨1, _⟩ => rfl

end Cert.KernelIdeal.Bridge

end
-- ==== Proof.Region3b.lean ====
/-
  Region 3 (output projection times the scale): from the blocks to the whole result array.

  The region's grid has 10 points; at point t the body reads rows 10000·t … 10000·t + 9999 of the node sums, the
  whole transposed weights, the whole bias and the one-element scale, and writes rows 10000·t … 10000·t + 9999 of
  the result. So the result array after the region is, element by element,
      (∑ k, X(r, k) · W(k, o) + B(o)) · S(0, 0)
  of the four arrays X, W, B, S as the region finds them.
-/
import proofs.«137203_j65584150610621_2_alg».proof.Proof.Gen.KernelIdeal.Frame
import proofs.«137203_j65584150610621_2_alg».proof.Proof.Region3a

noncomputable section

namespace Cert.KernelIdeal.Bridge

open Cert.KernelIdeal Cert.KernelIdeal.Gen Idealize.ShloMosaic Idealize.ShloMosaic.TcCoe Idealize.SL.Sem
open Idealize.ShloMosaic.Pipeline (Dat)
open Idealize.ShloMosaic.ValueIdx

/-- One element of the projected and scaled result, from the four arrays the region reads. -/
def r3elt (X : (⟨S100000x128, .f32⟩ : BufTy).Contents (Elt Ideal)) (W : (⟨S128x64, .f32⟩ : BufTy).Contents (Elt Ideal))
    (B : (⟨S64, .f32⟩ : BufTy).Contents (Elt Ideal)) (S : (⟨S1x1, .f32⟩ : BufTy).Contents (Elt Ideal))
    (r : Fin 100000) (o : Fin 64) : EReal :=
  ((∑ k : Fin 128, X (ix2 r k) * W (ix2 k o)) + B (ix1 o)) * S (ix2 (0 : Fin 1) (0 : Fin 1))

/-- The whole result array [100000,64]. -/
def r3G (X : (⟨S100000x128, .f32⟩ : BufTy).Contents (Elt Ideal)) (W : (⟨S128x64, .f32⟩ : BufTy).Contents (Elt Ideal))
    (B : (⟨S64, .f32⟩ : BufTy).Contents (Elt Ideal)) (S : (⟨S1x1, .f32⟩ : BufTy).Contents (Elt Ideal)) :
    (⟨S100000x64, .f32⟩ : BufTy).Contents (Elt Ideal) :=
  fun i => r3elt X W B S ⟨(i 0).val, idx2_lt0 i⟩ ⟨(i 1).val, idx2_lt1 i⟩

/-- The result array at an index whose coordinates are r and o. -/
theorem r3G_apply (X : (⟨S100000x128, .f32⟩ : BufTy).Contents (Elt Ideal)) (W : (⟨S128x64, .f32⟩ : BufTy).Contents (Elt Ideal))
    (B : (⟨S64, .f32⟩ : BufTy).Contents (Elt Ideal)) (S : (⟨S1x1, .f32⟩ : BufTy).Contents (Elt Ideal))
    (i : S100000x64.Idx) (r : Fin 100000) (o : Fin 64) (h0 : (i 0).val = r.val) (h1 : (i 1).val = o.val) :
    r3G X W B S i = r3elt X W B S r o := by
  unfold r3G
  have e0 : (⟨(i 0).val, idx2_lt0 i⟩ : Fin 100000) = r := Fin.ext h0
  have e1 : (⟨(i 1).val, idx2_lt1 i⟩ : Fin 64) = o := Fin.ext h1
  rw [e0, e1]

theorem r3_hz2 : (![0, 0] : Fin 2 → Nat) = fun _ => 0 := funext fun a => by fin_cases a <;> rfl
theorem r3_hz1 : (![0] : Fin 1 → Nat) = fun _ => 0 := funext fun a => by fin_cases a; rfl

/-- The body at an element of block t, when the block of node sums is rows 10000·t … of X and the other three blocks
    are the whole arrays. -/
theorem r3_block_elt (X : (⟨S100000x128, .f32⟩ : BufTy).Contents (Elt Ideal)) (W : (⟨S128x64, .f32⟩ : BufTy).Contents (Elt Ideal))
    (B : (⟨S64, .f32⟩ : BufTy).Contents (Elt Ideal)) (S : (⟨S1x1, .f32⟩ : BufTy).Contents (Elt Ideal))
    (x : Vec Ideal S10000x128 .f32) (w : Vec Ideal S128x64 .f32) (b : Vec Ideal S64 .f32) (s : Vec Ideal S1x1 .f32)
    (tv : Nat) (ht : tv < 10)
    (hx : ∀ (p : Fin 10000) (k : Fin 128), x (ix2 p k) = X (ix2 (⟨tv * 10000 + p.val, by omega⟩ : Fin 100000) k))
    (hw : ∀ (k : Fin 128) (o : Fin 64), w (ix2 k o) = W (ix2 k o))
    (hb : ∀ o : Fin 64, b (ix1 o) = B (ix1 o))
    (hs : s (ix2 (0 : Fin 1) (0 : Fin 1)) = S (ix2 (0 : Fin 1) (0 : Fin 1)))
    (p : Fin 10000) (o : Fin 64) :
    Gen.k3_pay1 x w b s (ix2 p o) = r3elt X W B S ⟨tv * 10000 + p.val, by omega⟩ o := by
  rw [r3_pay_apply, hb, hs]
  unfold r3elt
  congr 2
  exact Finset.sum_congr rfl fun k _ => by rw [hx, hw]

/-- The printed index maps over the grid: the node sums' and the result's row block is the point's number, every other
    block index is zero. -/
theorem r3_idx_facts : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 1) = 0
    ∧ win3_3.index t (0 : Fin 2) = 0 ∧ win3_3.index t (1 : Fin 2) = 0
    ∧ win3_4.index t (0 : Fin 2) = t.val ∧ win3_4.index t (1 : Fin 2) = 0 :=
  (by decide +kernel : ∀ t : Fin grid3.N, _)

variable (V : (c : Dev nD) → (b : Ref sig .tc) → Buf (Elt Ideal) ((c : Thread nD τ).loc b)) (c : Dev nD)

/-- WHAT POINT t WRITES BACK is block t of the result array. -/
theorem r3_flushed_eq (t : Fin cfg3.N) :
    (Gen.dat3 V c).flushed 4 t
      = ((cfg3.win 4).blk t).view.read (Elt Ideal) (r3G (V c main_v88) (V c main_v155) (V c main_arg9) (V c main_v156)) := by
  show (cfg3.win 4).cut (grid3.coords t) ((Gen.dat3 V c).after 4 t) = _
  rw [Gen.after3_4]
  unfold Gen.out3_4
  rw [View.canon_unit_zero r3_hz2]
  simp only [View.ld_unit_zero (S := S10000x128) r3_hz2, View.ld_unit_zero (S := S128x64) r3_hz2,
    View.ld_unit_zero (S := S64) r3_hz1, View.ld_unit_zero (S := S1x1) r3_hz2]
  obtain ⟨e00, e01, e10, e11, e20, e30, e31, e40, e41⟩ := r3_idx_facts t
  have ht : t.val < 10 := Nat.lt_of_lt_of_eq t.isLt Gen.N_3
  refine funext fun (j : S10000x64.Idx) => ?_
  obtain ⟨p, o, rfl⟩ : ∃ (p : Fin 10000) (o : Fin 64), j = ix2 p o := ⟨j 0, j 1, eq_ix2 j⟩
  show Gen.k3_pay1 (Gen.iblk3 V c 0 t) (Gen.iblk3 V c 1 t) (Gen.iblk3 V c 2 t) (Gen.iblk3 V c 3 t) (ix2 p o)
    = r3G (V c main_v88) (V c main_v155) (V c main_arg9) (V c main_v156) (((cfg3.win 4).blk t).view.emb (ix2 p o))
  refine (r3_block_elt (V c main_v88) (V c main_v155) (V c main_arg9) (V c main_v156) _ _ _ _ t.val ht
    (fun p k => ?_) (fun k o => ?_) (fun o => ?_) ?_ p o).trans ?_
  · show V c main_v88 (((cfg3.win 0).blk t).view.emb (ix2 p k)) = V c main_v88 _
    refine congrArg _ (funext fun a => Fin.ext ?_)
    match a with
    | ⟨0, _⟩ => show win3_0.index t (0 : Fin 2) * 10000 + 1 * p.val = t.val * 10000 + p.val; rw [e00]; omega
    | ⟨1, _⟩ => show win3_0.index t (1 : Fin 2) * 128 + 1 * k.val = k.val; rw [e01]; omega
  · show V c main_v155 (((cfg3.win 1).blk t).view.emb (ix2 k o)) = V c main_v155 _
    refine congrArg _ (funext fun a => Fin.ext ?_)
    match a with
    | ⟨0, _⟩ => show win3_1.index t (0 : Fin 2) * 128 + 1 * k.val = k.val; rw [e10]; omega
    | ⟨1, _⟩ => show win3_1.index t (1 : Fin 2) * 64 + 1 * o.val = o.val; rw [e11]; omega
  · show V c main_arg9 (((cfg3.win 2).blk t).view.emb (ix1 o)) = V c main_arg9 _
    refine congrArg _ (funext fun a => Fin.ext ?_)
    match a with
    | ⟨0, _⟩ => show win3_2.index t (0 : Fin 1) * 64 + 1 * o.val = o.val; rw [e20]; omega
  · show V c main_v156 (((cfg3.win 3).blk t).view.emb (ix2 (0 : Fin 1) (0 : Fin 1))) = V c main_v156 _
    refine congrArg _ (funext fun a => Fin.ext ?_)
    match a with
    | ⟨0, _⟩ => show win3_3.index t (0 : Fin 2) * 1 + 1 * 0 = 0; rw [e30]
    | ⟨1, _⟩ => show win3_3.index t (1 : Fin 2) * 1 + 1 * 0 = 0; rw [e31]
  · refine (r3G_apply _ _ _ _ _ _ o ?_ ?_).symm
    · show win3_4.index t (0 : Fin 2) * 10000 + 1 * p.val = t.val * 10000 + p.val
      rw [e40]; omega
    · show win3_4.index t (1 : Fin 2) * 64 + 1 * o.val = o.val
      rw [e41]; omega

/-- An index of the result array is in point t's block iff each coordinate is in the block's range on its axis. -/
theorem r3_mem_blk (t : Fin cfg3.N) (i : S100000x64.Idx) :
    i ∈ ((cfg3.win 4).blk t).view.set ↔ ∀ a : Fin 2, win3_4.index t a * S10000x64.size a ≤ (i a).val
      ∧ (i a).val < win3_4.index t a * S10000x64.size a + S10000x64.size a := by
  show i ∈ ((View.whole main_v157).slice (win3_4.rect t)).set ↔ _
  rw [View.set_slice_whole, Rect.mem_set_unit]
  exact Iff.rfl

/-- THE RESULT ARRAY after the region: the blocks of the ten points tile it. -/
theorem r3_final :
    (Gen.dat3 V c).arrAt 4 cfg3.N = r3G (V c main_v88) (V c main_v155) (V c main_arg9) (V c main_v156) :=
  (Gen.dat3 V c).arrAt_eq_of_cover 4 _ (fun t _ => r3_flushed_eq V c t) fun i => by
    have hi0 : (i 0).val < 100000 := idx2_lt0 i
    have hi1 : (i 1).val < 64 := idx2_lt1 i
    have hN : cfg3.N = 10 := Gen.N_3
    let t : Fin cfg3.N := ⟨(i 0).val / 10000, by rw [hN]; omega⟩
    obtain ⟨_, _, _, _, _, _, _, e40, e41⟩ := r3_idx_facts t
    refine ⟨t, Gen.flush3_4 t, ?_⟩
    rw [r3_mem_blk]
    intro a
    match a with
    | ⟨0, _⟩ =>
      show win3_4.index t (0 : Fin 2) * 10000 ≤ (i 0).val ∧ (i 0).val < win3_4.index t (0 : Fin 2) * 10000 + 10000
      rw [e40]; show (i 0).val / 10000 * 10000 ≤ (i 0).val ∧ (i 0).val < (i 0).val / 10000 * 10000 + 10000; omega
    | ⟨1, _⟩ =>
      show win3_4.index t (1 : Fin 2) * 64 ≤ (i 1).val ∧ (i 1).val < win3_4.index t (1 : Fin 2) * 64 + 64
      rw [e41]; omega

end Cert.KernelIdeal.Bridge

end
-- ==== Proof.Region3c.lean ====
/-
  Region 3 (output projection times the scale): the four arrays the region reads, as it finds them.

  The node sums are what the scatter-add left (no later host operation writes them); the weights are the
  transpose of the argument Wo, written just before the region; the bias is the argument bo; the scale is
  the one-element array the scale chain wrote.
-/
import proofs.«137203_j65584150610621_2_alg».proof.Proof.Gen.KernelIdeal.Frame

noncomputable section

namespace Cert.KernelIdeal.Bridge

open Cert.KernelIdeal Cert.KernelIdeal.Gen Idealize.ShloMosaic Idealize.ShloMosaic.TcCoe Idealize.SL.Sem

variable (m : (ℓ : Loc nD τ sig) → Buf (Elt Ideal) ℓ) (ρ : Dev nD → PrngReg) (c : Dev nD)

/-- No host operation between the scatter-add's stretch and the region writes the node sums. -/
theorem r3_entry_sums : Gen.W13 m ρ c (Proc.devRef .tc main_v88) = Gen.W9 m ρ c (Proc.devRef .tc main_v88) :=
  calc Gen.W13 m ρ c (Proc.devRef .tc main_v88)
    _ = Gen.W12 m ρ c (Proc.devRef .tc main_v88) := StableHlo.after_of_forall_not_mem (b := Proc.devRef .tc main_v88) _ _ (List.forall_iff_forall_mem.mp (by
          simp only [hostOps3_4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = Gen.W11 m ρ c (Proc.devRef .tc main_v88) := StableHlo.after_of_forall_not_mem (b := Proc.devRef .tc main_v88) _ _ (List.forall_iff_forall_mem.mp (by
          simp only [hostOps3_3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = Gen.W10 m ρ c (Proc.devRef .tc main_v88) := StableHlo.after_of_forall_not_mem (b := Proc.devRef .tc main_v88) _ _ (List.forall_iff_forall_mem.mp (by
          simp only [hostOps3_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = Gen.W9 m ρ c (Proc.devRef .tc main_v88) := StableHlo.after_of_forall_not_mem (b := Proc.devRef .tc main_v88) _ _ (List.forall_iff_forall_mem.mp (by
          simp only [hostOps3_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

/-- The bias the region reads is the argument bo. -/
theorem r3_entry_bias : Gen.W13 m ρ c (Proc.devRef .tc main_arg9) = m ((c : Thread nD τ).loc main_arg9) :=
  (((Gen.W14_arr m ρ c 2).trans (((Gen.dat3 (Gen.V13 m ρ) c).arrAt_in 2 rfl _).trans (Gen.A_eq3 (Gen.V13 m ρ) c 2))).symm).trans
    (Gen.W14_main_arg9 m ρ c)

/-- The argument Wo just before the region's last host stretch is as launched. -/
theorem r3_entry_wo : Gen.W12 m ρ c (Proc.devRef .tc main_arg8) = m ((c : Thread nD τ).loc main_arg8) :=
  calc Gen.W12 m ρ c (Proc.devRef .tc main_arg8)
    _ = Gen.W13 m ρ c (Proc.devRef .tc main_arg8) := (StableHlo.after_of_forall_not_mem (b := Proc.devRef .tc main_arg8) _ _ (List.forall_iff_forall_mem.mp (by
          simp only [hostOps3_4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).symm
    _ = Gen.W14 m ρ c (Proc.devRef .tc main_arg8) := (Gen.W14_of_ne m ρ c main_arg8 (by decide)).symm
    _ = m ((c : Thread nD τ).loc main_arg8) := Gen.W14_main_arg8 m ρ c

/-- The weights the region reads are the transpose of the argument Wo. -/
theorem r3_entry_weights :
    Gen.W13 m ρ c (Proc.devRef .tc main_v155)
      = (transpose S128x64 [1, 0] (m ((c : Thread nD τ).loc main_arg8)) transposes_S64x128_S128x64_1_0
          : (⟨S128x64, .f32⟩ : BufTy).Contents (Elt Ideal)) := by
  rw [← r3_entry_wo m ρ c]
  show StableHlo.after hostOps3_4 (Gen.W12 m ρ c) (Proc.devRef .tc main_v155) = _
  generalize Gen.W12 m ρ c = V
  after_results
  all_goals rfl

end Cert.KernelIdeal.Bridge

end
-- ==== Proof.Region3d.lean ====
/-
  Region 3 (output projection times the scale): the region's result is the reference's result.

  The reference computes final = (out · Woᵀ + bo) · scale by a product over the 128 columns of the node sums with the
  transposed weights, the bias row repeated, and the scale repeated over the whole array. Read at (r, o) that is
      (∑ k, out(r, k) · Woᵀ(k, o) + bo(o)) · scale,
  which is what the region leaves at (r, o) once its four input arrays are the node sums, the transposed weights, the
  bias and the scale.
-/
import proofs.«137203_j65584150610621_2_alg».proof.Proof.Base
import proofs.«137203_j65584150610621_2_alg».proof.Proof.Region3b
import proofs.«137203_j65584150610621_2_alg».proof.Proof.Region3c

noncomputable section

namespace Cert.KernelIdeal.Bridge

open Cert.KernelIdeal Cert.KernelIdeal.Gen Idealize.ShloMosaic Idealize.ShloMosaic.TcCoe Idealize.SL.Sem
open Idealize.ShloMosaic.ValueIdx

/-- The reference's last stage at (r, o), from its node sums, the transposed weights, the bias and its scale. -/
theorem r3_ref_elt (x0 : (⟨S100000x128, .f32⟩ : BufTy).Contents (Elt Ideal)) (x1 : (⟨S2x1000000, .i32⟩ : BufTy).Contents (Elt Ideal))
    (x2 : (⟨S128x128, .f32⟩ : BufTy).Contents (Elt Ideal)) (x3 : (⟨S128, .f32⟩ : BufTy).Contents (Elt Ideal))
    (x4 : (⟨S128x128, .f32⟩ : BufTy).Contents (Elt Ideal)) (x5 : (⟨S128, .f32⟩ : BufTy).Contents (Elt Ideal))
    (x6 : (⟨S128x128, .f32⟩ : BufTy).Contents (Elt Ideal)) (x7 : (⟨S128, .f32⟩ : BufTy).Contents (Elt Ideal))
    (x8 : (⟨S64x128, .f32⟩ : BufTy).Contents (Elt Ideal)) (x9 : (⟨S64, .f32⟩ : BufTy).Contents (Elt Ideal))
    (r : Fin 100000) (o : Fin 64) :
    Cert.ReferenceIdeal.ReadP.val_main_v220 (F := Ideal) x0 x1 x2 x3 x4 x5 x6 x7 x8 x9 (ix2 r o)
      = r3elt (Cert.ReferenceIdeal.ReadP.val_main_v153 (F := Ideal) x0 x1 x2 x3 x4 x5 x6 x7)
          (transpose S128x64 [1, 0] x8 transposes_S64x128_S128x64_1_0) x9
          (fun _ => Cert.ReferenceIdeal.ReadP.val_main_v218 (F := Ideal) x0 x1 x2 x3 x4 x5 x6 x7 x8 x9 ix0) r o := by
  rw [Cert.ReferenceIdeal.ReadP.val_main_v220_apply, Cert.ReferenceIdeal.ReadP.val_main_v158_apply,
    Cert.ReferenceIdeal.ReadP.val_main_v155_apply, Cert.ReferenceIdeal.ReadP.val_main_v157_apply,
    Cert.ReferenceIdeal.ReadP.val_main_v156_apply, Cert.ReferenceIdeal.ReadP.val_main_v219_apply]
  have el : ∀ k : Fin 128, Cert.ReferenceIdeal.ReadP.lidx_main_v155 (ix2 r o) k = ix2 r k := fun k =>
    funext fun a => Fin.ext (by match a with | ⟨0, _⟩ => rfl | ⟨1, _⟩ => rfl)
  have er : ∀ k : Fin 128, Cert.ReferenceIdeal.ReadP.ridx_main_v155 (ix2 r o) k = ix2 k o := fun k =>
    funext fun a => Fin.ext (by match a with | ⟨0, _⟩ => rfl | ⟨1, _⟩ => rfl)
  have eb : Cert.ReferenceIdeal.ReadP.idx_main_v156 (Cert.ReferenceIdeal.ReadP.idx_main_v157 (ix2 r o)) = ix1 o :=
    funext fun a => Fin.ext (by match a with | ⟨0, _⟩ => rfl)
  have es : Cert.ReferenceIdeal.ReadP.idx_main_v219 (ix2 r o) = ix0 := eq_ix0 _
  rw [eb, es]
  simp only [el, er]
  rfl

variable (m : (ℓ : Loc nD τ sig) → Buf (Elt Ideal) ℓ) (ρ : Dev nD → PrngReg) (c : Dev nD)

/-- REGION 3's RESULT IS THE REFERENCE's, given the node sums and the scale. -/
theorem region3_final (hout : Gen.W9 m ρ c (Proc.devRef .tc main_v88) = refOut m c)
    (hscale : Gen.W13 m ρ c (Proc.devRef .tc main_v156) = fun _ => refScale m c ix0) :
    Gen.W14 m ρ c (Proc.devRef .tc main_v157) = refFinal m c := by
  refine (Gen.W14_arr m ρ c 4).trans ((r3_final (Gen.V13 m ρ) c).trans ?_)
  show r3G (Gen.W13 m ρ c (Proc.devRef .tc main_v88)) (Gen.W13 m ρ c (Proc.devRef .tc main_v155))
      (Gen.W13 m ρ c (Proc.devRef .tc main_arg9)) (Gen.W13 m ρ c (Proc.devRef .tc main_v156)) = refFinal m c
  rw [r3_entry_sums, hout, r3_entry_weights, r3_entry_bias, hscale]
  funext i
  obtain ⟨r, o, rfl⟩ : ∃ (r : Fin 100000) (o : Fin 64), i = ix2 r o := ⟨i 0, i 1, eq_ix2 i⟩
  rw [r3G_apply _ _ _ _ _ r o rfl rfl]
  exact (r3_ref_elt (a0 m c) (a1 m c) (a2 m c) (a3 m c) (a4 m c) (a5 m c) (a6 m c) (a7 m c) (a8 m c) (a9 m c) r o).symm

end Cert.KernelIdeal.Bridge

end
-- ==== Proof.Region3s.lean ====
/-
  The scatter-add of the edge messages into node rows, in the two layouts.

  The kernel program scatters rows of a [1000000,128] array into a [100000,128] array; the reference scatters
  [2,64] slabs of a [1000000,2,64] array into a [100000,2,64] array, with the same [1000000,1] array of row indices.
  At the ideal values each result element is the operand's element plus the sum of the update elements that land on
  it. Update element (e, a) lands on (r, a') iff the e-th index is r and a = a'; update element (e, h, d) lands on
  (r, h', d') iff the e-th index is r and (h, d) = (h', d'). So under the correspondence column 64·h + d against
  (h, d) the two results agree element by element when the operands and the updates do.
-/
import proofs.«137203_j65584150610621_2_alg».proof.Proof.Gen.KernelIdeal
import proofs.«137203_j65584150610621_2_alg».proof.Proof.Gen.ReferenceIdeal
import Idealize.ShloMosaic.Lib.ValueIdx
import Idealize.ShloMosaic.PureOps.Ideal.Laws

noncomputable section

namespace Cert.KernelIdeal.Bridge

open Idealize.ShloMosaic Idealize.ShloMosaic.ValueIdx

/-- An update index lands on operand index i iff on every axis its start plus its window coordinate is i's
    coordinate. -/
theorem scatter_resultIdx_eq_some_iff {s si u : Shape} (d : ScatterDims s si u) {w : Nat} (j : u.Idx) (idx : IVec si w)
    (i : s.Idx) :
    d.resultIdx? j idx = some i ↔ ∀ a, d.start j idx a + (d.window j a : Int) = ((i a).val : Int) := by
  unfold ScatterDims.resultIdx?
  split
  · rename_i h
    constructor
    · intro e a
      have e' := Option.some.inj e
      have h1 : (d.start j idx a + (d.window j a : Int)).toNat = (i a).val := congrArg (fun f : s.Idx => (f a).val) e'
      have h2 := (h a).1
      omega
    · intro hall
      refine congrArg some (funext fun a => Fin.ext ?_)
      show (d.start j idx a + (d.window j a : Int)).toNat = (i a).val
      have := hall a
      omega
  · rename_i h
    constructor
    · intro e; cases e
    · intro hall
      exfalso
      apply h
      intro a
      have h1 := hall a
      have h2 := (i a).isLt
      constructor <;> omega

/-- The kernel program's scatter: rows of [1000000,128] into [100000,128]. -/
abbrev scat2 := Cert.KernelIdeal.scatter_S100000x128_S1000000x1_S1000000x128_1_0_0_1
/-- The reference's scatter: [2,64] slabs of [1000000,2,64] into [100000,2,64]. -/
abbrev scat3 := Cert.ReferenceIdeal.scatter_S100000x2x64_S1000000x1_S1000000x2x64_12_0_0_1

theorem scat2_start_0 (j : (⟨2, ![1000000, 128]⟩ : Shape).Idx) (idx : IVec ⟨2, ![1000000, 1]⟩ 32) :
    scat2.start j idx 0 = (idx (ix2 (⟨(j 0).val, idx2_lt0 j⟩ : Fin 1000000) (0 : Fin 1))).toInt := by
  unfold ScatterDims.start
  rw [dif_pos (show (0 : Fin 2) ∈ scat2.scatterDimsToOperandDims by decide)]
  refine congrArg (fun q => (idx q).toInt) (funext fun b => Fin.ext ?_)
  match b with
  | ⟨0, _⟩ => rfl
  | ⟨1, _⟩ => rfl
theorem scat2_start_1 (j : (⟨2, ![1000000, 128]⟩ : Shape).Idx) (idx : IVec ⟨2, ![1000000, 1]⟩ 32) :
    scat2.start j idx 1 = 0 := by
  unfold ScatterDims.start
  rw [dif_neg (show ¬(1 : Fin 2) ∈ scat2.scatterDimsToOperandDims by decide)]
theorem scat2_window_0 (j : (⟨2, ![1000000, 128]⟩ : Shape).Idx) : scat2.window j 0 = 0 := by
  unfold ScatterDims.window
  rw [dif_neg (show ¬(0 : Fin 2) ∈ scat2.sKept by decide)]
theorem scat2_window_1 (j : (⟨2, ![1000000, 128]⟩ : Shape).Idx) : scat2.window j 1 = (j 1).val := by
  unfold ScatterDims.window
  rw [dif_pos (show (1 : Fin 2) ∈ scat2.sKept by decide)]
  rfl

/-- Where an update row element lands in the [100000,128] layout. -/
theorem scat2_lands_iff (idx : IVec ⟨2, ![1000000, 1]⟩ 32) (j : (⟨2, ![1000000, 128]⟩ : Shape).Idx) (r : Fin 100000) (a : Fin 128) :
    scat2.resultIdx? j idx = some (ix2 r a)
      ↔ (idx (ix2 (⟨(j 0).val, idx2_lt0 j⟩ : Fin 1000000) (0 : Fin 1))).toInt = (r.val : Int) ∧ (j 1).val = a.val := by
  rw [scatter_resultIdx_eq_some_iff]
  constructor
  · intro h
    have h0 : (idx (ix2 (⟨(j 0).val, idx2_lt0 j⟩ : Fin 1000000) (0 : Fin 1))).toInt + ((0 : Nat) : Int) = ((r.val : Nat) : Int) := by
      have := h 0; rw [scat2_start_0, scat2_window_0] at this; exact this
    have h1 : (0 : Int) + (((j 1).val : Nat) : Int) = ((a.val : Nat) : Int) := by
      have := h 1; rw [scat2_start_1, scat2_window_1] at this; exact this
    exact ⟨by omega, by omega⟩
  · rintro ⟨h0, h1⟩ b
    match b with
    | ⟨0, _⟩ =>
      show scat2.start j idx 0 + ((scat2.window j 0 : Nat) : Int) = ((r.val : Nat) : Int)
      rw [scat2_start_0, scat2_window_0]; omega
    | ⟨1, _⟩ =>
      show scat2.start j idx 1 + ((scat2.window j 1 : Nat) : Int) = ((a.val : Nat) : Int)
      rw [scat2_start_1, scat2_window_1]; omega

theorem scat3_start_0 (q : (⟨3, ![1000000, 2, 64]⟩ : Shape).Idx) (idx : IVec ⟨2, ![1000000, 1]⟩ 32) :
    scat3.start q idx 0 = (idx (ix2 (⟨(q 0).val, (q 0).isLt⟩ : Fin 1000000) (0 : Fin 1))).toInt := by
  unfold ScatterDims.start
  rw [dif_pos (show (0 : Fin 3) ∈ scat3.scatterDimsToOperandDims by decide)]
  refine congrArg (fun p => (idx p).toInt) (funext fun b => Fin.ext ?_)
  match b with
  | ⟨0, _⟩ => rfl
  | ⟨1, _⟩ => rfl
theorem scat3_start_1 (q : (⟨3, ![1000000, 2, 64]⟩ : Shape).Idx) (idx : IVec ⟨2, ![1000000, 1]⟩ 32) :
    scat3.start q idx 1 = 0 := by
  unfold ScatterDims.start
  rw [dif_neg (show ¬(1 : Fin 3) ∈ scat3.scatterDimsToOperandDims by decide)]
theorem scat3_start_2 (q : (⟨3, ![1000000, 2, 64]⟩ : Shape).Idx) (idx : IVec ⟨2, ![1000000, 1]⟩ 32) :
    scat3.start q idx 2 = 0 := by
  unfold ScatterDims.start
  rw [dif_neg (show ¬(2 : Fin 3) ∈ scat3.scatterDimsToOperandDims by decide)]
theorem scat3_window_0 (q : (⟨3, ![1000000, 2, 64]⟩ : Shape).Idx) : scat3.window q 0 = 0 := by
  unfold ScatterDims.window
  rw [dif_neg (show ¬(0 : Fin 3) ∈ scat3.sKept by decide)]
theorem scat3_window_1 (q : (⟨3, ![1000000, 2, 64]⟩ : Shape).Idx) : scat3.window q 1 = (q 1).val := by
  unfold ScatterDims.window
  rw [dif_pos (show (1 : Fin 3) ∈ scat3.sKept by decide)]
  rfl
theorem scat3_window_2 (q : (⟨3, ![1000000, 2, 64]⟩ : Shape).Idx) : scat3.window q 2 = (q 2).val := by
  unfold ScatterDims.window
  rw [dif_pos (show (2 : Fin 3) ∈ scat3.sKept by decide)]
  rfl

/-- Where an update slab element lands in the [100000,2,64] layout. -/
theorem scat3_lands_iff (idx : IVec ⟨2, ![1000000, 1]⟩ 32) (q : (⟨3, ![1000000, 2, 64]⟩ : Shape).Idx) (r : Fin 100000) (h : Fin 2)
    (d : Fin 64) :
    scat3.resultIdx? q idx = some (ix3 r h d)
      ↔ (idx (ix2 (⟨(q 0).val, (q 0).isLt⟩ : Fin 1000000) (0 : Fin 1))).toInt = (r.val : Int) ∧ (q 1).val = h.val ∧ (q 2).val = d.val := by
  rw [scatter_resultIdx_eq_some_iff]
  constructor
  · intro hh
    have h0 : (idx (ix2 (⟨(q 0).val, (q 0).isLt⟩ : Fin 1000000) (0 : Fin 1))).toInt + ((0 : Nat) : Int) = ((r.val : Nat) : Int) := by
      have := hh 0; rw [scat3_start_0, scat3_window_0] at this; exact this
    have h1 : (0 : Int) + (((q 1).val : Nat) : Int) = ((h.val : Nat) : Int) := by
      have := hh 1; rw [scat3_start_1, scat3_window_1] at this; exact this
    have h2 : (0 : Int) + (((q 2).val : Nat) : Int) = ((d.val : Nat) : Int) := by
      have := hh 2; rw [scat3_start_2, scat3_window_2] at this; exact this
    exact ⟨by omega, by omega, by omega⟩
  · rintro ⟨h0, h1, h2⟩ b
    match b with
    | ⟨0, _⟩ =>
      show scat3.start q idx 0 + ((scat3.window q 0 : Nat) : Int) = ((r.val : Nat) : Int)
      rw [scat3_start_0, scat3_window_0]; omega
    | ⟨1, _⟩ =>
      show scat3.start q idx 1 + ((scat3.window q 1 : Nat) : Int) = ((h.val : Nat) : Int)
      rw [scat3_start_1, scat3_window_1]; omega
    | ⟨2, _⟩ =>
      show scat3.start q idx 2 + ((scat3.window q 2 : Nat) : Int) = ((d.val : Nat) : Int)
      rw [scat3_start_2, scat3_window_2]; omega

/-- THE TWO SCATTER-ADDS AGREE, column 64·h + d against (h, d), when their operands and updates do. -/
theorem scatter_rows_eq (idx : IVec ⟨2, ![1000000, 1]⟩ 32)
    (Z2 : (⟨2, ![100000, 128]⟩ : Shape).Idx → EReal) (Z3 : (⟨3, ![100000, 2, 64]⟩ : Shape).Idx → EReal)
    (U2 : (⟨2, ![1000000, 128]⟩ : Shape).Idx → EReal) (U3 : (⟨3, ![1000000, 2, 64]⟩ : Shape).Idx → EReal)
    (hZ : ∀ (r : Fin 100000) (h : Fin 2) (d : Fin 64), Z2 (ix2 r (⟨64 * h.val + d.val, by omega⟩ : Fin 128)) = Z3 (ix3 r h d))
    (hU : ∀ (e : Fin 1000000) (h : Fin 2) (d : Fin 64), U2 (ix2 e (⟨64 * h.val + d.val, by omega⟩ : Fin 128)) = U3 (ix3 e h d))
    (r : Fin 100000) (h : Fin 2) (d : Fin 64) :
    Ideal.hostScatterAdd scat2 Z2 idx U2 (ix2 r (⟨64 * h.val + d.val, by omega⟩ : Fin 128))
      = Ideal.hostScatterAdd scat3 Z3 idx U3 (ix3 r h d) := by
  show Z2 (ix2 r (⟨64 * h.val + d.val, by omega⟩ : Fin 128))
      + ∑ j ∈ Finset.univ.filter (fun j => scat2.resultIdx? j idx = some (ix2 r (⟨64 * h.val + d.val, by omega⟩ : Fin 128))), U2 j
    = Z3 (ix3 r h d) + ∑ q ∈ Finset.univ.filter (fun q => scat3.resultIdx? q idx = some (ix3 r h d)), U3 q
  rw [hZ]
  refine congrArg (fun x => Z3 (ix3 r h d) + x) ?_
  refine Finset.sum_nbij'
    (fun j => ix3 (⟨(j 0).val, idx2_lt0 j⟩ : Fin 1000000) (⟨(j 1).val / 64, by have := idx2_lt1 j; omega⟩ : Fin 2)
      (⟨(j 1).val % 64, by omega⟩ : Fin 64))
    (fun q => ix2 (⟨(q 0).val, (q 0).isLt⟩ : Fin 1000000)
      (⟨64 * (q 1).val + (q 2).val, by have h1 : (q 1).val < 2 := (q 1).isLt; have h2 : (q 2).val < 64 := (q 2).isLt; omega⟩ : Fin 128))
    ?_ ?_ ?_ ?_ ?_
  · intro j hj
    obtain ⟨h0, h1⟩ := (scat2_lands_iff idx j r _).mp (Finset.mem_filter.mp hj).2
    refine Finset.mem_filter.mpr ⟨Finset.mem_univ _, (scat3_lands_iff idx _ r h d).mpr ⟨h0, ?_, ?_⟩⟩
    · show (j 1).val / 64 = h.val
      have : (j 1).val = 64 * h.val + d.val := h1
      have := d.isLt; omega
    · show (j 1).val % 64 = d.val
      have : (j 1).val = 64 * h.val + d.val := h1
      have := d.isLt; omega
  · intro q hq
    obtain ⟨h0, h1, h2⟩ := (scat3_lands_iff idx q r h d).mp (Finset.mem_filter.mp hq).2
    refine Finset.mem_filter.mpr ⟨Finset.mem_univ _, (scat2_lands_iff idx _ r _).mpr ⟨h0, ?_⟩⟩
    show 64 * (q 1).val + (q 2).val = 64 * h.val + d.val
    rw [h1, h2]
  · intro j _
    refine (eq_ix2 j).symm ▸ ?_
    funext b
    refine Fin.ext ?_
    match b with
    | ⟨0, _⟩ => rfl
    | ⟨1, _⟩ => show 64 * ((j 1).val / 64) + (j 1).val % 64 = (j 1).val; omega
  · intro q _
    funext b
    refine Fin.ext ?_
    have h1 : (q 1).val < 2 := (q 1).isLt
    have h2 : (q 2).val < 64 := (q 2).isLt
    match b with
    | ⟨0, _⟩ => rfl
    | ⟨1, _⟩ => show (64 * (q 1).val + (q 2).val) / 64 = (q 1).val; omega
    | ⟨2, _⟩ => show (64 * (q 1).val + (q 2).val) % 64 = (q 2).val; omega
  · intro j hj
    obtain ⟨_, h1⟩ := (scat2_lands_iff idx j r _).mp (Finset.mem_filter.mp hj).2
    have h1' : (j 1).val = 64 * h.val + d.val := h1
    have hd := d.isLt
    have e : j = ix2 (⟨(j 0).val, idx2_lt0 j⟩ : Fin 1000000) (⟨64 * h.val + d.val, by omega⟩ : Fin 128) := by
      funext b
      refine Fin.ext ?_
      match b with
      | ⟨0, _⟩ => rfl
      | ⟨1, _⟩ => exact h1'
    have e3 : ix3 (⟨(j 0).val, idx2_lt0 j⟩ : Fin 1000000) (⟨(j 1).val / 64, by have := idx2_lt1 j; omega⟩ : Fin 2)
        (⟨(j 1).val % 64, by omega⟩ : Fin 64) = ix3 (⟨(j 0).val, idx2_lt0 j⟩ : Fin 1000000) h d := by
      funext b
      refine Fin.ext ?_
      match b with
      | ⟨0, _⟩ => rfl
      | ⟨1, _⟩ => show (j 1).val / 64 = h.val; omega
      | ⟨2, _⟩ => show (j 1).val % 64 = d.val; omega
    show U2 j = U3 _
    rw [e3, ← hU]
    exact congrArg U2 e

end Cert.KernelIdeal.Bridge

end
-- ==== Proof.Region3e.lean ====
/-
  The scatter-add of the host stretch after region 2: what it reads and what it writes.

  The stretch's first four operations write a zero array [100000,128], the row indices as a column [1000000,1]
  and the scatter-add of the edge messages by row. The row indices are the first row of the argument
  edge_index, re-laid as a vector before region 1 and written by nothing since.
-/
import proofs.«137203_j65584150610621_2_alg».proof.Proof.Gen.KernelIdeal.Frame

noncomputable section

namespace Cert.KernelIdeal.Bridge

open Cert.KernelIdeal Cert.KernelIdeal.Gen Idealize.ShloMosaic Idealize.ShloMosaic.TcCoe Idealize.SL.Sem

variable (m : (ℓ : Loc nD τ sig) → Buf (Elt Ideal) ℓ) (ρ : Dev nD → PrngReg) (c : Dev nD)

/-- The argument edge_index at region 0's exit is as launched. -/
theorem h3_edges_W4 : Gen.W4 m ρ c (Proc.devRef .tc main_arg1) = m ((c : Thread nD τ).loc main_arg1) :=
  calc Gen.W4 m ρ c (Proc.devRef .tc main_arg1)
    _ = Gen.W3 m ρ c (Proc.devRef .tc main_arg1) := Gen.W4_of_ne m ρ c main_arg1 (by decide)
    _ = Gen.W2 m ρ c (Proc.devRef .tc main_arg1) := StableHlo.after_of_forall_not_mem (b := Proc.devRef .tc main_arg1) _ _ (List.forall_iff_forall_mem.mp (by
          simp only [hostOps0_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = Gen.W1 m ρ c (Proc.devRef .tc main_arg1) := StableHlo.after_of_forall_not_mem (b := Proc.devRef .tc main_arg1) _ _ (List.forall_iff_forall_mem.mp (by
          simp only [hostOps0_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = Gen.W0 m ρ c (Proc.devRef .tc main_arg1) := StableHlo.after_of_forall_not_mem (b := Proc.devRef .tc main_arg1) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg1) := rfl

/-- The row indices at region 2's exit: the first row of edge_index as a vector. -/
theorem h3_rows :
    Gen.W8 m ρ c (Proc.devRef .tc main_v59)
      = (shapeCast S1000000 (extractStridedSlice S1x1000000 ![0, 0] (m ((c : Thread nD τ).loc main_arg1)) slices_S2x1000000_S1x1000000_0_0)
          shapeCasts_S1x1000000_S1000000 : (⟨S1000000, .i32⟩ : BufTy).Contents (Elt Ideal)) := by
  rw [← h3_edges_W4 m ρ c]
  calc Gen.W8 m ρ c (Proc.devRef .tc main_v59)
    _ = Gen.W7 m ρ c (Proc.devRef .tc main_v59) := Gen.W8_of_ne m ρ c main_v59 (by decide)
    _ = Gen.W6 m ρ c (Proc.devRef .tc main_v59) := StableHlo.after_of_forall_not_mem (b := Proc.devRef .tc main_v59) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = Gen.W5 m ρ c (Proc.devRef .tc main_v59) := Gen.W6_of_ne m ρ c main_v59 (by decide)
    _ = _ := by
      show StableHlo.after hostOps1 (Gen.W4 m ρ c) (Proc.devRef .tc main_v59) = _
      generalize Gen.W4 m ρ c = V
      after_results
      all_goals rfl

/-- The node sums after the stretch: the scatter-add, into zeros, of the edge messages by the row indices. -/
theorem h3_scatter :
    Gen.W9 m ρ c (Proc.devRef .tc main_v88)
      = (Host.scatterAdd (F := Ideal) scatter_S100000x128_S1000000x1_S1000000x128_1_0_0_1
          (broadcastInDim S100000x128 ![] bcast_S_S100000x128 (constant (F := Ideal) S_ .f32 0x00000000#32))
          (broadcastInDim S1000000x1 ![0] bcast_S1000000_S1000000x1_0 (Gen.W8 m ρ c (Proc.devRef .tc main_v59)))
          (Gen.W8 m ρ c (Proc.devRef .tc main_v85)) : (⟨S100000x128, .f32⟩ : BufTy).Contents (Elt Ideal)) := by
  show StableHlo.after hostOps3 (Gen.W8 m ρ c) (Proc.devRef .tc main_v88) = _
  generalize Gen.W8 m ρ c = V
  after_results_simp
  all_goals rfl

end Cert.KernelIdeal.Bridge

end
-- ==== Proof.Region3f.lean ====
/-
  The reference's node sums, re-laid as [100000,128], read at (r, 64·h + d): its [100000,2,64] scatter-add at (r, h, d).
-/
import proofs.«137203_j65584150610621_2_alg».proof.Proof.Base

noncomputable section

namespace Cert.KernelIdeal.Bridge

open Cert.KernelIdeal Cert.KernelIdeal.Gen Idealize.ShloMosaic Idealize.ShloMosaic.TcCoe Idealize.SL.Sem
open Idealize.ShloMosaic.ValueIdx

variable (m : (ℓ : Loc nD τ sig) → Buf (Elt Ideal) ℓ) (c : Dev nD)

/-- Column 64·h + d of row r of the re-laid array is element (r, h, d). -/
theorem h3_relay_idx (r : Fin 100000) (h : Fin 2) (d : Fin 64) :
    Cert.ReferenceIdeal.ReadP.idx_main_v153 (ix2 r (⟨64 * h.val + d.val, by omega⟩ : Fin 128)) = ix3 r h d := by
  have hd := d.isLt
  have hh := h.isLt
  exact funext fun a => Fin.ext (by
    match a with
    | ⟨0, _⟩ => show (r.val * 128 + (64 * h.val + d.val)) / 128 = r.val; omega
    | ⟨1, _⟩ => show (r.val * 128 + (64 * h.val + d.val)) / 64 % 2 = h.val; omega
    | ⟨2, _⟩ => show (r.val * 128 + (64 * h.val + d.val)) % 64 = d.val; omega)

theorem h3_ref_out_apply (r : Fin 100000) (h : Fin 2) (d : Fin 64) :
    refOut m c (ix2 r (⟨64 * h.val + d.val, by omega⟩ : Fin 128))
      = Cert.ReferenceIdeal.ReadP.val_main_v152 (F := Ideal) (a0 m c) (a1 m c) (a2 m c) (a3 m c) (a4 m c) (a5 m c) (a6 m c) (a7 m c) (ix3 r h d) := by
  show Cert.ReferenceIdeal.ReadP.val_main_v153 (F := Ideal) (a0 m c) (a1 m c) (a2 m c) (a3 m c) (a4 m c) (a5 m c) (a6 m c) (a7 m c) _ = _
  rw [Cert.ReferenceIdeal.ReadP.val_main_v153_apply, h3_relay_idx]

end Cert.KernelIdeal.Bridge

end
-- ==== Proof.Region3g.lean ====
/-
  The two scatter-adds as the ideal scatter-add of their operands, their index arrays as one term, their zero operands
  element by element.
-/
import proofs.«137203_j65584150610621_2_alg».proof.Proof.Base
import proofs.«137203_j65584150610621_2_alg».proof.Proof.Region3s

noncomputable section

namespace Cert.KernelIdeal.Bridge

open Cert.KernelIdeal Cert.KernelIdeal.Gen Idealize.ShloMosaic Idealize.ShloMosaic.TcCoe Idealize.SL.Sem
open Idealize.ShloMosaic.ValueIdx

/-- The reference's scatter stage is the ideal scatter-add of its three operand stages. -/
theorem h3_ref_scatter (x0 : (⟨S100000x128, .f32⟩ : BufTy).Contents (Elt Ideal)) (x1 : (⟨S2x1000000, .i32⟩ : BufTy).Contents (Elt Ideal))
    (x2 : (⟨S128x128, .f32⟩ : BufTy).Contents (Elt Ideal)) (x3 : (⟨S128, .f32⟩ : BufTy).Contents (Elt Ideal))
    (x4 : (⟨S128x128, .f32⟩ : BufTy).Contents (Elt Ideal)) (x5 : (⟨S128, .f32⟩ : BufTy).Contents (Elt Ideal))
    (x6 : (⟨S128x128, .f32⟩ : BufTy).Contents (Elt Ideal)) (x7 : (⟨S128, .f32⟩ : BufTy).Contents (Elt Ideal)) :
    Cert.ReferenceIdeal.ReadP.val_main_v152 (F := Ideal) x0 x1 x2 x3 x4 x5 x6 x7
      = Ideal.hostScatterAdd scat3 (Cert.ReferenceIdeal.ReadP.val_main_v150 (F := Ideal))
          (Cert.ReferenceIdeal.ReadP.val_main_v151 (F := Ideal) x1)
          (Cert.ReferenceIdeal.ReadP.val_main_v149 (F := Ideal) x0 x1 x2 x3 x4 x5 x6 x7) := by
  unfold Cert.ReferenceIdeal.ReadP.val_main_v152
  generalize Cert.ReferenceIdeal.ReadP.val_main_v150 (F := Ideal) = z
  generalize Cert.ReferenceIdeal.ReadP.val_main_v151 (F := Ideal) x1 = i
  generalize Cert.ReferenceIdeal.ReadP.val_main_v149 (F := Ideal) x0 x1 x2 x3 x4 x5 x6 x7 = u
  rfl

/-- The reference's column of row indices: the first row of edge_index as a vector, as a column. -/
theorem h3_ref_rows (x1 : (⟨S2x1000000, .i32⟩ : BufTy).Contents (Elt Ideal)) :
    Cert.ReferenceIdeal.ReadP.val_main_v151 (F := Ideal) x1
      = broadcastInDim S1000000x1 ![0] bcast_S1000000_S1000000x1_0
          (shapeCast S1000000 (extractStridedSlice S1x1000000 ![0, 0] x1 slices_S2x1000000_S1x1000000_0_0)
            shapeCasts_S1x1000000_S1000000) := by
  unfold Cert.ReferenceIdeal.ReadP.val_main_v151 Cert.ReferenceIdeal.ReadP.val_main_v82 Cert.ReferenceIdeal.ReadP.val_main_v81
  rfl

/-- The kernel program's scatter operation is the ideal scatter-add of its operands. -/
theorem h3_scat2_def (Z : FVec Ideal S100000x128 .f32) (I : IVec S1000000x1 32) (U : FVec Ideal S1000000x128 .f32) :
    Host.scatterAdd (F := Ideal) (φ := .f32) scatter_S100000x128_S1000000x1_S1000000x128_1_0_0_1 Z I U
      = Ideal.hostScatterAdd scat2 Z I U := rfl

/-- Both zero operands are zero everywhere. -/
theorem h3_zeros (r : Fin 100000) (h : Fin 2) (d : Fin 64) :
    broadcastInDim S100000x128 ![] bcast_S_S100000x128 (constant (F := Ideal) S_ .f32 0x00000000#32)
        (ix2 r (⟨64 * h.val + d.val, by omega⟩ : Fin 128))
      = Cert.ReferenceIdeal.ReadP.val_main_v150 (F := Ideal) (ix3 r h d) := by
  rw [Cert.ReferenceIdeal.ReadP.val_main_v150_apply, Cert.ReferenceIdeal.ReadP.val_main_cst_18_apply]
  exact broadcastInDim_apply _ bcast_S_S100000x128 _ _ ix0 (fun a => a.elim0)

end Cert.KernelIdeal.Bridge

end
-- ==== Proof.Region3h.lean ====
/-
  The node sums after the scatter-add are the reference's.

  The kernel program's scatter-add writes [100000,128]; the reference's writes [100000,2,64] and re-lays it as
  [100000,128], reading (r, a) at (r, a / 64, a % 64). Both scatter into zeros, by the same row indices (the first row
  of the argument edge_index), updates that agree column 64·h + d against (h, d); so they agree element by element.
-/
import proofs.«137203_j65584150610621_2_alg».proof.Proof.Base
import proofs.«137203_j65584150610621_2_alg».proof.Proof.Region3s
import proofs.«137203_j65584150610621_2_alg».proof.Proof.Region3e
import proofs.«137203_j65584150610621_2_alg».proof.Proof.Region3f
import proofs.«137203_j65584150610621_2_alg».proof.Proof.Region3g

noncomputable section

namespace Cert.KernelIdeal.Bridge

open Cert.KernelIdeal Cert.KernelIdeal.Gen Idealize.ShloMosaic Idealize.ShloMosaic.TcCoe Idealize.SL.Sem
open Idealize.ShloMosaic.ValueIdx

variable (m : (ℓ : Loc nD τ sig) → Buf (Elt Ideal) ℓ) (ρ : Dev nD → PrngReg) (c : Dev nD)

/-- THE NODE SUMS ARE THE REFERENCE's, given the edge messages. -/
theorem host3_out
    (hmsgs : ∀ (e : Fin 1000000) (h : Fin 2) (d : Fin 64),
      Gen.W8 m ρ c (Proc.devRef .tc main_v85) (ix2 e (⟨64 * h.val + d.val, by omega⟩ : Fin 128)) = refMsgs m c (ix3 e h d)) :
    Gen.W9 m ρ c (Proc.devRef .tc main_v88) = refOut m c := by
  funext i
  obtain ⟨r, a, rfl⟩ : ∃ (r : Fin 100000) (a : Fin 128), i = ix2 r a := ⟨i 0, i 1, eq_ix2 i⟩
  obtain ⟨h, d, rfl⟩ : ∃ (h : Fin 2) (d : Fin 64), a = (⟨64 * h.val + d.val, by omega⟩ : Fin 128) := by
    have ha := a.isLt
    exact ⟨⟨a.val / 64, by omega⟩, ⟨a.val % 64, by omega⟩, Fin.ext (by show a.val = 64 * (a.val / 64) + a.val % 64; omega)⟩
  rw [h3_ref_out_apply m c r h d, h3_ref_scatter, h3_ref_rows]
  rw [h3_scatter m ρ c, h3_rows m ρ c, h3_scat2_def]
  exact scatter_rows_eq _ _ _ _ _ h3_zeros hmsgs r h d

end Cert.KernelIdeal.Bridge

end
-- ==== Proof.ScaleK.lean ====
/-
  Buffers the later segments of the kernel program find unchanged: the output weight and bias as launched,
  and the cross ratio of the input's first four rows, which the first host stretch computes by the same
  operations as the reference and nothing afterwards writes.
-/
import proofs.«137203_j65584150610621_2_alg».proof.Proof.Base
import Idealize.ShloMosaic.Lib.StableHlo.Run

noncomputable section

namespace Cert.KernelIdeal.Bridge

open Cert.KernelIdeal Cert.KernelIdeal.Gen Idealize.ShloMosaic Idealize.ShloMosaic.TcCoe Idealize.SL.Sem
open Idealize.ShloMosaic.StableHlo Idealize.ShloMosaic.ValueIdx

/-- A host stretch that never writes a buffer leaves it as it was. -/
macro "host_keep" ops:ident : tactic => `(tactic|
  exact StableHlo.after_of_forall_not_mem _ _ (List.forall_iff_forall_mem.mp (by
    simp only [$ops:ident, List.flatten_cons, List.flatten_nil, List.append_nil, List.cons_append, List.nil_append, List.Forall,
      StableHlo.nullary_writes, StableHlo.unary_writes, StableHlo.binary_writes, StableHlo.ternary_writes, StableHlo.quaternary_writes,
      StableHlo.reshape_writes, StableHlo.binaryIndexed_writes, Finset.mem_singleton]
    repeat' apply And.intro
    all_goals exact StableHlo.devRef_ne_of_ne (by decide))))

variable (m : (ℓ : Loc nD τ sig) → Buf (Elt Ideal) ℓ) (ρ : Dev nD → PrngReg) (c : Dev nD)

/-! ## Buffers no segment before the last stretch writes -/

set_option maxHeartbeats 4000000 in
/-- The output weight as the scatter's stretch finds it is the launch's. -/
theorem W8_main_arg8 : W8 m ρ c (Proc.devRef .tc main_arg8) = a8 m c :=
  calc W8 m ρ c (Proc.devRef .tc main_arg8)
    _ = W7 m ρ c (Proc.devRef .tc main_arg8) := W8_of_ne m ρ c main_arg8 (by decide)
    _ = W6 m ρ c (Proc.devRef .tc main_arg8) := by host_keep hostOps2
    _ = W5 m ρ c (Proc.devRef .tc main_arg8) := W6_of_ne m ρ c main_arg8 (by decide)
    _ = W4 m ρ c (Proc.devRef .tc main_arg8) := by host_keep hostOps1
    _ = W3 m ρ c (Proc.devRef .tc main_arg8) := W4_of_ne m ρ c main_arg8 (by decide)
    _ = W2 m ρ c (Proc.devRef .tc main_arg8) := by host_keep hostOps0_2
    _ = W1 m ρ c (Proc.devRef .tc main_arg8) := by host_keep hostOps0_1
    _ = W0 m ρ c (Proc.devRef .tc main_arg8) := by host_keep hostOps0
    _ = a8 m c := rfl

set_option maxHeartbeats 4000000 in
/-- The output bias as the scatter's stretch finds it is the launch's. -/
theorem W8_main_arg9 : W8 m ρ c (Proc.devRef .tc main_arg9) = a9 m c :=
  calc W8 m ρ c (Proc.devRef .tc main_arg9)
    _ = W7 m ρ c (Proc.devRef .tc main_arg9) := W8_of_ne m ρ c main_arg9 (by decide)
    _ = W6 m ρ c (Proc.devRef .tc main_arg9) := by host_keep hostOps2
    _ = W5 m ρ c (Proc.devRef .tc main_arg9) := W6_of_ne m ρ c main_arg9 (by decide)
    _ = W4 m ρ c (Proc.devRef .tc main_arg9) := by host_keep hostOps1
    _ = W3 m ρ c (Proc.devRef .tc main_arg9) := W4_of_ne m ρ c main_arg9 (by decide)
    _ = W2 m ρ c (Proc.devRef .tc main_arg9) := by host_keep hostOps0_2
    _ = W1 m ρ c (Proc.devRef .tc main_arg9) := by host_keep hostOps0_1
    _ = W0 m ρ c (Proc.devRef .tc main_arg9) := by host_keep hostOps0
    _ = a9 m c := rfl

/-! ## The input's cross ratio -/

set_option maxHeartbeats 8000000 in
/-- The cross ratio of the input's first four rows, computed by the same operations in both programs. -/
theorem cr0_W3 : W3 m ρ c (Proc.devRef .tc main_v53) = Cert.ReferenceIdeal.ReadP.val_main_v53 (F := Ideal) (a0 m c) := by
  show StableHlo.after hostOps0_2 (StableHlo.after hostOps0_1 (StableHlo.after hostOps0 (W0 m ρ c))) (Proc.devRef .tc main_v53) = _
  after_results_simp
  rfl

set_option maxHeartbeats 4000000 in
/-- Nothing between the first region and the last stretch writes the input's cross ratio. -/
theorem cr0_W9 : W9 m ρ c (Proc.devRef .tc main_v53) = Cert.ReferenceIdeal.ReadP.val_main_v53 (F := Ideal) (a0 m c) :=
  calc W9 m ρ c (Proc.devRef .tc main_v53)
    _ = W8 m ρ c (Proc.devRef .tc main_v53) := by host_keep hostOps3
    _ = W7 m ρ c (Proc.devRef .tc main_v53) := W8_of_ne m ρ c main_v53 (by decide)
    _ = W6 m ρ c (Proc.devRef .tc main_v53) := by host_keep hostOps2
    _ = W5 m ρ c (Proc.devRef .tc main_v53) := W6_of_ne m ρ c main_v53 (by decide)
    _ = W4 m ρ c (Proc.devRef .tc main_v53) := by host_keep hostOps1
    _ = W3 m ρ c (Proc.devRef .tc main_v53) := W4_of_ne m ρ c main_v53 (by decide)
    _ = _ := cr0_W3 m ρ c

end Cert.KernelIdeal.Bridge

end
-- ==== Proof.ScaleA.lean ====
/-
  The four rows the kernel program takes its cross-ratio from, read entry by entry.

  The kernel program projects only the first four rows of the per-node sums: a [4,128] slice times the
  transposed output weight plus the bias row, a [4,64] array; row r of it, cut out as [1,64] and re-laid as a
  vector, holds at o the number Σ_a out(r,a)·W(a,o) + b(o).
-/
import proofs.«137203_j65584150610621_2_alg».proof.Proof.Gen.KernelIdeal
import Idealize.ShloMosaic.Lib.Pipeline.Value
import Idealize.ShloMosaic.Lib.ValueIdx
import Idealize.ShloMosaic.PureOps.Ideal.Laws

noncomputable section

namespace Cert.KernelIdeal.Bridge

open Cert.KernelIdeal Cert.KernelIdeal.Facts₀ Idealize.ShloMosaic Idealize.ShloMosaic.ValueIdx

/-- Row 0 of a [4,64] array as a vector. -/
theorem row0_apply (Y : FVec Ideal S4x64 .f32) (o : Fin 64) :
    shapeCast S64 (extractStridedSlice S1x64 ![0, 0] Y slices_S4x64_S1x64_0_0) shapeCasts_S1x64_S64 (ix1 o)
      = Y (ix2 (0 : Fin 4) o) := by
  refine (shapeCast_apply _ shapeCasts_S1x64_S64 (ix1 o) (ix2 (0 : Fin 1) o) ?_).trans ?_
  · rewrite [Shape.rowMajor_val_two, Shape.rowMajor_val_one]; show 0 * 64 + o.val = o.val; omega
  · exact extractStridedSlice_apply ![0, 0] Y slices_S4x64_S1x64_0_0 (ix2 (0 : Fin 1) o) (ix2 (0 : Fin 4) o)
      (fun a => match a with
        | ⟨0, _⟩ => by show (0 : Nat) = 0 + 0; rfl
        | ⟨1, _⟩ => by show o.val = 0 + o.val; omega)

/-- Row 1 of a [4,64] array as a vector. -/
theorem row1_apply (Y : FVec Ideal S4x64 .f32) (o : Fin 64) :
    shapeCast S64 (extractStridedSlice S1x64 ![1, 0] Y slices_S4x64_S1x64_1_0) shapeCasts_S1x64_S64 (ix1 o)
      = Y (ix2 (1 : Fin 4) o) := by
  refine (shapeCast_apply _ shapeCasts_S1x64_S64 (ix1 o) (ix2 (0 : Fin 1) o) ?_).trans ?_
  · rewrite [Shape.rowMajor_val_two, Shape.rowMajor_val_one]; show 0 * 64 + o.val = o.val; omega
  · exact extractStridedSlice_apply ![1, 0] Y slices_S4x64_S1x64_1_0 (ix2 (0 : Fin 1) o) (ix2 (1 : Fin 4) o)
      (fun a => match a with
        | ⟨0, _⟩ => by show (1 : Nat) = 1 + 0; rfl
        | ⟨1, _⟩ => by show o.val = 0 + o.val; omega)

/-- Row 2 of a [4,64] array as a vector. -/
theorem row2_apply (Y : FVec Ideal S4x64 .f32) (o : Fin 64) :
    shapeCast S64 (extractStridedSlice S1x64 ![2, 0] Y slices_S4x64_S1x64_2_0) shapeCasts_S1x64_S64 (ix1 o)
      = Y (ix2 (2 : Fin 4) o) := by
  refine (shapeCast_apply _ shapeCasts_S1x64_S64 (ix1 o) (ix2 (0 : Fin 1) o) ?_).trans ?_
  · rewrite [Shape.rowMajor_val_two, Shape.rowMajor_val_one]; show 0 * 64 + o.val = o.val; omega
  · exact extractStridedSlice_apply ![2, 0] Y slices_S4x64_S1x64_2_0 (ix2 (0 : Fin 1) o) (ix2 (2 : Fin 4) o)
      (fun a => match a with
        | ⟨0, _⟩ => by show (2 : Nat) = 2 + 0; rfl
        | ⟨1, _⟩ => by show o.val = 0 + o.val; omega)

/-- Row 3 of a [4,64] array as a vector. -/
theorem row3_apply (Y : FVec Ideal S4x64 .f32) (o : Fin 64) :
    shapeCast S64 (extractStridedSlice S1x64 ![3, 0] Y slices_S4x64_S1x64_3_0) shapeCasts_S1x64_S64 (ix1 o)
      = Y (ix2 (3 : Fin 4) o) := by
  refine (shapeCast_apply _ shapeCasts_S1x64_S64 (ix1 o) (ix2 (0 : Fin 1) o) ?_).trans ?_
  · rewrite [Shape.rowMajor_val_two, Shape.rowMajor_val_one]; show 0 * 64 + o.val = o.val; omega
  · exact extractStridedSlice_apply ![3, 0] Y slices_S4x64_S1x64_3_0 (ix2 (0 : Fin 1) o) (ix2 (3 : Fin 4) o)
      (fun a => match a with
        | ⟨0, _⟩ => by show (3 : Nat) = 3 + 0; rfl
        | ⟨1, _⟩ => by show o.val = 0 + o.val; omega)

theorem osm_lhs0 (i : S4x64.Idx) (q : dot_S4x128_S128x64_S4x64_1_0_0_1_n_n.contr.Idx) :
    (dot_S4x128_S128x64_S4x64_1_0_0_1_n_n.lhsIdx i q 0).val = (i 0).val := by
  unfold DotDims.lhsIdx
  rw [dif_neg (show ¬(0 : Fin S4x128.rank) ∈ dot_S4x128_S128x64_S4x64_1_0_0_1_n_n.lhsBatch by decide), dif_pos (show (0 : Fin S4x128.rank) ∈ dot_S4x128_S128x64_S4x64_1_0_0_1_n_n.lhsNonContracting by decide)]
  rfl
theorem osm_rhs1 (i : S4x64.Idx) (q : dot_S4x128_S128x64_S4x64_1_0_0_1_n_n.contr.Idx) :
    (dot_S4x128_S128x64_S4x64_1_0_0_1_n_n.rhsIdx i q 1).val = (i 1).val := by
  unfold DotDims.rhsIdx
  rw [dif_neg (show ¬(1 : Fin S128x64.rank) ∈ dot_S4x128_S128x64_S4x64_1_0_0_1_n_n.rhsBatch by decide), dif_pos (show (1 : Fin S128x64.rank) ∈ dot_S4x128_S128x64_S4x64_1_0_0_1_n_n.rhsNonContracting by decide)]
  rfl

/-- The small projection at an entry: the first four rows of `OUT` times a [128,64] matrix, plus a bias row spread
    over the four rows. -/
theorem outSmall_apply (OUT : FVec Ideal S100000x128 .f32) (WT : FVec Ideal S128x64 .f32) (B : FVec Ideal S64 .f32)
    (r : Fin 4) (o : Fin 64) :
    addf (Host.dotGeneral (F := Ideal) dot_S4x128_S128x64_S4x64_1_0_0_1_n_n none
          (extractStridedSlice S4x128 ![0, 0] OUT slices_S100000x128_S4x128_0_0) WT)
        (broadcastInDim S4x64 ![0, 1] bcast_S1x64_S4x64_0_1 (broadcastInDim S1x64 ![1] bcast_S64_S1x64_1 B)) (ix2 r o)
      = (∑ k : Fin 128, OUT (ix2 ⟨r.val, by omega⟩ k) * WT (ix2 k o)) + B (ix1 o) := by
  show FloatOps.addf _ _ = _
  rw [Ideal.addf_def]
  congr 1
  · simp only [Host.dotGeneral]
    rw [Ideal.dotGeneral_apply, ← Equiv.sum_comp (ValueIdx.contrEquiv1 dot_S4x128_S128x64_S4x64_1_0_0_1_n_n 128 rfl rfl).symm]
    refine Finset.sum_congr rfl fun k _ => ?_
    have hk := ValueIdx.contrEquiv1_symm_val dot_S4x128_S128x64_S4x64_1_0_0_1_n_n 128 rfl rfl k
    congr 1
    · refine extractStridedSlice_apply ![0, 0] OUT slices_S100000x128_S4x128_0_0 _ (ix2 ⟨r.val, by omega⟩ k) (fun a => ?_)
      match a with
      | ⟨0, _⟩ =>
        show r.val = 0 + (dot_S4x128_S128x64_S4x64_1_0_0_1_n_n.lhsIdx (ix2 r o) _ 0).val
        rw [osm_lhs0]; show r.val = 0 + r.val; omega
      | ⟨1, _⟩ =>
        show k.val = 0 + (dot_S4x128_S128x64_S4x64_1_0_0_1_n_n.lhsIdx (ix2 r o) _ 1).val
        rw [dot_S4x128_S128x64_S4x64_1_0_0_1_n_n.lhsIdx_val_of_single rfl, hk]; omega
    · refine congrArg WT (funext fun a => Fin.ext ?_)
      match a with
      | ⟨0, _⟩ => exact (dot_S4x128_S128x64_S4x64_1_0_0_1_n_n.rhsIdx_val_of_single rfl _ _).trans hk
      | ⟨1, _⟩ => exact osm_rhs1 _ _
  · refine (broadcastInDim_apply _ bcast_S1x64_S4x64_0_1 _ (ix2 r o) (ix2 (0 : Fin 1) o) (fun a => match a with
      | ⟨0, _⟩ => by show 0 = if (1 : Nat) = 1 then 0 else r.val; rw [if_pos rfl]
      | ⟨1, _⟩ => by show o.val = if (64 : Nat) = 1 then 0 else o.val; rw [if_neg (by decide)])).trans ?_
    exact broadcastInDim_apply _ bcast_S64_S1x64_1 B (ix2 (0 : Fin 1) o) (ix1 o) (fun a => match a with
      | ⟨0, _⟩ => by show o.val = if (64 : Nat) = 1 then 0 else o.val; rw [if_neg (by decide)])

end Cert.KernelIdeal.Bridge

end
-- ==== Proof.ScaleR.lean ====
/-
  The four rows the cross-ratio of the output is taken from.

  The kernel program projects only the first four rows of the node sums: a [4,128] slice times the transposed output
  weights plus the bias row, a [4,64] array, and cuts each row out as a vector of 64 entries. The reference projects all
  100000 rows and cuts the first four out of that. Entry o of row r is, in both,
      ∑ a, out(r, a) · Wo(o, a) + bo(o).
-/
import proofs.«137203_j65584150610621_2_alg».proof.Proof.Base
import proofs.«137203_j65584150610621_2_alg».proof.Proof.ScaleA
import proofs.«137203_j65584150610621_2_alg».proof.Proof.ScaleK
import Idealize.ShloMosaic.Lib.StableHlo.Run

noncomputable section

namespace Cert.KernelIdeal.Bridge

open Cert.KernelIdeal Cert.KernelIdeal.Gen Idealize.ShloMosaic Idealize.ShloMosaic.TcCoe Idealize.SL.Sem
open Idealize.ShloMosaic.ValueIdx

/-! ## The reference's side -/

/-- The reference's full projection at (r, o): the product over the 128 columns of its node sums with the transposed
    weights, plus the bias. -/
theorem sr_ref_proj_apply (x0 : (⟨S100000x128, .f32⟩ : BufTy).Contents (Elt Ideal)) (x1 : (⟨S2x1000000, .i32⟩ : BufTy).Contents (Elt Ideal))
    (x2 : (⟨S128x128, .f32⟩ : BufTy).Contents (Elt Ideal)) (x3 : (⟨S128, .f32⟩ : BufTy).Contents (Elt Ideal))
    (x4 : (⟨S128x128, .f32⟩ : BufTy).Contents (Elt Ideal)) (x5 : (⟨S128, .f32⟩ : BufTy).Contents (Elt Ideal))
    (x6 : (⟨S128x128, .f32⟩ : BufTy).Contents (Elt Ideal)) (x7 : (⟨S128, .f32⟩ : BufTy).Contents (Elt Ideal))
    (x8 : (⟨S64x128, .f32⟩ : BufTy).Contents (Elt Ideal)) (x9 : (⟨S64, .f32⟩ : BufTy).Contents (Elt Ideal))
    (r : Fin 100000) (o : Fin 64) :
    Cert.ReferenceIdeal.ReadP.val_main_v158 (F := Ideal) x0 x1 x2 x3 x4 x5 x6 x7 x8 x9 (ix2 r o)
      = (∑ k : Fin 128, Cert.ReferenceIdeal.ReadP.val_main_v153 (F := Ideal) x0 x1 x2 x3 x4 x5 x6 x7 (ix2 r k)
            * (transpose S128x64 [1, 0] x8 transposes_S64x128_S128x64_1_0 : (⟨S128x64, .f32⟩ : BufTy).Contents (Elt Ideal)) (ix2 k o))
          + x9 (ix1 o) := by
  rw [Cert.ReferenceIdeal.ReadP.val_main_v158_apply, Cert.ReferenceIdeal.ReadP.val_main_v155_apply, Cert.ReferenceIdeal.ReadP.val_main_v157_apply, Cert.ReferenceIdeal.ReadP.val_main_v156_apply]
  have el : ∀ k : Fin 128, Cert.ReferenceIdeal.ReadP.lidx_main_v155 (ix2 r o) k = ix2 r k := fun k =>
    funext fun a => Fin.ext (by match a with | ⟨0, _⟩ => rfl | ⟨1, _⟩ => rfl)
  have er : ∀ k : Fin 128, Cert.ReferenceIdeal.ReadP.ridx_main_v155 (ix2 r o) k = ix2 k o := fun k =>
    funext fun a => Fin.ext (by match a with | ⟨0, _⟩ => rfl | ⟨1, _⟩ => rfl)
  have eb : Cert.ReferenceIdeal.ReadP.idx_main_v156 (Cert.ReferenceIdeal.ReadP.idx_main_v157 (ix2 r o)) = ix1 o :=
    funext fun a => Fin.ext (by match a with | ⟨0, _⟩ => rfl)
  rw [eb]
  simp only [el, er]
  rfl

/-- The reference's row 0 as a vector, at o: its full projection at (0, o). -/
theorem sr_ref_row0 (x0 : (⟨S100000x128, .f32⟩ : BufTy).Contents (Elt Ideal)) (x1 : (⟨S2x1000000, .i32⟩ : BufTy).Contents (Elt Ideal))
    (x2 : (⟨S128x128, .f32⟩ : BufTy).Contents (Elt Ideal)) (x3 : (⟨S128, .f32⟩ : BufTy).Contents (Elt Ideal))
    (x4 : (⟨S128x128, .f32⟩ : BufTy).Contents (Elt Ideal)) (x5 : (⟨S128, .f32⟩ : BufTy).Contents (Elt Ideal))
    (x6 : (⟨S128x128, .f32⟩ : BufTy).Contents (Elt Ideal)) (x7 : (⟨S128, .f32⟩ : BufTy).Contents (Elt Ideal))
    (x8 : (⟨S64x128, .f32⟩ : BufTy).Contents (Elt Ideal)) (x9 : (⟨S64, .f32⟩ : BufTy).Contents (Elt Ideal))
    (o : Fin 64) :
    Cert.ReferenceIdeal.ReadP.val_main_v160 (F := Ideal) x0 x1 x2 x3 x4 x5 x6 x7 x8 x9 (ix1 o)
      = Cert.ReferenceIdeal.ReadP.val_main_v158 (F := Ideal) x0 x1 x2 x3 x4 x5 x6 x7 x8 x9 (ix2 (⟨0, by omega⟩ : Fin 100000) o) := by
  rw [Cert.ReferenceIdeal.ReadP.val_main_v160_apply, Cert.ReferenceIdeal.ReadP.val_main_v159_apply]
  have ho := o.isLt
  refine congrArg _ (funext fun a => Fin.ext ?_)
  match a with
  | ⟨0, _⟩ => rfl
  | ⟨1, _⟩ => show o.val % 64 = o.val; omega

/-- The reference's row 1 as a vector, at o: its full projection at (1, o). -/
theorem sr_ref_row1 (x0 : (⟨S100000x128, .f32⟩ : BufTy).Contents (Elt Ideal)) (x1 : (⟨S2x1000000, .i32⟩ : BufTy).Contents (Elt Ideal))
    (x2 : (⟨S128x128, .f32⟩ : BufTy).Contents (Elt Ideal)) (x3 : (⟨S128, .f32⟩ : BufTy).Contents (Elt Ideal))
    (x4 : (⟨S128x128, .f32⟩ : BufTy).Contents (Elt Ideal)) (x5 : (⟨S128, .f32⟩ : BufTy).Contents (Elt Ideal))
    (x6 : (⟨S128x128, .f32⟩ : BufTy).Contents (Elt Ideal)) (x7 : (⟨S128, .f32⟩ : BufTy).Contents (Elt Ideal))
    (x8 : (⟨S64x128, .f32⟩ : BufTy).Contents (Elt Ideal)) (x9 : (⟨S64, .f32⟩ : BufTy).Contents (Elt Ideal))
    (o : Fin 64) :
    Cert.ReferenceIdeal.ReadP.val_main_v162 (F := Ideal) x0 x1 x2 x3 x4 x5 x6 x7 x8 x9 (ix1 o)
      = Cert.ReferenceIdeal.ReadP.val_main_v158 (F := Ideal) x0 x1 x2 x3 x4 x5 x6 x7 x8 x9 (ix2 (⟨1, by omega⟩ : Fin 100000) o) := by
  rw [Cert.ReferenceIdeal.ReadP.val_main_v162_apply, Cert.ReferenceIdeal.ReadP.val_main_v161_apply]
  have ho := o.isLt
  refine congrArg _ (funext fun a => Fin.ext ?_)
  match a with
  | ⟨0, _⟩ => rfl
  | ⟨1, _⟩ => show o.val % 64 = o.val; omega

/-- The reference's row 2 as a vector, at o: its full projection at (2, o). -/
theorem sr_ref_row2 (x0 : (⟨S100000x128, .f32⟩ : BufTy).Contents (Elt Ideal)) (x1 : (⟨S2x1000000, .i32⟩ : BufTy).Contents (Elt Ideal))
    (x2 : (⟨S128x128, .f32⟩ : BufTy).Contents (Elt Ideal)) (x3 : (⟨S128, .f32⟩ : BufTy).Contents (Elt Ideal))
    (x4 : (⟨S128x128, .f32⟩ : BufTy).Contents (Elt Ideal)) (x5 : (⟨S128, .f32⟩ : BufTy).Contents (Elt Ideal))
    (x6 : (⟨S128x128, .f32⟩ : BufTy).Contents (Elt Ideal)) (x7 : (⟨S128, .f32⟩ : BufTy).Contents (Elt Ideal))
    (x8 : (⟨S64x128, .f32⟩ : BufTy).Contents (Elt Ideal)) (x9 : (⟨S64, .f32⟩ : BufTy).Contents (Elt Ideal))
    (o : Fin 64) :
    Cert.ReferenceIdeal.ReadP.val_main_v164 (F := Ideal) x0 x1 x2 x3 x4 x5 x6 x7 x8 x9 (ix1 o)
      = Cert.ReferenceIdeal.ReadP.val_main_v158 (F := Ideal) x0 x1 x2 x3 x4 x5 x6 x7 x8 x9 (ix2 (⟨2, by omega⟩ : Fin 100000) o) := by
  rw [Cert.ReferenceIdeal.ReadP.val_main_v164_apply, Cert.ReferenceIdeal.ReadP.val_main_v163_apply]
  have ho := o.isLt
  refine congrArg _ (funext fun a => Fin.ext ?_)
  match a with
  | ⟨0, _⟩ => rfl
  | ⟨1, _⟩ => show o.val % 64 = o.val; omega

/-- The reference's row 3 as a vector, at o: its full projection at (3, o). -/
theorem sr_ref_row3 (x0 : (⟨S100000x128, .f32⟩ : BufTy).Contents (Elt Ideal)) (x1 : (⟨S2x1000000, .i32⟩ : BufTy).Contents (Elt Ideal))
    (x2 : (⟨S128x128, .f32⟩ : BufTy).Contents (Elt Ideal)) (x3 : (⟨S128, .f32⟩ : BufTy).Contents (Elt Ideal))
    (x4 : (⟨S128x128, .f32⟩ : BufTy).Contents (Elt Ideal)) (x5 : (⟨S128, .f32⟩ : BufTy).Contents (Elt Ideal))
    (x6 : (⟨S128x128, .f32⟩ : BufTy).Contents (Elt Ideal)) (x7 : (⟨S128, .f32⟩ : BufTy).Contents (Elt Ideal))
    (x8 : (⟨S64x128, .f32⟩ : BufTy).Contents (Elt Ideal)) (x9 : (⟨S64, .f32⟩ : BufTy).Contents (Elt Ideal))
    (o : Fin 64) :
    Cert.ReferenceIdeal.ReadP.val_main_v166 (F := Ideal) x0 x1 x2 x3 x4 x5 x6 x7 x8 x9 (ix1 o)
      = Cert.ReferenceIdeal.ReadP.val_main_v158 (F := Ideal) x0 x1 x2 x3 x4 x5 x6 x7 x8 x9 (ix2 (⟨3, by omega⟩ : Fin 100000) o) := by
  rw [Cert.ReferenceIdeal.ReadP.val_main_v166_apply, Cert.ReferenceIdeal.ReadP.val_main_v165_apply]
  have ho := o.isLt
  refine congrArg _ (funext fun a => Fin.ext ?_)
  match a with
  | ⟨0, _⟩ => rfl
  | ⟨1, _⟩ => show o.val % 64 = o.val; omega

/-! ## The kernel program's side -/

variable (m : (ℓ : Loc nD τ sig) → Buf (Elt Ideal) ℓ) (ρ : Dev nD → PrngReg) (c : Dev nD)

set_option maxHeartbeats 4000000 in
/-- The small projection [4,64]: the first four rows of the node sums times the transposed weights, plus the bias row. -/
theorem sr_small :
    Gen.W9 m ρ c (Proc.devRef .tc main_v94)
      = (addf (Host.dotGeneral (F := Ideal) (φ₁ := .f32) (φ₂ := .f32) dot_S4x128_S128x64_S4x64_1_0_0_1_n_n none
            (extractStridedSlice S4x128 ![0, 0] (Gen.W9 m ρ c (Proc.devRef .tc main_v88)) slices_S100000x128_S4x128_0_0)
            (transpose S128x64 [1, 0] (Gen.W8 m ρ c (Proc.devRef .tc main_arg8)) transposes_S64x128_S128x64_1_0))
          (broadcastInDim S4x64 ![0, 1] bcast_S1x64_S4x64_0_1
            (broadcastInDim S1x64 ![1] bcast_S64_S1x64_1 (Gen.W8 m ρ c (Proc.devRef .tc main_arg9))))
          : (⟨S4x64, .f32⟩ : BufTy).Contents (Elt Ideal)) := by
  show StableHlo.after hostOps3 (Gen.W8 m ρ c) (Proc.devRef .tc main_v94)
      = addf (Host.dotGeneral (F := Ideal) (φ₁ := .f32) (φ₂ := .f32) dot_S4x128_S128x64_S4x64_1_0_0_1_n_n none
            (extractStridedSlice S4x128 ![0, 0] (StableHlo.after hostOps3 (Gen.W8 m ρ c) (Proc.devRef .tc main_v88)) slices_S100000x128_S4x128_0_0)
            (transpose S128x64 [1, 0] (Gen.W8 m ρ c (Proc.devRef .tc main_arg8)) transposes_S64x128_S128x64_1_0))
          (broadcastInDim S4x64 ![0, 1] bcast_S1x64_S4x64_0_1
            (broadcastInDim S1x64 ![1] bcast_S64_S1x64_1 (Gen.W8 m ρ c (Proc.devRef .tc main_arg9))))
  generalize Gen.W8 m ρ c = V8
  after_results_simp
  all_goals rfl

set_option maxHeartbeats 4000000 in
/-- Row 0 of the small projection, cut out and re-laid as a vector. -/
theorem sr_row0_def :
    Gen.W9 m ρ c (Proc.devRef .tc main_v96) = fun i =>
      shapeCast S64 (extractStridedSlice S1x64 ![0, 0] (Gen.W9 m ρ c (Proc.devRef .tc main_v94)) slices_S4x64_S1x64_0_0)
        shapeCasts_S1x64_S64 i := by
  show StableHlo.after hostOps3 (Gen.W8 m ρ c) (Proc.devRef .tc main_v96) = fun i =>
      shapeCast S64 (extractStridedSlice S1x64 ![0, 0] (StableHlo.after hostOps3 (Gen.W8 m ρ c) (Proc.devRef .tc main_v94)) slices_S4x64_S1x64_0_0)
        shapeCasts_S1x64_S64 i
  generalize Gen.W8 m ρ c = V8
  after_results_simp
  all_goals rfl

set_option maxHeartbeats 4000000 in
/-- Row 1 of the small projection, cut out and re-laid as a vector. -/
theorem sr_row1_def :
    Gen.W9 m ρ c (Proc.devRef .tc main_v98) = fun i =>
      shapeCast S64 (extractStridedSlice S1x64 ![1, 0] (Gen.W9 m ρ c (Proc.devRef .tc main_v94)) slices_S4x64_S1x64_1_0)
        shapeCasts_S1x64_S64 i := by
  show StableHlo.after hostOps3 (Gen.W8 m ρ c) (Proc.devRef .tc main_v98) = fun i =>
      shapeCast S64 (extractStridedSlice S1x64 ![1, 0] (StableHlo.after hostOps3 (Gen.W8 m ρ c) (Proc.devRef .tc main_v94)) slices_S4x64_S1x64_1_0)
        shapeCasts_S1x64_S64 i
  generalize Gen.W8 m ρ c = V8
  after_results_simp
  all_goals rfl

set_option maxHeartbeats 4000000 in
/-- Row 2 of the small projection, cut out and re-laid as a vector. -/
theorem sr_row2_def :
    Gen.W9 m ρ c (Proc.devRef .tc main_v100) = fun i =>
      shapeCast S64 (extractStridedSlice S1x64 ![2, 0] (Gen.W9 m ρ c (Proc.devRef .tc main_v94)) slices_S4x64_S1x64_2_0)
        shapeCasts_S1x64_S64 i := by
  show StableHlo.after hostOps3 (Gen.W8 m ρ c) (Proc.devRef .tc main_v100) = fun i =>
      shapeCast S64 (extractStridedSlice S1x64 ![2, 0] (StableHlo.after hostOps3 (Gen.W8 m ρ c) (Proc.devRef .tc main_v94)) slices_S4x64_S1x64_2_0)
        shapeCasts_S1x64_S64 i
  generalize Gen.W8 m ρ c = V8
  after_results_simp
  all_goals rfl

set_option maxHeartbeats 4000000 in
/-- Row 3 of the small projection, cut out and re-laid as a vector. -/
theorem sr_row3_def :
    Gen.W9 m ρ c (Proc.devRef .tc main_v102) = fun i =>
      shapeCast S64 (extractStridedSlice S1x64 ![3, 0] (Gen.W9 m ρ c (Proc.devRef .tc main_v94)) slices_S4x64_S1x64_3_0)
        shapeCasts_S1x64_S64 i := by
  show StableHlo.after hostOps3 (Gen.W8 m ρ c) (Proc.devRef .tc main_v102) = fun i =>
      shapeCast S64 (extractStridedSlice S1x64 ![3, 0] (StableHlo.after hostOps3 (Gen.W8 m ρ c) (Proc.devRef .tc main_v94)) slices_S4x64_S1x64_3_0)
        shapeCasts_S1x64_S64 i
  generalize Gen.W8 m ρ c = V8
  after_results_simp
  all_goals rfl

/-! ## The four rows -/

/-- Row 0 of the small projection is row 0 of the reference's full projection, as vectors of 64 entries. -/
theorem row0_W9 (hout : Gen.W9 m ρ c (Proc.devRef .tc main_v88) = refOut m c) :
    Gen.W9 m ρ c (Proc.devRef .tc main_v96) = Cert.ReferenceIdeal.ReadP.val_main_v160 (F := Ideal) (a0 m c) (a1 m c) (a2 m c) (a3 m c) (a4 m c) (a5 m c) (a6 m c) (a7 m c) (a8 m c) (a9 m c) := by
  funext i
  obtain ⟨o, rfl⟩ : ∃ o : Fin 64, i = ix1 o := ⟨i 0, eq_ix1 i⟩
  refine (congrFun (sr_row0_def m ρ c) (ix1 o)).trans ?_
  refine (row0_apply _ o).trans ?_
  rw [sr_small m ρ c, hout, W8_main_arg8 m ρ c, W8_main_arg9 m ρ c]
  refine (outSmall_apply _ _ _ (0 : Fin 4) o).trans ?_
  rw [sr_ref_row0, sr_ref_proj_apply]
  rfl

/-- Row 1 of the small projection is row 1 of the reference's full projection, as vectors of 64 entries. -/
theorem row1_W9 (hout : Gen.W9 m ρ c (Proc.devRef .tc main_v88) = refOut m c) :
    Gen.W9 m ρ c (Proc.devRef .tc main_v98) = Cert.ReferenceIdeal.ReadP.val_main_v162 (F := Ideal) (a0 m c) (a1 m c) (a2 m c) (a3 m c) (a4 m c) (a5 m c) (a6 m c) (a7 m c) (a8 m c) (a9 m c) := by
  funext i
  obtain ⟨o, rfl⟩ : ∃ o : Fin 64, i = ix1 o := ⟨i 0, eq_ix1 i⟩
  refine (congrFun (sr_row1_def m ρ c) (ix1 o)).trans ?_
  refine (row1_apply _ o).trans ?_
  rw [sr_small m ρ c, hout, W8_main_arg8 m ρ c, W8_main_arg9 m ρ c]
  refine (outSmall_apply _ _ _ (1 : Fin 4) o).trans ?_
  rw [sr_ref_row1, sr_ref_proj_apply]
  rfl

/-- Row 2 of the small projection is row 2 of the reference's full projection, as vectors of 64 entries. -/
theorem row2_W9 (hout : Gen.W9 m ρ c (Proc.devRef .tc main_v88) = refOut m c) :
    Gen.W9 m ρ c (Proc.devRef .tc main_v100) = Cert.ReferenceIdeal.ReadP.val_main_v164 (F := Ideal) (a0 m c) (a1 m c) (a2 m c) (a3 m c) (a4 m c) (a5 m c) (a6 m c) (a7 m c) (a8 m c) (a9 m c) := by
  funext i
  obtain ⟨o, rfl⟩ : ∃ o : Fin 64, i = ix1 o := ⟨i 0, eq_ix1 i⟩
  refine (congrFun (sr_row2_def m ρ c) (ix1 o)).trans ?_
  refine (row2_apply _ o).trans ?_
  rw [sr_small m ρ c, hout, W8_main_arg8 m ρ c, W8_main_arg9 m ρ c]
  refine (outSmall_apply _ _ _ (2 : Fin 4) o).trans ?_
  rw [sr_ref_row2, sr_ref_proj_apply]
  rfl

/-- Row 3 of the small projection is row 3 of the reference's full projection, as vectors of 64 entries. -/
theorem row3_W9 (hout : Gen.W9 m ρ c (Proc.devRef .tc main_v88) = refOut m c) :
    Gen.W9 m ρ c (Proc.devRef .tc main_v102) = Cert.ReferenceIdeal.ReadP.val_main_v166 (F := Ideal) (a0 m c) (a1 m c) (a2 m c) (a3 m c) (a4 m c) (a5 m c) (a6 m c) (a7 m c) (a8 m c) (a9 m c) := by
  funext i
  obtain ⟨o, rfl⟩ : ∃ o : Fin 64, i = ix1 o := ⟨i 0, eq_ix1 i⟩
  refine (congrFun (sr_row3_def m ρ c) (ix1 o)).trans ?_
  refine (row3_apply _ o).trans ?_
  rw [sr_small m ρ c, hout, W8_main_arg8 m ρ c, W8_main_arg9 m ρ c]
  refine (outSmall_apply _ _ _ (3 : Fin 4) o).trans ?_
  rw [sr_ref_row3, sr_ref_proj_apply]
  rfl

end Cert.KernelIdeal.Bridge

end
-- ==== Proof.ScaleC.lean ====
/-
  The cross ratio of the projected output's first four rows, in the kernel program and in the reference.

  Both programs form, from four vectors p1..p4 of 64 entries, the hyperbolic inner products
  ⟨a, b⟩ = Σ_{d<63} a(d)·b(d) − a(63)·b(63), the numerator ⟨p1,p3⟩·⟨p2,p4⟩, the denominator ⟨p1,p4⟩·⟨p2,p3⟩ and
  the test |denominator| < ε. The four vectors are the same in both programs, and from there on the two
  programs apply the same operations.
-/
import proofs.«137203_j65584150610621_2_alg».proof.Proof.Base
import proofs.«137203_j65584150610621_2_alg».proof.Proof.ScaleR
import Idealize.ShloMosaic.Lib.StableHlo.Run

noncomputable section

namespace Cert.KernelIdeal.Bridge

open Cert.KernelIdeal Cert.KernelIdeal.Gen Idealize.ShloMosaic Idealize.ShloMosaic.TcCoe Idealize.SL.Sem
open Idealize.ShloMosaic.StableHlo Idealize.ShloMosaic.ValueIdx

variable (m : (ℓ : Loc nD τ sig) → Buf (Elt Ideal) ℓ) (ρ : Dev nD → PrngReg) (c : Dev nD)

/-- The hyperbolic inner product of two vectors of 64 entries, as both programs spell it. -/
def inner63 (a b : FVec Ideal S64 .f32) : FVec Ideal S_ .f32 :=
  subf
    (Host.reduceAdd (F := Ideal) (mulf (extractStridedSlice S63 ![0] a slices_S64_S63_0) (extractStridedSlice S63 ![0] b slices_S64_S63_0))
      (constant (F := Ideal) S_ .f32 0x00000000#32) reducesTo_S63_S_d0 h_S_)
    (mulf (shapeCast S_ (extractStridedSlice S1 ![63] a slices_S64_S1_63) shapeCasts_S1_S_)
      (shapeCast S_ (extractStridedSlice S1 ![63] b slices_S64_S1_63) shapeCasts_S1_S_))

set_option maxHeartbeats 8000000 in
/-- The numerator ⟨p1,p3⟩·⟨p2,p4⟩ of the output's cross ratio. -/
theorem num_W9 (hout : W9 m ρ c (Proc.devRef .tc main_v88) = refOut m c) :
    W9 m ρ c (Proc.devRef .tc main_v123) = Cert.ReferenceIdeal.ReadP.val_main_v187 (F := Ideal) (a0 m c) (a1 m c) (a2 m c) (a3 m c) (a4 m c) (a5 m c) (a6 m c) (a7 m c) (a8 m c) (a9 m c) := by
  have e : W9 m ρ c (Proc.devRef .tc main_v123) =
      mulf (inner63 (W9 m ρ c (Proc.devRef .tc main_v96)) (W9 m ρ c (Proc.devRef .tc main_v100)))
        (inner63 (W9 m ρ c (Proc.devRef .tc main_v98)) (W9 m ρ c (Proc.devRef .tc main_v102))) := by
    show StableHlo.after hostOps3 (W8 m ρ c) (Proc.devRef .tc main_v123) =
      mulf (inner63 (StableHlo.after hostOps3 (W8 m ρ c) (Proc.devRef .tc main_v96)) (StableHlo.after hostOps3 (W8 m ρ c) (Proc.devRef .tc main_v100)))
        (inner63 (StableHlo.after hostOps3 (W8 m ρ c) (Proc.devRef .tc main_v98)) (StableHlo.after hostOps3 (W8 m ρ c) (Proc.devRef .tc main_v102)))
    generalize W8 m ρ c = V8
    unfold inner63
    after_results_simp
    rfl
  rw [e, row0_W9 m ρ c hout, row1_W9 m ρ c hout, row2_W9 m ρ c hout, row3_W9 m ρ c hout]
  rfl

set_option maxHeartbeats 8000000 in
/-- The denominator ⟨p1,p4⟩·⟨p2,p3⟩ of the output's cross ratio. -/
theorem den_W9 (hout : W9 m ρ c (Proc.devRef .tc main_v88) = refOut m c) :
    W9 m ρ c (Proc.devRef .tc main_v144) = Cert.ReferenceIdeal.ReadP.val_main_v208 (F := Ideal) (a0 m c) (a1 m c) (a2 m c) (a3 m c) (a4 m c) (a5 m c) (a6 m c) (a7 m c) (a8 m c) (a9 m c) := by
  have e : W9 m ρ c (Proc.devRef .tc main_v144) =
      mulf (inner63 (W9 m ρ c (Proc.devRef .tc main_v96)) (W9 m ρ c (Proc.devRef .tc main_v102)))
        (inner63 (W9 m ρ c (Proc.devRef .tc main_v98)) (W9 m ρ c (Proc.devRef .tc main_v100))) := by
    show StableHlo.after hostOps3 (W8 m ρ c) (Proc.devRef .tc main_v144) =
      mulf (inner63 (StableHlo.after hostOps3 (W8 m ρ c) (Proc.devRef .tc main_v96)) (StableHlo.after hostOps3 (W8 m ρ c) (Proc.devRef .tc main_v102)))
        (inner63 (StableHlo.after hostOps3 (W8 m ρ c) (Proc.devRef .tc main_v98)) (StableHlo.after hostOps3 (W8 m ρ c) (Proc.devRef .tc main_v100)))
    generalize W8 m ρ c = V8
    unfold inner63
    after_results_simp
    rfl
  rw [e, row0_W9 m ρ c hout, row1_W9 m ρ c hout, row2_W9 m ρ c hout, row3_W9 m ρ c hout]
  rfl

set_option maxHeartbeats 8000000 in
/-- The guard's test |den| < ε. -/
theorem cmp_W9 (hout : W9 m ρ c (Proc.devRef .tc main_v88) = refOut m c) :
    W9 m ρ c (Proc.devRef .tc main_v146) = Cert.ReferenceIdeal.ReadP.val_main_v210 (F := Ideal) (a0 m c) (a1 m c) (a2 m c) (a3 m c) (a4 m c) (a5 m c) (a6 m c) (a7 m c) (a8 m c) (a9 m c) := by
  have e : W9 m ρ c (Proc.devRef .tc main_v146) =
      cmpf .olt (Host.absf (F := Ideal) (W9 m ρ c (Proc.devRef .tc main_v144))) (constant (F := Ideal) S_ .f32 0x3089705F#32) := by
    show StableHlo.after hostOps3 (W8 m ρ c) (Proc.devRef .tc main_v146) =
      cmpf .olt (Host.absf (F := Ideal) (StableHlo.after hostOps3 (W8 m ρ c) (Proc.devRef .tc main_v144))) (constant (F := Ideal) S_ .f32 0x3089705F#32)
    generalize W8 m ρ c = V8
    after_results_simp
  rw [e, den_W9 m ρ c hout]
  rfl

set_option maxHeartbeats 8000000 in
/-- The guard's ε as the last stretches find it. -/
theorem eps_W9 : W9 m ρ c (Proc.devRef .tc main_cst_16) = constant (F := Ideal) S_ .f32 0x3089705F#32 := by
  show StableHlo.after hostOps3 (W8 m ρ c) (Proc.devRef .tc main_cst_16) = _
  generalize W8 m ρ c = V8
  after_results_simp

end Cert.KernelIdeal.Bridge

end
-- ==== Proof.Scale.lean ====
/-
  The cross-ratio scale of the kernel program is the reference's.

  Both programs form the cross ratio (⟨p1,p3⟩·⟨p2,p4⟩) / guard(⟨p1,p4⟩·⟨p2,p3⟩), with guard(x) = ε where |x| < ε
  and x otherwise, once for the first four rows of the input and once for the first four rows of the projected
  output, and the scale |cr_in / guard(cr_out)|^(1/4). The input's cross ratio, the output's numerator,
  denominator and test are the reference's; the last host stretches then apply the reference's remaining
  operations — a guarded division, a second guard, a division, an absolute value and a power — one by one.
-/
import proofs.«137203_j65584150610621_2_alg».proof.Proof.Base
import proofs.«137203_j65584150610621_2_alg».proof.Proof.ScaleK
import proofs.«137203_j65584150610621_2_alg».proof.Proof.ScaleC
import Idealize.ShloMosaic.Lib.StableHlo.Run

noncomputable section

namespace Cert.KernelIdeal.Bridge

open Cert.KernelIdeal Cert.KernelIdeal.Gen Idealize.ShloMosaic Idealize.ShloMosaic.TcCoe Idealize.SL.Sem
open Idealize.ShloMosaic.StableHlo Idealize.ShloMosaic.ValueIdx

/-! ## The last four host stretches, one at a time, over any contents `X` before the stretch -/

section Stretches

variable (X : Valuation τ sig (Elt Ideal))

/-- The first guard: ε where the test holds, the denominator otherwise. -/
theorem sc_guard1 : StableHlo.after hostOps3_1 X (Proc.devRef .tc main_v147)
    = select (X (Proc.devRef .tc main_v146)) (X (Proc.devRef .tc main_cst_16)) (X (Proc.devRef .tc main_v144)) := by
  after_results <;> rfl
theorem sc_keep1_num : StableHlo.after hostOps3_1 X (Proc.devRef .tc main_v123) = X (Proc.devRef .tc main_v123) := by
  after_results <;> rfl
theorem sc_keep1_cr0 : StableHlo.after hostOps3_1 X (Proc.devRef .tc main_v53) = X (Proc.devRef .tc main_v53) := by
  after_results <;> rfl

/-- The output's cross ratio, its test against ε, and ε again. -/
theorem sc_cr : StableHlo.after hostOps3_2 X (Proc.devRef .tc main_v148)
    = Host.divf (F := Ideal) (s := S_) (φ := .f32) (X (Proc.devRef .tc main_v123)) (X (Proc.devRef .tc main_v147)) := by
  after_results <;> rfl
theorem sc_cr_test : StableHlo.after hostOps3_2 X (Proc.devRef .tc main_v150)
    = cmpf .olt (Host.absf (F := Ideal) (Host.divf (F := Ideal) (s := S_) (φ := .f32) (X (Proc.devRef .tc main_v123)) (X (Proc.devRef .tc main_v147))))
        (constant (F := Ideal) S_ .f32 0x3089705F#32) := by
  after_results <;> rfl
theorem sc_eps2 : StableHlo.after hostOps3_2 X (Proc.devRef .tc main_cst_18) = constant (F := Ideal) S_ .f32 0x3089705F#32 := by
  after_results <;> rfl
theorem sc_keep2_cr0 : StableHlo.after hostOps3_2 X (Proc.devRef .tc main_v53) = X (Proc.devRef .tc main_v53) := by
  after_results <;> rfl

/-- The second guard. -/
theorem sc_guard2 : StableHlo.after hostOps3_3 X (Proc.devRef .tc main_v151)
    = select (X (Proc.devRef .tc main_v150)) (X (Proc.devRef .tc main_cst_18)) (X (Proc.devRef .tc main_v148)) := by
  after_results <;> rfl
theorem sc_keep3_cr0 : StableHlo.after hostOps3_3 X (Proc.devRef .tc main_v53) = X (Proc.devRef .tc main_v53) := by
  after_results <;> rfl

/-- The scale as a [1,1] array. -/
theorem sc_scale : StableHlo.after hostOps3_4 X (Proc.devRef .tc main_v156)
    = shapeCast S1x1 (Host.powf (F := Ideal) (Host.absf (F := Ideal)
          (Host.divf (F := Ideal) (X (Proc.devRef .tc main_v53)) (X (Proc.devRef .tc main_v151))))
        (constant (F := Ideal) S_ .f32 0x3E800000#32)) shapeCasts_S_S1x1 := by
  after_results <;> rfl

end Stretches

variable (m : (ℓ : Loc nD τ sig) → Buf (Elt Ideal) ℓ) (ρ : Dev nD → PrngReg) (c : Dev nD)

/-- The scale the kernel program computes, as a scalar, is the reference's. -/
theorem sc_scalar (R N D : FVec Ideal S_ .f32) (C : IVec S_ 1)
    (hR : R = Cert.ReferenceIdeal.ReadP.val_main_v53 (F := Ideal) (a0 m c))
    (hN : N = Cert.ReferenceIdeal.ReadP.val_main_v187 (F := Ideal) (a0 m c) (a1 m c) (a2 m c) (a3 m c) (a4 m c) (a5 m c) (a6 m c) (a7 m c) (a8 m c) (a9 m c))
    (hD : D = Cert.ReferenceIdeal.ReadP.val_main_v208 (F := Ideal) (a0 m c) (a1 m c) (a2 m c) (a3 m c) (a4 m c) (a5 m c) (a6 m c) (a7 m c) (a8 m c) (a9 m c))
    (hC : C = Cert.ReferenceIdeal.ReadP.val_main_v210 (F := Ideal) (a0 m c) (a1 m c) (a2 m c) (a3 m c) (a4 m c) (a5 m c) (a6 m c) (a7 m c) (a8 m c) (a9 m c)) :
    Host.powf (F := Ideal) (Host.absf (F := Ideal) (Host.divf (F := Ideal) R
        (select (cmpf .olt (Host.absf (F := Ideal) (Host.divf (F := Ideal) N (select C (constant (F := Ideal) S_ .f32 0x3089705F#32) D)))
            (constant (F := Ideal) S_ .f32 0x3089705F#32))
          (constant (F := Ideal) S_ .f32 0x3089705F#32)
          (Host.divf (F := Ideal) N (select C (constant (F := Ideal) S_ .f32 0x3089705F#32) D)))))
      (constant (F := Ideal) S_ .f32 0x3E800000#32)
    = refScale m c := by
  show _ = Cert.ReferenceIdeal.ReadP.val_main_v218 (F := Ideal) (a0 m c) (a1 m c) (a2 m c) (a3 m c) (a4 m c) (a5 m c) (a6 m c) (a7 m c) (a8 m c) (a9 m c)
  unfold Cert.ReferenceIdeal.ReadP.val_main_v218 Cert.ReferenceIdeal.ReadP.val_main_v217 Cert.ReferenceIdeal.ReadP.val_main_v216 Cert.ReferenceIdeal.ReadP.val_main_v215 Cert.ReferenceIdeal.ReadP.val_main_v214
    Cert.ReferenceIdeal.ReadP.val_main_v213 Cert.ReferenceIdeal.ReadP.val_main_v212 Cert.ReferenceIdeal.ReadP.val_main_v211 Cert.ReferenceIdeal.ReadP.val_main_call5_v0 Cert.ReferenceIdeal.ReadP.val_main_call4_v0
    Cert.ReferenceIdeal.ReadP.val_main_cst_27 Cert.ReferenceIdeal.ReadP.val_main_cst_26 Cert.ReferenceIdeal.ReadP.val_main_cst_25 Cert.ReferenceIdeal.ReadP.val_main_cst_24
  rw [← hR, ← hN, ← hD, ← hC]
  rfl

/-- THE SCALE: the [1,1] array the last region reads holds the reference's scale. -/
theorem host3_scale (hout : W9 m ρ c (Proc.devRef .tc main_v88) = refOut m c) :
    W13 m ρ c (Proc.devRef .tc main_v156) = fun _ => refScale m c ix0 := by
  show StableHlo.after hostOps3_4 (StableHlo.after hostOps3_3 (StableHlo.after hostOps3_2 (StableHlo.after hostOps3_1 (W9 m ρ c)))) (Proc.devRef .tc main_v156) = _
  rw [sc_scale, sc_guard2, sc_keep3_cr0, sc_cr_test, sc_eps2, sc_cr, sc_keep2_cr0, sc_guard1, sc_keep1_num, sc_keep1_cr0, eps_W9,
    sc_scalar m c _ _ _ _ (cr0_W9 m ρ c) (num_W9 m ρ c hout) (den_W9 m ρ c hout) ((cmp_W9 m ρ c hout).trans rfl)]
  funext i
  refine shapeCast_apply _ shapeCasts_S_S1x1 i ix0 ?_
  rewrite [Shape.rowMajor_val_two]
  have h0 : (i 0).val < 1 := (i 0).isLt
  have h1 : (i 1).val < 1 := (i 1).isLt
  show (S_.rowMajor ix0).val = (i 0).val * 1 + (i 1).val
  have hn : S_.numel = 1 := by decide
  have hlt := (S_.rowMajor ix0).isLt
  omega

end Cert.KernelIdeal.Bridge

end
-- ==== Proof.lean ====
/-
  The certificate's proof: a graph-attention layer computed by four pipelined kernels among host
  operations, against its plain array reference, on the extended reals.

  Both programs compute, from node features x, an edge list (row, col) and four dense layers:
  q, k, v = normalize(x)·Wᵀ + b; per edge and head the score ⟨normalize q[row], normalize k[col]⟩
  (a spatial dot product minus the product of the last coordinates) scaled by 1/√128; a softmax of the
  scores over ALL edges, per head; messages v[col]·α summed per destination node; an output projection;
  and a final rescaling by a cross-ratio of the first four rows of the input and of the output.
  The kernel multiplies the score by a constant that the certificate's table names 1/D, D the
  reference's divisor (the literal it prints for √128); the reference divides by D: on every extended
  real x, x/D = x·(1/D).
  Every array the kernel program produces is shown equal to the reference's corresponding stage as a
  function of the ten argument arrays (the layouts [E,128] and [E,2,64] matched column 64·h + d against
  (h, d)); the chain ends at the result.
-/
import proofs.«137203_j65584150610621_2_alg».proof.Defs
import proofs.«137203_j65584150610621_2_alg».proof.Proof.Gen.Kernel
import proofs.«137203_j65584150610621_2_alg».proof.Proof.Gen.Kernel.Skeleton
import proofs.«137203_j65584150610621_2_alg».proof.Proof.Gen.Kernel.Launch
import proofs.«137203_j65584150610621_2_alg».proof.Proof.Gen.Kernel.Points
import proofs.«137203_j65584150610621_2_alg».proof.Proof.Gen.Kernel.Frame
import proofs.«137203_j65584150610621_2_alg».proof.Proof.Gen.KernelIdeal
import proofs.«137203_j65584150610621_2_alg».proof.Proof.Gen.KernelIdeal.Skeleton
import proofs.«137203_j65584150610621_2_alg».proof.Proof.Gen.KernelIdeal.Launch
import proofs.«137203_j65584150610621_2_alg».proof.Proof.Gen.KernelIdeal.Points
import proofs.«137203_j65584150610621_2_alg».proof.Proof.Gen.KernelIdeal.Frame
import proofs.«137203_j65584150610621_2_alg».proof.Proof.Gen.ReferenceIdeal
import proofs.«137203_j65584150610621_2_alg».proof.Proof.Gen.Pre_finite_inputs
import proofs.«137203_j65584150610621_2_alg».proof.Proof.RefRun
import proofs.«137203_j65584150610621_2_alg».proof.Proof.Base
import proofs.«137203_j65584150610621_2_alg».proof.Proof.KRun
import proofs.«137203_j65584150610621_2_alg».proof.Proof.Region0
import proofs.«137203_j65584150610621_2_alg».proof.Proof.Region1g
import proofs.«137203_j65584150610621_2_alg».proof.Proof.Region2c
import proofs.«137203_j65584150610621_2_alg».proof.Proof.Region3d
import proofs.«137203_j65584150610621_2_alg».proof.Proof.Region3h
import proofs.«137203_j65584150610621_2_alg».proof.Proof.Scale
import Idealize.ShloMosaic.Adequacy
import Idealize.ShloMosaic.Init

noncomputable section

namespace Cert.KernelIdeal.Bridge

open Cert.KernelIdeal Cert.KernelIdeal.Gen Idealize.ShloMosaic Idealize.ShloMosaic.TcCoe Idealize.SL.Sem

/-- The kernel program's result buffer at the last segment boundary is the reference's result stage of the
    argument arrays: the chain of the stages, region by region and stretch by stretch. -/
theorem kernel_result (m : (ℓ : Loc nD τ sig) → Buf (Elt Ideal) ℓ) (ρ : Dev nD → PrngReg) (c : Dev nD) :
    W14 m ρ c (Proc.devRef .tc main_v157) = refFinal m c := by
  have hq := region0_q m ρ c
  have hk := region0_k m ρ c
  have hv := region0_v m ρ c
  have hs := region1_scores m ρ c hq hk hv
  have hve := fun e h d => host1_ve m ρ c hk hv e h d
  have hmsgs := fun e h d => region2_msgs m ρ c hs hve e h d
  have hout := host3_out m ρ c hmsgs
  have hscale := host3_scale m ρ c hout
  exact region3_final m ρ c hout hscale

end Cert.KernelIdeal.Bridge

namespace Cert.Proof

open Idealize.ShloMosaic Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.RefRun.run m ρ)

/-- The two sites of the named constant: the table gives the name the value 1/D, and the printed constant is that
    value at the ideal instance. -/
theorem preserves : Cert.preserves_Kernel_KernelIdeal :=
  ⟨IdealRules.named_const.statement Cert.KernelIdeal.κ "inv_sqrt_in_f" .f32 0x3DB504F3#32 ((1048576 / 11863283 : ℝ) : EReal) rfl,
   IdealRules.named_const.statement Cert.KernelIdeal.κ "inv_sqrt_in_f" .f32 0x3DB504F3#32 ((1048576 / 11863283 : ℝ) : EReal) rfl⟩

/-- Both programs end with the reference's result stage of the (agreeing) argument arrays. -/
theorem algebraic : Cert.algebraic_KernelIdeal_ReferenceIdeal := by
  intro m ρ m' ρ' _ hagree
  refine ⟨fun c => Cert.KernelIdeal.Bridge.refFinal m c, ?_, ?_⟩
  · exact (θ_run Cert.KernelIdeal.defs _ _).mono
      (fun r h c => ⟨(h c).1.trans (Cert.KernelIdeal.Bridge.kernel_result m ρ c), (h c).2⟩)
      (Cert.KernelIdeal.Bridge.run_main (F := Ideal) m ρ)
  · refine (θ_run Cert.ReferenceIdeal.defs _ _).mono (fun _ h c => ⟨(h c).1.trans ?_, (h c).2⟩)
      (Cert.ReferenceIdeal.RefRun.run m' ρ')
    rw [(hagree c).1, (hagree c).2.1, (hagree c).2.2.1, (hagree c).2.2.2.1,
      (hagree c).2.2.2.2.1, (hagree c).2.2.2.2.2.1, (hagree c).2.2.2.2.2.2.1, (hagree c).2.2.2.2.2.2.2.1,
      (hagree c).2.2.2.2.2.2.2.2.1, (hagree c).2.2.2.2.2.2.2.2.2]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
